-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x64 : Shape := ⟨2, ![4096, 64]⟩
abbrev S4096x200x64 : Shape := ⟨3, ![4096, 200, 64]⟩
abbrev S4096x1 : Shape := ⟨2, ![4096, 1]⟩
abbrev S1x1 : Shape := ⟨2, ![1, 1]⟩
abbrev S1 : Shape := ⟨1, ![1]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x200x64 : S_.BroadcastsInDim S4096x200x64 (![] : Fin 0 → Fin S4096x200x64.rank)
  reducesTo_S4096x200x64_S_d0_1_2 : S4096x200x64.ReducesTo [0, 1, 2] S_
  bcast_S_S4096x1 : S_.BroadcastsInDim S4096x1 (![] : Fin 0 → Fin S4096x1.rank)
  reducesTo_S4096x1_S_d0_1 : S4096x1.ReducesTo [0, 1] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg5 : IVec S4096x1 32) (main_v33 : IVec S_ 1) : IVec S_ 1 :=
  let main_c_12 : IVec S_ 32 := constantI S_ 32 0#32
  let main_v34 : IVec S4096x1 32 := broadcastInDim S4096x1 ![] bcast_S_S4096x1 main_c_12
  let main_v35 : IVec S4096x1 1 := cmpi .sge main_arg5 main_v34
  let main_c_13 : IVec S_ 32 := constantI S_ 32 199#32
  let main_v36 : IVec S4096x1 32 := broadcastInDim S4096x1 ![] bcast_S_S4096x1 main_c_13
  let main_v37 : IVec S4096x1 1 := cmpi .sle main_arg5 main_v36
  let main_v38 : IVec S4096x1 1 := andi main_v35 main_v37
  let main_c_14 : IVec S_ 1 := constantI S_ 1 1#1
  let main_v39 : IVec S_ 1 := (fun x v => Host.reduce IntOp.andi x v reducesTo_S4096x1_S_d0_1 h_S_) main_v38 main_c_14
  let main_v40 : IVec S_ 1 := andi main_v33 main_v39
  main_v40

def fn_part1 {F : FTy → Type} [FloatOps F] (main_arg4 : FVec F S4096x1 .f32) (main_arg5 : IVec S4096x1 32) (main_arg6 : FVec F S1x1 .f32) (main_arg7 : FVec F S1 .f32) (main_v13 : IVec S_ 1) (main_v16 : IVec S4096x200x64 1) : IVec S_ 1 :=
  let main_c_5 : IVec S_ 1 := constantI S_ 1 1#1
  let main_v17 : IVec S_ 1 := (fun x v => Host.reduce IntOp.andi x v reducesTo_S4096x200x64_S_d0_1_2 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S1x1 .f32 := Host.absf main_arg6
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg5 main_v33

def fn {F : FTy → Type} [FloatOps F] (main_arg0 : FVec F S4096x64 .f32) (main_arg1 : FVec F S4096x64 .f32) (main_arg2 : FVec F S4096x200x64 .f32) (main_arg3 : FVec F S4096x200x64 .f32) (main_arg4 : FVec F S4096x1 .f32) (main_arg5 : IVec S4096x1 32) (main_arg6 : FVec F S1x1 .f32) (main_arg7 : FVec F S1 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x200x64 .f32 := Host.absf main_arg2
  let main_cst_2 : FVec F S_ .f32 := constant S_ .f32 0x7F800000#32
  let main_v10 : FVec F S4096x200x64 .f32 := broadcastInDim S4096x200x64 ![] bcast_S_S4096x200x64 main_cst_2
  let main_v11 : IVec S4096x200x64 1 := cmpf .olt main_v9 main_v10
  let main_c_3 : IVec S_ 1 := constantI S_ 1 1#1
  let main_v12 : IVec S_ 1 := (fun x v => Host.reduce IntOp.andi x v reducesTo_S4096x200x64_S_d0_1_2 h_S_) main_v11 main_c_3
  let main_v13 : IVec S_ 1 := andi main_v8 main_v12
  let main_v14 : FVec F S4096x200x64 .f32 := Host.absf main_arg3
  let main_cst_4 : FVec F S_ .f32 := constant S_ .f32 0x7F800000#32
  let main_v15 : FVec F S4096x200x64 .f32 := broadcastInDim S4096x200x64 ![] bcast_S_S4096x200x64 main_cst_4
  let main_v16 : IVec S4096x200x64 1 := cmpf .olt main_v14 main_v15
  fn_part1 (F := F) main_arg4 main_arg5 main_arg6 main_arg7 main_v13 main_v16
-- ==== Kernel.lean ====
abbrev S4096x64 : Shape := ⟨2, ![4096, 64]⟩
abbrev S4096x200x64 : Shape := ⟨3, ![4096, 200, 64]⟩
abbrev S4096x1 : Shape := ⟨2, ![4096, 1]⟩
abbrev S1x1 : Shape := ⟨2, ![1, 1]⟩
abbrev S1 : Shape := ⟨1, ![1]⟩
abbrev S2 : Shape := ⟨1, ![2]⟩
abbrev S1x2 : Shape := ⟨2, ![1, 2]⟩
abbrev S64x4096 : Shape := ⟨2, ![64, 4096]⟩
abbrev S200x64x4096 : Shape := ⟨3, ![200, 64, 4096]⟩
abbrev S1x4096 : Shape := ⟨2, ![1, 4096]⟩
abbrev S201x64x4096 : Shape := ⟨3, ![201, 64, 4096]⟩
abbrev S8x4096 : Shape := ⟨2, ![8, 4096]⟩
abbrev S_ : Shape := ⟨0, ![]⟩
abbrev S1x64x4096 : Shape := ⟨3, ![1, 64, 4096]⟩
abbrev S65x4096 : Shape := ⟨2, ![65, 4096]⟩
abbrev S64x128 : Shape := ⟨2, ![64, 128]⟩
abbrev S200x64x128 : Shape := ⟨3, ![200, 64, 128]⟩
abbrev S1x128 : Shape := ⟨2, ![1, 128]⟩
abbrev S201x64x128 : Shape := ⟨3, ![201, 64, 128]⟩
abbrev S65x128 : Shape := ⟨2, ![65, 128]⟩
abbrev S200x128 : Shape := ⟨2, ![200, 128]⟩
abbrev S1x64x128 : Shape := ⟨3, ![1, 64, 128]⟩
abbrev S128 : Shape := ⟨1, ![128]⟩
abbrev S200x1x128 : Shape := ⟨3, ![200, 1, 128]⟩
abbrev S4096x201x64 : Shape := ⟨3, ![4096, 201, 64]⟩
abbrev S4096x65 : Shape := ⟨2, ![4096, 65]⟩

abbrev nBuf : Table → Nat
  | .hbm => 23
  | .local .tc .vmem => 17
  | .local .scVector .vmem => 2
  | _ => 0

abbrev bufTy : (tb : Table) → Fin (nBuf tb) → BufTy
  | .hbm, ⟨0, _⟩ => ⟨S4096x64, .f32⟩
  | .hbm, ⟨1, _⟩ => ⟨S4096x64, .f32⟩
  | .hbm, ⟨2, _⟩ => ⟨S4096x200x64, .f32⟩
  | .hbm, ⟨3, _⟩ => ⟨S4096x200x64, .f32⟩
  | .hbm, ⟨4, _⟩ => ⟨S4096x1, .f32⟩
  | .hbm, ⟨5, _⟩ => ⟨S4096x1, .i32⟩
  | .hbm, ⟨6, _⟩ => ⟨S1x1, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S1x2, .f32⟩
  | .hbm, ⟨11, _⟩ => ⟨S64x4096, .f32⟩
  | .hbm, ⟨12, _⟩ => ⟨S64x4096, .f32⟩
  | .hbm, ⟨13, _⟩ => ⟨S200x64x4096, .f32⟩
  | .hbm, ⟨14, _⟩ => ⟨S200x64x4096, .f32⟩
  | .hbm, ⟨15, _⟩ => ⟨S1x4096, .f32⟩
  | .hbm, ⟨16, _⟩ => ⟨S1x4096, .i32⟩
  | .hbm, ⟨17, _⟩ => ⟨S201x64x4096, .f32⟩
  | .hbm, ⟨18, _⟩ => ⟨S201x64x4096, .f32⟩
  | .hbm, ⟨19, _⟩ => ⟨S65x4096, .f32⟩
  | .hbm, ⟨20, _⟩ => ⟨S4096x201x64, .f32⟩
  | .hbm, ⟨21, _⟩ => ⟨S4096x201x64, .f32⟩
  | .hbm, ⟨22, _⟩ => ⟨S4096x65, .f32⟩
  | .local .tc .vmem, ⟨0, _⟩ => ⟨S64x128, .f32⟩
  | .local .tc .vmem, ⟨1, _⟩ => ⟨S64x128, .f32⟩
  | .local .tc .vmem, ⟨2, _⟩ => ⟨S64x128, .f32⟩
  | .local .tc .vmem, ⟨3, _⟩ => ⟨S64x128, .f32⟩
  | .local .tc .vmem, ⟨4, _⟩ => ⟨S200x64x128, .f32⟩
  | .local .tc .vmem, ⟨5, _⟩ => ⟨S200x64x128, .f32⟩
  | .local .tc .vmem, ⟨6, _⟩ => ⟨S200x64x128, .f32⟩
  | .local .tc .vmem, ⟨7, _⟩ => ⟨S200x64x128, .f32⟩
  | .local .tc .vmem, ⟨8, _⟩ => ⟨S1x128, .f32⟩
  | .local .tc .vmem, ⟨9, _⟩ => ⟨S1x128, .f32⟩
  | .local .tc .vmem, ⟨10, _⟩ => ⟨S1x128, .i32⟩
  | .local .tc .vmem, ⟨11, _⟩ => ⟨S1x128, .i32⟩
  | .local .tc .vmem, ⟨12, _⟩ => ⟨S1x2, .f32⟩
  | .local .tc .vmem, ⟨13, _⟩ => ⟨S201x64x128, .f32⟩
  | .local .tc .vmem, ⟨14, _⟩ => ⟨S201x64x128, .f32⟩
  | .local .tc .vmem, ⟨15, _⟩ => ⟨S65x128, .f32⟩
  | .local .tc .vmem, ⟨16, _⟩ => ⟨S65x128, .f32⟩
  | .local .scVector .vmem, ⟨0, _⟩ => ⟨S8x4096, .f32⟩
  | .local .scVector .vmem, ⟨1, _⟩ => ⟨S8x4096, .f32⟩
  | _, _ => ⟨S4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v5_scv : Ref sig .scVector := ⟨.hbm, 13, rfl⟩
abbrev main_v3_scv : Ref sig .scVector := ⟨.hbm, 11, rfl⟩
abbrev main_v9_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c200_i32 : BitVec 32 := 200#32
  let v3 : BitVec 1 := Scalar.cmpi .slt v2 c200_i32
  let v4 : BitVec 32 := Scalar.extui v3
  let c0_i32_0 : BitVec 32 := 0#32
  let v5 : BitVec 1 := Scalar.cmpi .ne v4 c0_i32_0
  v5

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c0_i32_14 : BitVec 32 := 0#32
  let c0_i32_15 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c0_i32_37 : BitVec 32 := 0#32
  let c0_i32_38 : BitVec 32 := 0#32
  ![v2.toNat, 0, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c200_i32_1 : BitVec 32 := 200#32
  let v7 : BitVec 1 := Scalar.cmpi .slt v6 c200_i32_1
  let v8 : BitVec 32 := Scalar.extui v7
  let c0_i32_2 : BitVec 32 := 0#32
  let v9 : BitVec 1 := Scalar.cmpi .ne v8 c0_i32_2
  v9

def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c0_i32_14 : BitVec 32 := 0#32
  let c0_i32_15 : BitVec 32 := 0#32
  ![v6.toNat, 0, 0]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c0_i32_37 : BitVec 32 := 0#32
  let c0_i32_38 : BitVec 32 := 0#32
  ![v6.toNat, 0, 0]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c200_i32_3 : BitVec 32 := 200#32
  let v11 : BitVec 1 := Scalar.cmpi .slt v10 c200_i32_3
  let v12 : BitVec 32 := Scalar.extui v11
  let c0_i32_4 : BitVec 32 := 0#32
  let v13 : BitVec 1 := Scalar.cmpi .ne v12 c0_i32_4
  v13

def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c0_i32_14 : BitVec 32 := 0#32
  let c0_i32_15 : BitVec 32 := 0#32
  ![v10.toNat, 0, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c0_i32_37 : BitVec 32 := 0#32
  let c0_i32_38 : BitVec 32 := 0#32
  ![v10.toNat, 0, 0]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v14 : BitVec 32 := Scalar.addi v1 c96_i32
  let c200_i32_5 : BitVec 32 := 200#32
  let v15 : BitVec 1 := Scalar.cmpi .slt v14 c200_i32_5
  let v16 : BitVec 32 := Scalar.extui v15
  let c0_i32_6 : BitVec 32 := 0#32
  let v17 : BitVec 1 := Scalar.cmpi .ne v16 c0_i32_6
  v17

def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v14 : BitVec 32 := Scalar.addi v1 c96_i32
  let c0_i32_14 : BitVec 32 := 0#32
  let c0_i32_15 : BitVec 32 := 0#32
  ![v14.toNat, 0, 0]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v14 : BitVec 32 := Scalar.addi v1 c96_i32
  let c0_i32_37 : BitVec 32 := 0#32
  let c0_i32_38 : BitVec 32 := 0#32
  ![v14.toNat, 0, 0]
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v18 : BitVec 32 := Scalar.addi v1 c128_i32
  let c200_i32_7 : BitVec 32 := 200#32
  let v19 : BitVec 1 := Scalar.cmpi .slt v18 c200_i32_7
  let v20 : BitVec 32 := Scalar.extui v19
  let c0_i32_8 : BitVec 32 := 0#32
  let v21 : BitVec 1 := Scalar.cmpi .ne v20 c0_i32_8
  v21

def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v18 : BitVec 32 := Scalar.addi v1 c128_i32
  let c0_i32_14 : BitVec 32 := 0#32
  let c0_i32_15 : BitVec 32 := 0#32
  ![v18.toNat, 0, 0]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v18 : BitVec 32 := Scalar.addi v1 c128_i32
  let c0_i32_37 : BitVec 32 := 0#32
  let c0_i32_38 : BitVec 32 := 0#32
  ![v18.toNat, 0, 0]
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v22 : BitVec 32 := Scalar.addi v1 c160_i32
  let c200_i32_9 : BitVec 32 := 200#32
  let v23 : BitVec 1 := Scalar.cmpi .slt v22 c200_i32_9
  let v24 : BitVec 32 := Scalar.extui v23
  let c0_i32_10 : BitVec 32 := 0#32
  let v25 : BitVec 1 := Scalar.cmpi .ne v24 c0_i32_10
  v25

def k0_off11 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v22 : BitVec 32 := Scalar.addi v1 c160_i32
  let c0_i32_14 : BitVec 32 := 0#32
  let c0_i32_15 : BitVec 32 := 0#32
  ![v22.toNat, 0, 0]
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v22 : BitVec 32 := Scalar.addi v1 c160_i32
  let c0_i32_37 : BitVec 32 := 0#32
  let c0_i32_38 : BitVec 32 := 0#32
  ![v22.toNat, 0, 0]
def k0_cond7 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v26 : BitVec 32 := Scalar.addi v1 c192_i32
  let c200_i32_11 : BitVec 32 := 200#32
  let v27 : BitVec 1 := Scalar.cmpi .slt v26 c200_i32_11
  let v28 : BitVec 32 := Scalar.extui v27
  let c0_i32_12 : BitVec 32 := 0#32
  let v29 : BitVec 1 := Scalar.cmpi .ne v28 c0_i32_12
  v29

def k0_off13 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v26 : BitVec 32 := Scalar.addi v1 c192_i32
  let c0_i32_14 : BitVec 32 := 0#32
  let c0_i32_15 : BitVec 32 := 0#32
  ![v26.toNat, 0, 0]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v26 : BitVec 32 := Scalar.addi v1 c192_i32
  let c0_i32_37 : BitVec 32 := 0#32
  let c0_i32_38 : BitVec 32 := 0#32
  ![v26.toNat, 0, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S201x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S65x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x1_S1 : S1x1.ShapeCasts S1
  concatenates_S1_S1_S2_d0 : Shape.Concatenates [S1, S1] S2 0
  shapeCasts_S2_S1x2 : S2.ShapeCasts S1x2
  transposes_S4096x64_S64x4096_1_0 : S4096x64.Transposes [1, 0] S64x4096
  transposes_S4096x200x64_S200x64x4096_1_2_0 : S4096x200x64.Transposes [1, 2, 0] S200x64x4096
  transposes_S4096x1_S1x4096_1_0 : S4096x1.Transposes [1, 0] S1x4096
  squeezes_S1x64x4096_S64x4096 : S1x64x4096.Squeezes S64x4096
  inb_S64x4096_S8x4096_0_0 : ∀ a, (![0, 0] : Fin 2 → Nat) a + S8x4096.size a ≤ S64x4096.size a
  inb_S64x4096_S8x4096_8_0 : ∀ a, (![8, 0] : Fin 2 → Nat) a + S8x4096.size a ≤ S64x4096.size a
  inb_S64x4096_S8x4096_16_0 : ∀ a, (![16, 0] : Fin 2 → Nat) a + S8x4096.size a ≤ S64x4096.size a
  inb_S64x4096_S8x4096_24_0 : ∀ a, (![24, 0] : Fin 2 → Nat) a + S8x4096.size a ≤ S64x4096.size a
  inb_S64x4096_S8x4096_32_0 : ∀ a, (![32, 0] : Fin 2 → Nat) a + S8x4096.size a ≤ S64x4096.size a
  inb_S64x4096_S8x4096_40_0 : ∀ a, (![40, 0] : Fin 2 → Nat) a + S8x4096.size a ≤ S64x4096.size a
  inb_S64x4096_S8x4096_48_0 : ∀ a, (![48, 0] : Fin 2 → Nat) a + S8x4096.size a ≤ S64x4096.size a
  inb_S64x4096_S8x4096_56_0 : ∀ a, (![56, 0] : Fin 2 → Nat) a + S8x4096.size a ≤ S64x4096.size a
  inb_S201x64x4096_S1x64x4096_200_0_0 : ∀ a, (![200, 0, 0] : Fin 3 → Nat) a + S1x64x4096.size a ≤ S201x64x4096.size a
  inb_S200x64x128_S200x64x128_0_0_0 : ∀ a, (![0, 0, 0] : Fin 3 → Nat) a + S200x64x128.size a ≤ S200x64x128.size a
  h_S200x64x128 : 0 < S200x64x128.numel
  shapeCasts_S200x64x128_S200x64x128 : S200x64x128.ShapeCasts S200x64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x2_S1x1_0_0 : ∀ a, (![0, 0] : Fin 2 → Nat) a + S1x1.size a ≤ S1x2.size a
  h_S1x1 : 0 < S1x1.numel
  inpos_S1x1_p0_0 : ∀ a, (![0, 0] : Fin 2 → Nat) a < S1x1.size a
  inb_S1x2_S1x1_0_1 : ∀ a, (![0, 1] : Fin 2 → Nat) a + S1x1.size a ≤ S1x2.size a
  iota_S200x128_d0_w32 : S200x128.Iotas .tc 32 [0]
  broadcasts_S1x128_S200x128 : S1x128.Broadcasts S200x128
  shapeCasts_S64x128_S1x64x128 : S64x128.ShapeCasts S1x64x128
  broadcasts_S1x64x128_S200x64x128 : S1x64x128.Broadcasts S200x64x128
  reduces_S200x64x128_S200x128 : S200x64x128.Reduces [1] S200x128
  reduces_S200x128_S128 : S200x128.Reduces [0] S128
  shapeCasts_S128_S1x128 : S128.ShapeCasts S1x128
  shapeCasts_S200x128_S200x1x128 : S200x128.ShapeCasts S200x1x128
  broadcasts_S200x1x128_S200x64x128 : S200x1x128.Broadcasts S200x64x128
  reduces_S200x64x128_S64x128 : S200x64x128.Reduces [0] S64x128
  natLt_1_32 : 1 < 32
  broadcasts_S1x128_S64x128 : S1x128.Broadcasts S64x128
  inb_S65x128_S64x128_0_0 : ∀ a, (![0, 0] : Fin 2 → Nat) a + S64x128.size a ≤ S65x128.size a
  inb_S65x128_S1x128_64_0 : ∀ a, (![64, 0] : Fin 2 → Nat) a + S1x128.size a ≤ S65x128.size a
  inb_S201x64x128_S200x64x128_0_0_0 : ∀ a, (![0, 0, 0] : Fin 3 → Nat) a + S200x64x128.size a ≤ S201x64x128.size a
  inb_S201x64x128_S1x64x128_200_0_0 : ∀ a, (![200, 0, 0] : Fin 3 → Nat) a + S1x64x128.size a ≤ S201x64x128.size a
  h_S1x64x128 : 0 < S1x64x128.numel
  transposes_S201x64x4096_S4096x201x64_2_0_1 : S201x64x4096.Transposes [2, 0, 1] S4096x201x64
  transposes_S65x4096_S4096x65_1_0 : S65x4096.Transposes [1, 0] S4096x65
  hcc0_scratch2 : 0 + S_.numel ≤ 21
  hcc0_scratch3 : 1 + S_.numel ≤ 21
  hcc0_scratch4 : 2 + S_.numel ≤ 21
  hcc0_scratch5 : 3 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S1x64x4096.size a ≤ S200x64x4096.size a
  k0_off2_inb : ∀ i : grid0.Coords, ∀ (k0_h1 : k0_cond1 i = 1#1), ∀ a, (k0_off2 i) a + S1x64x4096.size a ≤ S201x64x4096.size a
  k0_off3_inb : ∀ i : grid0.Coords, ∀ (k0_h2 : k0_cond2 i = 1#1), ∀ a, (k0_off3 i) a + S1x64x4096.size a ≤ S200x64x4096.size a
  k0_off4_inb : ∀ i : grid0.Coords, ∀ (k0_h2 : k0_cond2 i = 1#1), ∀ a, (k0_off4 i) a + S1x64x4096.size a ≤ S201x64x4096.size a
  k0_off5_inb : ∀ i : grid0.Coords, ∀ (k0_h3 : k0_cond3 i = 1#1), ∀ a, (k0_off5 i) a + S1x64x4096.size a ≤ S200x64x4096.size a
  k0_off6_inb : ∀ i : grid0.Coords, ∀ (k0_h3 : k0_cond3 i = 1#1), ∀ a, (k0_off6 i) a + S1x64x4096.size a ≤ S201x64x4096.size a
  k0_off7_inb : ∀ i : grid0.Coords, ∀ (k0_h4 : k0_cond4 i = 1#1), ∀ a, (k0_off7 i) a + S1x64x4096.size a ≤ S200x64x4096.size a
  k0_off8_inb : ∀ i : grid0.Coords, ∀ (k0_h4 : k0_cond4 i = 1#1), ∀ a, (k0_off8 i) a + S1x64x4096.size a ≤ S201x64x4096.size a
  k0_off9_inb : ∀ i : grid0.Coords, ∀ (k0_h5 : k0_cond5 i = 1#1), ∀ a, (k0_off9 i) a + S1x64x4096.size a ≤ S200x64x4096.size a
  k0_off10_inb : ∀ i : grid0.Coords, ∀ (k0_h5 : k0_cond5 i = 1#1), ∀ a, (k0_off10 i) a + S1x64x4096.size a ≤ S201x64x4096.size a
  k0_off11_inb : ∀ i : grid0.Coords, ∀ (k0_h6 : k0_cond6 i = 1#1), ∀ a, (k0_off11 i) a + S1x64x4096.size a ≤ S200x64x4096.size a
  k0_off12_inb : ∀ i : grid0.Coords, ∀ (k0_h6 : k0_cond6 i = 1#1), ∀ a, (k0_off12 i) a + S1x64x4096.size a ≤ S201x64x4096.size a
  k0_off13_inb : ∀ i : grid0.Coords, ∀ (k0_h7 : k0_cond7 i = 1#1), ∀ a, (k0_off13 i) a + S1x64x4096.size a ≤ S200x64x4096.size a
  k0_off14_inb : ∀ i : grid0.Coords, ∀ (k0_h7 : k0_cond7 i = 1#1), ∀ a, (k0_off14 i) a + S1x64x4096.size a ≤ S201x64x4096.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S64x4096.size a
  hwx1_0 : ∀ i : grid1.Coords, EltTy.bits .f32 = 32 ∨ (Rect.block (s := S64x4096) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x4096.size a
  hwx1_1 : ∀ i : grid1.Coords, EltTy.bits .f32 = 32 ∨ (Rect.block (s := S64x4096) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x64x128.size a ≤ S200x64x4096.size a
  hwx1_2 : ∀ i : grid1.Coords, EltTy.bits .f32 = 32 ∨ (Rect.block (s := S200x64x4096) S200x64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x64x128.size a ≤ S200x64x4096.size a
  hwx1_3 : ∀ i : grid1.Coords, EltTy.bits .f32 = 32 ∨ (Rect.block (s := S200x64x4096) S200x64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x4096.size a
  hwx1_4 : ∀ i : grid1.Coords, EltTy.bits .f32 = 32 ∨ (Rect.block (s := S1x4096) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x4096.size a
  hwx1_5 : ∀ i : grid1.Coords, EltTy.bits .i32 = 32 ∨ (Rect.block (s := S1x4096) S1x128.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S201x64x128.size a ≤ S201x64x4096.size a
  hwx1_7 : ∀ i : grid1.Coords, EltTy.bits .f32 = 32 ∨ (Rect.block (s := S201x64x4096) S201x64x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S65x128.size a ≤ S65x4096.size a
  hwx1_8 : ∀ i : grid1.Coords, EltTy.bits .f32 = 32 ∨ (Rect.block (s := S65x4096) S65x128.size (cc1_transform_8 i) (hinb1_8 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5

abbrev win1_0 : Pipeline.Window sig grid1 :=
  Pipeline.Window.ofSpec (Memref.whole main_v3) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S200x64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S200x64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10_0) S201x64x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v10_1) S65x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4096x64 : Shape := ⟨2, ![4096, 64]⟩
abbrev S4096x200x64 : Shape := ⟨3, ![4096, 200, 64]⟩
abbrev S4096x1 : Shape := ⟨2, ![4096, 1]⟩
abbrev S1x1 : Shape := ⟨2, ![1, 1]⟩
abbrev S1 : Shape := ⟨1, ![1]⟩
abbrev S200 : Shape := ⟨1, ![200]⟩
abbrev S1x200 : Shape := ⟨2, ![1, 200]⟩
abbrev S4096x200 : Shape := ⟨2, ![4096, 200]⟩
abbrev S4096x200x1 : Shape := ⟨3, ![4096, 200, 1]⟩
abbrev S_ : Shape := ⟨0, ![]⟩
abbrev S4096 : Shape := ⟨1, ![4096]⟩
abbrev S4096x200x65 : Shape := ⟨3, ![4096, 200, 65]⟩
abbrev S4096x65 : Shape := ⟨2, ![4096, 65]⟩
abbrev S4096x1x64 : Shape := ⟨3, ![4096, 1, 64]⟩
abbrev S4096x201x64 : Shape := ⟨3, ![4096, 201, 64]⟩

abbrev nBuf : Space → Nat
  | .hbm => 76
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x200x64, .f32⟩
  | .hbm, ⟨3, _⟩ => ⟨S4096x200x64, .f32⟩
  | .hbm, ⟨4, _⟩ => ⟨S4096x1, .f32⟩
  | .hbm, ⟨5, _⟩ => ⟨S4096x1, .i32⟩
  | .hbm, ⟨6, _⟩ => ⟨S1x1, .f32⟩
  | .hbm, ⟨7, _⟩ => ⟨S1, .f32⟩
  | .hbm, ⟨8, _⟩ => ⟨S200, .i32⟩
  | .hbm, ⟨9, _⟩ => ⟨S1x200, .i32⟩
  | .hbm, ⟨10, _⟩ => ⟨S4096x200, .i32⟩
  | .hbm, ⟨11, _⟩ => ⟨S4096x200, .i32⟩
  | .hbm, ⟨12, _⟩ => ⟨S4096x200, .i1⟩
  | .hbm, ⟨13, _⟩ => ⟨S4096x200, .f32⟩
  | .hbm, ⟨14, _⟩ => ⟨S4096x200x1, .f32⟩
  | .hbm, ⟨15, _⟩ => ⟨S4096x200x64, .f32⟩
  | .hbm, ⟨16, _⟩ => ⟨S4096x200x64, .f32⟩
  | .hbm, ⟨17, _⟩ => ⟨S4096x200, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x200, .f32⟩
  | .hbm, ⟨25, _⟩ => ⟨S4096x200, .f32⟩
  | .hbm, ⟨26, _⟩ => ⟨S4096x200, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x200, .f32⟩
  | .hbm, ⟨31, _⟩ => ⟨S4096x200, .f32⟩
  | .hbm, ⟨32, _⟩ => ⟨S4096x200x1, .f32⟩
  | .hbm, ⟨33, _⟩ => ⟨S4096x200x1, .f32⟩
  | .hbm, ⟨34, _⟩ => ⟨S_, .f32⟩
  | .hbm, ⟨35, _⟩ => ⟨S4096x200x1, .f32⟩
  | .hbm, ⟨36, _⟩ => ⟨S4096x200x1, .f32⟩
  | .hbm, ⟨37, _⟩ => ⟨S_, .f32⟩
  | .hbm, ⟨38, _⟩ => ⟨S4096x200x1, .f32⟩
  | .hbm, ⟨39, _⟩ => ⟨S4096x200x1, .f32⟩
  | .hbm, ⟨40, _⟩ => ⟨S4096x200x1, .f32⟩
  | .hbm, ⟨41, _⟩ => ⟨S4096x200x1, .f32⟩
  | .hbm, ⟨42, _⟩ => ⟨S_, .f32⟩
  | .hbm, ⟨43, _⟩ => ⟨S4096x200x1, .f32⟩
  | .hbm, ⟨44, _⟩ => ⟨S4096x200x1, .f32⟩
  | .hbm, ⟨45, _⟩ => ⟨S_, .f32⟩
  | .hbm, ⟨46, _⟩ => ⟨S4096x200x1, .f32⟩
  | .hbm, ⟨47, _⟩ => ⟨S4096x200x1, .f32⟩
  | .hbm, ⟨48, _⟩ => ⟨S4096x200x65, .f32⟩
  | .hbm, ⟨49, _⟩ => ⟨S4096x200x65, .f32⟩
  | .hbm, ⟨50, _⟩ => ⟨S4096x200x65, .f32⟩
  | .hbm, ⟨51, _⟩ => ⟨S_, .f32⟩
  | .hbm, ⟨52, _⟩ => ⟨S4096x65, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x65, .f32⟩
  | .hbm, ⟨62, _⟩ => ⟨S4096x65, .f32⟩
  | .hbm, ⟨63, _⟩ => ⟨S4096, .i32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S4096x1, .i1⟩
  | .hbm, ⟨68, _⟩ => ⟨S_, .f32⟩
  | .hbm, ⟨69, _⟩ => ⟨S4096x65, .f32⟩
  | .hbm, ⟨70, _⟩ => ⟨S4096x65, .i1⟩
  | .hbm, ⟨71, _⟩ => ⟨S4096x65, .f32⟩
  | .hbm, ⟨72, _⟩ => ⟨S4096x1x64, .f32⟩
  | .hbm, ⟨73, _⟩ => ⟨S4096x201x64, .f32⟩
  | .hbm, ⟨74, _⟩ => ⟨S4096x1x64, .f32⟩
  | .hbm, ⟨75, _⟩ => ⟨S4096x201x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_call0_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S4096x1_S4096x200_0_1 : S4096x1.BroadcastsInDim S4096x200 (![0, 1] : Fin 2 → Fin S4096x200.rank)
  bcast_S4096x200_S4096x200x1_0_1 : S4096x200.BroadcastsInDim S4096x200x1 (![0, 1] : Fin 2 → Fin S4096x200x1.rank)
  bcast_S4096x200x1_S4096x200x64_0_1_2 : S4096x200x1.BroadcastsInDim S4096x200x64 (![0, 1, 2] : Fin 3 → Fin S4096x200x64.rank)
  reducesTo_S4096x200_S4096_d1 : S4096x200.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  shapeCasts_S1x1_S_ : S1x1.ShapeCasts S_
  bcast_S_S4096x200x1 : S_.BroadcastsInDim S4096x200x1 (![] : Fin 0 → Fin S4096x200x1.rank)
  shapeCasts_S1_S_ : S1.ShapeCasts S_
  concatenates_S4096x200x64_S4096x200x1_S4096x200x65_d2 : Shape.Concatenates [S4096x200x64, S4096x200x1] S4096x200x65 2
  bcast_S4096x200x1_S4096x200x65_0_1_2 : S4096x200x1.BroadcastsInDim S4096x200x65 (![0, 1, 2] : Fin 3 → Fin S4096x200x65.rank)
  reducesTo_S4096x200x65_S4096x65_d1 : S4096x200x65.ReducesTo [1] S4096x65
  bcast_S_S4096x1 : S_.BroadcastsInDim S4096x1 (![] : Fin 0 → Fin S4096x1.rank)
  bcast_S4096x1_S4096x65_0_1 : S4096x1.BroadcastsInDim S4096x65 (![0, 1] : Fin 2 → Fin S4096x65.rank)
  shapeCasts_S4096x1_S4096 : S4096x1.ShapeCasts S4096
  bcast_S_S4096x65 : S_.BroadcastsInDim S4096x65 (![] : Fin 0 → Fin S4096x65.rank)
  bcast_S4096x64_S4096x1x64_0_2 : S4096x64.BroadcastsInDim S4096x1x64 (![0, 2] : Fin 2 → Fin S4096x1x64.rank)
  concatenates_S4096x200x64_S4096x1x64_S4096x201x64_d1 : Shape.Concatenates [S4096x200x64, S4096x1x64] S4096x201x64 1
  dot_S4096x200x64_S4096x64_S4096x200_2_1_1_n_0_0_wf : DotDims.WF S4096x200x64 S4096x64 S4096x200 [2] [1] [1] [] [0] [0]

variable [Facts₀]

def dot_S4096x200x64_S4096x64_S4096x200_2_1_1_n_0_0 : DotDims S4096x200x64 S4096x64 S4096x200 where
  lhsContracting := [2]
  rhsContracting := [1]
  lhsNonContracting := [1]
  rhsNonContracting := []
  lhsBatch := [0]
  rhsBatch := [0]
  wf := dot_S4096x200x64_S4096x64_S4096x200_2_1_1_n_0_0_wf

class Facts : Prop extends Facts₀ where

variable [Facts]
-- ==== Proof.RefRun.lean ====
/-
  The reference's run, read back: every weakly fair execution of the reference's @main terminates with its three
  results at the composed terms of its host operations applied to the argument arrays, the arguments unchanged.
  Dropping the results leaves the reference's frame.
-/
import proofs.«209559_g37125697307438_cont_8to1_b_286_16_alg».proof.Defs
import proofs.«209559_g37125697307438_cont_8to1_b_286_16_alg».proof.Proof.Gen.ReferenceIdeal.Run
import proofs.«209559_g37125697307438_cont_8to1_b_286_16_alg».proof.Proof.Gen.ReferenceIdeal.Read

noncomputable section

namespace Cert.Proof.RefRun

open Idealize.ShloMosaic Idealize.ShloMosaic.TcCoe Idealize.SL.Sem

end Cert.Proof.RefRun

end
-- ==== Proof.Setup.lean ====
/-
  The shared ground of the kernel's frame and value proofs: the program as the launch theorem sees it (its
  SparseCore configuration, body table, variants), the resource algebra (the launch handshakes' rounds, the
  TensorCore pipeline's staging cells, the local transfers' counters), the arrays the SparseCore call moves, and
  what the call's handshakes carry.

  The call copies rows: output row n (of 201) is key-memory row n for n < 200 and the new-key row for n = 200,
  each row a [64, 4096] slab. Vector subcore s of SparseCore c is worker 2·s + c; worker w copies rows w, w + 32,
  …, w + 192 (those below 200), and worker 31 also copies the last row. A worker is handed exactly the source rows
  it reads and the destination rows it writes, whole, and hands them back with each destination row holding its
  source row.
-/
import proofs.«209559_g37125697307438_cont_8to1_b_286_16_alg».proof.Defs
import proofs.«209559_g37125697307438_cont_8to1_b_286_16_alg».proof.Proof.Gen.KernelIdeal
import proofs.«209559_g37125697307438_cont_8to1_b_286_16_alg».proof.Proof.Gen.KernelIdeal.Launch
import Idealize.ShloMosaic.Lib.SparseCore.Launch
import Idealize.ShloMosaic.Lib.Pipeline.Kit
import Idealize.ShloMosaic.Lib.Transfers
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The pipeline's staging cells' rounds, the middle factor; the transfers' counters are found by instance in the right. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The arrays of the SparseCore call, as locations of device `d` -/

/-- Key memory transposed (slot, column, batch), the new key transposed (column, batch), the call's result. -/
abbrev kLoc (d : Dev nD) : Loc nD τ sig := (SparseCore.T d).loc main_v5
abbrev nLoc (d : Dev nD) : Loc nD τ sig := (SparseCore.T d).loc main_v3
abbrev oLoc (d : Dev nD) : Loc nD τ sig := (SparseCore.T d).loc main_v9

abbrev kV : Memref sig .scVector .hbm S200x64x4096 .f32 := Memref.whole main_v5_scv
abbrev nV : Memref sig .scVector .hbm S64x4096 .f32 := Memref.whole main_v3_scv
abbrev oV : Memref sig .scVector .hbm S201x64x4096 .f32 := Memref.whole main_v9_scv
abbrev b0V : Memref sig .scVector .vmem S8x4096 .f32 := Memref.whole cc0_scratch0
abbrev b1V : Memref sig .scVector .vmem S8x4096 .f32 := Memref.whole cc0_scratch1

theorem hdivK : 200 ∣ S200x64x4096.size 0 := ⟨1, rfl⟩
theorem hdivO : 201 ∣ S201x64x4096.size 0 := ⟨1, rfl⟩
/-- Row `n` of the source and of the result: one slot's [64, 4096] slab. -/
abbrev kRow (n : Fin 200) : Rect S200x64x4096 := Rect.part (s := S200x64x4096) (a₀ := 0) hdivK n
abbrev oRow (n : Fin 201) : Rect S201x64x4096 := Rect.part (s := S201x64x4096) (a₀ := 0) hdivO n
abbrev kRowSet (n : Fin 200) : Finset S200x64x4096.Idx := ((kV : Memref sig .scVector .hbm S200x64x4096 .f32).view.slice (kRow n)).set
abbrev oRowSet (n : Fin 201) : Finset S201x64x4096.Idx := ((oV : Memref sig .scVector .hbm S201x64x4096 .f32).view.slice (oRow n)).set

/-- What the result holds: row `n < 200` the source's row `n`, row 200 the new-key slab. -/
def outOf {d : Dev nD} (kv : Buf (Elt F) (kLoc d)) (nv : Buf (Elt F) (nLoc d)) : Buf (Elt F) (oLoc d) :=
  fun j => if h : (j 0).val < 200 then kv (ValueIdx.ix3 ⟨(j 0).val, h⟩ (j 1) (j 2)) else nv (ValueIdx.ix2 (j 1) (j 2))

/-! ## The workers -/

/-- Worker number of vector subcore `i` of SparseCore `c`. -/
def wid (c i : ℕ) : ℕ := 2 * i + c
/-- The `r`-th row of worker `w` (meaningful when `w + 32 r < 200`). -/
def rowOf (w : ℕ) (r : Fin 7) : Fin 200 := ⟨(w + 32 * r.val) % 200, Nat.mod_lt _ (by decide)⟩
def lastRow : Fin 201 := ⟨200, by decide⟩
def outRow (n : Fin 200) : Fin 201 := ⟨n.val, by omega⟩

variable (kv : (d : Dev nD) → Buf (Elt F) (kLoc d)) (nv : (d : Dev nD) → Buf (Elt F) (nLoc d))

/-- One copied row's resources: the source row at its contents and the destination row at `fo`. -/
def rowRes (d : Dev nD) (fo : Buf (Elt F) (oLoc d)) (n : Fin 200) : sProp 𝕄 :=
  iprop((kLoc d ↦[kRowSet n]{fullShare} kv d) ∗ (oLoc d ↦[oRowSet (outRow n)]{fullShare} fo))
/-- The last row's: the new-key slab whole and destination row 200. -/
def lastRes (d : Dev nD) (fo : Buf (Elt F) (oLoc d)) : sProp 𝕄 :=
  iprop((nLoc d ↦{fullShare} nv d) ∗ (oLoc d ↦[oRowSet lastRow]{fullShare} fo))
/-- Worker `w`'s resources with the destination rows at `fo`. -/
def tileRes (d : Dev nD) (fo : Buf (Elt F) (oLoc d)) (w : ℕ) : sProp 𝕄 :=
  iprop((bigSep Finset.univ fun r : Fin 7 => if w + 32 * r.val < 200 then rowRes kv d fo (rowOf w r) else iprop(emp))
    ∗ (if w = 31 then lastRes nv d fo else iprop(emp)))

/-- The call's payloads: each task takes its rows with the destination at the launch contents `o0` and returns
    them with the destination at `outOf`; a SparseCore takes and returns its sixteen tasks' resources. -/
def P (o0 : (d : Dev nD) → Buf (Elt F) (oLoc d)) : (K (F := F)).Pay (nD := nD) (Val := Elt F) (Name := ℕ) (U := UU) where
  st := fun _ d c => bigSep Finset.univ fun i : Fin 16 => tileRes kv nv d (o0 d) (wid c.val i.val)
  dn := fun _ d c => bigSep Finset.univ fun i : Fin 16 => tileRes kv nv d (outOf (kv d) (nv d)) (wid c.val i.val)
  go := fun _ d c i => tileRes kv nv d (o0 d) (wid c.val i.val)
  td := fun _ d c i => tileRes kv nv d (outOf (kv d) (nv d)) (wid c.val i.val)
  x := fun _ _ => iprop(emp)

/-! ## The payloads can be stored in invariants -/

instance ite_storable (p : Prop) [Decidable p] (A B : sProp 𝕄) [BI.Storable (upEmb : UEmb _ 𝕄) A] [BI.Storable (upEmb : UEmb _ 𝕄) B] :
    BI.Storable (upEmb : UEmb _ 𝕄) (if p then A else B) := by split <;> infer_instance

instance tileRes_storable (d : Dev nD) (fo : Buf (Elt F) (oLoc d)) (w : ℕ) : BI.Storable (upEmb : UEmb _ 𝕄) (tileRes kv nv d fo w) := by
  unfold tileRes rowRes lastRes; infer_instance

instance P_storable (o0 : (d : Dev nD) → Buf (Elt F) (oLoc d)) : (P (F := F) kv nv o0).IsStorable where
  st _ d c := by unfold P; infer_instance
  dn _ d c := by unfold P; infer_instance
  go _ d c i := by unfold P; infer_instance
  td _ d c i := by unfold P; infer_instance

end Cert.Proof.KI

end
-- ==== Proof.Rows.lean ====
/-
  How the SparseCore call's three arrays split among the 32 workers and join back.

  The key memory (200 rows) and the result (201 rows) are cut into rows along their first axis; rows are pairwise
  disjoint and cover the array. Row n < 200 belongs to the worker n mod 32, which is subcore (n mod 32) / 2 of
  SparseCore n mod 2, as its (n / 32)-th row; the map (core, subcore, r) ↦ 2·subcore + core + 32·r is a bijection
  from the triples with value below 200 onto the rows. Row 200 and the new-key array belong to worker 31 alone.
-/
import proofs.«209559_g37125697307438_cont_8to1_b_286_16_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Rows are disjoint and cover -/

theorem kRowSet_eq (n : Fin 200) : kRowSet n = (kRow n).set := by
  show ((View.whole (main_v5_scv : Ref sig .scVector)).slice (kRow n)).set = _
  rw [View.set_slice]; exact Finset.map_refl
theorem oRowSet_eq (n : Fin 201) : oRowSet n = (oRow n).set := by
  show ((View.whole (main_v9_scv : Ref sig .scVector)).slice (oRow n)).set = _
  rw [View.set_slice]; exact Finset.map_refl

theorem kRows_disjoint : ∀ i ∈ (Finset.univ : Finset (Fin 200)), ∀ j ∈ (Finset.univ : Finset (Fin 200)), i ≠ j → Disjoint (kRowSet i) (kRowSet j) :=
  fun i _ j _ h => by rw [kRowSet_eq, kRowSet_eq]; exact Rect.part_disjoint hdivK h
theorem kRows_cover : (Finset.univ : Finset (Fin 200)).biUnion kRowSet = Finset.univ :=
  (Finset.biUnion_congr rfl fun i _ => kRowSet_eq i).trans (Rect.biUnion_part hdivK)
theorem oRows_disjoint : ∀ i ∈ (Finset.univ : Finset (Fin 201)), ∀ j ∈ (Finset.univ : Finset (Fin 201)), i ≠ j → Disjoint (oRowSet i) (oRowSet j) :=
  fun i _ j _ h => by rw [oRowSet_eq, oRowSet_eq]; exact Rect.part_disjoint hdivO h
theorem oRows_cover : (Finset.univ : Finset (Fin 201)).biUnion oRowSet = Finset.univ :=
  (Finset.biUnion_congr rfl fun i _ => oRowSet_eq i).trans (Rect.biUnion_part hdivO)

theorem kPts_rows (d : Dev nD) (f : Buf (Elt F) (kLoc d)) :
    (kLoc d ↦{fullShare} f : sProp 𝕄) = bigSep Finset.univ fun n : Fin 200 => kLoc d ↦[kRowSet n]{fullShare} f := by
  rw [← pointsTo_biUnion Finset.univ (ℓ := kLoc d) kRowSet kRows_disjoint, kRows_cover]; try rfl
theorem oPts_rows (d : Dev nD) (f : Buf (Elt F) (oLoc d)) :
    (oLoc d ↦{fullShare} f : sProp 𝕄) = bigSep Finset.univ fun n : Fin 201 => oLoc d ↦[oRowSet n]{fullShare} f := by
  rw [← pointsTo_biUnion Finset.univ (ℓ := oLoc d) oRowSet oRows_disjoint, oRows_cover]; try rfl

/-! ## The result's rows: the first 200 and the last -/

theorem univ201 : (Finset.univ : Finset (Fin 201)) = insert lastRow (Finset.univ.image outRow) := by
  ext n
  simp only [Finset.mem_univ, Finset.mem_insert, Finset.mem_image, true_and, true_iff]
  by_cases h : n.val < 200
  · exact .inr ⟨⟨n.val, h⟩, Fin.ext rfl⟩
  · exact .inl (Fin.ext (by have := n.isLt; show n.val = 200; omega))
theorem lastRow_notMem : lastRow ∉ (Finset.univ.image outRow : Finset (Fin 201)) := by
  simp only [Finset.mem_image, Finset.mem_univ, true_and, not_exists]
  intro x e
  have := congrArg Fin.val e
  simp only [outRow, lastRow] at this
  have := x.isLt; omega
theorem outRow_injOn : Set.InjOn outRow ((Finset.univ : Finset (Fin 200)) : Set (Fin 200)) :=
  fun a _ b _ e => Fin.ext (by have := congrArg Fin.val e; simpa [outRow] using this)

theorem oRows_split (Φ : Fin 201 → sProp 𝕄) :
    bigSep Finset.univ Φ = iprop(Φ lastRow ∗ bigSep Finset.univ fun n : Fin 200 => Φ (outRow n)) := by
  rw [univ201, SparseCore.bigSep_insert' lastRow_notMem, SparseCore.bigSep_image_of_injOn outRow_injOn Φ]

/-! ## The rows below 200 among the workers -/

/-- The triples (core, subcore, r) that name a row. -/
def trip : Finset (Fin 2 × Fin 16 × Fin 7) := Finset.univ.filter fun x => wid x.1.val x.2.1.val + 32 * x.2.2.val < 200
def rowOfT (x : Fin 2 × Fin 16 × Fin 7) : Fin 200 := rowOf (wid x.1.val x.2.1.val) x.2.2

theorem rowOfT_injOn : Set.InjOn rowOfT ((trip : Finset (Fin 2 × Fin 16 × Fin 7)) : Set _) := by
  intro a ha b hb e
  simp only [trip, Finset.coe_filter, Finset.mem_univ, true_and, Set.mem_setOf_eq] at ha hb
  have e' := congrArg Fin.val e
  simp only [rowOfT, rowOf] at e'
  rw [Nat.mod_eq_of_lt ha, Nat.mod_eq_of_lt hb] at e'
  obtain ⟨⟨c, hc⟩, ⟨i, hi⟩, ⟨r, hr⟩⟩ := a
  obtain ⟨⟨c', hc'⟩, ⟨i', hi'⟩, ⟨r', hr'⟩⟩ := b
  simp only [wid] at e'
  have h3 : c = c' ∧ i = i' ∧ r = r' := by omega
  obtain ⟨rfl, rfl, rfl⟩ := h3
  rfl

theorem image_trip : trip.image rowOfT = (Finset.univ : Finset (Fin 200)) := by
  ext n
  simp only [Finset.mem_image, Finset.mem_univ, iff_true]
  have hn := n.isLt
  refine ⟨(⟨n.val % 2, Nat.mod_lt _ (by decide)⟩, ⟨(n.val % 32) / 2, Nat.div_lt_of_lt_mul (show n.val % 32 < 2 * 16 from Nat.mod_lt _ (by decide))⟩,
    ⟨n.val / 32, Nat.div_lt_of_lt_mul (show n.val < 32 * 7 by omega)⟩), ?_, ?_⟩
  · have h1 : 2 * (n.val % 32 / 2) + n.val % 2 = n.val % 32 := by omega
    refine Finset.mem_filter.mpr ⟨Finset.mem_univ _, ?_⟩
    show 2 * (n.val % 32 / 2) + n.val % 2 + 32 * (n.val / 32) < 200
    omega
  · apply Fin.ext
    have h1 : 2 * (n.val % 32 / 2) + n.val % 2 = n.val % 32 := by omega
    show (2 * (n.val % 32 / 2) + n.val % 2 + 32 * (n.val / 32)) % 200 = n.val
    omega

theorem rows_regroup (Ψ : Fin 200 → sProp 𝕄) :
    bigSep Finset.univ Ψ = bigSep Finset.univ fun c : Fin 2 => bigSep Finset.univ fun i : Fin 16 => bigSep Finset.univ fun r : Fin 7 =>
      if wid c.val i.val + 32 * r.val < 200 then Ψ (rowOf (wid c.val i.val) r) else iprop(emp) := by
  rw [← image_trip, SparseCore.bigSep_image_of_injOn rowOfT_injOn Ψ]
  unfold trip
  rw [bigSep_filter, bigSep_univ_prod]
  refine bigSep_congr fun c _ => ?_
  rw [bigSep_univ_prod]
  rfl

/-- Exactly one worker is number 31. -/
theorem last_regroup (L : sProp 𝕄) :
    L = bigSep Finset.univ fun c : Fin 2 => bigSep Finset.univ fun i : Fin 16 => if wid c.val i.val = 31 then L else iprop(emp) := by
  show L = bigSep Finset.univ fun c : Fin 2 => bigSep Finset.univ fun i : Fin 16 => if wid c.val i.val = 31 then L else (BI.emp : sProp 𝕄)
  rw [← bigSep_univ_prod (fun x : Fin 2 × Fin 16 => if wid x.1.val x.2.val = 31 then L else (BI.emp : sProp 𝕄)),
    ← bigSep_filter Finset.univ (fun x : Fin 2 × Fin 16 => wid x.1.val x.2.val = 31) (fun _ => L),
    show (Finset.univ.filter fun x : Fin 2 × Fin 16 => wid x.1.val x.2.val = 31) = {(1, 15)} from by decide,
    bigSep_singleton]

end Cert.Proof.KI

end
-- ==== Proof.Split.lean ====
/-
  The three arrays of the SparseCore call, whole, ARE the 32 workers' resources: the rows regrouped by worker.
-/
import proofs.«209559_g37125697307438_cont_8to1_b_286_16_alg».proof.Proof.Rows

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (kv : (d : Dev nD) → Buf (Elt F) (kLoc d)) (nv : (d : Dev nD) → Buf (Elt F) (nLoc d))

/-- The workers' resources, regrouped: every row below 200 once, and the last row's. -/
theorem tiles_eq (d : Dev nD) (fo : Buf (Elt F) (oLoc d)) :
    (bigSep Finset.univ fun c : Fin 2 => bigSep Finset.univ fun i : Fin 16 => tileRes kv nv d fo (wid c.val i.val) : sProp 𝕄)
      = iprop(((bigSep Finset.univ fun n : Fin 200 => kLoc d ↦[kRowSet n]{fullShare} kv d)
          ∗ (bigSep Finset.univ fun n : Fin 200 => oLoc d ↦[oRowSet (outRow n)]{fullShare} fo))
        ∗ ((nLoc d ↦{fullShare} nv d) ∗ (oLoc d ↦[oRowSet lastRow]{fullShare} fo))) := by
  unfold tileRes
  rw [bigSep_congr fun c _ => bigSep_sep' _ _ _, bigSep_sep', ← rows_regroup (fun n => rowRes kv d fo n), ← last_regroup (lastRes nv d fo)]
  unfold rowRes lastRes
  rw [bigSep_sep']

theorem tiles_split (d : Dev nD) (fo : Buf (Elt F) (oLoc d)) :
    iprop((kLoc d ↦{fullShare} kv d) ∗ (nLoc d ↦{fullShare} nv d) ∗ (oLoc d ↦{fullShare} fo))
      ⊢ (bigSep Finset.univ fun c : Fin 2 => bigSep Finset.univ fun i : Fin 16 => tileRes kv nv d fo (wid c.val i.val) : sProp 𝕄) := by
  rw [tiles_eq, kPts_rows, oPts_rows, oRows_split]
  iintro ⟨Hk, Hn, Hl, Ho⟩
  isplitl [Hk Ho]
  · isplitl [Hk]; · iexact Hk
    iexact Ho
  isplitl [Hn]; · iexact Hn
  iexact Hl

theorem tiles_join (d : Dev nD) (fo : Buf (Elt F) (oLoc d)) :
    (bigSep Finset.univ fun c : Fin 2 => bigSep Finset.univ fun i : Fin 16 => tileRes kv nv d fo (wid c.val i.val) : sProp 𝕄)
      ⊢ iprop((kLoc d ↦{fullShare} kv d) ∗ (nLoc d ↦{fullShare} nv d) ∗ (oLoc d ↦{fullShare} fo)) := by
  rw [tiles_eq, kPts_rows, oPts_rows, oRows_split]
  iintro ⟨⟨Hk, Ho⟩, Hn, Hl⟩
  isplitl [Hk]; · iexact Hk
  isplitl [Hn]; · iexact Hn
  isplitl [Hl]; · iexact Hl
  iexact Ho

end Cert.Proof.KI

end
-- ==== Proof.MainOps.lean ====
/-
  @main of the kernel's program, cut where its kinds of work change: nine host operations that lay the arguments
  out for the kernels (the scalars packed, every array transposed so that the batch is the last axis), the
  SparseCore call, the TensorCore region, and three host operations that transpose the three results back.
-/
import proofs.«209559_g37125697307438_cont_8to1_b_286_16_alg».proof.Proof.Setup
import Idealize.ShloMosaic.Lib.StableHlo.Run

noncomputable section

namespace Cert.Proof.KI

open Cert.KernelIdeal Cert.KernelIdeal.Facts₀

open Idealize.ShloMosaic Idealize.ShloMosaic.TcCoe
open Idealize.ShloMosaic.StableHlo (seq after)
open Idealize.SL.Sem

variable {F : FTy → Type} [FloatOps F]

/-- The host operations before the kernels. -/
abbrev opsPre : List (HloOp τ sig (Elt F)) :=
  [ StableHlo.reshape main_arg6 main_v0 rfl shapeCasts_S1x1_S1,
    StableHlo.binary main_v0 main_arg7 main_v1 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.reshape main_v1 main_v2 rfl shapeCasts_S2_S1x2,
    StableHlo.unary main_arg0 main_v3 ((transpose S64x4096 [1, 0] · transposes_S4096x64_S64x4096_1_0) : (⟨S4096x64, .f32⟩ : BufTy).Contents (Elt F) → (⟨S64x4096, .f32⟩ : BufTy).Contents (Elt F)),
    StableHlo.unary main_arg1 main_v4 ((transpose S64x4096 [1, 0] · transposes_S4096x64_S64x4096_1_0) : (⟨S4096x64, .f32⟩ : BufTy).Contents (Elt F) → (⟨S64x4096, .f32⟩ : BufTy).Contents (Elt F)),
    StableHlo.unary main_arg2 main_v5 ((transpose S200x64x4096 [1, 2, 0] · transposes_S4096x200x64_S200x64x4096_1_2_0) : (⟨S4096x200x64, .f32⟩ : BufTy).Contents (Elt F) → (⟨S200x64x4096, .f32⟩ : BufTy).Contents (Elt F)),
    StableHlo.unary main_arg3 main_v6 ((transpose S200x64x4096 [1, 2, 0] · transposes_S4096x200x64_S200x64x4096_1_2_0) : (⟨S4096x200x64, .f32⟩ : BufTy).Contents (Elt F) → (⟨S200x64x4096, .f32⟩ : BufTy).Contents (Elt F)),
    StableHlo.unary main_arg4 main_v7 ((transpose S1x4096 [1, 0] · transposes_S4096x1_S1x4096_1_0) : (⟨S4096x1, .f32⟩ : BufTy).Contents (Elt F) → (⟨S1x4096, .f32⟩ : BufTy).Contents (Elt F)),
    StableHlo.unary main_arg5 main_v8 ((transpose S1x4096 [1, 0] · transposes_S4096x1_S1x4096_1_0) : (⟨S4096x1, .i32⟩ : BufTy).Contents (Elt F) → (⟨S1x4096, .i32⟩ : BufTy).Contents (Elt F)) ]

/-- The host operations after the kernels. -/
abbrev opsPost : List (HloOp τ sig (Elt F)) :=
  [ StableHlo.unary main_v9 main_v11 ((transpose S4096x201x64 [2, 0, 1] · transposes_S201x64x4096_S4096x201x64_2_0_1) : (⟨S201x64x4096, .f32⟩ : BufTy).Contents (Elt F) → (⟨S4096x201x64, .f32⟩ : BufTy).Contents (Elt F)),
    StableHlo.unary main_v10_0 main_v12 ((transpose S4096x201x64 [2, 0, 1] · transposes_S201x64x4096_S4096x201x64_2_0_1) : (⟨S201x64x4096, .f32⟩ : BufTy).Contents (Elt F) → (⟨S4096x201x64, .f32⟩ : BufTy).Contents (Elt F)),
    StableHlo.unary main_v10_1 main_v13 ((transpose S4096x65 [1, 0] · transposes_S65x4096_S4096x65_1_0) : (⟨S65x4096, .f32⟩ : BufTy).Contents (Elt F) → (⟨S4096x65, .f32⟩ : BufTy).Contents (Elt F)) ]

/-- @main is the host prefix, the SparseCore call, the TensorCore region, the host suffix. -/
theorem main_split (d : Dev nD) :
    main (F := F) d = (seq opsPre >>= fun _ => (K (F := F)).run d 0 >>= fun _ =>
      Prog.lift (.customCall (SparseCore.inner (Pipeline.entry 0)) ()) >>= fun _ => seq opsPost) := rfl

end Cert.Proof.KI

end
-- ==== Proof.RegionData.lean ====
/-
  The TensorCore kernel region's proof data, stated once for the frame and the value proofs.

  The region walks 32 grid points; point t handles lanes (batch elements) 128·t … 128·t + 127. Its nine windows are
  the transposed new key, new value, key memory, value memory, gate, iteration, the packed scalars (W, b), and the
  two results: the appended value memory [201, 64, 128] per point and the read [65, 128] per point. After the body
  at a point every input's staging buffer still holds its block; the appended value memory's holds the value-memory
  block in rows 0 … 199 and the new-value block in row 200; the read's holds, in rows 0 … 63, the gated attention
  read of the key columns and, in row 64, that of the confidences — the body's arithmetic over the point's blocks.
-/
import proofs.«209559_g37125697307438_cont_8to1_b_286_16_alg».proof.Proof.Setup
import proofs.«209559_g37125697307438_cont_8to1_b_286_16_alg».proof.Proof.Gen.KernelIdeal.Skeleton
import proofs.«209559_g37125697307438_cont_8to1_b_286_16_alg».proof.Proof.Gen.KernelIdeal.Points
import Idealize.ShloMosaic.Lib.Pipeline.FrameBody
import Idealize.ShloMosaic.Lib.Ring

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig (HIx 1) (Elt F) ℕ UU ℕ

-- core `c`'s TensorCore buffers as the region finds them
variable (Vv : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-! ## The body's accesses -/

abbrev rMem : Rect S200x64x128 := Rect.unit (s := S200x64x128) ![0, 0, 0] S200x64x128.size inb_S200x64x128_S200x64x128_0_0_0
abbrev rRow : Rect S64x128 := Rect.unit (s := S64x128) ![0, 0] S64x128.size inb_S64x128_S64x128_0_0
abbrev rLane : Rect S1x128 := Rect.unit (s := S1x128) ![0, 0] S1x128.size inb_S1x128_S1x128_0_0
abbrev rW : Rect S1x2 := Rect.unit (s := S1x2) ![0, 0] S1x1.size inb_S1x2_S1x1_0_0
abbrev rB : Rect S1x2 := Rect.unit (s := S1x2) ![0, 1] S1x1.size inb_S1x2_S1x1_0_1
abbrev rReadK : Rect S65x128 := Rect.unit (s := S65x128) ![0, 0] S64x128.size inb_S65x128_S64x128_0_0
abbrev rReadC : Rect S65x128 := Rect.unit (s := S65x128) ![64, 0] S1x128.size inb_S65x128_S1x128_64_0
abbrev rOld : Rect S201x64x128 := Rect.unit (s := S201x64x128) ![0, 0, 0] S200x64x128.size inb_S201x64x128_S200x64x128_0_0_0
abbrev rNew : Rect S201x64x128 := Rect.unit (s := S201x64x128) ![200, 0, 0] S1x64x128.size inb_S201x64x128_S1x64x128_200_0_0

/-! ## What the body leaves in each result's buffer -/

/-- The appended value memory's buffer after the body: its two stores as pieces, last first. -/
def outMem (xNv : Vec F S64x128 .f32) (xVm : Vec F S200x64x128 .f32) : Vec F S201x64x128 .f32 :=
  View.canon [⟨rNew, k1_pay4 (k1_pay6 (View.ld xNv rRow))⟩, ⟨rOld, k1_pay5 (View.ld xVm rMem)⟩]

/-- The read's buffer after the body: its two stores as pieces, last first. -/
def outRead (xNv : Vec F S64x128 .f32) (xKm xVm : Vec F S200x64x128 .f32) (xG : Vec F S1x128 .f32) (xIt : Vec F S1x128 .i32)
    (xWb : Vec F S1x2 .f32) : Vec F S65x128 .f32 :=
  View.canon [
    ⟨rReadC, k1_pay3 (k1_pay7 (View.ld xIt rLane)) (k1_pay11 (View.ld xVm rMem) (View.ld xNv rRow) (View.ld xIt rLane) (View.ld xWb rW) (View.ld xWb rB)) (View.ld xG rLane)⟩,
    ⟨rReadK, k1_pay2 (k1_pay7 (View.ld xIt rLane)) (k1_pay10 (View.ld xKm rMem) (View.ld xVm rMem) (View.ld xNv rRow) (View.ld xIt rLane)) (View.ld xG rLane)⟩]

/-! ## The pipeline's proof data -/

/-- The region's invariant on core `c`: the core's scoped buffers that are no staging buffer, at some contents each,
    and its generator register at some state — what the body may use and need not describe. -/
def ΦK (c : Dev nD) : sProp 𝕄 :=
  iprop(Pipeline.scopedRest (Ix := HIx 1) (Name := ℕ) (U := UU) (Lvl := ℕ) (Val := Elt F) spec1 c ∗ ∃ r, prngReg c r)

/-- The proof data of the region on core `c`: the arrays as the region finds them; after the body at point `t` each
    input's buffer at its block and each result's at `outMem` / `outRead` of the input blocks; the invariant the
    scoped rest and the generator register, untouched; nothing owed; full shares. -/
def dat1 (c : Dev nD) : Dat τ (Elt F) (HIx 1) ℕ UU ℕ cfg1 c where
  A w := Vv c (Pipeline.arrRef spec1 w)
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => iblk Vv c 6 t
    | ⟨7, _⟩ => outMem (iblk Vv c 1 t) (iblk Vv c 3 t)
    | ⟨8, _⟩ => outRead (iblk Vv c 1 t) (iblk Vv c 2 t) (iblk Vv c 3 t) (iblk Vv c 4 t) (iblk Vv c 5 t) (iblk Vv c 6 t)
  Φ _ := ΦK c
  q _ := fullShare
  owed _ := 0

theorem A_eq (c : Dev nD) (w : Fin cfg1.W) : (dat1 Vv c).A w = Vv c (Pipeline.arrRef spec1 w) := by
  dsimp only [dat1]

theorem after_0 (c : Dev nD) (t : Fin cfg1.N) : (dat1 Vv c).after 0 t = iblk Vv c 0 t := by dsimp only [dat1]
theorem after_1 (c : Dev nD) (t : Fin cfg1.N) : (dat1 Vv c).after 1 t = iblk Vv c 1 t := by dsimp only [dat1]
theorem after_2 (c : Dev nD) (t : Fin cfg1.N) : (dat1 Vv c).after 2 t = iblk Vv c 2 t := by dsimp only [dat1]
theorem after_3 (c : Dev nD) (t : Fin cfg1.N) : (dat1 Vv c).after 3 t = iblk Vv c 3 t := by dsimp only [dat1]
theorem after_4 (c : Dev nD) (t : Fin cfg1.N) : (dat1 Vv c).after 4 t = iblk Vv c 4 t := by dsimp only [dat1]
theorem after_5 (c : Dev nD) (t : Fin cfg1.N) : (dat1 Vv c).after 5 t = iblk Vv c 5 t := by dsimp only [dat1]
theorem after_6 (c : Dev nD) (t : Fin cfg1.N) : (dat1 Vv c).after 6 t = iblk Vv c 6 t := by dsimp only [dat1]
theorem after_7 (c : Dev nD) (t : Fin cfg1.N) : (dat1 Vv c).after 7 t = outMem (iblk Vv c 1 t) (iblk Vv c 3 t) := by dsimp only [dat1]
theorem after_8 (c : Dev nD) (t : Fin cfg1.N) :
    (dat1 Vv c).after 8 t = outRead (iblk Vv c 1 t) (iblk Vv c 2 t) (iblk Vv c 3 t) (iblk Vv c 4 t) (iblk Vv c 5 t) (iblk Vv c 6 t) := by
  dsimp only [dat1]

end Cert.Proof.KI

end
-- ==== Proof.Region.lean ====
/-
  The TensorCore kernel region: the body's triple on whole staging buffers, the body obligation of the pipeline's
  proof data, and the step of the program's call line from the arrays held at the region's entry to the arrays
  held at its exit.
-/
import proofs.«209559_g37125697307438_cont_8to1_b_286_16_alg».proof.Proof.RegionData
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.SparseCore.Threads
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The stores cover each result's buffer -/

/-- The appended value memory's two stores — rows 0 … 199 and row 200 — cover its buffer. -/
theorem coverMem (p0 : Vec F S1x64x128 .f32) (p1 : Vec F S200x64x128 .f32) (y : S201x64x128.Idx) :
    ∃ pc ∈ ([⟨rNew, p0⟩, ⟨rOld, p1⟩] : List (View.Piece (Elt F) S201x64x128 .f32)), y ∈ pc.1.set := by
  have h0 : (y 0).val < 201 := (y 0).isLt
  have h1 : (y 1).val < 64 := (y 1).isLt
  have h2 : (y 2).val < 128 := (y 2).isLt
  by_cases h : (y 0).val < 200
  · refine ⟨⟨rOld, p1⟩, List.mem_cons_of_mem _ List.mem_cons_self, ?_⟩
    show y ∈ rOld.set
    refine Rect.mem_set_unit.mpr ?_
    refine Fin.forall_fin_succ.mpr ⟨⟨Nat.zero_le _, by show (y 0).val < 0 + 200; omega⟩,
      Fin.forall_fin_succ.mpr ⟨⟨Nat.zero_le _, by show (y 1).val < 0 + 64; omega⟩,
        Fin.forall_fin_succ.mpr ⟨⟨Nat.zero_le _, by show (y 2).val < 0 + 128; omega⟩, fun a => a.elim0⟩⟩⟩
  · refine ⟨⟨rNew, p0⟩, List.mem_cons_self, ?_⟩
    show y ∈ rNew.set
    refine Rect.mem_set_unit.mpr ?_
    refine Fin.forall_fin_succ.mpr ⟨⟨by show 200 ≤ (y 0).val; omega, by show (y 0).val < 200 + 1; omega⟩,
      Fin.forall_fin_succ.mpr ⟨⟨Nat.zero_le _, by show (y 1).val < 0 + 64; omega⟩,
        Fin.forall_fin_succ.mpr ⟨⟨Nat.zero_le _, by show (y 2).val < 0 + 128; omega⟩, fun a => a.elim0⟩⟩⟩

/-- The read's two stores — rows 0 … 63 and row 64 — cover its buffer. -/
theorem coverRead (p0 : Vec F S1x128 .f32) (p1 : Vec F S64x128 .f32) (y : S65x128.Idx) :
    ∃ pc ∈ ([⟨rReadC, p0⟩, ⟨rReadK, p1⟩] : List (View.Piece (Elt F) S65x128 .f32)), y ∈ pc.1.set := by
  have h0 : (y 0).val < 65 := (y 0).isLt
  have h1 : (y 1).val < 128 := (y 1).isLt
  by_cases h : (y 0).val < 64
  · refine ⟨⟨rReadK, p1⟩, List.mem_cons_of_mem _ List.mem_cons_self, ?_⟩
    show y ∈ rReadK.set
    refine Rect.mem_set_unit.mpr ?_
    refine Fin.forall_fin_succ.mpr ⟨⟨Nat.zero_le _, by show (y 0).val < 0 + 64; omega⟩,
      Fin.forall_fin_succ.mpr ⟨⟨Nat.zero_le _, by show (y 1).val < 0 + 128; omega⟩, fun a => a.elim0⟩⟩
  · refine ⟨⟨rReadC, p0⟩, List.mem_cons_self, ?_⟩
    show y ∈ rReadC.set
    refine Rect.mem_set_unit.mpr ?_
    refine Fin.forall_fin_succ.mpr ⟨⟨by show 64 ≤ (y 0).val; omega, by show (y 0).val < 64 + 1; omega⟩,
      Fin.forall_fin_succ.mpr ⟨⟨Nat.zero_le _, by show (y 1).val < 0 + 128; omega⟩, fun a => a.elim0⟩⟩

/-! ## The body's triple -/

set_option maxHeartbeats 4000000 in
/-- The kernel body on whole staging memrefs, the seven inputs' at read contents and the two results' at anything,
    runs to the continuation holding the inputs' as they were and the results' at `outMem` / `outRead` of the
    inputs'. -/
theorem sound_kernel (c : Dev nD) (E : Set ℕ) (i : grid1.Coords)
    (arg1 : Memref sig .tc .vmem S64x128 .f32) (harg1 : arg1.IsWhole) (arg2 : Memref sig .tc .vmem S64x128 .f32) (harg2 : arg2.IsWhole)
    (arg3 : Memref sig .tc .vmem S200x64x128 .f32) (harg3 : arg3.IsWhole) (arg4 : Memref sig .tc .vmem S200x64x128 .f32) (harg4 : arg4.IsWhole)
    (arg5 : Memref sig .tc .vmem S1x128 .f32) (harg5 : arg5.IsWhole) (arg6 : Memref sig .tc .vmem S1x128 .i32) (harg6 : arg6.IsWhole)
    (arg7 : Memref sig .tc .vmem S1x2 .f32) (harg7 : arg7.IsWhole) (arg8 : Memref sig .tc .vmem S201x64x128 .f32) (harg8 : arg8.IsWhole)
    (arg9 : Memref sig .tc .vmem S65x128 .f32) (harg9 : arg9.IsWhole)
    (x1 : Vec F S64x128 .f32) (x2 : Vec F S64x128 .f32) (x3 : Vec F S200x64x128 .f32) (x4 : Vec F S200x64x128 .f32)
    (x5 : Vec F S1x128 .f32) (x6 : Vec F S1x128 .i32) (x7 : Vec F S1x2 .f32) (Kc : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (outMem x2 x4)
            ∗ owns (c : Thread nD τ) arg9 fullShare (outRead x2 x3 x4 x5 x6 x7)) -∗ Kc ⟨⟩))
      ⊢ wp frame (wpE (defs₀ (F := F)) Variants.none c none) E
          (cc1__tc_body i arg1 harg1 arg2 harg2 arg3 harg3 arg4 harg4 arg5 harg5 arg6 harg6 arg7 harg7 arg8 harg8 arg9 harg9) Kc := by
  simp only [cc1__tc_body_eq_skeleton]; unfold cc1__tc_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverMem _ _)
  iexists _; isplitr
  swap; · iexact H9
  ipureintro
  exact View.read_writes_eq_canon _ _ _ (coverRead _ _)

/-! ## What the body finds in each input's buffer -/

-- core `c`'s TensorCore buffers as the region finds them
variable (Vv : (c : Dev nD) → (b : Ref sig .tc) → Buf (Elt F) ((c : Thread nD τ).loc b))

/-- Each input's current staging buffer holds its block at every point, fetched there or not: the body leaves the
    block in place, and where the pipeline does not fetch the block index has not moved. -/
theorem before_0 (c : Dev nD) (t : Fin cfg1.N) (d) : (dat1 Vv c).before 0 t d = iblk Vv c 0 t :=
  ((dat1 Vv c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat1 Vv c).before 1 t d = iblk Vv c 1 t :=
  ((dat1 Vv c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat1 Vv c).before 2 t d = iblk Vv c 2 t :=
  ((dat1 Vv c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat1 Vv c).before 3 t d = iblk Vv c 3 t :=
  ((dat1 Vv c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat1 Vv c).before 4 t d = iblk Vv c 4 t :=
  ((dat1 Vv c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat1 Vv c).before 5 t d = iblk Vv c 5 t :=
  ((dat1 Vv c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat1 Vv c).before 6 t d = iblk Vv c 6 t :=
  ((dat1 Vv c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat1 Vv c).Φ t.castSucc ∗ (dat1 Vv c).owesAt (none : HIx 1) t.castSucc
    ∗ (∃ d, owns (c : Thread nD τ) (st1_0 t) fullShare ((dat1 Vv c).before 0 t d))
    ∗ (∃ d, owns (c : Thread nD τ) (st1_1 t) fullShare ((dat1 Vv c).before 1 t d))
    ∗ (∃ d, owns (c : Thread nD τ) (st1_2 t) fullShare ((dat1 Vv c).before 2 t d))
    ∗ (∃ d, owns (c : Thread nD τ) (st1_3 t) fullShare ((dat1 Vv c).before 3 t d))
    ∗ (∃ d, owns (c : Thread nD τ) (st1_4 t) fullShare ((dat1 Vv c).before 4 t d))
    ∗ (∃ d, owns (c : Thread nD τ) (st1_5 t) fullShare ((dat1 Vv c).before 5 t d))
    ∗ (∃ d, owns (c : Thread nD τ) (st1_6 t) fullShare ((dat1 Vv c).before 6 t d))
    ∗ (∃ d, owns (c : Thread nD τ) (st1_7 t) fullShare ((dat1 Vv c).before 7 t d))
    ∗ (∃ d, owns (c : Thread nD τ) (st1_8 t) fullShare ((dat1 Vv c).before 8 t d)))

/-- and what it returns. -/
def bodyPost (c : Dev nD) (t : Fin cfg1.N) : sProp 𝕄 :=
  iprop((dat1 Vv c).Φ t.succ ∗ (dat1 Vv c).owesAt (none : HIx 1) t.succ
    ∗ owns (c : Thread nD τ) (st1_0 t) fullShare ((dat1 Vv c).after 0 t)
    ∗ owns (c : Thread nD τ) (st1_1 t) fullShare ((dat1 Vv c).after 1 t)
    ∗ owns (c : Thread nD τ) (st1_2 t) fullShare ((dat1 Vv c).after 2 t)
    ∗ owns (c : Thread nD τ) (st1_3 t) fullShare ((dat1 Vv c).after 3 t)
    ∗ owns (c : Thread nD τ) (st1_4 t) fullShare ((dat1 Vv c).after 4 t)
    ∗ owns (c : Thread nD τ) (st1_5 t) fullShare ((dat1 Vv c).after 5 t)
    ∗ owns (c : Thread nD τ) (st1_6 t) fullShare ((dat1 Vv c).after 6 t)
    ∗ owns (c : Thread nD τ) (st1_7 t) fullShare ((dat1 Vv c).after 7 t)
    ∗ owns (c : Thread nD τ) (st1_8 t) fullShare ((dat1 Vv c).after 8 t))

set_option maxHeartbeats 1000000 in
/-- The body at any point: the inputs' buffers hold their blocks, so the body's triple applies; the invariant and the
    core's `owes` pass through unread. -/
theorem sound_body (c : Dev nD) (t : Fin cfg1.N) :
    bodyPre Vv c t ⊢ wp frame (wpE (defs₀ (F := F)) Variants.none c none) Set.univ (bodyAt1 t) (fun _ => bodyPost Vv c t) := by
  unfold bodyPre bodyPost bodyAt1
  simp only [before_0, before_1, before_2, before_3, before_4, before_5, before_6]
  rw [show (dat1 Vv c).Φ t.succ = (dat1 Vv c).Φ t.castSucc from rfl,
    show (dat1 Vv c).owesAt (none : HIx 1) t.succ = (dat1 Vv c).owesAt (none : HIx 1) t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (iblk Vv c 0 t) (iblk Vv c 1 t) (iblk Vv c 2 t) (iblk Vv c 3 t) (iblk Vv c 4 t) (iblk Vv c 5 t) (iblk Vv c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) :
    BodyObligation (dat1 (F := F) Vv c) (defs₀ (F := F)) Variants.none (none : HIx 1) Set.univ := fun t => by
  rw [bigSep_W1, bigSep_W1]
  exact sound_body Vv c t

/-! ## The region as a segment of the program -/

open Idealize.ShloMosaic.SparseCore (T)

/-- The prefetched tables' admissible contents: the pipeline has no table. -/
abbrev adm : (p : Fin 1) → (pcfgs (F := F) p).Adm := fun p => (cfgs p).toPCfg_adm

-- the TensorCore's buffers on each device when the region is entered
variable (W1 : Dev nD → Valuation τ sig (Elt F))

/-- The same read at the TensorCore's references (what the region's proof data take). -/
abbrev Vv1 : (c : Dev nD) → (b : Ref sig .tc) → Buf (Elt F) ((c : Thread nD τ).loc b) := fun c b => W1 c b

/-- At the region's exit: its arrays at what the pipeline leaves (the inputs as entered, each result's write-backs
    folded), every other buffer as entered. -/
def W2 (c : Dev nD) : Valuation τ sig (Elt F) :=
  Pipeline.withArrays spec1 c (W1 c) fun w => (dat1 (Vv1 W1) c).arrAt w cfg1.N
theorem W2_arr (c : Dev nD) (w : Fin cfg1.W) :
    W2 W1 c (Proc.devRef .tc (Pipeline.arrRef spec1 w)) = (dat1 (Vv1 W1) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 W1 c (Proc.devRef .tc b) = W1 c (Proc.devRef .tc b) := by
  unfold W2; exact Pipeline.withArrays_of_ne spec1 c _ _ b hb
/-- The same read at the TensorCore's references. -/
abbrev Vv2 : (c : Dev nD) → (b : Ref sig .tc) → Buf (Elt F) ((c : Thread nD τ).loc b) := fun c b => W2 W1 c b
theorem hF1 (c : Dev nD) (w : Fin cfg1.W) : (dat1 (Vv1 W1) c).arrAt w cfg1.N = Vv2 W1 c (Pipeline.arrRef spec1 w) :=
  (W2_arr W1 c w).symm
theorem hrest1 (c : Dev nD) : ∀ b, b ∉ Finset.univ.image (Pipeline.arrRef spec1) → Vv2 W1 c b = Vv1 W1 c b :=
  fun b hb => W2_of_ne W1 c b fun w e => hb (Finset.mem_image.mpr ⟨w, Finset.mem_univ _, e⟩)

/-- The one pipeline's proof data, at the region's entry contents. -/
def pdats : (p : Fin 1) → (c : Dev nD) → Dat τ (Elt F) (HIx 1) ℕ UU ℕ (Pipeline.pin (pcfgs (F := F)) adm p) c :=
  fun _ c => dat1 (Vv1 W1) c

/-- What rides beside the buffers through the region: the generator register at some state and the core's `owes`,
    at nothing. -/
abbrev Rr (c : Dev nD) : sProp 𝕄 :=
  iprop((∃ r, prngReg c r) ∗ ∃ W, owes (c : Thread nD τ) (0 : CellTallies nD τ sig (HIx 1)) W)

set_option backward.isDefEq.respectTransparency.types false in
/-- The region over the thread state: entered from every unscoped buffer at `W1`, left at `W2`. Its arrays are split
    out of the unscoped buffers and put back at the exit contents; the generator register goes into the invariant and
    comes out; nothing is owed; the kernel has no semaphore of its own. -/
def reg : Pipeline.RegionSeg (pcfgs (F := F)) adm (pdats W1) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (Vv1 W1) c).loose
  hwaits := Pipeline.hwaits_of_owed_zero _ _ _ _ (K (F := F)).L (K (F := F)).lev 0 fun _ _ => rfl
  pre c := iprop(StableHlo.held (c : Thread nD τ) (Pipeline.ucRefs τ sig) (W1 c) ∗ Rr c)
  post c := iprop(StableHlo.held (c : Thread nD τ) (Pipeline.ucRefs τ sig) (W2 W1 c) ∗ Rr c)
  X c := iprop(∃ r, prngReg c r)
  Y c := iprop(∃ r, prngReg c r)
  Z c := Pipeline.unscopedRest (Ix := HIx 1) (Name := ℕ) (U := UU) (Lvl := ℕ) spec1 c (Vv1 W1 c)
  hentry c := by
    rw [Pipeline.ownSems0_none]
    have hsplit := Pipeline.arrays_of_unscopedBufs (p := 0) (pcfgs (F := F)) adm (pdats W1) launch1.win launch1.arr_whole c
      ((pdats W1 0 c).share_full fun _ => rfl) (Vv1 W1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W1 0 c).Φ 0 = ΦK c from rfl]; unfold ΦK
    iintro ⟨Hp, -, Hr⟩
    isplitl [Hr]; · iexact Hr
    iexact Hp
  hout c := by
    rw [Pipeline.ownSems0_none, show (pdats W1 0 c).Φ (Fin.last _) = ΦK c from rfl]; unfold ΦK
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats W1) ((pdats W1 0 c).share_full fun _ => rfl)
      (Vv1 W1 c) (Vv2 W1 c) ((pdats W1 0 c).arrAt · cfg1.N) (hF1 W1 c) (hrest1 W1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the region's step leaves on device `d`. -/
abbrev stepPost (d : Dev nD) : sProp 𝕄 :=
  iprop(boundary (T d) ∗ StableHlo.held (T d) (Pipeline.ucRefs τ sig) (W2 W1 d) ∗ (∃ r, prngReg d r)
    ∗ ∃ W, owes (T d) (0 : CellTallies nD τ sig (HIx 1)) W)

/-- and what it starts from. -/
abbrev stepPre (d : Dev nD) : sProp 𝕄 :=
  iprop(boundary (T d) ∗ StableHlo.held (T d) (Pipeline.ucRefs τ sig) (W1 d) ∗ (∃ r, prngReg d r)
    ∗ (∃ W, owes (T d) (0 : CellTallies nD τ sig (HIx 1)) W)
    ∗ levAts (K (F := F)).L (K (F := F)).lev ∗ Pipeline.cellsGhost cfgs EP 0 d ∗ Pipeline.toksInit cfgs EP 0 d)

set_option backward.isDefEq.respectTransparency.types false in
/-- The region's step in the pipeline's own signature, under the pipeline's body table. -/
theorem region_step₀ (d : Dev nD) :
    stepPre W1 d ⊢ wp frame (wpE (D (F := F)) 𝒱 (T d) none) Set.univ
      (.op (.customCall (Pipeline.entry 0) ()) Prog.ret) fun _ => stepPost W1 d := by
  refine BIBase.Entails.trans ?_ (Pipeline.RegionSeg.wp (pcfgs (F := F)) adm (pdats W1) (none : HIx 1) cellOf_inj EP defs₀ 𝒱₀
    (K (F := F)).L (K (F := F)).lev (reg W1) d none (fun u hu => by cases hu) Prog.ret _)
  rw [show (reg W1).pre d = iprop(StableHlo.held (d : Thread nD τ) (Pipeline.ucRefs τ sig) (W1 d) ∗ Rr d) from rfl,
    show (reg W1).post d = iprop(StableHlo.held (d : Thread nD τ) (Pipeline.ucRefs τ sig) (W2 W1 d) ∗ Rr d) from rfl]
  iintro ⟨Hb, Hh, Hp, Ho, Hl, Hc, Ht⟩
  isplitr
  · iintro ⟨Hb, Hh, Hp, Ho⟩
    rw [wp_ret]
    imodintro
    isplitl [Hb]; · iexact Hb
    isplitl [Hh]; · iexact Hh
    isplitl [Hp]; · iexact Hp
    iexact Ho
  isplitl [Hb]; · iexact Hb
  isplitl [Hh Hp Ho]
  · isplitl [Hh]; · iexact Hh
    isplitl [Hp]; · iexact Hp
    iexact Ho
  isplitl [Hl]; · iexact Hl
  isplitl [Hc]; · iexact Hc
  iexact Ht

/-- THE REGION'S STEP on device `d`: the program's call line, from the boundary, every unscoped buffer held at `W1 d`,
    the generator register, the core owing nothing, the level facts and the pipeline's ghost state, runs to the
    boundary, every unscoped buffer held at `W2 W1 d`, the generator register and the core owing nothing. -/
theorem region_step (d : Dev nD) :
    iprop(boundary (T d) ∗ StableHlo.held (T d) (Pipeline.ucRefs τ sig) (W1 d) ∗ (∃ r, prngReg d r)
        ∗ (∃ W, owes (T d) (0 : CellTallies nD τ sig (HIx 1)) W)
        ∗ levAts (K (F := F)).L (K (F := F)).lev ∗ Pipeline.cellsGhost cfgs EP 0 d ∗ Pipeline.toksInit cfgs EP 0 d)
      ⊢ wp frame (wpE ((K (F := F)).defs (D (F := F))) 𝒱 (T d) none) Set.univ
          (Prog.lift (.customCall (SparseCore.inner (Pipeline.entry 0)) ()))
          fun _ => (iprop(boundary (T d) ∗ StableHlo.held (T d) (Pipeline.ucRefs τ sig) (W2 W1 d) ∗ (∃ r, prngReg d r)
            ∗ ∃ W, owes (T d) (0 : CellTallies nD τ sig (HIx 1)) W) : sProp 𝕄) :=
  (region_step₀ W1 d).trans ((K (F := F)).wp_liftProg (D (F := F)) 𝒱 (T d) Set.univ none
    (.op (.customCall (Pipeline.entry 0) ()) Prog.ret) fun _ => stepPost W1 d)

end Cert.Proof.KI

end
-- ==== Proof.Main.lean ====
/-
  @main on the TensorCore: the host prefix, the SparseCore call, the TensorCore region and the host suffix, each
  stepped over the set of the TensorCore's unscoped buffers held whole at a valuation that is carried from line to
  line. The call lends the three arrays it moves — cut into the 32 workers' rows — and takes them back with the
  result holding the appended key memory; the region leaves its two results at what the pipeline computes.
-/
import proofs.«209559_g37125697307438_cont_8to1_b_286_16_alg».proof.Proof.Split
import proofs.«209559_g37125697307438_cont_8to1_b_286_16_alg».proof.Proof.MainOps
import proofs.«209559_g37125697307438_cont_8to1_b_286_16_alg».proof.Proof.Region
import Idealize.ShloMosaic.Lib.Pipeline.Frame
import Idealize.ShloMosaic.Lib.Pipeline.Regions

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The valuations -/

/-- The launch contents; after the host prefix. -/
def V0 (d : Dev nD) : Valuation τ sig (Elt F) := fun b => m (d, b)
def W1 (d : Dev nD) : Valuation τ sig (Elt F) := after (opsPre (F := F)) (V0 m d)

abbrev kR : DevRef τ sig := Proc.devRef .tc (main_v5 : Ref sig .tc)
abbrev nR : DevRef τ sig := Proc.devRef .tc (main_v3 : Ref sig .tc)
abbrev oR : DevRef τ sig := Proc.devRef .tc (main_v9 : Ref sig .tc)

/-- What the SparseCore call reads and finds in its result's buffer. -/
abbrev kvOf (d : Dev nD) : Buf (Elt F) (kLoc d) := W1 m d kR
abbrev nvOf (d : Dev nD) : Buf (Elt F) (nLoc d) := W1 m d nR
abbrev o0Of (d : Dev nD) : Buf (Elt F) (oLoc d) := W1 m d oR

/-- After the SparseCore call: its result at the appended key memory. -/
def W1' (d : Dev nD) : Valuation τ sig (Elt F) := Function.update (W1 m d) oR (outOf (kvOf m d) (nvOf m d))

abbrev PP : (K (F := F)).Pay (nD := nD) (Val := Elt F) (Name := ℕ) (U := UU) := P (kvOf m) (nvOf m) (o0Of m)

/-! ## The host lines' side conditions -/

theorem opsPre_sub : (opsPre (F := F)).Forall fun op => op.bufs ⊆ StableHlo.tcRefs τ sig :=
  ⟨StableHlo.reshape_bufs_sub .., StableHlo.binary_bufs_sub .., StableHlo.reshape_bufs_sub .., StableHlo.unary_bufs_sub .., StableHlo.unary_bufs_sub ..,
    StableHlo.unary_bufs_sub .., StableHlo.unary_bufs_sub .., StableHlo.unary_bufs_sub .., StableHlo.unary_bufs_sub ..⟩
theorem opsPre_fresh : (opsPre (F := F)).Forall fun op => op.fresh = ∅ := by
  simp only [List.Forall]; repeat' constructor
theorem opsPost_sub : (opsPost (F := F)).Forall fun op => op.bufs ⊆ StableHlo.tcRefs τ sig :=
  ⟨StableHlo.unary_bufs_sub .., StableHlo.unary_bufs_sub .., StableHlo.unary_bufs_sub ..⟩
theorem opsPost_fresh : (opsPost (F := F)).Forall fun op => op.fresh = ∅ := by
  simp only [List.Forall]; repeat' constructor

/-! ## The call's three arrays among the unscoped buffers -/

abbrev S3 : Finset (DevRef τ sig) := {kR, nR, oR}
theorem S3_sub : S3 ⊆ Pipeline.ucRefs τ sig := by decide

omit [FloatOps F] in
theorem held_S3 (d : Dev nD) (W : Valuation τ sig (Elt F)) :
    (held (T d) S3 W : sProp 𝕄) = iprop((kLoc d ↦{fullShare} W kR) ∗ (nLoc d ↦{fullShare} W nR) ∗ (oLoc d ↦{fullShare} W oR)) := by
  unfold held S3
  rw [SparseCore.bigSep_insert' (by decide), SparseCore.bigSep_insert' (by decide), bigSep_singleton]

theorem st0_eq (d : Dev nD) : (bigSep Finset.univ fun c : Fin ((K (F := F)).nCore 0) => (PP m).st 0 d c)
    = bigSep Finset.univ fun c : Fin 2 => bigSep Finset.univ fun i : Fin 16 => tileRes (kvOf m) (nvOf m) d (o0Of m d) (wid c.val i.val) := rfl
theorem dn0_eq (d : Dev nD) : (bigSep Finset.univ fun c : Fin ((K (F := F)).nCore 0) => (PP m).dn 0 d c)
    = bigSep Finset.univ fun c : Fin 2 => bigSep Finset.univ fun i : Fin 16 => tileRes (kvOf m) (nvOf m) d (outOf (kvOf m d) (nvOf m d)) (wid c.val i.val) := rfl

/-- The launch's unscoped buffers are that set held at the launch valuation. -/
theorem unscoped_held (d : Dev nD) :
    (unscopedBufs d (fun b => m ((SparseCore.T d).loc b)) : sProp 𝕄) = held (SparseCore.T d) (Pipeline.ucRefs τ sig) (V0 m d) :=
  Pipeline.unscopedBufs_held (Ix := HIx 1) (Name := ℕ) (U := UU) (Lvl := ℕ) d (V0 m d)

/-! ## The TensorCore's debt after the one call -/

theorem wbelow_all (d : Dev nD) (W : Waits sig (HIx 1)) : (K (F := F)).WBelow (T d) W (8 * 1) := by
  intro p _
  rcases hp : p.2 with _ | q
  · rw [SparseCore.Cfg.lev_none]; omega
  · have := (K (F := F)).lev_some_le (nD := nD) (T d, p.1) q
    have hq : q.val = 0 := by omega
    omega

theorem tcSt_owes (d : Dev nD) :
    (K (F := F)).tcSt EH d 1 ⊢ iprop((∃ W, owes (T d) (0 : CellTallies nD τ sig (HIx 1)) W)
      ∗ ((∃ W, owes (T d) (0 : CellTallies nD τ sig (HIx 1)) W) -∗ (K (F := F)).tcSt (Val := Elt F) (Name := ℕ) (U := UU) EH d 1)) := by
  unfold SparseCore.Cfg.tcSt
  rw [(K (F := F)).Otc_end d (le_refl 1)]
  iintro ⟨⟨%W, -, HO⟩, Hrest⟩
  isplitl [HO]; · iexists W; iexact HO
  iintro ⟨%W', HO'⟩
  isplitl [HO']
  · iexists W'; isplitr; · ipureintro; exact wbelow_all d W'
    iexact HO'
  iexact Hrest

/-! ## @main on the TensorCore -/

section HMain

/-- The pipeline's ghost state the launch deals the TensorCore for its one region. -/
abbrev Gd (d : Dev nD) : sProp 𝕄 := iprop(Pipeline.cellsGhost cfgs EP 0 d ∗ Pipeline.toksInit cfgs EP 0 d)

theorem W1'_k (d : Dev nD) : W1' m d kR = kvOf m d := Function.update_of_ne (show kR ≠ oR by decide) _ _
theorem W1'_n (d : Dev nD) : W1' m d nR = nvOf m d := Function.update_of_ne (show nR ≠ oR by decide) _ _
theorem W1'_o (d : Dev nD) : W1' m d oR = outOf (kvOf m d) (nvOf m d) := Function.update_self _ _ _

/-- The call's three arrays back, the result at the appended key memory, beside the other buffers: the whole set at `W1'`. -/
theorem held_after_call (d : Dev nD) :
    iprop(((kLoc d ↦{fullShare} kvOf m d) ∗ (nLoc d ↦{fullShare} nvOf m d) ∗ (oLoc d ↦{fullShare} outOf (kvOf m d) (nvOf m d)))
        ∗ held (SparseCore.T d) (Pipeline.ucRefs τ sig \ S3) (W1 m d))
      ⊢ (held (SparseCore.T d) (Pipeline.ucRefs τ sig) (W1' m d) : sProp 𝕄) := by
  rw [held_sub_split (SparseCore.T d) S3_sub (W1' m d), held_S3, W1'_k, W1'_n, W1'_o,
    held_congr (SparseCore.T d) (S := Pipeline.ucRefs τ sig \ S3) (V := W1' m d) (V' := W1 m d) fun b hb =>
      Function.update_of_ne (fun e => (Finset.mem_sdiff.mp hb).2 (by rw [e]; exact (by decide : (oR : DevRef τ sig) ∈ S3))) _ _]

/-- After the region and after the host suffix. -/
def W3 (d : Dev nD) : Valuation τ sig (Elt F) := after (opsPost (F := F)) (W2 (W1' m) d)

/-- What @main leaves the claim: every unscoped buffer at the last valuation. -/
abbrev FIN (d : Dev nD) : sProp 𝕄 := held (SparseCore.T d) (Pipeline.ucRefs τ sig) (W3 m d)

theorem hmain (κ : GSem nD τ sig → ℕ) (d : Dev nD) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  rw [main_split]
  unfold SparseCore.Cfg.tcRes
  rw [unscoped_held]
  iintro ⟨#Hctx, Hst, ⟨Hb, Hheld, -, Hprng⟩, ⟨Hcg, Htk⟩⟩
  -- the host prefix
  have hpre := StableHlo.wp_seq (defs := (K (F := F)).defs (D (F := F))) 𝒱 none Set.univ d (Pipeline.ucRefs τ sig)
    (fun _ => (K (F := F)).run d 0 >>= fun _ => Prog.lift (.customCall (SparseCore.inner (Pipeline.entry 0)) ()) >>= fun _ => seq (opsPost (F := F)))
    (K := fun _ => iprop((K (F := F)).tcSt EH d 1 ∗ FIN m d)) (opsPre (F := F))
    (fun op h => Pipeline.sub_ucRefs op ((List.forall_iff_forall_mem.mp opsPre_sub) op h))
    (fun op h => (List.forall_iff_forall_mem.mp opsPre_fresh) op h) (V0 m d)
  iapply hpre $$ [Hb Hheld]
  · isplitl [Hb] <;> iassumption
  iintro ⟨Hb, Hheld⟩
  -- the SparseCore call: its three arrays out of the set, cut among the workers
  ihave Hheld := (Entails.of_eq (show (held d.tc (Pipeline.ucRefs τ sig) (after (opsPre (F := F)) (V0 m d)) : sProp 𝕄)
    = held (SparseCore.T d) (Pipeline.ucRefs τ sig) (W1 m d) from rfl)) $$ Hheld
  ihave Hh := (Entails.of_eq (held_sub_split (SparseCore.T d) S3_sub (W1 m d))) $$ Hheld
  icases Hh with ⟨H3, Hrest⟩
  ihave H3' := (Entails.of_eq (held_S3 (F := F) d (W1 m d))) $$ H3
  ihave Hst0 := (tiles_split (kvOf m) (nvOf m) d (o0Of m d)) $$ H3'
  rw [wp_bind]
  iapply ((K (F := F)).wp_run (D (F := F)) 𝒱 (EH := EH) (P := PP m) κ d 0) $$ [Hst Hst0 Hb Hrest Hprng Hcg Htk]
  isplitr; · iexact Hctx
  isplitl [Hst]; · iexact Hst
  isplitl [Hst0]; · rw [st0_eq]; iexact Hst0
  iintro ⟨Hst, Hdn⟩
  ihave Hdn' := (Entails.of_eq (dn0_eq m d)) $$ Hdn
  ihave H3 := (tiles_join (kvOf m) (nvOf m) d (outOf (kvOf m d) (nvOf m d))) $$ Hdn'
  ihave Hheld := (held_after_call m d) $$ [H3 Hrest]
  · isplitl [H3] <;> iassumption
  -- the TensorCore region
  ihave Hst := (Entails.of_eq (show ((K (F := F)).tcSt (Val := Elt F) (Name := ℕ) (U := UU) EH d ((0 : Fin 1).val + 1) : sProp 𝕄)
    = (K (F := F)).tcSt EH d 1 from rfl)) $$ Hst
  ihave Ho := (tcSt_owes (F := F) d) $$ Hst
  icases Ho with ⟨Howes, Hback⟩
  ihave Hlev := (SparseCore.Cfg.ctx_levAts κ) $$ Hctx
  rw [wp_bind]
  iapply (wp_wand_r frame _ _)
  isplitl [Hb Hheld Hprng Howes Hlev Hcg Htk]
  · iapply (region_step (W1' m) d)
    isplitl [Hb]; · iexact Hb
    isplitl [Hheld]; · iexact Hheld
    isplitl [Hprng]; · iexists _; iexact Hprng
    isplitl [Howes]; · iexact Howes
    isplitl [Hlev]; · iexact Hlev
    isplitl [Hcg]; · iexact Hcg
    iexact Htk
  iintro %_ ⟨Hb, Hheld, -, Howes⟩
  -- the host suffix
  have hpost := StableHlo.wp_seq (defs := (K (F := F)).defs (D (F := F))) 𝒱 none Set.univ d (Pipeline.ucRefs τ sig)
    (fun u => (pure u : Prog (TpuEff nD τ sig (Elt F) (SparseCore.Sig (ΛP (F := F)) 1) .tc) PUnit))
    (K := fun _ => iprop((K (F := F)).tcSt EH d 1 ∗ FIN m d)) (opsPost (F := F))
    (fun op h => Pipeline.sub_ucRefs op ((List.forall_iff_forall_mem.mp opsPost_sub) op h))
    (fun op h => (List.forall_iff_forall_mem.mp opsPost_fresh) op h) (W2 (W1' m) d)
  rw [bind_pure] at hpost
  iapply hpost $$ [Hb Hheld]
  · isplitl [Hb] <;> iassumption
  iintro ⟨-, Hheld⟩
  rw [wp_pure]
  imodintro
  isplitl [Howes Hback]
  · iapply Hback; iexact Howes
  iexact Hheld

end HMain

end Cert.Proof.KI

end
-- ==== Proof.Launch.lean ====
/-
  The launch: the certificate's element of the ghost state funds the handshakes' rounds and the TensorCore
  pipeline's staging cells (the local transfers' counters are dropped: no schedule is needed for copies a thread
  waits for itself); a SparseCore's resources are its sixteen tasks' resources, so the split is the identity;
  the final memory is read off the last valuation. The launch theorem then gives the program's run: every weakly
  fair execution of all the threads terminates with every unscoped TensorCore buffer at the last valuation.
-/
import proofs.«209559_g37125697307438_cont_8to1_b_286_16_alg».proof.Proof.Main

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave HR' := (own_pair_emb embR _ _) $$ HR
  icases HR' with ⟨HP, -⟩
  have hfund := Pipeline.fund_ghost (nD := nD) (τ := τ) (Val := Elt F) (Ix := HIx 1) (Name := ℕ) (U := UU) (Lvl := ℕ) cfgs (EP (F := F)) cellOf_inj
  ihave HP := (Entails.of_eq (show (BI.own (((Emb.inl : Emb UP (UP × Counters)).trans embR)
      (initOf (Pipeline.cells (nD := nD) (τ := τ) cfgs cellOf_inj) (Pipeline.launchToks (nD := nD) (τ := τ) cfgs cellOf_inj))) : sProp 𝕄)
    = BI.own ((EP (F := F)) (initOf (Pipeline.cells (nD := nD) (τ := τ) cfgs cellOf_inj) (Pipeline.launchToks (nD := nD) (τ := τ) cfgs cellOf_inj))) from rfl)) $$ HP
  imod hfund $$ HP with ⟨Hg, Ht⟩
  imodintro
  isplitl [HH]; · iexact HH
  isplitl [Hg Ht]
  · unfold Gd
    rw [bigSep_sep']
    ihave Hg := (Entails.of_eq (show (bigSep Finset.univ fun c : Dev nD => bigSep Finset.univ fun p : Fin 1 => Pipeline.cellsGhost cfgs (EP (F := F)) p c : sProp 𝕄)
      = bigSep Finset.univ fun d : Dev nD => Pipeline.cellsGhost cfgs (EP (F := F)) 0 d from bigSep_congr fun d _ => bigSep_univ_of_subsingleton (0 : Fin 1))) $$ Hg
    ihave Ht := (Entails.of_eq (show (bigSep Finset.univ fun c : Dev nD => bigSep Finset.univ fun p : Fin 1 => Pipeline.toksInit cfgs (EP (F := F)) p c : sProp 𝕄)
      = bigSep Finset.univ fun d : Dev nD => Pipeline.toksInit cfgs (EP (F := F)) 0 d from bigSep_congr fun d _ => bigSep_univ_of_subsingleton (0 : Fin 1))) $$ Ht
    isplitl [Hg]
    · iexact Hg
    · iexact Ht
  · rw [show (bigSep Finset.univ fun thr : Thread nD τ => bigSep Finset.univ fun q : Fin 1 => (PP m).x q thr) = (iprop(emp) : sProp 𝕄) from by
      show (bigSep Finset.univ fun _ : Thread nD τ => bigSep Finset.univ fun _ : Fin 1 => (iprop(emp) : sProp 𝕄)) = _
      rw [bigSep_congr fun _ _ => bigSep_emp' _, bigSep_emp']]
    iempintro

/-! ## A SparseCore's resources are its tasks' -/

theorem vecSplit : (K (F := F)).VecSplit' (PP m) 0 := by
  intro d c
  show (bigSep Finset.univ fun i : Fin 16 => tileRes (kvOf m) (nvOf m) d (o0Of m d) (wid c.val i.val))
    ⊢ |={Set.univ}=> iprop((bigSep Finset.univ fun i : Fin 16 => tileRes (kvOf m) (nvOf m) d (o0Of m d) (wid c.val i.val))
      ∗ ((bigSep Finset.univ fun i : Fin 16 => tileRes (kvOf m) (nvOf m) d (outOf (kvOf m d) (nvOf m d)) (wid c.val i.val))
        -∗ bigSep Finset.univ fun i : Fin 16 => tileRes (kvOf m) (nvOf m) d (outOf (kvOf m d) (nvOf m d)) (wid c.val i.val)))
  iintro H; imodintro
  isplitl [H]; · iexact H
  iintro H; iexact H

/-! ## Reading the final memory -/

def fq (d : Dev nD) (s' : Phys nD τ sig (Elt F)) : Prop := ∀ b ∈ Pipeline.ucRefs τ sig, s'.mem.mem (d, b) = W3 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((SparseCore.T d).1, b)) (W3 m d) s') $$ [Hh HSI]
  · isplitl [Hh] <;> iassumption
  icases Hr with ⟨%h, -⟩
  ipureintro; exact h

/-! ## The program's run -/

def QC : PUnit × MemSt nD τ sig (Elt F) → Prop := fun r => ∀ c : Dev nD, ∀ b ∈ Pipeline.ucRefs τ sig, r.2.mem (c, b) = W3 m c b

theorem run_of [∀ e, Nonempty (Elt F e)] (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.Proof.KI

end
-- ==== Proof.Final.lean ====
/-
  The last valuation read at the program's arguments and results: no line of @main writes an argument, and each
  result is the transpose of what the kernels left — the appended key memory the SparseCore call copied, and the two
  arrays the TensorCore region's pipeline computed. With them the program's run is restated over the claim's
  buffers: the arguments end as launched and each result holds a named term of the arguments.
-/
import proofs.«209559_g37125697307438_cont_8to1_b_286_16_alg».proof.Proof.Launch

noncomputable section

namespace Cert.Proof.KI

open Cert.KernelIdeal Cert.KernelIdeal.Gen

open Idealize.ShloMosaic Idealize.ShloMosaic.TcCoe
open Idealize.ShloMosaic.SparseCore.Cfg (HIx)
open Idealize.SL.Sem
open Idealize.ShloMosaic.StableHlo (after)

variable {F : FTy → Type} [FloatOps F]

variable (m : (ℓ : Loc nD τ sig) → Buf (Elt F) ℓ) (ρ : Dev nD → PrngReg)

/-! ## What the host lines write -/

abbrev preW : List (Ref sig .tc) := [main_v0, main_v1, main_v2, main_v3, main_v4, main_v5, main_v6, main_v7, main_v8]
abbrev postW : List (Ref sig .tc) := [main_v11, main_v12, main_v13]

theorem opsPre_writes : (opsPre (F := F)).Forall fun op => op.writes ⊆ (preW.map (Proc.devRef (τ := τ) .tc)).toFinset := by
  simp only [List.Forall, StableHlo.unary_writes, StableHlo.binary_writes, StableHlo.reshape_writes, Finset.singleton_subset_iff, List.mem_toFinset]
  repeat' apply And.intro
  all_goals exact List.mem_map_of_mem (by decide)
theorem opsPost_writes : (opsPost (F := F)).Forall fun op => op.writes ⊆ (postW.map (Proc.devRef (τ := τ) .tc)).toFinset := by
  simp only [List.Forall, StableHlo.unary_writes, Finset.singleton_subset_iff, List.mem_toFinset]
  repeat' apply And.intro
  all_goals exact List.mem_map_of_mem (by decide)

/-! ## What each line leaves alone -/

theorem W1_of (d : Dev nD) (r : Ref sig .tc) (h : r ∉ preW) : W1 m d (Proc.devRef .tc r) = m ((d.tc : Thread nD τ).loc r) :=
  (StableHlo.after_of_writes_sub (opsPre (F := F)) _ opsPre_writes h).trans rfl
theorem W1'_of (d : Dev nD) (r : Ref sig .tc) (h9 : r ≠ main_v9) : W1' m d (Proc.devRef .tc r) = W1 m d (Proc.devRef .tc r) :=
  Function.update_of_ne (StableHlo.devRef_ne_of_ne h9) _ _
theorem W3_of (d : Dev nD) (r : Ref sig .tc) (h : r ∉ postW) : W3 m d (Proc.devRef .tc r) = W2 (W1' m) d (Proc.devRef .tc r) :=
  StableHlo.after_of_writes_sub (opsPost (F := F)) _ opsPost_writes h

/-- An argument ends as launched. -/
theorem W3_arg (d : Dev nD) (r : Ref sig .tc) (h1 : r ∉ preW) (h2 : r ∉ postW) (h9 : r ≠ main_v9) (hw : ∀ w, Pipeline.arrRef spec1 w ≠ r) :
    W3 m d (Proc.devRef .tc r) = m ((d.tc : Thread nD τ).loc r) :=
  (W3_of m d r h2).trans ((W2_of_ne (W1' m) d r hw).trans ((W1'_of m d r h9).trans (W1_of m d r h1)))

/-! ## The results: the transposes of what the kernels left -/

theorem W3_v11 (d : Dev nD) : W3 m d (Proc.devRef .tc main_v11)
    = transpose S4096x201x64 [2, 0, 1] (W2 (W1' m) d (Proc.devRef .tc main_v9)) Facts₀.transposes_S201x64x4096_S4096x201x64_2_0_1 := by
  unfold W3
  after_results
theorem W3_v12 (d : Dev nD) : W3 m d (Proc.devRef .tc main_v12)
    = transpose S4096x201x64 [2, 0, 1] (W2 (W1' m) d (Proc.devRef .tc main_v10_0)) Facts₀.transposes_S201x64x4096_S4096x201x64_2_0_1 := by
  unfold W3
  after_results
theorem W3_v13 (d : Dev nD) : W3 m d (Proc.devRef .tc main_v13)
    = transpose S4096x65 [1, 0] (W2 (W1' m) d (Proc.devRef .tc main_v10_1)) Facts₀.transposes_S65x4096_S4096x65_1_0 := by
  unfold W3
  after_results

/-- The SparseCore call's result survives the region. -/
theorem W2_v9 (d : Dev nD) : W2 (W1' m) d (Proc.devRef .tc main_v9) = outOf (kvOf m d) (nvOf m d) :=
  (W2_of_ne (W1' m) d main_v9 (by decide)).trans (W1'_o m d)

/-! ## The kernels' operands: the host prefix's transposes of the arguments -/

theorem W1_v2 (d : Dev nD) : W1 m d (Proc.devRef .tc main_v2)
    = shapeCast S1x2 (concatenate S2 0 [⟨S1, shapeCast S1 (m ((d.tc : Thread nD τ).loc main_arg6)) Facts₀.shapeCasts_S1x1_S1⟩, ⟨S1, m ((d.tc : Thread nD τ).loc main_arg7)⟩]
        Facts₀.concatenates_S1_S1_S2_d0) Facts₀.shapeCasts_S2_S1x2 := by
  unfold W1
  after_results
  rfl
theorem W1_v3 (d : Dev nD) : W1 m d (Proc.devRef .tc main_v3)
    = transpose S64x4096 [1, 0] (m ((d.tc : Thread nD τ).loc main_arg0)) Facts₀.transposes_S4096x64_S64x4096_1_0 := by
  unfold W1
  after_results
  rfl
theorem W1_v4 (d : Dev nD) : W1 m d (Proc.devRef .tc main_v4)
    = transpose S64x4096 [1, 0] (m ((d.tc : Thread nD τ).loc main_arg1)) Facts₀.transposes_S4096x64_S64x4096_1_0 := by
  unfold W1
  after_results
  rfl
theorem W1_v5 (d : Dev nD) : W1 m d (Proc.devRef .tc main_v5)
    = transpose S200x64x4096 [1, 2, 0] (m ((d.tc : Thread nD τ).loc main_arg2)) Facts₀.transposes_S4096x200x64_S200x64x4096_1_2_0 := by
  unfold W1
  after_results
  rfl
theorem W1_v6 (d : Dev nD) : W1 m d (Proc.devRef .tc main_v6)
    = transpose S200x64x4096 [1, 2, 0] (m ((d.tc : Thread nD τ).loc main_arg3)) Facts₀.transposes_S4096x200x64_S200x64x4096_1_2_0 := by
  unfold W1
  after_results
  rfl
theorem W1_v7 (d : Dev nD) : W1 m d (Proc.devRef .tc main_v7)
    = transpose S1x4096 [1, 0] (m ((d.tc : Thread nD τ).loc main_arg4)) Facts₀.transposes_S4096x1_S1x4096_1_0 := by
  unfold W1
  after_results
  rfl
theorem W1_v8 (d : Dev nD) : W1 m d (Proc.devRef .tc main_v8)
    = transpose S1x4096 [1, 0] (m ((d.tc : Thread nD τ).loc main_arg5)) Facts₀.transposes_S4096x1_S1x4096_1_0 := by
  unfold W1
  after_results
  rfl

/-! ## The run, over the claim's buffers -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of the program's threads terminates; the arguments end as launched and the three
    results hold the last valuation's contents. -/
theorem run_named [∀ e, Nonempty (Elt F e)] (htile : (K (F := F)).TileObl (D (F := F)) 𝒱 (PP m) v₀ 0) :
    θ_run (Cert.KernelIdeal.defs (F := F)) (Cert.KernelIdeal.threads (F := F)) ⟨m, fun _ => 0, ρ⟩ (fun r => ∀ c : Dev nD,
      r.2.mem ((c.tc : Thread nD τ).loc main_v11) = W3 m c (Proc.devRef .tc main_v11)
      ∧ r.2.mem ((c.tc : Thread nD τ).loc main_v12) = W3 m c (Proc.devRef .tc main_v12)
      ∧ r.2.mem ((c.tc : Thread nD τ).loc main_v13) = W3 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run Cert.KernelIdeal.defs _ _).mono (fun _ h c =>
    ⟨h c _ (mem_uc main_v11 (by decide)), h c _ (mem_uc main_v12 (by decide)), h c _ (mem_uc main_v13 (by decide)),
     (h c _ (mem_uc main_arg0 (by decide))).trans (W3_arg m c main_arg0 (by decide) (by decide) (by decide) (by decide)),
     (h c _ (mem_uc main_arg1 (by decide))).trans (W3_arg m c main_arg1 (by decide) (by decide) (by decide) (by decide)),
     (h c _ (mem_uc main_arg2 (by decide))).trans (W3_arg m c main_arg2 (by decide) (by decide) (by decide) (by decide)),
     (h c _ (mem_uc main_arg3 (by decide))).trans (W3_arg m c main_arg3 (by decide) (by decide) (by decide) (by decide)),
     (h c _ (mem_uc main_arg4 (by decide))).trans (W3_arg m c main_arg4 (by decide) (by decide) (by decide) (by decide)),
     (h c _ (mem_uc main_arg5 (by decide))).trans (W3_arg m c main_arg5 (by decide) (by decide) (by decide) (by decide)),
     (h c _ (mem_uc main_arg6 (by decide))).trans (W3_arg m c main_arg6 (by decide) (by decide) (by decide) (by decide)),
     (h c _ (mem_uc main_arg7 (by decide))).trans (W3_arg m c main_arg7 (by decide) (by decide) (by decide) (by decide))⟩)
    (run_of m ρ htile)

end Cert.Proof.KI

end
-- ==== Proof.Spec.lean ====
/-
  The mathematics of one batch element, on the extended reals, stated once and met by both programs.

  For one batch element the memory holds 200 slots; slot n carries a value row V n (64 numbers) and a key row.
  A slot is valid at iteration `it` when n ≤ it (as signed 32-bit words). The similarity of slot n to the new
  value row q is the inner product ∑ d, V n d · q d when the slot is valid and 0 otherwise. The attention weights
  are the softmax of the 200 similarities: exp (s n − max s) divided by the sum of those exponentials. A slot's
  confidence is the logistic function of the affine map s n · w + c of its similarity. The read of key column k is
  the weighted sum ∑ n, weight n · key n k; the read of the confidence column is ∑ n, weight n · confidence n.
  Both are scaled by the logistic function of the gate, and are zero unless 1 < it.
-/
import Idealize.ShloMosaic.PureOps.Ideal
import Mathlib.Algebra.BigOperators.Group.Finset.Basic

noncomputable section

namespace Cert.Proof.Spec

open Idealize.ShloMosaic

/-- Slot `n` is valid at iteration `it`: `n ≤ it` as signed 32-bit words. -/
def valid (it : BitVec 32) (n : Fin 200) : Bool := (BitVec.ofNat 32 n.val).sle it

/-- The similarity of slot `n`: its value row against the new value row when the slot is valid, else zero. -/
def sim (V : Fin 200 → Fin 64 → EReal) (q : Fin 64 → EReal) (it : BitVec 32) (n : Fin 200) : EReal :=
  if valid it n then ∑ d : Fin 64, V n d * q d else 0

/-- The largest of 200 extended reals (from the bottom element). -/
def smax (s : Fin 200 → EReal) : EReal := (Finset.univ : Finset (Fin 200)).fold max ⊥ s

/-- The shifted exponentials of a softmax, -/
def ex (s : Fin 200 → EReal) (n : Fin 200) : EReal := Ideal.exp (s n - smax s)

/-- and its weights. -/
def weight (s : Fin 200 → EReal) (n : Fin 200) : EReal := Ideal.div (ex s n) (∑ n' : Fin 200, ex s n')

/-- A slot's confidence: the logistic function of an affine map of its similarity. -/
def conf (s : Fin 200 → EReal) (w c : EReal) (n : Fin 200) : EReal := Ideal.logistic (s n * w + c)

/-- The gate's scale: its logistic value, and zero unless `1 < it` (signed). -/
def scale (g : EReal) (it : BitVec 32) : EReal := Ideal.logistic g * (if (1#32 : BitVec 32).slt it then 1 else 0)

/-- The read of one key column: the softmax-weighted sum of that column over the slots, scaled. -/
def readK (V : Fin 200 → Fin 64 → EReal) (q : Fin 64 → EReal) (key : Fin 200 → EReal) (g : EReal) (it : BitVec 32) : EReal :=
  (∑ n : Fin 200, weight (sim V q it) n * key n) * scale g it

/-- The read of the confidence column. -/
def readC (V : Fin 200 → Fin 64 → EReal) (q : Fin 64 → EReal) (w c g : EReal) (it : BitVec 32) : EReal :=
  (∑ n : Fin 200, weight (sim V q it) n * conf (sim V q it) w c n) * scale g it

end Cert.Proof.Spec

end
-- ==== Proof.KernelValue.lean ====
/-
  The kernel body's arithmetic, one lane at a time, is the specification's one batch element.

  The body works on a block of 128 lanes, one batch element per lane. In lane l the value-memory block is the
  200 × 64 matrix (n, d) ↦ x2 (n, d, l), the new-value block the row d ↦ x4 (d, l), the key-memory block the matrix
  (n, k) ↦ x0 (n, k, l); the iteration and the gate are the words x6 (0, l) and x42 (0, l); the two scalars of the
  confidence map are x8 (0, 0) and x10 (0, 0). Each payload of the body is read here at explicit coordinates.
  A cast to the same shape is the identity; a row broadcast down the slots, a slab broadcast down the slots and a
  slot column broadcast across the columns each read one element of their operand; a reduction over one axis is the
  sum — or, from the bottom element, the maximum — over that axis's coordinates; the pointwise operations are the
  extended reals'. So the masked similarity is `Spec.sim`, the normalised exponentials are `Spec.weight`, the gate
  factor is `Spec.scale`, and the two stored values are `Spec.readK` and `Spec.readC`, with no side condition.
-/
import proofs.«209559_g37125697307438_cont_8to1_b_286_16_alg».proof.Proof.Spec
import proofs.«209559_g37125697307438_cont_8to1_b_286_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KernelValue

open Idealize.ShloMosaic Idealize.ShloMosaic.ValueIdx Cert.KernelIdeal Cert.KernelIdeal.Gen
open Cert.Proof

variable {α : Type}

/-! ## Layout operations of the body read at coordinates -/

/-- A `[1, c, b]` array broadcast to `[a, c, b]` reads, at `(p, q, r)`, its one slab at `(q, r)`. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (r : Fin b) :
    broadcastTo ⟨3, ![a, c, b]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if c = 1 then 0 else q.val
    split
    · have := q.isLt; omega
    · rfl
  | ⟨2, _⟩ =>
    show r.val = if b = 1 then 0 else r.val
    split
    · have := r.isLt; omega
    · rfl

/-- An `[a, 1, b]` array broadcast to `[a, c, b]` reads, at `(p, q, r)`, the operand at `(p, 0, r)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (r : Fin b) :
    broadcastTo ⟨3, ![a, c, b]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if b = 1 then 0 else r.val
    split
    · have := r.isLt; omega
    · rfl

/-- An `[a, b]` array cast to `[a, 1, b]` reads, at `(p, u, r)`, the operand at `(p, r)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (r : Fin b) :
    shapeCast ⟨3, ![a, 1, b]⟩ x h (ix3 p u r) = x (ix2 p r) :=
  shapeCast_apply x h _ _ (by
    have hu : u.val = 0 := by omega
    rw [Shape.rowMajor_val_three, Shape.rowMajor_val_two]
    show p.val * b + r.val = (p.val * 1 + u.val) * b + r.val
    rw [hu, Nat.mul_one, Nat.add_zero])

/-! ## The inserted coordinate of each reduction of the body -/

/-- Summing the columns: the source index over `(n, l)` with column `d` is `(n, d, l)`. -/
theorem lift_col (h : S200x64x128.Reduces [1] S200x128) (n : Fin 200) (l : Fin 128) (d : Fin 64) :
    h.lift (ix2 n l) d = ix3 n d l := by
  funext c; apply Fin.ext
  match c with
  | ⟨0, _⟩ => rfl
  | ⟨1, _⟩ => rfl
  | ⟨2, _⟩ => rfl

/-- Reducing the slots of a `[200, 128]` vector: the source index over lane `l` with slot `n` is `(n, l)`. -/
theorem lift_slot (h : S200x128.Reduces [0] S128) (l : Fin 128) (n : Fin 200) :
    h.lift (ix1 l) n = ix2 n l := by
  funext c; apply Fin.ext
  match c with
  | ⟨0, _⟩ => rfl
  | ⟨1, _⟩ => rfl

/-- Summing the slots of a `[200, 64, 128]` vector: the source index over `(k, l)` with slot `n` is `(n, k, l)`. -/
theorem lift_slot3 (h : S200x64x128.Reduces [0] S64x128) (k : Fin 64) (l : Fin 128) (n : Fin 200) :
    h.lift (ix2 k l) n = ix3 n k l := by
  funext c; apply Fin.ext
  match c with
  | ⟨0, _⟩ => rfl
  | ⟨1, _⟩ => rfl
  | ⟨2, _⟩ => rfl

/-! ## Words -/

/-- A one-bit word widened and read as a signed integer, as an extended real: one or zero. -/
theorem bit_to_ereal (b : Bool) :
    ((((BitVec.ofBool b).setWidth 32).toInt : ℝ) : EReal) = if b then 1 else 0 := by
  cases b
  · show (((0 : ℤ) : ℝ) : EReal) = 0
    simp
  · show (((1 : ℤ) : ℝ) : EReal) = 1
    simp

/-- A select on a decided comparison is the `if` on it. -/
theorem select_ofBool {β : Type} (b : Bool) (x y : β) : Scalar.select (BitVec.ofBool b) x y = if b then x else y := by
  cases b
  · exact select_zero x y
  · exact select_one x y

/-- The word of `-∞` is the bottom element. -/
theorem ofBits_neg_inf : Ideal.ofBits .f32 0xFF800000#32 = ⊥ := by simp [Ideal.ofBits, Ideal.ieee]

/-! ## A reduction over the slots of a `[200, 128]` vector, broadcast back or kept as a row -/

/-- The slots' maximum in each lane, as a row broadcast down the slots: from the bottom element, the largest of the
    lane's 200 entries. -/
theorem slotMax_apply (s : FVec Ideal S200x128 .f32)
    (hφ : FKind.Formats .f32) (hacc : (0xFF800000#32 : BitVec 32) = 0xFF800000#32) (n : Fin 200) (l : Fin 128) :
    broadcastTo S200x128 (shapeCast S1x128
        (multiReduction (F := Ideal) .maximumf [0] S128 s 0xFF800000#32 reduces_S200x128_S128 hφ hacc) shapeCasts_S128_S1x128)
      broadcasts_S1x128_S200x128 (ix2 n l)
      = (Finset.univ : Finset (Fin 200)).fold max ⊥ (fun n' => s (ix2 n' l)) := by
  rw [broadcastTo_1b_ab_apply, shapeCast_a_1a_apply]
  refine (Ideal.multiReduction_maximumf_single s _ reduces_S200x128_S128 hφ hacc (ix1 l)).trans ?_
  rw [show FloatOps.ofBits (F := Ideal) .f32 0xFF800000#32 = (⊥ : EReal) from ofBits_neg_inf]
  refine Finset.fold_congr fun (n' : Fin 200) _ => ?_
  show s (reduces_S200x128_S128.lift (ix1 l) n') = s (ix2 n' l)
  rw [lift_slot]

/-- The slots' sum in each lane, as a row: the sum of the lane's 200 entries. -/
theorem slotSum_row_apply (e : FVec Ideal S200x128 .f32)
    (hφ : FKind.Formats .f32) (hacc : (0x00000000#32 : BitVec 32) = 0x00000000#32) (l : Fin 128) :
    shapeCast S1x128 (multiReduction (F := Ideal) .add [0] S128 e 0x00000000#32 reduces_S200x128_S128 hφ hacc) shapeCasts_S128_S1x128
      (ix2 (0 : Fin 1) l) = ∑ n' : Fin 200, e (ix2 n' l) := by
  rw [shapeCast_a_1a_apply]
  refine (Ideal.multiReduction_add_single e _ reduces_S200x128_S128 hφ hacc (ix1 l)).trans ?_
  refine Finset.sum_congr rfl fun (n' : Fin 200) _ => ?_
  show e (reduces_S200x128_S128.lift (ix1 l) n') = e (ix2 n' l)
  rw [lift_slot]

/-- That row broadcast down the slots. -/
theorem slotSum_apply (e : FVec Ideal S200x128 .f32)
    (hφ : FKind.Formats .f32) (hacc : (0x00000000#32 : BitVec 32) = 0x00000000#32) (n : Fin 200) (l : Fin 128) :
    broadcastTo S200x128 (shapeCast S1x128
        (multiReduction (F := Ideal) .add [0] S128 e 0x00000000#32 reduces_S200x128_S128 hφ hacc) shapeCasts_S128_S1x128)
      broadcasts_S1x128_S200x128 (ix2 n l) = ∑ n' : Fin 200, e (ix2 n' l) := by
  rw [broadcastTo_1b_ab_apply, slotSum_row_apply]

/-! ## The payloads at coordinates -/

section Payloads
variable (x0 x2 : Vec Ideal S200x64x128 .f32) (x4 : Vec Ideal S64x128 .f32) (x6 : Vec Ideal S1x128 .i32)
  (x8 x10 : Vec Ideal S1x1 .f32) (x42 : Vec Ideal S1x128 .f32)

/-- The gate factor of lane `l`: the logistic value of its gate, times one when its iteration exceeds 1 and zero
    otherwise. -/
theorem pay1_apply (l : Fin 128) :
    k1_pay1 (F := Ideal) (k1_pay7 x6) x42 (ix2 0 l) = Spec.scale (x42 (ix2 0 l)) (x6 (ix2 0 l)) := by
  unfold k1_pay1 k1_pay7
  simp only [shapeCast_self]
  show Ideal.logistic (x42 (ix2 0 l))
      * ((((BitVec.ofBool ((1#32 : BitVec 32).slt (x6 (ix2 0 l)))).setWidth 32).toInt : ℝ) : EReal) = _
  rw [bit_to_ereal]
  rfl

/-- The masked similarity of slot `n` in lane `l`. -/
theorem pay8_apply (n : Fin 200) (l : Fin 128) :
    k1_pay8 (F := Ideal) x2 x4 x6 (ix2 n l)
      = Spec.sim (fun n d => x2 (ix3 n d l)) (fun d => x4 (ix2 d l)) (x6 (ix2 0 l)) n := by
  unfold k1_pay8 k1_pay7 k1_pay6 k1_pay5
  simp only [shapeCast_self]
  rw [select_apply]
  have hs : multiReduction (F := Ideal) .add [1] S200x128
        (mulf x2 (broadcastTo S200x64x128 (shapeCast S1x64x128 x4 shapeCasts_S64x128_S1x64x128)
          broadcasts_S1x64x128_S200x64x128))
        0x00000000#32 reduces_S200x64x128_S200x128 (.inl rfl) rfl (ix2 n l)
      = ∑ d : Fin 64, x2 (ix3 n d l) * x4 (ix2 d l) := by
    refine (Ideal.multiReduction_add_single _ _ reduces_S200x64x128_S200x128 _ _ (ix2 n l)).trans ?_
    refine Finset.sum_congr rfl fun (d : Fin 64) _ => ?_
    rw [lift_col, mulf_apply, broadcastTo_1cb_acb_apply, shapeCast_ab_1ab_apply]
  rw [hs]
  show Scalar.select (BitVec.ofBool ((iota .tc S200x128 32 [0] iota_S200x128_d0_w32 (ix2 n l)).sle
      (broadcastTo S200x128 x6 broadcasts_S1x128_S200x128 (ix2 n l)))) _ (Ideal.ofBits .f32 0x00000000#32) = _
  rw [iota_single_apply, broadcastTo_1b_ab_apply, select_ofBool, Ideal.ofBits_zero_f32]
  rfl

/-- The softmax weight of slot `n` in lane `l`. -/
theorem pay9_apply (n : Fin 200) (l : Fin 128) :
    k1_pay9 (F := Ideal) x2 x4 x6 (ix2 n l)
      = Spec.weight (Spec.sim (fun n d => x2 (ix3 n d l)) (fun d => x4 (ix2 d l)) (x6 (ix2 0 l))) n := by
  -- the shifted exponential of each slot
  have he : ∀ n' : Fin 200,
      exp (subf (k1_pay8 (F := Ideal) x2 x4 x6) (broadcastTo S200x128 (shapeCast S1x128
          (multiReduction (F := Ideal) .maximumf [0] S128 (k1_pay8 (F := Ideal) x2 x4 x6) 0xFF800000#32 reduces_S200x128_S128 (.inl rfl) rfl)
          shapeCasts_S128_S1x128) broadcasts_S1x128_S200x128)) (ix2 n' l)
        = Spec.ex (Spec.sim (fun n d => x2 (ix3 n d l)) (fun d => x4 (ix2 d l)) (x6 (ix2 0 l))) n' := by
    intro n'
    show Ideal.exp (k1_pay8 (F := Ideal) x2 x4 x6 (ix2 n' l) - broadcastTo S200x128 _ broadcasts_S1x128_S200x128 (ix2 n' l)) = _
    rw [slotMax_apply, pay8_apply]
    unfold Spec.ex Spec.smax
    refine congrArg (fun m => Ideal.exp (_ - m)) (Finset.fold_congr fun n'' _ => ?_)
    exact pay8_apply x2 x4 x6 n'' l
  unfold k1_pay9
  simp only []
  rw [divf_apply, slotSum_apply, he]
  unfold Spec.weight
  refine congrArg (Ideal.div _) (Finset.sum_congr rfl fun n' _ => he n')

/-- The read of key column `k` in lane `l`, before the gate. -/
theorem pay10_apply (k : Fin 64) (l : Fin 128) :
    k1_pay10 (F := Ideal) x0 x2 x4 x6 (ix2 k l)
      = ∑ n : Fin 200, Spec.weight (Spec.sim (fun n d => x2 (ix3 n d l)) (fun d => x4 (ix2 d l)) (x6 (ix2 0 l))) n
          * x0 (ix3 n k l) := by
  unfold k1_pay10
  simp only [shapeCast_self]
  refine (Ideal.multiReduction_add_single _ _ reduces_S200x64x128_S64x128 _ _ (ix2 k l)).trans ?_
  refine Finset.sum_congr rfl fun (n : Fin 200) _ => ?_
  rw [lift_slot3, mulf_apply, broadcastTo_a1b_acb_apply, shapeCast_ab_a1b_apply, pay9_apply]

/-- The weighted confidence of slot `n` in lane `l`. -/
theorem pay11_apply (n : Fin 200) (l : Fin 128) :
    k1_pay11 (F := Ideal) x2 x4 x6 x8 x10 (ix2 n l)
      = Spec.weight (Spec.sim (fun n d => x2 (ix3 n d l)) (fun d => x4 (ix2 d l)) (x6 (ix2 0 l))) n
          * Spec.conf (Spec.sim (fun n d => x2 (ix3 n d l)) (fun d => x4 (ix2 d l)) (x6 (ix2 0 l)))
              (x8 (ix2 0 0)) (x10 (ix2 0 0)) n := by
  have h8 : extractAt ![0, 0] x8 inpos_S1x1_p0_0 = x8 (ix2 0 0) :=
    congrArg x8 (funext fun a => Fin.ext (by match a with | ⟨0, _⟩ => rfl | ⟨1, _⟩ => rfl))
  have h10 : extractAt ![0, 0] x10 inpos_S1x1_p0_0 = x10 (ix2 0 0) :=
    congrArg x10 (funext fun a => Fin.ext (by match a with | ⟨0, _⟩ => rfl | ⟨1, _⟩ => rfl))
  unfold k1_pay11
  rw [mulf_apply, pay9_apply, h8, h10]
  show _ * Ideal.logistic (k1_pay8 (F := Ideal) x2 x4 x6 (ix2 n l) * x8 (ix2 0 0) + x10 (ix2 0 0)) = _
  rw [pay8_apply]
  rfl

/-- THE KEY COLUMNS: what the body stores in row `k` of the read block, lane `l`. -/
theorem pay2_apply (k : Fin 64) (l : Fin 128) :
    k1_pay2 (F := Ideal) (k1_pay7 x6) (k1_pay10 x0 x2 x4 x6) x42 (ix2 k l)
      = Spec.readK (fun n d => x2 (ix3 n d l)) (fun d => x4 (ix2 d l)) (fun n => x0 (ix3 n k l)) (x42 (ix2 0 l)) (x6 (ix2 0 l)) := by
  unfold k1_pay2
  rw [mulf_apply, broadcastTo_1b_ab_apply, pay1_apply, pay10_apply]
  rfl

/-- THE CONFIDENCE ROW: what the body stores in row 64 of the read block, lane `l`. -/
theorem pay3_apply (l : Fin 128) :
    k1_pay3 (F := Ideal) (k1_pay7 x6) (k1_pay11 x2 x4 x6 x8 x10) x42 (ix2 0 l)
      = Spec.readC (fun n d => x2 (ix3 n d l)) (fun d => x4 (ix2 d l)) (x8 (ix2 0 0)) (x10 (ix2 0 0)) (x42 (ix2 0 l)) (x6 (ix2 0 l)) := by
  unfold k1_pay3
  rw [mulf_apply, slotSum_row_apply, pay1_apply]
  unfold Spec.readC
  refine congrArg (· * _) (Finset.sum_congr rfl fun n _ => pay11_apply x2 x4 x6 x8 x10 n l)

end Payloads

end Cert.Proof.KernelValue

end
-- ==== Proof.RegionValue.lean ====
/-
  From blocks to the array, for the TensorCore region: what the region's two result arrays hold after all 32 grid
  points, as whole-array functions of the arrays the region found.

  Point t handles lanes (batch elements) 128·t … 128·t + 127: every window but the scalars' has block index t on its
  last axis and 0 on the others, so an element of a block at lane l sits in its array at lane 128·t + l, and the point
  whose block covers lane b is b / 128. An input window's array is never written. The appended value memory's buffer
  after the body at a point holds the value-memory block in rows 0 … 199 and the new-value block in row 200, so the
  array ends with the value memory in rows 0 … 199 and the new value in row 200. The read's buffer holds in rows
  0 … 63 the gated attention read of the key columns and in row 64 that of the confidences, lane by lane the
  specification's one batch element of the lane's columns of the arrays; so does the array.
-/
import proofs.«209559_g37125697307438_cont_8to1_b_286_16_alg».proof.Proof.RegionData
import proofs.«209559_g37125697307438_cont_8to1_b_286_16_alg».proof.Proof.Spec
import proofs.«209559_g37125697307438_cont_8to1_b_286_16_alg».proof.Proof.KernelValue
import Idealize.ShloMosaic.Lib.ValueIdx
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.Sem
open Idealize.ShloMosaic.Pipeline (Dat Cfg Window)

variable {F : FTy → Type} [FloatOps F]

variable (Vv : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- An input window's array ends as the region found it. -/
theorem arr_in (c : Dev nD) (w : Fin cfg1.W) (hw : w.val < 7) :
    (dat1 Vv c).arrAt w cfg1.N = Vv c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨n + 7, _⟩, h => exact absurd h (by simp)
  rw [(dat1 Vv c).arrAt_in w hin cfg1.N, A_eq]

section TwoStores
variable {Val : EltTy → Type} [∀ e, Nonempty (Val e)] {S : Shape} {e : EltTy}

/-- Two stores: under the last one the buffer holds its payload; -/
theorem canon_two_last (r₁ r₂ : Rect S) (w₁ : r₁.shape.Idx → Val e) (w₂ : r₂.shape.Idx → Val e) (x : r₁.shape.Idx) :
    View.canon [(⟨r₁, w₁⟩ : View.Piece Val S e), ⟨r₂, w₂⟩] (r₁.emb x) = w₁ x :=
  View.canon_cons_emb r₁ w₁ _ x

/-- under the first one, off the last, the first's payload. -/
theorem canon_two_first (r₁ r₂ : Rect S) (w₁ : r₁.shape.Idx → Val e) (w₂ : r₂.shape.Idx → Val e) (x : r₂.shape.Idx)
    (h : r₂.emb x ∉ r₁.set) :
    View.canon [(⟨r₁, w₁⟩ : View.Piece Val S e), ⟨r₂, w₂⟩] (r₂.emb x) = w₂ x := by
  rw [View.canon_cons_of_not_mem (⟨r₁, w₁⟩ : View.Piece Val S e) [⟨r₂, w₂⟩] h]
  exact View.canon_cons_emb r₂ w₂ [] x

end TwoStores

/-- The appended value memory's buffer after the body, read at coordinates. -/
theorem outMem_apply (xNv : Vec F S64x128 .f32) (xVm : Vec F S200x64x128 .f32) (n : Fin 201) (k : Fin 64) (l : Fin 128) :
    outMem xNv xVm (ix3 n k l) = if h : n.val < 200 then xVm (ix3 ⟨n.val, h⟩ k l) else xNv (ix2 k l) := by
  unfold outMem
  split
  · next h =>
    have hemb : (ix3 n k l : S201x64x128.Idx) = rOld.emb (ix3 (⟨n.val, h⟩ : Fin 200) k l : S200x64x128.Idx) := by
      funext a; apply Fin.ext
      rw [Rect.emb_apply]
      match a with
      | ⟨0, _⟩ => show n.val = 0 + 1 * n.val; omega
      | ⟨1, _⟩ => show k.val = 0 + 1 * k.val; omega
      | ⟨2, _⟩ => show l.val = 0 + 1 * l.val; omega
    have hnot : rOld.emb (ix3 (⟨n.val, h⟩ : Fin 200) k l : S200x64x128.Idx) ∉ rNew.set := by
      rw [← hemb, Rect.mem_set_unit]
      intro hm
      have h0 : 200 ≤ n.val := (hm 0).1
      omega
    rw [hemb]
    refine (canon_two_first rNew rOld _ _ _ hnot).trans ?_
    unfold k1_pay5
    rw [shapeCast_self, View.ld_unit_zero hz3]
  · next h =>
    have hn : n.val = 200 := by have := n.isLt; omega
    have hemb : (ix3 n k l : S201x64x128.Idx) = rNew.emb (ix3 (0 : Fin 1) k l : S1x64x128.Idx) := by
      funext a; apply Fin.ext
      rw [Rect.emb_apply]
      match a with
      | ⟨0, _⟩ => show n.val = 200 + 1 * 0; omega
      | ⟨1, _⟩ => show k.val = 0 + 1 * k.val; omega
      | ⟨2, _⟩ => show l.val = 0 + 1 * l.val; omega
    rw [hemb]
    refine (canon_two_last rNew rOld _ _ _).trans ?_
    unfold k1_pay4 k1_pay6
    rw [shapeCast_self, View.ld_unit_zero hz2]
    refine shapeCast_apply _ _ _ (ix2 k l) ?_
    rw [Shape.rowMajor_val_three, Shape.rowMajor_val_two]
    show k.val * 128 + l.val = (0 * 64 + k.val) * 128 + l.val
    omega

/-! ## The index maps, decided over the grid: every window but the scalars' moves along the last axis with the point -/

theorem idx1 : ∀ t : Fin cfg1.N, win1_1.index t (0 : Fin 2) = 0 ∧ win1_1.index t (1 : Fin 2) = t.val :=
  (by decide +kernel : ∀ t : Fin grid1.N, _)
theorem idx2 : ∀ t : Fin cfg1.N, win1_2.index t (0 : Fin 3) = 0 ∧ win1_2.index t (1 : Fin 3) = 0 ∧ win1_2.index t (2 : Fin 3) = t.val :=
  (by decide +kernel : ∀ t : Fin grid1.N, _)
theorem idx3 : ∀ t : Fin cfg1.N, win1_3.index t (0 : Fin 3) = 0 ∧ win1_3.index t (1 : Fin 3) = 0 ∧ win1_3.index t (2 : Fin 3) = t.val :=
  (by decide +kernel : ∀ t : Fin grid1.N, _)
theorem idx4 : ∀ t : Fin cfg1.N, win1_4.index t (0 : Fin 2) = 0 ∧ win1_4.index t (1 : Fin 2) = t.val :=
  (by decide +kernel : ∀ t : Fin grid1.N, _)
theorem idx5 : ∀ t : Fin cfg1.N, win1_5.index t (0 : Fin 2) = 0 ∧ win1_5.index t (1 : Fin 2) = t.val :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 3) = 0 ∧ win1_7.index t (1 : Fin 3) = 0 ∧ win1_7.index t (2 : Fin 3) = t.val :=
  (by decide +kernel : ∀ t : Fin grid1.N, _)
theorem idx8 : ∀ t : Fin cfg1.N, win1_8.index t (0 : Fin 2) = 0 ∧ win1_8.index t (1 : Fin 2) = t.val :=
  (by decide +kernel : ∀ t : Fin grid1.N, _)

theorem lt32 (t : Fin cfg1.N) : t.val < 32 := Nat.lt_of_lt_of_eq t.isLt N_1

/-! ## The input blocks, read off their arrays: lane `l` of point `t`'s block is lane `128 t + l` of the array -/

theorem iblk1_apply (c : Dev nD) (t : Fin cfg1.N) (x : S64x128.Idx) (i : S64x4096.Idx)
    (h0 : (i 0).val = (x 0).val) (h1 : (i 1).val = 128 * t.val + (x 1).val) :
    (iblk Vv c 1 t : Vec F S64x128 .f32) x = (Vv c main_v4 : S64x4096.Idx → Elt F .f32) i := by
  obtain ⟨e0, e1⟩ := idx1 t
  unfold iblk
  rw [View.read_apply]
  show Vv c main_v4 _ = Vv c main_v4 _
  congr 1
  funext a; apply Fin.ext
  match a with
  | ⟨0, _⟩ => show win1_1.index t (0 : Fin 2) * 64 + 1 * (x 0).val = (i 0).val; rw [e0, h0]; omega
  | ⟨1, _⟩ => show win1_1.index t (1 : Fin 2) * 128 + 1 * (x 1).val = (i 1).val; rw [e1, h1]; omega

theorem iblk3_apply (c : Dev nD) (t : Fin cfg1.N) (x : S200x64x128.Idx) (i : S200x64x4096.Idx)
    (h0 : (i 0).val = (x 0).val) (h1 : (i 1).val = (x 1).val) (h2 : (i 2).val = 128 * t.val + (x 2).val) :
    (iblk Vv c 3 t : Vec F S200x64x128 .f32) x = (Vv c main_v6 : S200x64x4096.Idx → Elt F .f32) i := by
  obtain ⟨e0, e1, e2⟩ := idx3 t
  unfold iblk
  rw [View.read_apply]
  show Vv c main_v6 _ = Vv c main_v6 _
  congr 1
  funext a; apply Fin.ext
  match a with
  | ⟨0, _⟩ => show win1_3.index t (0 : Fin 3) * 200 + 1 * (x 0).val = (i 0).val; rw [e0, h0]; omega
  | ⟨1, _⟩ => show win1_3.index t (1 : Fin 3) * 64 + 1 * (x 1).val = (i 1).val; rw [e1, h1]; omega
  | ⟨2, _⟩ => show win1_3.index t (2 : Fin 3) * 128 + 1 * (x 2).val = (i 2).val; rw [e2, h2]; omega

/-! ## The appended value memory: rows 0 … 199 the value memory, row 200 the new value -/

/-- The appended value memory as one function of the arrays the region found. -/
def Gmem (c : Dev nD) : S201x64x4096.Idx → Elt F .f32 := fun i =>
  if h : (i 0).val < 200 then (Vv c main_v6 : S200x64x4096.Idx → Elt F .f32) (ix3 ⟨(i 0).val, h⟩ (i 1) (i 2))
  else (Vv c main_v4 : S64x4096.Idx → Elt F .f32) (ix2 (i 1) (i 2))

/-- Where an element of point `t`'s block of the appended value memory sits in the array. -/
theorem blk7_emb (t : Fin cfg1.N) (n : Fin 201) (k : Fin 64) (l : Fin 128) (hb : 128 * t.val + l.val < 4096) :
    ((cfg1.win 7).blk t).view.emb (ix3 n k l : S201x64x128.Idx) = (ix3 n k (⟨128 * t.val + l.val, hb⟩ : Fin 4096) : S201x64x4096.Idx) := by
  obtain ⟨e0, e1, e2⟩ := idx7 t
  funext a; apply Fin.ext
  match a with
  | ⟨0, _⟩ => show win1_7.index t (0 : Fin 3) * 201 + 1 * n.val = n.val; rw [e0]; omega
  | ⟨1, _⟩ => show win1_7.index t (1 : Fin 3) * 64 + 1 * k.val = k.val; rw [e1]; omega
  | ⟨2, _⟩ => show win1_7.index t (2 : Fin 3) * 128 + 1 * l.val = 128 * t.val + l.val; rw [e2]; omega

/-- The body's stores at point `t`, read at an index of the block, are `Gmem` where the block's index sits in the array. -/
theorem flushed7_apply (c : Dev nD) (t : Fin cfg1.N) (j : S201x64x128.Idx) :
    outMem (iblk Vv c 1 t) (iblk Vv c 3 t) j = Gmem Vv c (((cfg1.win 7).blk t).view.emb j) := by
  obtain ⟨n, k, l, rfl⟩ : ∃ (n : Fin 201) (k : Fin 64) (l : Fin 128), j = ix3 n k l := ⟨j 0, j 1, j 2, eq_ix3 j⟩
  have ht := lt32 t
  have hl : l.val < 128 := l.isLt
  have hb : 128 * t.val + l.val < 4096 := by omega
  rw [blk7_emb t n k l hb]
  refine (outMem_apply (iblk Vv c 1 t) (iblk Vv c 3 t) n k l).trans ?_
  show _ = if h : n.val < 200 then (Vv c main_v6 : S200x64x4096.Idx → Elt F .f32) (ix3 ⟨n.val, h⟩ k ⟨128 * t.val + l.val, hb⟩)
    else (Vv c main_v4 : S64x4096.Idx → Elt F .f32) (ix2 k ⟨128 * t.val + l.val, hb⟩)
  split
  · exact iblk3_apply Vv c t _ _ rfl rfl rfl
  · exact iblk1_apply Vv c t _ _ rfl rfl

/-- What point `t` writes back of the appended value memory is its block of `Gmem`. -/
theorem flushed7_eq (c : Dev nD) (t : Fin cfg1.N) :
    (dat1 Vv c).flushed 7 t = ((cfg1.win 7).blk t).view.read (Elt F) (Gmem Vv c) := by
  show (cfg1.win 7).cut (grid1.coords t) ((dat1 Vv c).after 7 t) = _
  rw [after_7]
  funext j
  rw [View.read_apply]
  exact flushed7_apply Vv c t j

/-- An index of the array is in point `t`'s block iff each coordinate is in the block's range on its axis. -/
theorem mem_blk7 (t : Fin cfg1.N) (i : S201x64x4096.Idx) :
    i ∈ ((cfg1.win 7).blk t).view.set ↔ ∀ a : Fin 3, win1_7.index t a * S201x64x128.size a ≤ (i a).val ∧ (i a).val < win1_7.index t a * S201x64x128.size a + S201x64x128.size a := by
  show i ∈ ((View.whole main_v10_0).slice (win1_7.rect t)).set ↔ _
  rw [View.set_slice_whole, Rect.mem_set_unit]
  exact Iff.rfl

/-- The point that covers lane `b` is `b / 128`. -/
theorem cover7 (i : S201x64x4096.Idx) : ∃ t : Fin cfg1.N, (cfg1.win 7).flush t = true ∧ i ∈ ((cfg1.win 7).blk t).view.set := by
  have h0 : (i 0).val < 201 := (i 0).isLt
  have h1 : (i 1).val < 64 := (i 1).isLt
  have h2 : (i 2).val < 4096 := (i 2).isLt
  have hN : cfg1.N = 32 := N_1
  let t : Fin cfg1.N := ⟨(i 2).val / 128, by rw [hN]; omega⟩
  have htv : t.val = (i 2).val / 128 := rfl
  obtain ⟨e0, e1, e2⟩ := idx7 t
  refine ⟨t, flush1_7 t, ?_⟩
  rw [mem_blk7]
  intro a
  match a with
  | ⟨0, _⟩ => show win1_7.index t (0 : Fin 3) * 201 ≤ (i 0).val ∧ (i 0).val < win1_7.index t (0 : Fin 3) * 201 + 201; rw [e0]; omega
  | ⟨1, _⟩ => show win1_7.index t (1 : Fin 3) * 64 ≤ (i 1).val ∧ (i 1).val < win1_7.index t (1 : Fin 3) * 64 + 64; rw [e1]; omega
  | ⟨2, _⟩ => show win1_7.index t (2 : Fin 3) * 128 ≤ (i 2).val ∧ (i 2).val < win1_7.index t (2 : Fin 3) * 128 + 128; rw [e2, htv]; omega

/-- The appended value memory after the region. -/
theorem arrAt7_eq (c : Dev nD) : (dat1 Vv c).arrAt 7 cfg1.N = Gmem Vv c :=
  (dat1 Vv c).arrAt_eq_of_cover 7 (Gmem Vv c) (fun t _ => flushed7_eq Vv c t) (cover7)

theorem arr_mem (c : Dev nD) (n : Fin 201) (k : Fin 64) (b : Fin 4096) :
    (dat1 Vv c).arrAt 7 cfg1.N (ix3 n k b) = if h : n.val < 200 then Vv c main_v6 (ix3 ⟨n.val, h⟩ k b) else Vv c main_v4 (ix2 k b) := by
  rw [arrAt7_eq]
  rfl

/-! ## The other input blocks -/

theorem iblk2_apply (c : Dev nD) (t : Fin cfg1.N) (x : S200x64x128.Idx) (i : S200x64x4096.Idx)
    (h0 : (i 0).val = (x 0).val) (h1 : (i 1).val = (x 1).val) (h2 : (i 2).val = 128 * t.val + (x 2).val) :
    (iblk Vv c 2 t : Vec F S200x64x128 .f32) x = (Vv c main_v5 : S200x64x4096.Idx → Elt F .f32) i := by
  obtain ⟨e0, e1, e2⟩ := idx2 t
  unfold iblk
  rw [View.read_apply]
  show Vv c main_v5 _ = Vv c main_v5 _
  congr 1
  funext a; apply Fin.ext
  match a with
  | ⟨0, _⟩ => show win1_2.index t (0 : Fin 3) * 200 + 1 * (x 0).val = (i 0).val; rw [e0, h0]; omega
  | ⟨1, _⟩ => show win1_2.index t (1 : Fin 3) * 64 + 1 * (x 1).val = (i 1).val; rw [e1, h1]; omega
  | ⟨2, _⟩ => show win1_2.index t (2 : Fin 3) * 128 + 1 * (x 2).val = (i 2).val; rw [e2, h2]; omega

theorem iblk4_apply (c : Dev nD) (t : Fin cfg1.N) (x : S1x128.Idx) (i : S1x4096.Idx)
    (h0 : (i 0).val = (x 0).val) (h1 : (i 1).val = 128 * t.val + (x 1).val) :
    (iblk Vv c 4 t : Vec F S1x128 .f32) x = (Vv c main_v7 : S1x4096.Idx → Elt F .f32) i := by
  obtain ⟨e0, e1⟩ := idx4 t
  unfold iblk
  rw [View.read_apply]
  show Vv c main_v7 _ = Vv c main_v7 _
  congr 1
  funext a; apply Fin.ext
  match a with
  | ⟨0, _⟩ => show win1_4.index t (0 : Fin 2) * 1 + 1 * (x 0).val = (i 0).val; rw [e0, h0]; omega
  | ⟨1, _⟩ => show win1_4.index t (1 : Fin 2) * 128 + 1 * (x 1).val = (i 1).val; rw [e1, h1]; omega

theorem iblk5_apply (c : Dev nD) (t : Fin cfg1.N) (x : S1x128.Idx) (i : S1x4096.Idx)
    (h0 : (i 0).val = (x 0).val) (h1 : (i 1).val = 128 * t.val + (x 1).val) :
    (iblk Vv c 5 t : Vec F S1x128 .i32) x = (Vv c main_v8 : S1x4096.Idx → Elt F .i32) i := by
  obtain ⟨e0, e1⟩ := idx5 t
  unfold iblk
  rw [View.read_apply]
  show Vv c main_v8 _ = Vv c main_v8 _
  congr 1
  funext a; apply Fin.ext
  match a with
  | ⟨0, _⟩ => show win1_5.index t (0 : Fin 2) * 1 + 1 * (x 0).val = (i 0).val; rw [e0, h0]; omega
  | ⟨1, _⟩ => show win1_5.index t (1 : Fin 2) * 128 + 1 * (x 1).val = (i 1).val; rw [e1, h1]; omega

/-- The scalars' block is the scalars' array at every point. -/
theorem iblk6_apply (c : Dev nD) (t : Fin cfg1.N) (x : S1x2.Idx) :
    (iblk Vv c 6 t : Vec F S1x2 .f32) x = (Vv c main_v2 : S1x2.Idx → Elt F .f32) x := by
  obtain ⟨e0, e1⟩ := idx6 t
  unfold iblk
  rw [View.read_apply]
  show Vv c main_v2 _ = Vv c main_v2 _
  congr 1
  funext a; apply Fin.ext
  match a with
  | ⟨0, _⟩ => show win1_6.index t (0 : Fin 2) * 1 + 1 * (x 0).val = (x 0).val; rw [e0]; omega
  | ⟨1, _⟩ => show win1_6.index t (1 : Fin 2) * 2 + 1 * (x 1).val = (x 1).val; rw [e1]; omega

/-! ## The read: rows 0 … 63 the key columns' reads, row 64 the confidences' -/

/-- The two [1,1] loads of the scalars' block read its entries (0,0) and (0,1). -/
theorem ld_rW (xWb : Vec F S1x2 .f32) : View.ld xWb rW (ix2 (0 : Fin 1) (0 : Fin 1)) = xWb (ix2 (0 : Fin 1) (0 : Fin 2)) := by
  show xWb (rW.emb (ix2 (0 : Fin 1) (0 : Fin 1))) = _
  congr 1
  funext a; apply Fin.ext
  rw [Rect.emb_apply]
  match a with
  | ⟨0, _⟩ => rfl
  | ⟨1, _⟩ => rfl

theorem ld_rB (xWb : Vec F S1x2 .f32) : View.ld xWb rB (ix2 (0 : Fin 1) (0 : Fin 1)) = xWb (ix2 (0 : Fin 1) (1 : Fin 2)) := by
  show xWb (rB.emb (ix2 (0 : Fin 1) (0 : Fin 1))) = _
  congr 1
  funext a; apply Fin.ext
  rw [Rect.emb_apply]
  match a with
  | ⟨0, _⟩ => rfl
  | ⟨1, _⟩ => rfl

/-- The read's buffer after the body, read at coordinates: lane `l` is the specification's one batch element of lane
    `l` of the blocks. -/
theorem outRead_apply (xNv : Vec Ideal S64x128 .f32) (xKm xVm : Vec Ideal S200x64x128 .f32) (xG : Vec Ideal S1x128 .f32)
    (xIt : Vec Ideal S1x128 .i32) (xWb : Vec Ideal S1x2 .f32) (k : Fin 65) (l : Fin 128) :
    outRead xNv xKm xVm xG xIt xWb (ix2 k l)
      = if h : k.val < 64 then
          Spec.readK (fun n d => xVm (ix3 n d l)) (fun d => xNv (ix2 d l)) (fun n => xKm (ix3 n ⟨k.val, h⟩ l)) (xG (ix2 0 l)) (xIt (ix2 0 l))
        else
          Spec.readC (fun n d => xVm (ix3 n d l)) (fun d => xNv (ix2 d l)) (xWb (ix2 0 0)) (xWb (ix2 0 1)) (xG (ix2 0 l)) (xIt (ix2 0 l)) := by
  unfold outRead
  simp only [View.ld_unit_zero (S := S200x64x128) hz3, View.ld_unit_zero (S := S64x128) hz2, View.ld_unit_zero (S := S1x128) hz2]
  split
  · next h =>
    have hemb : (ix2 k l : S65x128.Idx) = rReadK.emb (ix2 (⟨k.val, h⟩ : Fin 64) l : S64x128.Idx) := by
      funext a; apply Fin.ext
      rw [Rect.emb_apply]
      match a with
      | ⟨0, _⟩ => show k.val = 0 + 1 * k.val; omega
      | ⟨1, _⟩ => show l.val = 0 + 1 * l.val; omega
    have hnot : rReadK.emb (ix2 (⟨k.val, h⟩ : Fin 64) l : S64x128.Idx) ∉ rReadC.set := by
      rw [← hemb, Rect.mem_set_unit]
      intro hm
      have h0 : 64 ≤ k.val := (hm 0).1
      omega
    rw [hemb]
    refine (canon_two_first rReadC rReadK _ _ _ hnot).trans ?_
    exact KernelValue.pay2_apply xKm xVm xNv xIt xG ⟨k.val, h⟩ l
  · next h =>
    have hk : k.val = 64 := by have := k.isLt; omega
    have hemb : (ix2 k l : S65x128.Idx) = rReadC.emb (ix2 (0 : Fin 1) l : S1x128.Idx) := by
      funext a; apply Fin.ext
      rw [Rect.emb_apply]
      match a with
      | ⟨0, _⟩ => show k.val = 64 + 1 * 0; omega
      | ⟨1, _⟩ => show l.val = 0 + 1 * l.val; omega
    rw [hemb]
    refine (canon_two_last rReadC rReadK _ _ _).trans ?_
    refine (KernelValue.pay3_apply xVm xNv xIt (View.ld xWb rW) (View.ld xWb rB) xG l).trans ?_
    rw [ld_rW, ld_rB]

section Read

variable (Vi : (c : Dev nD) → (b : Ref sig .tc) → Buf (Elt Ideal) ((c : Thread nD τ).loc b))

/-- Row `k`, lane `b` of the read, of the arrays the region found: the specification's one batch element of lane `b`. -/
def readAt (c : Dev nD) (k : Fin 65) (b : Fin 4096) : EReal :=
  if h : k.val < 64 then
    Spec.readK (fun n d => (Vi c main_v6 : S200x64x4096.Idx → Elt Ideal .f32) (ix3 n d b))
      (fun d => (Vi c main_v4 : S64x4096.Idx → Elt Ideal .f32) (ix2 d b))
      (fun n => (Vi c main_v5 : S200x64x4096.Idx → Elt Ideal .f32) (ix3 n ⟨k.val, h⟩ b))
      ((Vi c main_v7 : S1x4096.Idx → Elt Ideal .f32) (ix2 0 b)) ((Vi c main_v8 : S1x4096.Idx → Elt Ideal .i32) (ix2 0 b))
  else
    Spec.readC (fun n d => (Vi c main_v6 : S200x64x4096.Idx → Elt Ideal .f32) (ix3 n d b))
      (fun d => (Vi c main_v4 : S64x4096.Idx → Elt Ideal .f32) (ix2 d b))
      ((Vi c main_v2 : S1x2.Idx → Elt Ideal .f32) (ix2 0 0)) ((Vi c main_v2 : S1x2.Idx → Elt Ideal .f32) (ix2 0 1))
      ((Vi c main_v7 : S1x4096.Idx → Elt Ideal .f32) (ix2 0 b)) ((Vi c main_v8 : S1x4096.Idx → Elt Ideal .i32) (ix2 0 b))

/-- The read as one function of the arrays the region found. -/
def Gread (c : Dev nD) : S65x4096.Idx → Elt Ideal .f32 := fun i => readAt Vi c (i 0) (i 1)

/-- Where an element of point `t`'s block of the read sits in the array. -/
theorem blk8_emb (t : Fin cfg1.N) (k : Fin 65) (l : Fin 128) (hb : 128 * t.val + l.val < 4096) :
    ((cfg1.win 8).blk t).view.emb (ix2 k l : S65x128.Idx) = (ix2 k (⟨128 * t.val + l.val, hb⟩ : Fin 4096) : S65x4096.Idx) := by
  obtain ⟨e0, e1⟩ := idx8 t
  funext a; apply Fin.ext
  match a with
  | ⟨0, _⟩ => show win1_8.index t (0 : Fin 2) * 65 + 1 * k.val = k.val; rw [e0]; omega
  | ⟨1, _⟩ => show win1_8.index t (1 : Fin 2) * 128 + 1 * l.val = 128 * t.val + l.val; rw [e1]; omega

/-- The body's stores at point `t`, read at an index of the block, are `Gread` where the block's index sits in the array. -/
theorem flushed8_apply (c : Dev nD) (t : Fin cfg1.N) (j : S65x128.Idx) :
    outRead (iblk Vi c 1 t) (iblk Vi c 2 t) (iblk Vi c 3 t) (iblk Vi c 4 t) (iblk Vi c 5 t) (iblk Vi c 6 t) j
      = Gread Vi c (((cfg1.win 8).blk t).view.emb j) := by
  obtain ⟨k, l, rfl⟩ : ∃ (k : Fin 65) (l : Fin 128), j = ix2 k l := ⟨j 0, j 1, eq_ix2 j⟩
  have ht := lt32 t
  have hl : l.val < 128 := l.isLt
  have hb : 128 * t.val + l.val < 4096 := by omega
  rw [blk8_emb t k l hb]
  refine (outRead_apply (iblk Vi c 1 t) (iblk Vi c 2 t) (iblk Vi c 3 t) (iblk Vi c 4 t) (iblk Vi c 5 t) (iblk Vi c 6 t) k l).trans ?_
  show _ = readAt Vi c k ⟨128 * t.val + l.val, hb⟩
  unfold readAt
  have hV : (fun (n : Fin 200) (d : Fin 64) => (iblk Vi c 3 t : Vec Ideal S200x64x128 .f32) (ix3 n d l))
      = fun n d => (Vi c main_v6 : S200x64x4096.Idx → Elt Ideal .f32) (ix3 n d ⟨128 * t.val + l.val, hb⟩) :=
    funext fun n => funext fun d => iblk3_apply Vi c t _ _ rfl rfl rfl
  have hq : (fun (d : Fin 64) => (iblk Vi c 1 t : Vec Ideal S64x128 .f32) (ix2 d l))
      = fun d => (Vi c main_v4 : S64x4096.Idx → Elt Ideal .f32) (ix2 d ⟨128 * t.val + l.val, hb⟩) :=
    funext fun d => iblk1_apply Vi c t _ _ rfl rfl
  have hg : (iblk Vi c 4 t : Vec Ideal S1x128 .f32) (ix2 0 l) = (Vi c main_v7 : S1x4096.Idx → Elt Ideal .f32) (ix2 0 ⟨128 * t.val + l.val, hb⟩) :=
    iblk4_apply Vi c t _ _ rfl rfl
  have hit : (iblk Vi c 5 t : Vec Ideal S1x128 .i32) (ix2 0 l) = (Vi c main_v8 : S1x4096.Idx → Elt Ideal .i32) (ix2 0 ⟨128 * t.val + l.val, hb⟩) :=
    iblk5_apply Vi c t _ _ rfl rfl
  by_cases h : k.val < 64
  · have hK : (fun (n : Fin 200) => (iblk Vi c 2 t : Vec Ideal S200x64x128 .f32) (ix3 n (⟨k.val, h⟩ : Fin 64) l))
        = fun n => (Vi c main_v5 : S200x64x4096.Idx → Elt Ideal .f32) (ix3 n (⟨k.val, h⟩ : Fin 64) ⟨128 * t.val + l.val, hb⟩) :=
      funext fun n => iblk2_apply Vi c t _ _ rfl rfl rfl
    rw [dif_pos h, dif_pos h, hV, hq, hK, hg, hit]
  · rw [dif_neg h, dif_neg h, hV, hq, hg, hit, iblk6_apply Vi c t, iblk6_apply Vi c t]

/-- What point `t` writes back of the read is its block of `Gread`. -/
theorem flushed8_eq (c : Dev nD) (t : Fin cfg1.N) :
    (dat1 Vi c).flushed 8 t = ((cfg1.win 8).blk t).view.read (Elt Ideal) (Gread Vi c) := by
  show (cfg1.win 8).cut (grid1.coords t) ((dat1 Vi c).after 8 t) = _
  rw [after_8]
  funext j
  rw [View.read_apply]
  exact flushed8_apply Vi c t j

/-- An index of the array is in point `t`'s block iff each coordinate is in the block's range on its axis. -/
theorem mem_blk8 (t : Fin cfg1.N) (i : S65x4096.Idx) :
    i ∈ ((cfg1.win 8).blk t).view.set ↔ ∀ a : Fin 2, win1_8.index t a * S65x128.size a ≤ (i a).val ∧ (i a).val < win1_8.index t a * S65x128.size a + S65x128.size a := by
  show i ∈ ((View.whole main_v10_1).slice (win1_8.rect t)).set ↔ _
  rw [View.set_slice_whole, Rect.mem_set_unit]
  exact Iff.rfl

/-- The point that covers lane `b` is `b / 128`. -/
theorem cover8 (i : S65x4096.Idx) : ∃ t : Fin cfg1.N, (cfg1.win 8).flush t = true ∧ i ∈ ((cfg1.win 8).blk t).view.set := by
  have h0 : (i 0).val < 65 := (i 0).isLt
  have h1 : (i 1).val < 4096 := (i 1).isLt
  have hN : cfg1.N = 32 := N_1
  let t : Fin cfg1.N := ⟨(i 1).val / 128, by rw [hN]; omega⟩
  have htv : t.val = (i 1).val / 128 := rfl
  obtain ⟨e0, e1⟩ := idx8 t
  refine ⟨t, flush1_8 t, ?_⟩
  rw [mem_blk8]
  intro a
  match a with
  | ⟨0, _⟩ => show win1_8.index t (0 : Fin 2) * 65 ≤ (i 0).val ∧ (i 0).val < win1_8.index t (0 : Fin 2) * 65 + 65; rw [e0]; omega
  | ⟨1, _⟩ => show win1_8.index t (1 : Fin 2) * 128 ≤ (i 1).val ∧ (i 1).val < win1_8.index t (1 : Fin 2) * 128 + 128; rw [e1, htv]; omega

/-- The read after the region. -/
theorem arrAt8_eq (c : Dev nD) : (dat1 Vi c).arrAt 8 cfg1.N = Gread Vi c :=
  (dat1 Vi c).arrAt_eq_of_cover 8 (Gread Vi c) (fun t _ => flushed8_eq Vi c t) (cover8)

theorem arr_read (c : Dev nD) (k : Fin 65) (b : Fin 4096) :
    (dat1 (F := Ideal) Vi c).arrAt 8 cfg1.N (ix2 k b)
      = if h : k.val < 64 then
          Spec.readK (fun n d => Vi c main_v6 (ix3 n d b)) (fun d => Vi c main_v4 (ix2 d b)) (fun n => Vi c main_v5 (ix3 n ⟨k.val, h⟩ b)) (Vi c main_v7 (ix2 0 b)) (Vi c main_v8 (ix2 0 b))
        else
          Spec.readC (fun n d => Vi c main_v6 (ix3 n d b)) (fun d => Vi c main_v4 (ix2 d b)) (Vi c main_v2 (ix2 0 0)) (Vi c main_v2 (ix2 0 1)) (Vi c main_v7 (ix2 0 b)) (Vi c main_v8 (ix2 0 b)) := by
  rw [arrAt8_eq]
  rfl

end Read

end Cert.Proof.KI

end
-- ==== Proof.RefValue.lean ====
/-
  The reference's third result, read one element at a time, is the specification's one batch element.

  The reference masks the value memory by MULTIPLYING it with the 0/1 validity mask before the inner product; on the
  extended reals `x · 1 = x`, `x · 0 = 0` and `0 · y = 0` hold for every `x` and `y`, so the masked inner product is the
  inner product on a valid slot and `0` on an invalid one, with no finiteness assumption. Its softmax takes the maximum
  from the bottom element and then once more against the bottom element (`max ⊥ x = x`); its sums start from `0`
  (`0 + x = x`); its two logistic functions are spelt `1 / (1 + exp (−x))`, which is the definition of the ideal
  logistic function. The key columns and the confidence column are joined along the last axis into `[.., 65]`, so column
  `k` of the result is a key column for `k < 64` and the confidence column for `k = 64`. At the end the reference selects
  `logistic gate · sum` when `1 < iteration` and `0` otherwise, which is `sum · (logistic gate · 1)`, respectively
  `sum · (logistic gate · 0)`.
-/
import proofs.«209559_g37125697307438_cont_8to1_b_286_16_alg».proof.Proof.Spec
import proofs.«209559_g37125697307438_cont_8to1_b_286_16_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.Proof.RefValue

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open Cert.Proof

/-! ## Words and constants -/

/-- A one-bit word read as an unsigned integer, as an extended real: one or zero. -/
theorem bit_toNat_ereal (b : Bool) : (((BitVec.ofBool b).toNat : ℝ) : EReal) = if b then 1 else 0 := by
  cases b
  · show (((0 : ℕ) : ℝ) : EReal) = 0
    simp
  · show (((1 : ℕ) : ℝ) : EReal) = 1
    simp

/-- A select on a decided comparison is the `if` on it. -/
theorem select_ofBool {β : Type} (b : Bool) (x y : β) : Scalar.select (BitVec.ofBool b) x y = if b then x else y := by
  cases b
  · exact select_zero x y
  · exact select_one x y

/-- The word of `-∞` is the bottom element. -/
theorem ofBits_neg_inf : Ideal.ofBits .f32 0xFF800000#32 = ⊥ := by simp [Ideal.ofBits, Ideal.ieee]

/-- The word of `1.0` is one. -/
theorem ofBits_one : Ideal.ofBits .f32 0x3F800000#32 = 1 := by
  simp [Ideal.ofBits, Ideal.ieee]
  rw [← EReal.coe_mul, ← EReal.coe_one]
  congr 1
  norm_num

/-! ## The arguments of one batch element -/

section Stages
variable (x1 : (⟨S4096x64, .f32⟩ : BufTy).Contents (Elt Ideal)) (x2 x3 : (⟨S4096x200x64, .f32⟩ : BufTy).Contents (Elt Ideal))
  (x4 : (⟨S4096x1, .f32⟩ : BufTy).Contents (Elt Ideal)) (x5 : (⟨S4096x1, .i32⟩ : BufTy).Contents (Elt Ideal))
  (x6 : (⟨S1x1, .f32⟩ : BufTy).Contents (Elt Ideal)) (x7 : (⟨S1, .f32⟩ : BufTy).Contents (Elt Ideal))

/-- Batch element `b`'s similarities: its value rows against its new value row, at its iteration. -/
abbrev simB (b : Fin 4096) : Fin 200 → EReal :=
  Spec.sim (fun n d => x3 (ix3 b n d)) (fun d => x1 (ix2 b d)) (x5 (ix2 b 0))

/-! ## The similarity -/

/-- The masked value memory at `(b, n, d)`: the entry times one on a valid slot, times zero on an invalid one. -/
theorem v8_at (b : Fin 4096) (n : Fin 200) (d : Fin 64) :
    val_main_v8 (F := Ideal) x3 x5 (ix3 b n d)
      = x3 (ix3 b n d) * (if Spec.valid (x5 (ix2 b 0)) n then 1 else 0) := by
  rw [val_main_v8_apply, val_main_v7_apply, val_main_v6_apply, val_main_v5_apply, val_main_v4_apply,
    val_main_v2_apply, val_main_v1_apply, val_main_v0_apply, val_main_v3_apply]
  have e3 : idx_main_v3 (idx_main_v6 (idx_main_v7 (ix3 b n d))) = ix2 b 0 :=
    funext fun a => Fin.ext (by match a with | ⟨0, _⟩ => rfl | ⟨1, _⟩ => rfl)
  rw [e3]
  show x3 (ix3 b n d) * (((BitVec.ofBool ((BitVec.ofNat 32 n.val).sle (x5 (ix2 b 0)))).toNat : ℝ) : EReal) = _
  rw [bit_toNat_ereal]
  rfl

/-- The similarity of slot `n` of batch element `b`. -/
theorem v9_at (b : Fin 4096) (n : Fin 200) :
    val_main_v9 (F := Ideal) x1 x3 x5 (ix2 b n) = simB x1 x3 x5 b n := by
  rw [val_main_v9_apply]
  have hl : ∀ k : Fin 64, lidx_main_v9 (ix2 b n) k = ix3 b n k := fun k =>
    funext fun a => Fin.ext (by match a with | ⟨0, _⟩ => rfl | ⟨1, _⟩ => rfl | ⟨2, _⟩ => rfl)
  have hr : ∀ k : Fin 64, ridx_main_v9 (ix2 b n) k = ix2 b k := fun k =>
    funext fun a => Fin.ext (by match a with | ⟨0, _⟩ => rfl | ⟨1, _⟩ => rfl)
  simp only [hl, hr, v8_at]
  unfold simB Spec.sim
  by_cases h : Spec.valid (x5 (ix2 b 0)) n = true
  · simp only [if_pos h, mul_one]
  · simp only [if_neg h, mul_zero, zero_mul, Finset.sum_const_zero]

/-! ## The softmax -/

/-- The largest similarity of batch element `b`. -/
theorem v12_at (b : Fin 4096) :
    val_main_v12 (F := Ideal) x1 x3 x5 (ix1 b) = Spec.smax (simB x1 x3 x5 b) := by
  rw [val_main_v12_apply, val_main_v11_apply, val_main_cst_0_apply]
  unfold val_main_v10
  have hred : S4096x200.Reduces [1] S4096 := by decide
  refine (congrArg (FloatOps.maximumf (F := Ideal) (φ := .f32) _)
    (Host.reduce_eq_fold_single (FloatOps.maximumf (F := Ideal) (φ := .f32)) (val_main_v9 (F := Ideal) x1 x3 x5)
      (val_main_cst (F := Ideal)) reducesTo_S4096x200_S4096_d1 hred h_S_ (ix1 b))).trans ?_
  rw [val_main_cst_apply]
  show max (Ideal.ofBits .f32 0xFF800000#32) ((Finset.univ : Finset (Fin 200)).fold max (Ideal.ofBits .f32 0xFF800000#32)
      (fun n => val_main_v9 (F := Ideal) x1 x3 x5 (hred.lift (ix1 b) n))) = _
  rw [ofBits_neg_inf, max_bot_left]
  unfold Spec.smax
  refine Finset.fold_congr fun (n : Fin 200) _ => ?_
  have el : hred.lift (ix1 b) n = ix2 b n :=
    funext fun a => Fin.ext (by match a with | ⟨0, _⟩ => rfl | ⟨1, _⟩ => rfl)
  rw [el, v9_at]

/-- The shifted exponential of slot `n`. -/
theorem v16_at (b : Fin 4096) (n : Fin 200) :
    val_main_v16 (F := Ideal) x1 x3 x5 (ix2 b n) = Spec.ex (simB x1 x3 x5 b) n := by
  rw [val_main_v16_apply, val_main_v15_apply, val_main_v14_apply, val_main_v13_apply]
  have e : idx_main_v13 (idx_main_v14 (ix2 b n)) = ix1 b :=
    funext fun a => Fin.ext (by match a with | ⟨0, _⟩ => rfl)
  rw [e, v9_at, v12_at]
  rfl

/-- The sum of the shifted exponentials of batch element `b`. -/
theorem v17_at (b : Fin 4096) :
    val_main_v17 (F := Ideal) x1 x3 x5 (ix1 b) = ∑ n : Fin 200, Spec.ex (simB x1 x3 x5 b) n := by
  rw [val_main_v17_apply, val_main_cst_1_apply]
  show Ideal.ofBits .f32 0x00000000#32 + _ = _
  rw [Ideal.ofBits_zero_f32, zero_add]
  refine Finset.sum_congr rfl fun (n : Fin 200) _ => ?_
  have e : idx_main_v17 (ix1 b) n = ix2 b n :=
    funext fun a => Fin.ext (by match a with | ⟨0, _⟩ => rfl | ⟨1, _⟩ => rfl)
  rw [e, v16_at]

/-- The softmax weight of slot `n`. -/
theorem v20_at (b : Fin 4096) (n : Fin 200) :
    val_main_v20 (F := Ideal) x1 x3 x5 (ix2 b n) = Spec.weight (simB x1 x3 x5 b) n := by
  rw [val_main_v20_apply, val_main_v19_apply, val_main_v18_apply]
  have e : idx_main_v18 (idx_main_v19 (ix2 b n)) = ix1 b :=
    funext fun a => Fin.ext (by match a with | ⟨0, _⟩ => rfl)
  rw [e, v16_at, v17_at]
  rfl

/-! ## The confidence -/

/-- The first scalar of the confidence map, read from its `[1, 1]` array through the cast to rank 0. -/
theorem v23_at (j : S_.Idx) : val_main_v23 (F := Ideal) x6 j = x6 (ix2 0 0) := by
  unfold val_main_v23
  refine shapeCast_apply x6 shapeCasts_S1x1_S_ j (ix2 0 0) ?_
  have h1 : (S_.rowMajor j).val < 1 := (S_.rowMajor j).isLt
  rw [Shape.rowMajor_val_two]
  show 0 * 1 + 0 = _
  omega

/-- The second scalar of the confidence map, read from its `[1]` array through the cast to rank 0. -/
theorem v26_at (j : S_.Idx) : val_main_v26 (F := Ideal) x7 j = x7 (ix1 0) := by
  unfold val_main_v26
  refine shapeCast_apply x7 shapeCasts_S1_S_ j (ix1 0) ?_
  have h1 : (S_.rowMajor j).val < 1 := (S_.rowMajor j).isLt
  rw [Shape.rowMajor_val_one]
  show 0 = _
  omega

/-- The confidence of slot `n`. -/
theorem v34_at (b : Fin 4096) (n : Fin 200) (u : Fin 1) :
    val_main_v34 (F := Ideal) x1 x3 x5 x6 x7 (ix3 b n u)
      = Spec.conf (simB x1 x3 x5 b) (x6 (ix2 0 0)) (x7 (ix1 0)) n := by
  rw [val_main_v34_apply, val_main_v33_apply, val_main_cst_3_apply, val_main_v32_apply, val_main_v31_apply,
    val_main_cst_2_apply, val_main_v30_apply, val_main_v29_apply, val_main_v28_apply, val_main_v25_apply,
    val_main_v22_apply, val_main_v24_apply, v23_at, val_main_v27_apply, v26_at]
  have e : idx_main_v22 (ix3 b n u) = ix2 b n :=
    funext fun a => Fin.ext (by match a with | ⟨0, _⟩ => rfl | ⟨1, _⟩ => rfl)
  rw [e, v9_at]
  show Ideal.div (Ideal.ofBits .f32 0x3F800000#32)
      (Ideal.ofBits .f32 0x3F800000#32 + Ideal.exp (-(simB x1 x3 x5 b n * x6 (ix2 0 0) + x7 (ix1 0)))) = _
  rw [ofBits_one]
  rfl

/-! ## The key columns and the confidence column, joined -/

/-- Column `k` of the joined array: a key column below 64, the confidence column at 64. -/
theorem v35_at (b : Fin 4096) (n : Fin 200) (k : Fin 65) :
    val_main_v35 (F := Ideal) x1 x2 x3 x5 x6 x7 (ix3 b n k)
      = if h : k.val < 64 then x2 (ix3 b n ⟨k.val, h⟩)
        else Spec.conf (simB x1 x3 x5 b) (x6 (ix2 0 0)) (x7 (ix1 0)) n := by
  unfold val_main_v35
  by_cases h : k.val < 64
  · rw [dif_pos h]
    exact concatenate_pair_apply_left (2 : Fin S4096x200x65.rank) x2 _
      concatenates_S4096x200x64_S4096x200x1_S4096x200x65_d2 (ix3 b n k) rfl (ix3 b n ⟨k.val, h⟩)
      (fun a => by match a with | ⟨0, _⟩ => rfl | ⟨1, _⟩ => rfl | ⟨2, _⟩ => rfl)
  · rw [dif_neg h]
    refine (concatenate_pair_apply_right (2 : Fin S4096x200x65.rank) x2 (val_main_v34 (F := Ideal) x1 x3 x5 x6 x7)
      concatenates_S4096x200x64_S4096x200x1_S4096x200x65_d2 (ix3 b n k) rfl rfl (ix3 b n (0 : Fin 1))
      (fun a ha => by
        match a, ha with
        | ⟨0, _⟩, _ => rfl
        | ⟨1, _⟩, _ => rfl
        | ⟨2, _⟩, ha => exact absurd rfl ha)
      (by
        show 0 + 64 = k.val
        have := k.isLt
        omega)).trans ?_
    exact v34_at x1 x3 x5 x6 x7 b n 0

/-- The weighted sum over the slots of column `k` of the joined array. -/
theorem v38_at (b : Fin 4096) (k : Fin 65) :
    val_main_v38 (F := Ideal) x1 x2 x3 x5 x6 x7 (ix2 b k)
      = ∑ n : Fin 200, Spec.weight (simB x1 x3 x5 b) n *
          (if h : k.val < 64 then x2 (ix3 b n ⟨k.val, h⟩)
           else Spec.conf (simB x1 x3 x5 b) (x6 (ix2 0 0)) (x7 (ix1 0)) n) := by
  rw [val_main_v38_apply, val_main_cst_4_apply]
  show Ideal.ofBits .f32 0x00000000#32 + _ = _
  rw [Ideal.ofBits_zero_f32, zero_add]
  refine Finset.sum_congr rfl fun (n : Fin 200) _ => ?_
  have e : idx_main_v38 (ix2 b k) n = ix3 b n k :=
    funext fun a => Fin.ext (by match a with | ⟨0, _⟩ => rfl | ⟨1, _⟩ => rfl | ⟨2, _⟩ => rfl)
  rw [e, val_main_v37_apply, val_main_v36_apply, val_main_v21_apply]
  have e2 : idx_main_v21 (idx_main_v36 (ix3 b n k)) = ix2 b n :=
    funext fun a => Fin.ext (by match a with | ⟨0, _⟩ => rfl | ⟨1, _⟩ => rfl)
  rw [e2, v20_at, v35_at]
  rfl

/-! ## The gate and the final selection -/

/-- The gate's logistic value, broadcast across the 65 columns. -/
theorem v45_at (b : Fin 4096) (k : Fin 65) :
    val_main_v45 (F := Ideal) x4 (ix2 b k) = Ideal.logistic (x4 (ix2 b 0)) := by
  rw [val_main_v45_apply, val_main_v44_apply, val_main_v43_apply, val_main_cst_6_apply, val_main_v42_apply,
    val_main_v41_apply, val_main_cst_5_apply, val_main_v40_apply, val_main_v39_apply]
  have e : idx_main_v45 (ix2 b k) = ix2 b 0 :=
    funext fun a => Fin.ext (by match a with | ⟨0, _⟩ => rfl | ⟨1, _⟩ => rfl)
  rw [e]
  show Ideal.div (Ideal.ofBits .f32 0x3F800000#32) (Ideal.ofBits .f32 0x3F800000#32 + Ideal.exp (-(x4 (ix2 b 0)))) = _
  rw [ofBits_one]
  rfl

/-- The selection's condition: `1 < iteration`, signed. -/
theorem cond_at (b : Fin 4096) (k : Fin 65) :
    val_main_call0_v0 (F := Ideal) x5 (ix2 b k) = BitVec.ofBool ((1#32 : BitVec 32).slt (x5 (ix2 b 0))) := by
  rw [val_main_call0_v0_apply, val_main_v50_apply, val_main_v49_apply, val_main_v47_apply, val_main_v48_apply,
    val_main_c_apply]
  have e : idx_main_v47 (idx_main_v50 (idx_main_call0_v0 (ix2 b k))) = ix2 b 0 :=
    funext fun a => Fin.ext (by
      match a with
      | ⟨0, _⟩ => exact Nat.div_one _
      | ⟨1, _⟩ => rfl)
  rw [e]
  rfl

/-- THE THIRD RESULT at `(b, k)`, as a function of the arguments. -/
theorem v52_at (b : Fin 4096) (k : Fin 65) :
    val_main_v52 (F := Ideal) x1 x2 x3 x4 x5 x6 x7 (ix2 b k)
      = if h : k.val < 64 then
          Spec.readK (fun n d => x3 (ix3 b n d)) (fun d => x1 (ix2 b d)) (fun n => x2 (ix3 b n ⟨k.val, h⟩))
            (x4 (ix2 b 0)) (x5 (ix2 b 0))
        else
          Spec.readC (fun n d => x3 (ix3 b n d)) (fun d => x1 (ix2 b d)) (x6 (ix2 0 0)) (x7 (ix1 0))
            (x4 (ix2 b 0)) (x5 (ix2 b 0)) := by
  rw [val_main_v52_apply, cond_at, val_main_v46_apply, v45_at, v38_at, val_main_v51_apply, val_main_cst_7_apply,
    select_ofBool]
  show (if (1#32 : BitVec 32).slt (x5 (ix2 b 0)) then _ else Ideal.ofBits .f32 0x00000000#32) = _
  rw [Ideal.ofBits_zero_f32]
  by_cases h : k.val < 64
  · simp only [dif_pos h]
    unfold Spec.readK Spec.scale
    by_cases hc : (1#32 : BitVec 32).slt (x5 (ix2 b 0)) = true
    · simp only [if_pos hc, mul_one]
      exact mul_comm _ _
    · simp only [if_neg hc, mul_zero]
  · simp only [dif_neg h]
    unfold Spec.readC Spec.scale
    by_cases hc : (1#32 : BitVec 32).slt (x5 (ix2 b 0)) = true
    · simp only [if_pos hc, mul_one]
      exact mul_comm _ _
    · simp only [if_neg hc, mul_zero]

end Stages

/-! ## The statements the certificate uses -/

/-- The reference's third result at `(b, k)`: the read of key column `k` below 64, of the confidence column at 64. -/
theorem res_out2_apply (m : (ℓ : Loc nD τ sig) → Buf (Elt Ideal) ℓ) (c : Dev nD) (b : Fin 4096) (k : Fin 65) :
    Cert.ReferenceIdeal.Value.res_out2 (F := Ideal) m c (ix2 b k)
      = if h : k.val < 64 then
          Spec.readK (fun n d => m ((c.tc : Thread nD τ).loc main_arg3) (ix3 b n d))
            (fun d => m ((c.tc : Thread nD τ).loc main_arg1) (ix2 b d))
            (fun n => m ((c.tc : Thread nD τ).loc main_arg2) (ix3 b n ⟨k.val, h⟩))
            (m ((c.tc : Thread nD τ).loc main_arg4) (ix2 b 0)) (m ((c.tc : Thread nD τ).loc main_arg5) (ix2 b 0))
        else
          Spec.readC (fun n d => m ((c.tc : Thread nD τ).loc main_arg3) (ix3 b n d))
            (fun d => m ((c.tc : Thread nD τ).loc main_arg1) (ix2 b d))
            (m ((c.tc : Thread nD τ).loc main_arg6) (ix2 0 0)) (m ((c.tc : Thread nD τ).loc main_arg7) (ix1 0))
            (m ((c.tc : Thread nD τ).loc main_arg4) (ix2 b 0)) (m ((c.tc : Thread nD τ).loc main_arg5) (ix2 b 0)) :=
  (congrFun (val_main_v52_eq (F := Ideal) m c) (ix2 b k)).trans
    (v52_at (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) b k)

/-- A memory with one new row appended along the slot axis: slot `n` below 200 is the memory's, slot 200 the new row. -/
theorem concat_apply {F : FTy → Type} [FloatOps F] (A : FVec F S4096x200x64 .f32) (B : FVec F S4096x64 .f32)
    (b : Fin 4096) (n : Fin 201) (k : Fin 64) :
    concatenate S4096x201x64 1 [⟨S4096x200x64, A⟩,
        ⟨S4096x1x64, broadcastInDim S4096x1x64 ![0, 2] bcast_S4096x64_S4096x1x64_0_2 B⟩]
      concatenates_S4096x200x64_S4096x1x64_S4096x201x64_d1 (ix3 b n k)
      = if h : n.val < 200 then A (ix3 b ⟨n.val, h⟩ k) else B (ix2 b k) := by
  by_cases h : n.val < 200
  · rw [dif_pos h]
    exact concatenate_pair_apply_left (1 : Fin S4096x201x64.rank) A _
      concatenates_S4096x200x64_S4096x1x64_S4096x201x64_d1 (ix3 b n k) rfl (ix3 b ⟨n.val, h⟩ k)
      (fun a => by match a with | ⟨0, _⟩ => rfl | ⟨1, _⟩ => rfl | ⟨2, _⟩ => rfl)
  · rw [dif_neg h]
    refine (concatenate_pair_apply_right (1 : Fin S4096x201x64.rank) A
      (broadcastInDim S4096x1x64 ![0, 2] bcast_S4096x64_S4096x1x64_0_2 B)
      concatenates_S4096x200x64_S4096x1x64_S4096x201x64_d1 (ix3 b n k) rfl rfl (ix3 b (0 : Fin 1) k)
      (fun a ha => by
        match a, ha with
        | ⟨0, _⟩, _ => rfl
        | ⟨1, _⟩, ha => exact absurd rfl ha
        | ⟨2, _⟩, _ => rfl)
      (by
        show 0 + 200 = n.val
        have := n.isLt
        omega)).trans ?_
    exact broadcastInDim_apply _ bcast_S4096x64_S4096x1x64_0_2 B (ix3 b (0 : Fin 1) k) (ix2 b k) (fun a => by
      match a with
      | ⟨0, _⟩ => show b.val = if (4096 : Nat) = 1 then 0 else b.val; rw [if_neg (by decide)]
      | ⟨1, _⟩ => show k.val = if (64 : Nat) = 1 then 0 else k.val; rw [if_neg (by decide)])

end Cert.Proof.RefValue

end
-- ==== Proof.KernelLayout.lean ====
/-
  The kernel program's host layout operations read at an index.

  Around its two kernels the program only moves data: it transposes each argument so that the batch axis comes last
  (one batch element per lane), packs the two scalars of the confidence map into one `[1, 2]` array, and transposes the
  results back. A transpose read at an index is the operand at the permuted index; the packed array reads the first
  scalar at `(0, 0)` and the second at `(0, 1)`.
-/
import proofs.«209559_g37125697307438_cont_8to1_b_286_16_alg».proof.KernelIdeal
import proofs.«209559_g37125697307438_cont_8to1_b_286_16_alg».proof.Proof.Gen.KernelIdeal
import Idealize.ShloMosaic.Lib.ValueIdx
import Idealize.ShloMosaic.Lib.Pipeline.Value
import Idealize.ShloMosaic.Lib.ValueLayout

noncomputable section

namespace Cert.Proof.KernelLayout

open Idealize.ShloMosaic Idealize.ShloMosaic.ValueIdx Cert.KernelIdeal
open Cert.KernelIdeal.Facts₀

variable {F : FTy → Type} [FloatOps F]

/-! ## The results transposed back -/

/-- The memory result `[201, 64, 4096]` (slot, column, batch) read as `[4096, 201, 64]`. -/
theorem tr_out (X : FVec F S201x64x4096 .f32) (b : Fin 4096) (n : Fin 201) (k : Fin 64) :
    transpose S4096x201x64 [2, 0, 1] X transposes_S201x64x4096_S4096x201x64_2_0_1 (ix3 b n k) = X (ix3 n k b) :=
  transpose_apply _ X _ _ _ fun c => match c with | ⟨0, _⟩ => rfl | ⟨1, _⟩ => rfl | ⟨2, _⟩ => rfl

/-- The read result `[65, 4096]` (column, batch) read as `[4096, 65]`. -/
theorem tr_read (X : FVec F S65x4096 .f32) (b : Fin 4096) (k : Fin 65) :
    transpose S4096x65 [1, 0] X transposes_S65x4096_S4096x65_1_0 (ix2 b k) = X (ix2 k b) :=
  transpose_ix2_apply X _ b k

/-! ## The arguments transposed -/

/-- A memory `[4096, 200, 64]` (batch, slot, column) read as `[200, 64, 4096]`. -/
theorem tr_mem (A : FVec F S4096x200x64 .f32) (n : Fin 200) (k : Fin 64) (b : Fin 4096) :
    transpose S200x64x4096 [1, 2, 0] A transposes_S4096x200x64_S200x64x4096_1_2_0 (ix3 n k b) = A (ix3 b n k) :=
  transpose_apply _ A _ _ _ fun c => match c with | ⟨0, _⟩ => rfl | ⟨1, _⟩ => rfl | ⟨2, _⟩ => rfl

/-- A new row `[4096, 64]` (batch, column) read as `[64, 4096]`. -/
theorem tr_row (B : FVec F S4096x64 .f32) (k : Fin 64) (b : Fin 4096) :
    transpose S64x4096 [1, 0] B transposes_S4096x64_S64x4096_1_0 (ix2 k b) = B (ix2 b k) :=
  transpose_ix2_apply B _ k b

/-- A column `[4096, 1]` (the gate, the iteration) read as the row `[1, 4096]`, at any element type. -/
theorem tr_col {e : EltTy} (G : Vec F S4096x1 e) (b : Fin 4096) :
    transpose S1x4096 [1, 0] G transposes_S4096x1_S1x4096_1_0 (ix2 0 b) = G (ix2 b 0) :=
  transpose_ix2_apply G _ 0 b

/-! ## The two scalars packed into one array -/

/-- The packed array's first entry is the `[1, 1]` scalar. -/
theorem wb_fst (W : Vec F S1x1 .f32) (c : Vec F S1 .f32) :
    shapeCast S1x2 (concatenate S2 0 [⟨S1, shapeCast S1 W shapeCasts_S1x1_S1⟩, ⟨S1, c⟩] concatenates_S1_S1_S2_d0)
      shapeCasts_S2_S1x2 (ix2 0 0) = W (ix2 0 0) := by
  rw [shapeCast_a_1a_apply]
  refine (concatenate_pair_apply_left (0 : Fin S2.rank) _ c concatenates_S1_S1_S2_d0 (ix1 0) rfl (ix1 0)
    (fun a => by match a with | ⟨0, _⟩ => rfl)).trans ?_
  exact shapeCast_apply W shapeCasts_S1x1_S1 (ix1 0) (ix2 0 0) (by
    rw [Shape.rowMajor_val_two, Shape.rowMajor_val_one]; rfl)

/-- The packed array's second entry is the `[1]` scalar. -/
theorem wb_snd (W : Vec F S1x1 .f32) (c : Vec F S1 .f32) :
    shapeCast S1x2 (concatenate S2 0 [⟨S1, shapeCast S1 W shapeCasts_S1x1_S1⟩, ⟨S1, c⟩] concatenates_S1_S1_S2_d0)
      shapeCasts_S2_S1x2 (ix2 0 1) = c (ix1 0) := by
  rw [shapeCast_a_1a_apply]
  exact concatenate_pair_apply_right (0 : Fin S2.rank) _ c concatenates_S1_S1_S2_d0 (ix1 1) rfl rfl (ix1 0)
    (fun a ha => by match a, ha with | ⟨0, _⟩, ha => exact absurd rfl ha) rfl

end Cert.Proof.KernelLayout

end
-- ==== Proof.Bridge.lean ====
/-
  The kernel program's results meet the reference's, index by index.

  The kernel program keeps the batch axis last: it transposes every argument, works on `[…, 4096]` arrays, and
  transposes its results back. Reading each transpose at an index undoes it. So the memory with one new row appended
  — slots 0 … 199 the memory's, slot 200 the new row — read back as `[4096, 201, 64]` is the reference's concatenation
  along the slot axis; and a `[65, 4096]` array whose entry `(k, b)` is the specification's read of batch element `b`
  (key column `k` below 64, the confidence column at 64), computed from the transposed arguments and the packed
  scalars, read back as `[4096, 65]` is the reference's third result.
-/
import proofs.«209559_g37125697307438_cont_8to1_b_286_16_alg».proof.Proof.Spec
import proofs.«209559_g37125697307438_cont_8to1_b_286_16_alg».proof.Proof.RefValue
import proofs.«209559_g37125697307438_cont_8to1_b_286_16_alg».proof.Proof.KernelLayout

noncomputable section

namespace Cert.Proof.Bridge

open Idealize.ShloMosaic Idealize.ShloMosaic.ValueIdx Idealize.ShloMosaic.TcCoe Idealize.SL.Sem
open Cert.KernelIdeal Cert.KernelIdeal.Facts₀
open Cert.Proof

/-! ## The memory with one row appended -/

/-- Rows 0 … 199 of the first array, then the second array as row 200. -/
def appendRows {F : FTy → Type} (kT : FVec F S200x64x4096 .f32) (nT : FVec F S64x4096 .f32) : FVec F S201x64x4096 .f32 :=
  fun j => if h : (j 0).val < 200 then kT (ix3 ⟨(j 0).val, h⟩ (j 1) (j 2)) else nT (ix2 (j 1) (j 2))

/-- Appending the transposed new row to the transposed memory and transposing back is the reference's concatenation of
    the memory with the new row along the slot axis. -/
theorem append_bridge {F : FTy → Type} [FloatOps F] (A : FVec F S4096x200x64 .f32) (B : FVec F S4096x64 .f32) :
    transpose S4096x201x64 [2, 0, 1]
        (appendRows (transpose S200x64x4096 [1, 2, 0] A transposes_S4096x200x64_S200x64x4096_1_2_0)
          (transpose S64x4096 [1, 0] B transposes_S4096x64_S64x4096_1_0))
        transposes_S201x64x4096_S4096x201x64_2_0_1
      = concatenate Cert.ReferenceIdeal.S4096x201x64 1
          [⟨Cert.ReferenceIdeal.S4096x200x64, A⟩,
           ⟨Cert.ReferenceIdeal.S4096x1x64, broadcastInDim Cert.ReferenceIdeal.S4096x1x64 ![0, 2]
              Cert.ReferenceIdeal.Gen.bcast_S4096x64_S4096x1x64_0_2 B⟩]
          Cert.ReferenceIdeal.Gen.concatenates_S4096x200x64_S4096x1x64_S4096x201x64_d1 := by
  funext j
  obtain ⟨b, n, k, rfl⟩ : ∃ (b : Fin 4096) (n : Fin 201) (k : Fin 64), j = ix3 b n k := ⟨j 0, j 1, j 2, eq_ix3 j⟩
  refine (KernelLayout.tr_out _ b n k).trans ?_
  refine Eq.trans ?_ (RefValue.concat_apply A B b n k).symm
  show (if h : n.val < 200 then
        transpose S200x64x4096 [1, 2, 0] A transposes_S4096x200x64_S200x64x4096_1_2_0 (ix3 ⟨n.val, h⟩ k b)
      else transpose S64x4096 [1, 0] B transposes_S4096x64_S64x4096_1_0 (ix2 k b)) = _
  by_cases h : n.val < 200
  · rw [dif_pos h, dif_pos h, KernelLayout.tr_mem]
  · rw [dif_neg h, dif_neg h, KernelLayout.tr_row]

/-! ## The read -/

section Read
variable (x1 : FVec Ideal S4096x64 .f32) (x2 x3 : FVec Ideal S4096x200x64 .f32) (x4 : Vec Ideal S4096x1 .f32)
  (x5 : Vec Ideal S4096x1 .i32) (x6 : Vec Ideal S1x1 .f32) (x7 : Vec Ideal S1 .f32)

/-- The two scalars of the confidence map, packed into one `[1, 2]` array. -/
abbrev packed : FVec Ideal S1x2 .f32 :=
  shapeCast S1x2 (concatenate S2 0 [⟨S1, shapeCast S1 x6 shapeCasts_S1x1_S1⟩, ⟨S1, x7⟩] concatenates_S1_S1_S2_d0)
    shapeCasts_S2_S1x2

/-- Entry `(k, b)` of the kernel's read array: the specification's read of batch element `b`, from the transposed
    arguments and the packed scalars. -/
abbrev kernelRead (k : Fin 65) (b : Fin 4096) : EReal :=
  if h : k.val < 64 then
    Spec.readK (fun n d => transpose S200x64x4096 [1, 2, 0] x3 transposes_S4096x200x64_S200x64x4096_1_2_0 (ix3 n d b))
      (fun d => transpose S64x4096 [1, 0] x1 transposes_S4096x64_S64x4096_1_0 (ix2 d b))
      (fun n => transpose S200x64x4096 [1, 2, 0] x2 transposes_S4096x200x64_S200x64x4096_1_2_0 (ix3 n ⟨k.val, h⟩ b))
      (transpose S1x4096 [1, 0] x4 transposes_S4096x1_S1x4096_1_0 (ix2 0 b))
      (transpose S1x4096 [1, 0] x5 transposes_S4096x1_S1x4096_1_0 (ix2 0 b))
  else
    Spec.readC (fun n d => transpose S200x64x4096 [1, 2, 0] x3 transposes_S4096x200x64_S200x64x4096_1_2_0 (ix3 n d b))
      (fun d => transpose S64x4096 [1, 0] x1 transposes_S4096x64_S64x4096_1_0 (ix2 d b))
      (packed x6 x7 (ix2 0 0)) (packed x6 x7 (ix2 0 1))
      (transpose S1x4096 [1, 0] x4 transposes_S4096x1_S1x4096_1_0 (ix2 0 b))
      (transpose S1x4096 [1, 0] x5 transposes_S4096x1_S1x4096_1_0 (ix2 0 b))

/-- Undoing the transposes: the kernel's read entry `(k, b)` is the specification's read of batch element `b` from the
    arguments themselves. -/
theorem kernelRead_eq (k : Fin 65) (b : Fin 4096) :
    kernelRead x1 x2 x3 x4 x5 x6 x7 k b
      = if h : k.val < 64 then
          Spec.readK (fun n d => x3 (ix3 b n d)) (fun d => x1 (ix2 b d)) (fun n => x2 (ix3 b n ⟨k.val, h⟩))
            (x4 (ix2 b 0)) (x5 (ix2 b 0))
        else
          Spec.readC (fun n d => x3 (ix3 b n d)) (fun d => x1 (ix2 b d)) (x6 (ix2 0 0)) (x7 (ix1 0))
            (x4 (ix2 b 0)) (x5 (ix2 b 0)) := by
  have e3 : ∀ (n : Fin 200) (d : Fin 64),
      transpose S200x64x4096 [1, 2, 0] x3 transposes_S4096x200x64_S200x64x4096_1_2_0 (ix3 n d b) = x3 (ix3 b n d) :=
    fun n d => KernelLayout.tr_mem x3 n d b
  have e2 : ∀ (n : Fin 200) (d : Fin 64),
      transpose S200x64x4096 [1, 2, 0] x2 transposes_S4096x200x64_S200x64x4096_1_2_0 (ix3 n d b) = x2 (ix3 b n d) :=
    fun n d => KernelLayout.tr_mem x2 n d b
  have e1 : ∀ d : Fin 64,
      transpose S64x4096 [1, 0] x1 transposes_S4096x64_S64x4096_1_0 (ix2 d b) = x1 (ix2 b d) :=
    fun d => KernelLayout.tr_row x1 d b
  have e4 : transpose S1x4096 [1, 0] x4 transposes_S4096x1_S1x4096_1_0 (ix2 0 b) = x4 (ix2 b 0) :=
    KernelLayout.tr_col x4 b
  have e5 : transpose S1x4096 [1, 0] x5 transposes_S4096x1_S1x4096_1_0 (ix2 0 b) = x5 (ix2 b 0) :=
    KernelLayout.tr_col x5 b
  have e6 : packed x6 x7 (ix2 0 0) = x6 (ix2 0 0) := KernelLayout.wb_fst x6 x7
  have e7 : packed x6 x7 (ix2 0 1) = x7 (ix1 0) := KernelLayout.wb_snd x6 x7
  unfold kernelRead
  simp only [e3, e2, e1, e4, e5, e6, e7]

end Read

/-- THE READ: a `[65, 4096]` array whose entry `(k, b)` is the specification's read of batch element `b` from the
    transposed arguments, transposed back, is the reference's third result. -/
theorem read_bridge
    (m' : (ℓ : Loc Cert.ReferenceIdeal.nD Cert.ReferenceIdeal.τ Cert.ReferenceIdeal.sig) → Buf (Elt Ideal) ℓ)
    (c : Dev Cert.ReferenceIdeal.nD) (Y : FVec Ideal S65x4096 .f32)
    (hY : ∀ (k : Fin 65) (b : Fin 4096), Y (ix2 k b) =
      kernelRead
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) k b) :
    transpose S4096x65 [1, 0] Y transposes_S65x4096_S4096x65_1_0
      = Cert.ReferenceIdeal.Value.res_out2 (F := Ideal) m' c := by
  funext j
  obtain ⟨b, k, rfl⟩ : ∃ (b : Fin 4096) (k : Fin 65), j = ix2 b k := ⟨j 0, j 1, eq_ix2 j⟩
  refine (KernelLayout.tr_read Y b k).trans ?_
  refine (hY k b).trans ?_
  refine (kernelRead_eq _ _ _ _ _ _ _ k b).trans ?_
  exact (RefValue.res_out2_apply m' c b k).symm

end Cert.Proof.Bridge

end
-- ==== Proof.ResultsIdeal.lean ====
/-
  At the ideal instance the program's three results are the reference's: the SparseCore call's copy and the
  region's appended value memory are the concatenations of each memory with its new row, and the region's read is,
  batch element by batch element, the specification's gated attention read — which is what the reference computes.
-/
import proofs.«209559_g37125697307438_cont_8to1_b_286_16_alg».proof.Proof.Final
import proofs.«209559_g37125697307438_cont_8to1_b_286_16_alg».proof.Proof.RegionValue
import proofs.«209559_g37125697307438_cont_8to1_b_286_16_alg».proof.Proof.Bridge

noncomputable section

namespace Cert.Proof.KI

open Cert.KernelIdeal Cert.KernelIdeal.Gen

open Idealize.ShloMosaic Idealize.ShloMosaic.TcCoe Idealize.ShloMosaic.ValueIdx
open Idealize.ShloMosaic.SparseCore.Cfg (HIx)
open Idealize.SL.Sem

variable (m : (ℓ : Loc nD τ sig) → Buf (Elt Ideal) ℓ) (d : Dev nD)

/-! ## The region's operands are the transposed arguments -/

theorem Vv_v2 : Vv1 (W1' m) d main_v2 = shapeCast S1x2 (concatenate S2 0 [⟨S1, shapeCast S1 (m ((d.tc : Thread nD τ).loc main_arg6)) Facts₀.shapeCasts_S1x1_S1⟩, ⟨S1, m ((d.tc : Thread nD τ).loc main_arg7)⟩]
        Facts₀.concatenates_S1_S1_S2_d0) Facts₀.shapeCasts_S2_S1x2 :=
  (W1'_of m d main_v2 (by decide)).trans (W1_v2 m d)
theorem Vv_v4 : Vv1 (W1' m) d main_v4 = transpose S64x4096 [1, 0] (m ((d.tc : Thread nD τ).loc main_arg1)) Facts₀.transposes_S4096x64_S64x4096_1_0 :=
  (W1'_of m d main_v4 (by decide)).trans (W1_v4 m d)
theorem Vv_v5 : Vv1 (W1' m) d main_v5 = transpose S200x64x4096 [1, 2, 0] (m ((d.tc : Thread nD τ).loc main_arg2)) Facts₀.transposes_S4096x200x64_S200x64x4096_1_2_0 :=
  (W1'_of m d main_v5 (by decide)).trans (W1_v5 m d)
theorem Vv_v6 : Vv1 (W1' m) d main_v6 = transpose S200x64x4096 [1, 2, 0] (m ((d.tc : Thread nD τ).loc main_arg3)) Facts₀.transposes_S4096x200x64_S200x64x4096_1_2_0 :=
  (W1'_of m d main_v6 (by decide)).trans (W1_v6 m d)
theorem Vv_v7 : Vv1 (W1' m) d main_v7 = transpose S1x4096 [1, 0] (m ((d.tc : Thread nD τ).loc main_arg4)) Facts₀.transposes_S4096x1_S1x4096_1_0 :=
  (W1'_of m d main_v7 (by decide)).trans (W1_v7 m d)
theorem Vv_v8 : Vv1 (W1' m) d main_v8 = transpose S1x4096 [1, 0] (m ((d.tc : Thread nD τ).loc main_arg5)) Facts₀.transposes_S4096x1_S1x4096_1_0 :=
  (W1'_of m d main_v8 (by decide)).trans (W1_v8 m d)

/-! ## The two appended memories -/

theorem outOf_eq : outOf (kvOf m d) (nvOf m d) = Bridge.appendRows (F := Ideal) (W1 m d (Proc.devRef .tc main_v5)) (W1 m d (Proc.devRef .tc main_v3)) := rfl
theorem gmem_eq : Gmem (Vv1 (W1' m)) d = Bridge.appendRows (F := Ideal) (Vv1 (W1' m) d main_v6) (Vv1 (W1' m) d main_v4) := rfl

theorem v11_eq : W3 m d (Proc.devRef .tc main_v11)
    = concatenate Cert.ReferenceIdeal.S4096x201x64 1
        [⟨Cert.ReferenceIdeal.S4096x200x64, m ((d.tc : Thread nD τ).loc main_arg2)⟩,
         ⟨Cert.ReferenceIdeal.S4096x1x64, broadcastInDim Cert.ReferenceIdeal.S4096x1x64 ![0, 2]
            Cert.ReferenceIdeal.Gen.bcast_S4096x64_S4096x1x64_0_2 (m ((d.tc : Thread nD τ).loc main_arg0))⟩]
        Cert.ReferenceIdeal.Gen.concatenates_S4096x200x64_S4096x1x64_S4096x201x64_d1 := by
  rw [W3_v11, W2_v9, outOf_eq,
    W1_v5, W1_v3]
  exact Bridge.append_bridge _ _

theorem v12_eq : W3 m d (Proc.devRef .tc main_v12)
    = concatenate Cert.ReferenceIdeal.S4096x201x64 1
        [⟨Cert.ReferenceIdeal.S4096x200x64, m ((d.tc : Thread nD τ).loc main_arg3)⟩,
         ⟨Cert.ReferenceIdeal.S4096x1x64, broadcastInDim Cert.ReferenceIdeal.S4096x1x64 ![0, 2]
            Cert.ReferenceIdeal.Gen.bcast_S4096x64_S4096x1x64_0_2 (m ((d.tc : Thread nD τ).loc main_arg1))⟩]
        Cert.ReferenceIdeal.Gen.concatenates_S4096x200x64_S4096x1x64_S4096x201x64_d1 := by
  rw [W3_v12, show W2 (W1' m) d (Proc.devRef .tc main_v10_0) = (dat1 (Vv1 (W1' m)) d).arrAt 7 cfg1.N from W2_arr (W1' m) d 7, arrAt7_eq,
    gmem_eq, Vv_v6, Vv_v4]
  exact Bridge.append_bridge _ _

/-! ## The read -/

theorem v13_eq : W3 m d (Proc.devRef .tc main_v13)
    = transpose S4096x65 [1, 0] ((dat1 (Vv1 (W1' m)) d).arrAt 8 cfg1.N) Facts₀.transposes_S65x4096_S4096x65_1_0 := by
  rw [W3_v13, show W2 (W1' m) d (Proc.devRef .tc main_v10_1) = (dat1 (Vv1 (W1' m)) d).arrAt 8 cfg1.N from W2_arr (W1' m) d 8]

theorem read_at (k : Fin 65) (b : Fin 4096) :
    (dat1 (F := Ideal) (Vv1 (W1' m)) d).arrAt 8 cfg1.N (ix2 k b)
      = Bridge.kernelRead (m ((d.tc : Thread nD τ).loc main_arg1)) (m ((d.tc : Thread nD τ).loc main_arg2)) (m ((d.tc : Thread nD τ).loc main_arg3))
          (m ((d.tc : Thread nD τ).loc main_arg4)) (m ((d.tc : Thread nD τ).loc main_arg5)) (m ((d.tc : Thread nD τ).loc main_arg6))
          (m ((d.tc : Thread nD τ).loc main_arg7)) k b := by
  rw [arr_read, Vv_v2, Vv_v4, Vv_v5, Vv_v6, Vv_v7, Vv_v8]

end Cert.Proof.KI

end
-- ==== Proof.SetupBits.lean ====
/-
  The shared ground of the kernel's frame and value proofs: the program as the launch theorem sees it (its
  SparseCore configuration, body table, variants), the resource algebra (the launch handshakes' rounds, the
  TensorCore pipeline's staging cells, the local transfers' counters), the arrays the SparseCore call moves, and
  what the call's handshakes carry.

  The call copies rows: output row n (of 201) is key-memory row n for n < 200 and the new-key row for n = 200,
  each row a [64, 4096] slab. Vector subcore s of SparseCore c is worker 2·s + c; worker w copies rows w, w + 32,
  …, w + 192 (those below 200), and worker 31 also copies the last row. A worker is handed exactly the source rows
  it reads and the destination rows it writes, whole, and hands them back with each destination row holding its
  source row.
-/
import proofs.«209559_g37125697307438_cont_8to1_b_286_16_alg».proof.Defs
import proofs.«209559_g37125697307438_cont_8to1_b_286_16_alg».proof.Proof.Gen.Kernel
import proofs.«209559_g37125697307438_cont_8to1_b_286_16_alg».proof.Proof.Gen.Kernel.Launch
import Idealize.ShloMosaic.Lib.SparseCore.Launch
import Idealize.ShloMosaic.Lib.Pipeline.Kit
import Idealize.ShloMosaic.Lib.Transfers
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The pipeline's staging cells' rounds, the middle factor; the transfers' counters are found by instance in the right. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The arrays of the SparseCore call, as locations of device `d` -/

/-- Key memory transposed (slot, column, batch), the new key transposed (column, batch), the call's result. -/
abbrev kLoc (d : Dev nD) : Loc nD τ sig := (SparseCore.T d).loc main_v5
abbrev nLoc (d : Dev nD) : Loc nD τ sig := (SparseCore.T d).loc main_v3
abbrev oLoc (d : Dev nD) : Loc nD τ sig := (SparseCore.T d).loc main_v9

abbrev kV : Memref sig .scVector .hbm S200x64x4096 .f32 := Memref.whole main_v5_scv
abbrev nV : Memref sig .scVector .hbm S64x4096 .f32 := Memref.whole main_v3_scv
abbrev oV : Memref sig .scVector .hbm S201x64x4096 .f32 := Memref.whole main_v9_scv
abbrev b0V : Memref sig .scVector .vmem S8x4096 .f32 := Memref.whole cc0_scratch0
abbrev b1V : Memref sig .scVector .vmem S8x4096 .f32 := Memref.whole cc0_scratch1

theorem hdivK : 200 ∣ S200x64x4096.size 0 := ⟨1, rfl⟩
theorem hdivO : 201 ∣ S201x64x4096.size 0 := ⟨1, rfl⟩
/-- Row `n` of the source and of the result: one slot's [64, 4096] slab. -/
abbrev kRow (n : Fin 200) : Rect S200x64x4096 := Rect.part (s := S200x64x4096) (a₀ := 0) hdivK n
abbrev oRow (n : Fin 201) : Rect S201x64x4096 := Rect.part (s := S201x64x4096) (a₀ := 0) hdivO n
abbrev kRowSet (n : Fin 200) : Finset S200x64x4096.Idx := ((kV : Memref sig .scVector .hbm S200x64x4096 .f32).view.slice (kRow n)).set
abbrev oRowSet (n : Fin 201) : Finset S201x64x4096.Idx := ((oV : Memref sig .scVector .hbm S201x64x4096 .f32).view.slice (oRow n)).set

/-- What the result holds: row `n < 200` the source's row `n`, row 200 the new-key slab. -/
def outOf {d : Dev nD} (kv : Buf (Elt F) (kLoc d)) (nv : Buf (Elt F) (nLoc d)) : Buf (Elt F) (oLoc d) :=
  fun j => if h : (j 0).val < 200 then kv (ValueIdx.ix3 ⟨(j 0).val, h⟩ (j 1) (j 2)) else nv (ValueIdx.ix2 (j 1) (j 2))

/-! ## The workers -/

/-- Worker number of vector subcore `i` of SparseCore `c`. -/
def wid (c i : ℕ) : ℕ := 2 * i + c
/-- The `r`-th row of worker `w` (meaningful when `w + 32 r < 200`). -/
def rowOf (w : ℕ) (r : Fin 7) : Fin 200 := ⟨(w + 32 * r.val) % 200, Nat.mod_lt _ (by decide)⟩
def lastRow : Fin 201 := ⟨200, by decide⟩
def outRow (n : Fin 200) : Fin 201 := ⟨n.val, by omega⟩

variable (kv : (d : Dev nD) → Buf (Elt F) (kLoc d)) (nv : (d : Dev nD) → Buf (Elt F) (nLoc d))

/-- One copied row's resources: the source row at its contents and the destination row at `fo`. -/
def rowRes (d : Dev nD) (fo : Buf (Elt F) (oLoc d)) (n : Fin 200) : sProp 𝕄 :=
  iprop((kLoc d ↦[kRowSet n]{fullShare} kv d) ∗ (oLoc d ↦[oRowSet (outRow n)]{fullShare} fo))
/-- The last row's: the new-key slab whole and destination row 200. -/
def lastRes (d : Dev nD) (fo : Buf (Elt F) (oLoc d)) : sProp 𝕄 :=
  iprop((nLoc d ↦{fullShare} nv d) ∗ (oLoc d ↦[oRowSet lastRow]{fullShare} fo))
/-- Worker `w`'s resources with the destination rows at `fo`. -/
def tileRes (d : Dev nD) (fo : Buf (Elt F) (oLoc d)) (w : ℕ) : sProp 𝕄 :=
  iprop((bigSep Finset.univ fun r : Fin 7 => if w + 32 * r.val < 200 then rowRes kv d fo (rowOf w r) else iprop(emp))
    ∗ (if w = 31 then lastRes nv d fo else iprop(emp)))

/-- The call's payloads: each task takes its rows with the destination at the launch contents `o0` and returns
    them with the destination at `outOf`; a SparseCore takes and returns its sixteen tasks' resources. -/
def P (o0 : (d : Dev nD) → Buf (Elt F) (oLoc d)) : (K (F := F)).Pay (nD := nD) (Val := Elt F) (Name := ℕ) (U := UU) where
  st := fun _ d c => bigSep Finset.univ fun i : Fin 16 => tileRes kv nv d (o0 d) (wid c.val i.val)
  dn := fun _ d c => bigSep Finset.univ fun i : Fin 16 => tileRes kv nv d (outOf (kv d) (nv d)) (wid c.val i.val)
  go := fun _ d c i => tileRes kv nv d (o0 d) (wid c.val i.val)
  td := fun _ d c i => tileRes kv nv d (outOf (kv d) (nv d)) (wid c.val i.val)
  x := fun _ _ => iprop(emp)

/-! ## The payloads can be stored in invariants -/

instance ite_storable (p : Prop) [Decidable p] (A B : sProp 𝕄) [BI.Storable (upEmb : UEmb _ 𝕄) A] [BI.Storable (upEmb : UEmb _ 𝕄) B] :
    BI.Storable (upEmb : UEmb _ 𝕄) (if p then A else B) := by split <;> infer_instance

instance tileRes_storable (d : Dev nD) (fo : Buf (Elt F) (oLoc d)) (w : ℕ) : BI.Storable (upEmb : UEmb _ 𝕄) (tileRes kv nv d fo w) := by
  unfold tileRes rowRes lastRes; infer_instance

instance P_storable (o0 : (d : Dev nD) → Buf (Elt F) (oLoc d)) : (P (F := F) kv nv o0).IsStorable where
  st _ d c := by unfold P; infer_instance
  dn _ d c := by unfold P; infer_instance
  go _ d c i := by unfold P; infer_instance
  td _ d c i := by unfold P; infer_instance

end Cert.Proof.KB

end
-- ==== Proof.RowsBits.lean ====
/-
  How the SparseCore call's three arrays split among the 32 workers and join back.

  The key memory (200 rows) and the result (201 rows) are cut into rows along their first axis; rows are pairwise
  disjoint and cover the array. Row n < 200 belongs to the worker n mod 32, which is subcore (n mod 32) / 2 of
  SparseCore n mod 2, as its (n / 32)-th row; the map (core, subcore, r) ↦ 2·subcore + core + 32·r is a bijection
  from the triples with value below 200 onto the rows. Row 200 and the new-key array belong to worker 31 alone.
-/
import proofs.«209559_g37125697307438_cont_8to1_b_286_16_alg».proof.Proof.SetupBits

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Rows are disjoint and cover -/

theorem kRowSet_eq (n : Fin 200) : kRowSet n = (kRow n).set := by
  show ((View.whole (main_v5_scv : Ref sig .scVector)).slice (kRow n)).set = _
  rw [View.set_slice]; exact Finset.map_refl
theorem oRowSet_eq (n : Fin 201) : oRowSet n = (oRow n).set := by
  show ((View.whole (main_v9_scv : Ref sig .scVector)).slice (oRow n)).set = _
  rw [View.set_slice]; exact Finset.map_refl

theorem kRows_disjoint : ∀ i ∈ (Finset.univ : Finset (Fin 200)), ∀ j ∈ (Finset.univ : Finset (Fin 200)), i ≠ j → Disjoint (kRowSet i) (kRowSet j) :=
  fun i _ j _ h => by rw [kRowSet_eq, kRowSet_eq]; exact Rect.part_disjoint hdivK h
theorem kRows_cover : (Finset.univ : Finset (Fin 200)).biUnion kRowSet = Finset.univ :=
  (Finset.biUnion_congr rfl fun i _ => kRowSet_eq i).trans (Rect.biUnion_part hdivK)
theorem oRows_disjoint : ∀ i ∈ (Finset.univ : Finset (Fin 201)), ∀ j ∈ (Finset.univ : Finset (Fin 201)), i ≠ j → Disjoint (oRowSet i) (oRowSet j) :=
  fun i _ j _ h => by rw [oRowSet_eq, oRowSet_eq]; exact Rect.part_disjoint hdivO h
theorem oRows_cover : (Finset.univ : Finset (Fin 201)).biUnion oRowSet = Finset.univ :=
  (Finset.biUnion_congr rfl fun i _ => oRowSet_eq i).trans (Rect.biUnion_part hdivO)

theorem kPts_rows (d : Dev nD) (f : Buf (Elt F) (kLoc d)) :
    (kLoc d ↦{fullShare} f : sProp 𝕄) = bigSep Finset.univ fun n : Fin 200 => kLoc d ↦[kRowSet n]{fullShare} f := by
  rw [← pointsTo_biUnion Finset.univ (ℓ := kLoc d) kRowSet kRows_disjoint, kRows_cover]; try rfl
theorem oPts_rows (d : Dev nD) (f : Buf (Elt F) (oLoc d)) :
    (oLoc d ↦{fullShare} f : sProp 𝕄) = bigSep Finset.univ fun n : Fin 201 => oLoc d ↦[oRowSet n]{fullShare} f := by
  rw [← pointsTo_biUnion Finset.univ (ℓ := oLoc d) oRowSet oRows_disjoint, oRows_cover]; try rfl

/-! ## The result's rows: the first 200 and the last -/

theorem univ201 : (Finset.univ : Finset (Fin 201)) = insert lastRow (Finset.univ.image outRow) := by
  ext n
  simp only [Finset.mem_univ, Finset.mem_insert, Finset.mem_image, true_and, true_iff]
  by_cases h : n.val < 200
  · exact .inr ⟨⟨n.val, h⟩, Fin.ext rfl⟩
  · exact .inl (Fin.ext (by have := n.isLt; show n.val = 200; omega))
theorem lastRow_notMem : lastRow ∉ (Finset.univ.image outRow : Finset (Fin 201)) := by
  simp only [Finset.mem_image, Finset.mem_univ, true_and, not_exists]
  intro x e
  have := congrArg Fin.val e
  simp only [outRow, lastRow] at this
  have := x.isLt; omega
theorem outRow_injOn : Set.InjOn outRow ((Finset.univ : Finset (Fin 200)) : Set (Fin 200)) :=
  fun a _ b _ e => Fin.ext (by have := congrArg Fin.val e; simpa [outRow] using this)

theorem oRows_split (Φ : Fin 201 → sProp 𝕄) :
    bigSep Finset.univ Φ = iprop(Φ lastRow ∗ bigSep Finset.univ fun n : Fin 200 => Φ (outRow n)) := by
  rw [univ201, SparseCore.bigSep_insert' lastRow_notMem, SparseCore.bigSep_image_of_injOn outRow_injOn Φ]

/-! ## The rows below 200 among the workers -/

/-- The triples (core, subcore, r) that name a row. -/
def trip : Finset (Fin 2 × Fin 16 × Fin 7) := Finset.univ.filter fun x => wid x.1.val x.2.1.val + 32 * x.2.2.val < 200
def rowOfT (x : Fin 2 × Fin 16 × Fin 7) : Fin 200 := rowOf (wid x.1.val x.2.1.val) x.2.2

theorem rowOfT_injOn : Set.InjOn rowOfT ((trip : Finset (Fin 2 × Fin 16 × Fin 7)) : Set _) := by
  intro a ha b hb e
  simp only [trip, Finset.coe_filter, Finset.mem_univ, true_and, Set.mem_setOf_eq] at ha hb
  have e' := congrArg Fin.val e
  simp only [rowOfT, rowOf] at e'
  rw [Nat.mod_eq_of_lt ha, Nat.mod_eq_of_lt hb] at e'
  obtain ⟨⟨c, hc⟩, ⟨i, hi⟩, ⟨r, hr⟩⟩ := a
  obtain ⟨⟨c', hc'⟩, ⟨i', hi'⟩, ⟨r', hr'⟩⟩ := b
  simp only [wid] at e'
  have h3 : c = c' ∧ i = i' ∧ r = r' := by omega
  obtain ⟨rfl, rfl, rfl⟩ := h3
  rfl

theorem image_trip : trip.image rowOfT = (Finset.univ : Finset (Fin 200)) := by
  ext n
  simp only [Finset.mem_image, Finset.mem_univ, iff_true]
  have hn := n.isLt
  refine ⟨(⟨n.val % 2, Nat.mod_lt _ (by decide)⟩, ⟨(n.val % 32) / 2, Nat.div_lt_of_lt_mul (show n.val % 32 < 2 * 16 from Nat.mod_lt _ (by decide))⟩,
    ⟨n.val / 32, Nat.div_lt_of_lt_mul (show n.val < 32 * 7 by omega)⟩), ?_, ?_⟩
  · have h1 : 2 * (n.val % 32 / 2) + n.val % 2 = n.val % 32 := by omega
    refine Finset.mem_filter.mpr ⟨Finset.mem_univ _, ?_⟩
    show 2 * (n.val % 32 / 2) + n.val % 2 + 32 * (n.val / 32) < 200
    omega
  · apply Fin.ext
    have h1 : 2 * (n.val % 32 / 2) + n.val % 2 = n.val % 32 := by omega
    show (2 * (n.val % 32 / 2) + n.val % 2 + 32 * (n.val / 32)) % 200 = n.val
    omega

theorem rows_regroup (Ψ : Fin 200 → sProp 𝕄) :
    bigSep Finset.univ Ψ = bigSep Finset.univ fun c : Fin 2 => bigSep Finset.univ fun i : Fin 16 => bigSep Finset.univ fun r : Fin 7 =>
      if wid c.val i.val + 32 * r.val < 200 then Ψ (rowOf (wid c.val i.val) r) else iprop(emp) := by
  rw [← image_trip, SparseCore.bigSep_image_of_injOn rowOfT_injOn Ψ]
  unfold trip
  rw [bigSep_filter, bigSep_univ_prod]
  refine bigSep_congr fun c _ => ?_
  rw [bigSep_univ_prod]
  rfl

/-- Exactly one worker is number 31. -/
theorem last_regroup (L : sProp 𝕄) :
    L = bigSep Finset.univ fun c : Fin 2 => bigSep Finset.univ fun i : Fin 16 => if wid c.val i.val = 31 then L else iprop(emp) := by
  show L = bigSep Finset.univ fun c : Fin 2 => bigSep Finset.univ fun i : Fin 16 => if wid c.val i.val = 31 then L else (BI.emp : sProp 𝕄)
  rw [← bigSep_univ_prod (fun x : Fin 2 × Fin 16 => if wid x.1.val x.2.val = 31 then L else (BI.emp : sProp 𝕄)),
    ← bigSep_filter Finset.univ (fun x : Fin 2 × Fin 16 => wid x.1.val x.2.val = 31) (fun _ => L),
    show (Finset.univ.filter fun x : Fin 2 × Fin 16 => wid x.1.val x.2.val = 31) = {(1, 15)} from by decide,
    bigSep_singleton]

end Cert.Proof.KB

end
-- ==== Proof.SplitBits.lean ====
/-
  The three arrays of the SparseCore call, whole, ARE the 32 workers' resources: the rows regrouped by worker.
-/
import proofs.«209559_g37125697307438_cont_8to1_b_286_16_alg».proof.Proof.RowsBits

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (kv : (d : Dev nD) → Buf (Elt F) (kLoc d)) (nv : (d : Dev nD) → Buf (Elt F) (nLoc d))

/-- The workers' resources, regrouped: every row below 200 once, and the last row's. -/
theorem tiles_eq (d : Dev nD) (fo : Buf (Elt F) (oLoc d)) :
    (bigSep Finset.univ fun c : Fin 2 => bigSep Finset.univ fun i : Fin 16 => tileRes kv nv d fo (wid c.val i.val) : sProp 𝕄)
      = iprop(((bigSep Finset.univ fun n : Fin 200 => kLoc d ↦[kRowSet n]{fullShare} kv d)
          ∗ (bigSep Finset.univ fun n : Fin 200 => oLoc d ↦[oRowSet (outRow n)]{fullShare} fo))
        ∗ ((nLoc d ↦{fullShare} nv d) ∗ (oLoc d ↦[oRowSet lastRow]{fullShare} fo))) := by
  unfold tileRes
  rw [bigSep_congr fun c _ => bigSep_sep' _ _ _, bigSep_sep', ← rows_regroup (fun n => rowRes kv d fo n), ← last_regroup (lastRes nv d fo)]
  unfold rowRes lastRes
  rw [bigSep_sep']

theorem tiles_split (d : Dev nD) (fo : Buf (Elt F) (oLoc d)) :
    iprop((kLoc d ↦{fullShare} kv d) ∗ (nLoc d ↦{fullShare} nv d) ∗ (oLoc d ↦{fullShare} fo))
      ⊢ (bigSep Finset.univ fun c : Fin 2 => bigSep Finset.univ fun i : Fin 16 => tileRes kv nv d fo (wid c.val i.val) : sProp 𝕄) := by
  rw [tiles_eq, kPts_rows, oPts_rows, oRows_split]
  iintro ⟨Hk, Hn, Hl, Ho⟩
  isplitl [Hk Ho]
  · isplitl [Hk]; · iexact Hk
    iexact Ho
  isplitl [Hn]; · iexact Hn
  iexact Hl

theorem tiles_join (d : Dev nD) (fo : Buf (Elt F) (oLoc d)) :
    (bigSep Finset.univ fun c : Fin 2 => bigSep Finset.univ fun i : Fin 16 => tileRes kv nv d fo (wid c.val i.val) : sProp 𝕄)
      ⊢ iprop((kLoc d ↦{fullShare} kv d) ∗ (nLoc d ↦{fullShare} nv d) ∗ (oLoc d ↦{fullShare} fo)) := by
  rw [tiles_eq, kPts_rows, oPts_rows, oRows_split]
  iintro ⟨⟨Hk, Ho⟩, Hn, Hl⟩
  isplitl [Hk]; · iexact Hk
  isplitl [Hn]; · iexact Hn
  isplitl [Hl]; · iexact Hl
  iexact Ho

end Cert.Proof.KB

end
-- ==== Proof.MainOpsBits.lean ====
/-
  @main of the kernel's program, cut where its kinds of work change: nine host operations that lay the arguments
  out for the kernels (the scalars packed, every array transposed so that the batch is the last axis), the
  SparseCore call, the TensorCore region, and three host operations that transpose the three results back.
-/
import proofs.«209559_g37125697307438_cont_8to1_b_286_16_alg».proof.Proof.SetupBits
import Idealize.ShloMosaic.Lib.StableHlo.Run

noncomputable section

namespace Cert.Proof.KB

open Cert.Kernel Cert.Kernel.Facts₀

open Idealize.ShloMosaic Idealize.ShloMosaic.TcCoe
open Idealize.ShloMosaic.StableHlo (seq after)
open Idealize.SL.Sem

variable {F : FTy → Type} [FloatOps F]

/-- The host operations before the kernels. -/
abbrev opsPre : List (HloOp τ sig (Elt F)) :=
  [ StableHlo.reshape main_arg6 main_v0 rfl shapeCasts_S1x1_S1,
    StableHlo.binary main_v0 main_arg7 main_v1 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.reshape main_v1 main_v2 rfl shapeCasts_S2_S1x2,
    StableHlo.unary main_arg0 main_v3 ((transpose S64x4096 [1, 0] · transposes_S4096x64_S64x4096_1_0) : (⟨S4096x64, .f32⟩ : BufTy).Contents (Elt F) → (⟨S64x4096, .f32⟩ : BufTy).Contents (Elt F)),
    StableHlo.unary main_arg1 main_v4 ((transpose S64x4096 [1, 0] · transposes_S4096x64_S64x4096_1_0) : (⟨S4096x64, .f32⟩ : BufTy).Contents (Elt F) → (⟨S64x4096, .f32⟩ : BufTy).Contents (Elt F)),
    StableHlo.unary main_arg2 main_v5 ((transpose S200x64x4096 [1, 2, 0] · transposes_S4096x200x64_S200x64x4096_1_2_0) : (⟨S4096x200x64, .f32⟩ : BufTy).Contents (Elt F) → (⟨S200x64x4096, .f32⟩ : BufTy).Contents (Elt F)),
    StableHlo.unary main_arg3 main_v6 ((transpose S200x64x4096 [1, 2, 0] · transposes_S4096x200x64_S200x64x4096_1_2_0) : (⟨S4096x200x64, .f32⟩ : BufTy).Contents (Elt F) → (⟨S200x64x4096, .f32⟩ : BufTy).Contents (Elt F)),
    StableHlo.unary main_arg4 main_v7 ((transpose S1x4096 [1, 0] · transposes_S4096x1_S1x4096_1_0) : (⟨S4096x1, .f32⟩ : BufTy).Contents (Elt F) → (⟨S1x4096, .f32⟩ : BufTy).Contents (Elt F)),
    StableHlo.unary main_arg5 main_v8 ((transpose S1x4096 [1, 0] · transposes_S4096x1_S1x4096_1_0) : (⟨S4096x1, .i32⟩ : BufTy).Contents (Elt F) → (⟨S1x4096, .i32⟩ : BufTy).Contents (Elt F)) ]

/-- The host operations after the kernels. -/
abbrev opsPost : List (HloOp τ sig (Elt F)) :=
  [ StableHlo.unary main_v9 main_v11 ((transpose S4096x201x64 [2, 0, 1] · transposes_S201x64x4096_S4096x201x64_2_0_1) : (⟨S201x64x4096, .f32⟩ : BufTy).Contents (Elt F) → (⟨S4096x201x64, .f32⟩ : BufTy).Contents (Elt F)),
    StableHlo.unary main_v10_0 main_v12 ((transpose S4096x201x64 [2, 0, 1] · transposes_S201x64x4096_S4096x201x64_2_0_1) : (⟨S201x64x4096, .f32⟩ : BufTy).Contents (Elt F) → (⟨S4096x201x64, .f32⟩ : BufTy).Contents (Elt F)),
    StableHlo.unary main_v10_1 main_v13 ((transpose S4096x65 [1, 0] · transposes_S65x4096_S4096x65_1_0) : (⟨S65x4096, .f32⟩ : BufTy).Contents (Elt F) → (⟨S4096x65, .f32⟩ : BufTy).Contents (Elt F)) ]

/-- @main is the host prefix, the SparseCore call, the TensorCore region, the host suffix. -/
theorem main_split (d : Dev nD) :
    main (F := F) d = (seq opsPre >>= fun _ => (K (F := F)).run d 0 >>= fun _ =>
      Prog.lift (.customCall (SparseCore.inner (Pipeline.entry 0)) ()) >>= fun _ => seq opsPost) := rfl

end Cert.Proof.KB

end
-- ==== Proof.RegionDataBits.lean ====
/-
  The TensorCore kernel region's proof data, stated once for the frame and the value proofs.

  The region walks 32 grid points; point t handles lanes (batch elements) 128·t … 128·t + 127. Its nine windows are
  the transposed new key, new value, key memory, value memory, gate, iteration, the packed scalars (W, b), and the
  two results: the appended value memory [201, 64, 128] per point and the read [65, 128] per point. After the body
  at a point every input's staging buffer still holds its block; the appended value memory's holds the value-memory
  block in rows 0 … 199 and the new-value block in row 200; the read's holds, in rows 0 … 63, the gated attention
  read of the key columns and, in row 64, that of the confidences — the body's arithmetic over the point's blocks.
-/
import proofs.«209559_g37125697307438_cont_8to1_b_286_16_alg».proof.Proof.SetupBits
import proofs.«209559_g37125697307438_cont_8to1_b_286_16_alg».proof.Proof.Gen.Kernel.Skeleton
import proofs.«209559_g37125697307438_cont_8to1_b_286_16_alg».proof.Proof.Gen.Kernel.Points
import Idealize.ShloMosaic.Lib.Pipeline.FrameBody
import Idealize.ShloMosaic.Lib.Ring

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig (HIx 1) (Elt F) ℕ UU ℕ

-- core `c`'s TensorCore buffers as the region finds them
variable (Vv : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-! ## The body's accesses -/

abbrev rMem : Rect S200x64x128 := Rect.unit (s := S200x64x128) ![0, 0, 0] S200x64x128.size inb_S200x64x128_S200x64x128_0_0_0
abbrev rRow : Rect S64x128 := Rect.unit (s := S64x128) ![0, 0] S64x128.size inb_S64x128_S64x128_0_0
abbrev rLane : Rect S1x128 := Rect.unit (s := S1x128) ![0, 0] S1x128.size inb_S1x128_S1x128_0_0
abbrev rW : Rect S1x2 := Rect.unit (s := S1x2) ![0, 0] S1x1.size inb_S1x2_S1x1_0_0
abbrev rB : Rect S1x2 := Rect.unit (s := S1x2) ![0, 1] S1x1.size inb_S1x2_S1x1_0_1
abbrev rReadK : Rect S65x128 := Rect.unit (s := S65x128) ![0, 0] S64x128.size inb_S65x128_S64x128_0_0
abbrev rReadC : Rect S65x128 := Rect.unit (s := S65x128) ![64, 0] S1x128.size inb_S65x128_S1x128_64_0
abbrev rOld : Rect S201x64x128 := Rect.unit (s := S201x64x128) ![0, 0, 0] S200x64x128.size inb_S201x64x128_S200x64x128_0_0_0
abbrev rNew : Rect S201x64x128 := Rect.unit (s := S201x64x128) ![200, 0, 0] S1x64x128.size inb_S201x64x128_S1x64x128_200_0_0

/-! ## What the body leaves in each result's buffer -/

/-- The appended value memory's buffer after the body: its two stores as pieces, last first. -/
def outMem (xNv : Vec F S64x128 .f32) (xVm : Vec F S200x64x128 .f32) : Vec F S201x64x128 .f32 :=
  View.canon [⟨rNew, k1_pay4 (k1_pay6 (View.ld xNv rRow))⟩, ⟨rOld, k1_pay5 (View.ld xVm rMem)⟩]

/-- The read's buffer after the body: its two stores as pieces, last first. -/
def outRead (xNv : Vec F S64x128 .f32) (xKm xVm : Vec F S200x64x128 .f32) (xG : Vec F S1x128 .f32) (xIt : Vec F S1x128 .i32)
    (xWb : Vec F S1x2 .f32) : Vec F S65x128 .f32 :=
  View.canon [
    ⟨rReadC, k1_pay3 (k1_pay7 (View.ld xIt rLane)) (k1_pay11 (View.ld xVm rMem) (View.ld xNv rRow) (View.ld xIt rLane) (View.ld xWb rW) (View.ld xWb rB)) (View.ld xG rLane)⟩,
    ⟨rReadK, k1_pay2 (k1_pay7 (View.ld xIt rLane)) (k1_pay10 (View.ld xKm rMem) (View.ld xVm rMem) (View.ld xNv rRow) (View.ld xIt rLane)) (View.ld xG rLane)⟩]

/-! ## The pipeline's proof data -/

/-- The region's invariant on core `c`: the core's scoped buffers that are no staging buffer, at some contents each,
    and its generator register at some state — what the body may use and need not describe. -/
def ΦK (c : Dev nD) : sProp 𝕄 :=
  iprop(Pipeline.scopedRest (Ix := HIx 1) (Name := ℕ) (U := UU) (Lvl := ℕ) (Val := Elt F) spec1 c ∗ ∃ r, prngReg c r)

/-- The proof data of the region on core `c`: the arrays as the region finds them; after the body at point `t` each
    input's buffer at its block and each result's at `outMem` / `outRead` of the input blocks; the invariant the
    scoped rest and the generator register, untouched; nothing owed; full shares. -/
def dat1 (c : Dev nD) : Dat τ (Elt F) (HIx 1) ℕ UU ℕ cfg1 c where
  A w := Vv c (Pipeline.arrRef spec1 w)
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => iblk Vv c 6 t
    | ⟨7, _⟩ => outMem (iblk Vv c 1 t) (iblk Vv c 3 t)
    | ⟨8, _⟩ => outRead (iblk Vv c 1 t) (iblk Vv c 2 t) (iblk Vv c 3 t) (iblk Vv c 4 t) (iblk Vv c 5 t) (iblk Vv c 6 t)
  Φ _ := ΦK c
  q _ := fullShare
  owed _ := 0

theorem A_eq (c : Dev nD) (w : Fin cfg1.W) : (dat1 Vv c).A w = Vv c (Pipeline.arrRef spec1 w) := by
  dsimp only [dat1]

theorem after_0 (c : Dev nD) (t : Fin cfg1.N) : (dat1 Vv c).after 0 t = iblk Vv c 0 t := by dsimp only [dat1]
theorem after_1 (c : Dev nD) (t : Fin cfg1.N) : (dat1 Vv c).after 1 t = iblk Vv c 1 t := by dsimp only [dat1]
theorem after_2 (c : Dev nD) (t : Fin cfg1.N) : (dat1 Vv c).after 2 t = iblk Vv c 2 t := by dsimp only [dat1]
theorem after_3 (c : Dev nD) (t : Fin cfg1.N) : (dat1 Vv c).after 3 t = iblk Vv c 3 t := by dsimp only [dat1]
theorem after_4 (c : Dev nD) (t : Fin cfg1.N) : (dat1 Vv c).after 4 t = iblk Vv c 4 t := by dsimp only [dat1]
theorem after_5 (c : Dev nD) (t : Fin cfg1.N) : (dat1 Vv c).after 5 t = iblk Vv c 5 t := by dsimp only [dat1]
theorem after_6 (c : Dev nD) (t : Fin cfg1.N) : (dat1 Vv c).after 6 t = iblk Vv c 6 t := by dsimp only [dat1]
theorem after_7 (c : Dev nD) (t : Fin cfg1.N) : (dat1 Vv c).after 7 t = outMem (iblk Vv c 1 t) (iblk Vv c 3 t) := by dsimp only [dat1]
theorem after_8 (c : Dev nD) (t : Fin cfg1.N) :
    (dat1 Vv c).after 8 t = outRead (iblk Vv c 1 t) (iblk Vv c 2 t) (iblk Vv c 3 t) (iblk Vv c 4 t) (iblk Vv c 5 t) (iblk Vv c 6 t) := by
  dsimp only [dat1]

end Cert.Proof.KB

end
-- ==== Proof.RegionBits.lean ====
/-
  The TensorCore kernel region: the body's triple on whole staging buffers, the body obligation of the pipeline's
  proof data, and the step of the program's call line from the arrays held at the region's entry to the arrays
  held at its exit.
-/
import proofs.«209559_g37125697307438_cont_8to1_b_286_16_alg».proof.Proof.RegionDataBits
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.SparseCore.Threads
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The stores cover each result's buffer -/

/-- The appended value memory's two stores — rows 0 … 199 and row 200 — cover its buffer. -/
theorem coverMem (p0 : Vec F S1x64x128 .f32) (p1 : Vec F S200x64x128 .f32) (y : S201x64x128.Idx) :
    ∃ pc ∈ ([⟨rNew, p0⟩, ⟨rOld, p1⟩] : List (View.Piece (Elt F) S201x64x128 .f32)), y ∈ pc.1.set := by
  have h0 : (y 0).val < 201 := (y 0).isLt
  have h1 : (y 1).val < 64 := (y 1).isLt
  have h2 : (y 2).val < 128 := (y 2).isLt
  by_cases h : (y 0).val < 200
  · refine ⟨⟨rOld, p1⟩, List.mem_cons_of_mem _ List.mem_cons_self, ?_⟩
    show y ∈ rOld.set
    refine Rect.mem_set_unit.mpr ?_
    refine Fin.forall_fin_succ.mpr ⟨⟨Nat.zero_le _, by show (y 0).val < 0 + 200; omega⟩,
      Fin.forall_fin_succ.mpr ⟨⟨Nat.zero_le _, by show (y 1).val < 0 + 64; omega⟩,
        Fin.forall_fin_succ.mpr ⟨⟨Nat.zero_le _, by show (y 2).val < 0 + 128; omega⟩, fun a => a.elim0⟩⟩⟩
  · refine ⟨⟨rNew, p0⟩, List.mem_cons_self, ?_⟩
    show y ∈ rNew.set
    refine Rect.mem_set_unit.mpr ?_
    refine Fin.forall_fin_succ.mpr ⟨⟨by show 200 ≤ (y 0).val; omega, by show (y 0).val < 200 + 1; omega⟩,
      Fin.forall_fin_succ.mpr ⟨⟨Nat.zero_le _, by show (y 1).val < 0 + 64; omega⟩,
        Fin.forall_fin_succ.mpr ⟨⟨Nat.zero_le _, by show (y 2).val < 0 + 128; omega⟩, fun a => a.elim0⟩⟩⟩

/-- The read's two stores — rows 0 … 63 and row 64 — cover its buffer. -/
theorem coverRead (p0 : Vec F S1x128 .f32) (p1 : Vec F S64x128 .f32) (y : S65x128.Idx) :
    ∃ pc ∈ ([⟨rReadC, p0⟩, ⟨rReadK, p1⟩] : List (View.Piece (Elt F) S65x128 .f32)), y ∈ pc.1.set := by
  have h0 : (y 0).val < 65 := (y 0).isLt
  have h1 : (y 1).val < 128 := (y 1).isLt
  by_cases h : (y 0).val < 64
  · refine ⟨⟨rReadK, p1⟩, List.mem_cons_of_mem _ List.mem_cons_self, ?_⟩
    show y ∈ rReadK.set
    refine Rect.mem_set_unit.mpr ?_
    refine Fin.forall_fin_succ.mpr ⟨⟨Nat.zero_le _, by show (y 0).val < 0 + 64; omega⟩,
      Fin.forall_fin_succ.mpr ⟨⟨Nat.zero_le _, by show (y 1).val < 0 + 128; omega⟩, fun a => a.elim0⟩⟩
  · refine ⟨⟨rReadC, p0⟩, List.mem_cons_self, ?_⟩
    show y ∈ rReadC.set
    refine Rect.mem_set_unit.mpr ?_
    refine Fin.forall_fin_succ.mpr ⟨⟨by show 64 ≤ (y 0).val; omega, by show (y 0).val < 64 + 1; omega⟩,
      Fin.forall_fin_succ.mpr ⟨⟨Nat.zero_le _, by show (y 1).val < 0 + 128; omega⟩, fun a => a.elim0⟩⟩

/-! ## The body's triple -/

set_option maxHeartbeats 4000000 in
/-- The kernel body on whole staging memrefs, the seven inputs' at read contents and the two results' at anything,
    runs to the continuation holding the inputs' as they were and the results' at `outMem` / `outRead` of the
    inputs'. -/
theorem sound_kernel (c : Dev nD) (E : Set ℕ) (i : grid1.Coords)
    (arg1 : Memref sig .tc .vmem S64x128 .f32) (harg1 : arg1.IsWhole) (arg2 : Memref sig .tc .vmem S64x128 .f32) (harg2 : arg2.IsWhole)
    (arg3 : Memref sig .tc .vmem S200x64x128 .f32) (harg3 : arg3.IsWhole) (arg4 : Memref sig .tc .vmem S200x64x128 .f32) (harg4 : arg4.IsWhole)
    (arg5 : Memref sig .tc .vmem S1x128 .f32) (harg5 : arg5.IsWhole) (arg6 : Memref sig .tc .vmem S1x128 .i32) (harg6 : arg6.IsWhole)
    (arg7 : Memref sig .tc .vmem S1x2 .f32) (harg7 : arg7.IsWhole) (arg8 : Memref sig .tc .vmem S201x64x128 .f32) (harg8 : arg8.IsWhole)
    (arg9 : Memref sig .tc .vmem S65x128 .f32) (harg9 : arg9.IsWhole)
    (x1 : Vec F S64x128 .f32) (x2 : Vec F S64x128 .f32) (x3 : Vec F S200x64x128 .f32) (x4 : Vec F S200x64x128 .f32)
    (x5 : Vec F S1x128 .f32) (x6 : Vec F S1x128 .i32) (x7 : Vec F S1x2 .f32) (Kc : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (outMem x2 x4)
            ∗ owns (c : Thread nD τ) arg9 fullShare (outRead x2 x3 x4 x5 x6 x7)) -∗ Kc ⟨⟩))
      ⊢ wp frame (wpE (defs₀ (F := F)) Variants.none c none) E
          (cc1__tc_body i arg1 harg1 arg2 harg2 arg3 harg3 arg4 harg4 arg5 harg5 arg6 harg6 arg7 harg7 arg8 harg8 arg9 harg9) Kc := by
  simp only [cc1__tc_body_eq_skeleton]; unfold cc1__tc_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverMem _ _)
  iexists _; isplitr
  swap; · iexact H9
  ipureintro
  exact View.read_writes_eq_canon _ _ _ (coverRead _ _)

/-! ## What the body finds in each input's buffer -/

-- core `c`'s TensorCore buffers as the region finds them
variable (Vv : (c : Dev nD) → (b : Ref sig .tc) → Buf (Elt F) ((c : Thread nD τ).loc b))

/-- Each input's current staging buffer holds its block at every point, fetched there or not: the body leaves the
    block in place, and where the pipeline does not fetch the block index has not moved. -/
theorem before_0 (c : Dev nD) (t : Fin cfg1.N) (d) : (dat1 Vv c).before 0 t d = iblk Vv c 0 t :=
  ((dat1 Vv c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat1 Vv c).before 1 t d = iblk Vv c 1 t :=
  ((dat1 Vv c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat1 Vv c).before 2 t d = iblk Vv c 2 t :=
  ((dat1 Vv c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat1 Vv c).before 3 t d = iblk Vv c 3 t :=
  ((dat1 Vv c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat1 Vv c).before 4 t d = iblk Vv c 4 t :=
  ((dat1 Vv c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat1 Vv c).before 5 t d = iblk Vv c 5 t :=
  ((dat1 Vv c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat1 Vv c).before 6 t d = iblk Vv c 6 t :=
  ((dat1 Vv c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat1 Vv c).Φ t.castSucc ∗ (dat1 Vv c).owesAt (none : HIx 1) t.castSucc
    ∗ (∃ d, owns (c : Thread nD τ) (st1_0 t) fullShare ((dat1 Vv c).before 0 t d))
    ∗ (∃ d, owns (c : Thread nD τ) (st1_1 t) fullShare ((dat1 Vv c).before 1 t d))
    ∗ (∃ d, owns (c : Thread nD τ) (st1_2 t) fullShare ((dat1 Vv c).before 2 t d))
    ∗ (∃ d, owns (c : Thread nD τ) (st1_3 t) fullShare ((dat1 Vv c).before 3 t d))
    ∗ (∃ d, owns (c : Thread nD τ) (st1_4 t) fullShare ((dat1 Vv c).before 4 t d))
    ∗ (∃ d, owns (c : Thread nD τ) (st1_5 t) fullShare ((dat1 Vv c).before 5 t d))
    ∗ (∃ d, owns (c : Thread nD τ) (st1_6 t) fullShare ((dat1 Vv c).before 6 t d))
    ∗ (∃ d, owns (c : Thread nD τ) (st1_7 t) fullShare ((dat1 Vv c).before 7 t d))
    ∗ (∃ d, owns (c : Thread nD τ) (st1_8 t) fullShare ((dat1 Vv c).before 8 t d)))

/-- and what it returns. -/
def bodyPost (c : Dev nD) (t : Fin cfg1.N) : sProp 𝕄 :=
  iprop((dat1 Vv c).Φ t.succ ∗ (dat1 Vv c).owesAt (none : HIx 1) t.succ
    ∗ owns (c : Thread nD τ) (st1_0 t) fullShare ((dat1 Vv c).after 0 t)
    ∗ owns (c : Thread nD τ) (st1_1 t) fullShare ((dat1 Vv c).after 1 t)
    ∗ owns (c : Thread nD τ) (st1_2 t) fullShare ((dat1 Vv c).after 2 t)
    ∗ owns (c : Thread nD τ) (st1_3 t) fullShare ((dat1 Vv c).after 3 t)
    ∗ owns (c : Thread nD τ) (st1_4 t) fullShare ((dat1 Vv c).after 4 t)
    ∗ owns (c : Thread nD τ) (st1_5 t) fullShare ((dat1 Vv c).after 5 t)
    ∗ owns (c : Thread nD τ) (st1_6 t) fullShare ((dat1 Vv c).after 6 t)
    ∗ owns (c : Thread nD τ) (st1_7 t) fullShare ((dat1 Vv c).after 7 t)
    ∗ owns (c : Thread nD τ) (st1_8 t) fullShare ((dat1 Vv c).after 8 t))

set_option maxHeartbeats 1000000 in
/-- The body at any point: the inputs' buffers hold their blocks, so the body's triple applies; the invariant and the
    core's `owes` pass through unread. -/
theorem sound_body (c : Dev nD) (t : Fin cfg1.N) :
    bodyPre Vv c t ⊢ wp frame (wpE (defs₀ (F := F)) Variants.none c none) Set.univ (bodyAt1 t) (fun _ => bodyPost Vv c t) := by
  unfold bodyPre bodyPost bodyAt1
  simp only [before_0, before_1, before_2, before_3, before_4, before_5, before_6]
  rw [show (dat1 Vv c).Φ t.succ = (dat1 Vv c).Φ t.castSucc from rfl,
    show (dat1 Vv c).owesAt (none : HIx 1) t.succ = (dat1 Vv c).owesAt (none : HIx 1) t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (iblk Vv c 0 t) (iblk Vv c 1 t) (iblk Vv c 2 t) (iblk Vv c 3 t) (iblk Vv c 4 t) (iblk Vv c 5 t) (iblk Vv c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) :
    BodyObligation (dat1 (F := F) Vv c) (defs₀ (F := F)) Variants.none (none : HIx 1) Set.univ := fun t => by
  rw [bigSep_W1, bigSep_W1]
  exact sound_body Vv c t

/-! ## The region as a segment of the program -/

open Idealize.ShloMosaic.SparseCore (T)

/-- The prefetched tables' admissible contents: the pipeline has no table. -/
abbrev adm : (p : Fin 1) → (pcfgs (F := F) p).Adm := fun p => (cfgs p).toPCfg_adm

-- the TensorCore's buffers on each device when the region is entered
variable (W1 : Dev nD → Valuation τ sig (Elt F))

/-- The same read at the TensorCore's references (what the region's proof data take). -/
abbrev Vv1 : (c : Dev nD) → (b : Ref sig .tc) → Buf (Elt F) ((c : Thread nD τ).loc b) := fun c b => W1 c b

/-- At the region's exit: its arrays at what the pipeline leaves (the inputs as entered, each result's write-backs
    folded), every other buffer as entered. -/
def W2 (c : Dev nD) : Valuation τ sig (Elt F) :=
  Pipeline.withArrays spec1 c (W1 c) fun w => (dat1 (Vv1 W1) c).arrAt w cfg1.N
theorem W2_arr (c : Dev nD) (w : Fin cfg1.W) :
    W2 W1 c (Proc.devRef .tc (Pipeline.arrRef spec1 w)) = (dat1 (Vv1 W1) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 W1 c (Proc.devRef .tc b) = W1 c (Proc.devRef .tc b) := by
  unfold W2; exact Pipeline.withArrays_of_ne spec1 c _ _ b hb
/-- The same read at the TensorCore's references. -/
abbrev Vv2 : (c : Dev nD) → (b : Ref sig .tc) → Buf (Elt F) ((c : Thread nD τ).loc b) := fun c b => W2 W1 c b
theorem hF1 (c : Dev nD) (w : Fin cfg1.W) : (dat1 (Vv1 W1) c).arrAt w cfg1.N = Vv2 W1 c (Pipeline.arrRef spec1 w) :=
  (W2_arr W1 c w).symm
theorem hrest1 (c : Dev nD) : ∀ b, b ∉ Finset.univ.image (Pipeline.arrRef spec1) → Vv2 W1 c b = Vv1 W1 c b :=
  fun b hb => W2_of_ne W1 c b fun w e => hb (Finset.mem_image.mpr ⟨w, Finset.mem_univ _, e⟩)

/-- The one pipeline's proof data, at the region's entry contents. -/
def pdats : (p : Fin 1) → (c : Dev nD) → Dat τ (Elt F) (HIx 1) ℕ UU ℕ (Pipeline.pin (pcfgs (F := F)) adm p) c :=
  fun _ c => dat1 (Vv1 W1) c

/-- What rides beside the buffers through the region: the generator register at some state and the core's `owes`,
    at nothing. -/
abbrev Rr (c : Dev nD) : sProp 𝕄 :=
  iprop((∃ r, prngReg c r) ∗ ∃ W, owes (c : Thread nD τ) (0 : CellTallies nD τ sig (HIx 1)) W)

set_option backward.isDefEq.respectTransparency.types false in
/-- The region over the thread state: entered from every unscoped buffer at `W1`, left at `W2`. Its arrays are split
    out of the unscoped buffers and put back at the exit contents; the generator register goes into the invariant and
    comes out; nothing is owed; the kernel has no semaphore of its own. -/
def reg : Pipeline.RegionSeg (pcfgs (F := F)) adm (pdats W1) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (Vv1 W1) c).loose
  hwaits := Pipeline.hwaits_of_owed_zero _ _ _ _ (K (F := F)).L (K (F := F)).lev 0 fun _ _ => rfl
  pre c := iprop(StableHlo.held (c : Thread nD τ) (Pipeline.ucRefs τ sig) (W1 c) ∗ Rr c)
  post c := iprop(StableHlo.held (c : Thread nD τ) (Pipeline.ucRefs τ sig) (W2 W1 c) ∗ Rr c)
  X c := iprop(∃ r, prngReg c r)
  Y c := iprop(∃ r, prngReg c r)
  Z c := Pipeline.unscopedRest (Ix := HIx 1) (Name := ℕ) (U := UU) (Lvl := ℕ) spec1 c (Vv1 W1 c)
  hentry c := by
    rw [Pipeline.ownSems0_none]
    have hsplit := Pipeline.arrays_of_unscopedBufs (p := 0) (pcfgs (F := F)) adm (pdats W1) launch1.win launch1.arr_whole c
      ((pdats W1 0 c).share_full fun _ => rfl) (Vv1 W1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W1 0 c).Φ 0 = ΦK c from rfl]; unfold ΦK
    iintro ⟨Hp, -, Hr⟩
    isplitl [Hr]; · iexact Hr
    iexact Hp
  hout c := by
    rw [Pipeline.ownSems0_none, show (pdats W1 0 c).Φ (Fin.last _) = ΦK c from rfl]; unfold ΦK
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats W1) ((pdats W1 0 c).share_full fun _ => rfl)
      (Vv1 W1 c) (Vv2 W1 c) ((pdats W1 0 c).arrAt · cfg1.N) (hF1 W1 c) (hrest1 W1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the region's step leaves on device `d`. -/
abbrev stepPost (d : Dev nD) : sProp 𝕄 :=
  iprop(boundary (T d) ∗ StableHlo.held (T d) (Pipeline.ucRefs τ sig) (W2 W1 d) ∗ (∃ r, prngReg d r)
    ∗ ∃ W, owes (T d) (0 : CellTallies nD τ sig (HIx 1)) W)

/-- and what it starts from. -/
abbrev stepPre (d : Dev nD) : sProp 𝕄 :=
  iprop(boundary (T d) ∗ StableHlo.held (T d) (Pipeline.ucRefs τ sig) (W1 d) ∗ (∃ r, prngReg d r)
    ∗ (∃ W, owes (T d) (0 : CellTallies nD τ sig (HIx 1)) W)
    ∗ levAts (K (F := F)).L (K (F := F)).lev ∗ Pipeline.cellsGhost cfgs EP 0 d ∗ Pipeline.toksInit cfgs EP 0 d)

set_option backward.isDefEq.respectTransparency.types false in
/-- The region's step in the pipeline's own signature, under the pipeline's body table. -/
theorem region_step₀ (d : Dev nD) :
    stepPre W1 d ⊢ wp frame (wpE (D (F := F)) 𝒱 (T d) none) Set.univ
      (.op (.customCall (Pipeline.entry 0) ()) Prog.ret) fun _ => stepPost W1 d := by
  refine BIBase.Entails.trans ?_ (Pipeline.RegionSeg.wp (pcfgs (F := F)) adm (pdats W1) (none : HIx 1) cellOf_inj EP defs₀ 𝒱₀
    (K (F := F)).L (K (F := F)).lev (reg W1) d none (fun u hu => by cases hu) Prog.ret _)
  rw [show (reg W1).pre d = iprop(StableHlo.held (d : Thread nD τ) (Pipeline.ucRefs τ sig) (W1 d) ∗ Rr d) from rfl,
    show (reg W1).post d = iprop(StableHlo.held (d : Thread nD τ) (Pipeline.ucRefs τ sig) (W2 W1 d) ∗ Rr d) from rfl]
  iintro ⟨Hb, Hh, Hp, Ho, Hl, Hc, Ht⟩
  isplitr
  · iintro ⟨Hb, Hh, Hp, Ho⟩
    rw [wp_ret]
    imodintro
    isplitl [Hb]; · iexact Hb
    isplitl [Hh]; · iexact Hh
    isplitl [Hp]; · iexact Hp
    iexact Ho
  isplitl [Hb]; · iexact Hb
  isplitl [Hh Hp Ho]
  · isplitl [Hh]; · iexact Hh
    isplitl [Hp]; · iexact Hp
    iexact Ho
  isplitl [Hl]; · iexact Hl
  isplitl [Hc]; · iexact Hc
  iexact Ht

/-- THE REGION'S STEP on device `d`: the program's call line, from the boundary, every unscoped buffer held at `W1 d`,
    the generator register, the core owing nothing, the level facts and the pipeline's ghost state, runs to the
    boundary, every unscoped buffer held at `W2 W1 d`, the generator register and the core owing nothing. -/
theorem region_step (d : Dev nD) :
    iprop(boundary (T d) ∗ StableHlo.held (T d) (Pipeline.ucRefs τ sig) (W1 d) ∗ (∃ r, prngReg d r)
        ∗ (∃ W, owes (T d) (0 : CellTallies nD τ sig (HIx 1)) W)
        ∗ levAts (K (F := F)).L (K (F := F)).lev ∗ Pipeline.cellsGhost cfgs EP 0 d ∗ Pipeline.toksInit cfgs EP 0 d)
      ⊢ wp frame (wpE ((K (F := F)).defs (D (F := F))) 𝒱 (T d) none) Set.univ
          (Prog.lift (.customCall (SparseCore.inner (Pipeline.entry 0)) ()))
          fun _ => (iprop(boundary (T d) ∗ StableHlo.held (T d) (Pipeline.ucRefs τ sig) (W2 W1 d) ∗ (∃ r, prngReg d r)
            ∗ ∃ W, owes (T d) (0 : CellTallies nD τ sig (HIx 1)) W) : sProp 𝕄) :=
  (region_step₀ W1 d).trans ((K (F := F)).wp_liftProg (D (F := F)) 𝒱 (T d) Set.univ none
    (.op (.customCall (Pipeline.entry 0) ()) Prog.ret) fun _ => stepPost W1 d)

end Cert.Proof.KB

end
-- ==== Proof.MainBits.lean ====
/-
  @main on the TensorCore: the host prefix, the SparseCore call, the TensorCore region and the host suffix, each
  stepped over the set of the TensorCore's unscoped buffers held whole at a valuation that is carried from line to
  line. The call lends the three arrays it moves — cut into the 32 workers' rows — and takes them back with the
  result holding the appended key memory; the region leaves its two results at what the pipeline computes.
-/
import proofs.«209559_g37125697307438_cont_8to1_b_286_16_alg».proof.Proof.SplitBits
import proofs.«209559_g37125697307438_cont_8to1_b_286_16_alg».proof.Proof.MainOpsBits
import proofs.«209559_g37125697307438_cont_8to1_b_286_16_alg».proof.Proof.RegionBits
import Idealize.ShloMosaic.Lib.Pipeline.Frame
import Idealize.ShloMosaic.Lib.Pipeline.Regions

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The valuations -/

/-- The launch contents; after the host prefix. -/
def V0 (d : Dev nD) : Valuation τ sig (Elt F) := fun b => m (d, b)
def W1 (d : Dev nD) : Valuation τ sig (Elt F) := after (opsPre (F := F)) (V0 m d)

abbrev kR : DevRef τ sig := Proc.devRef .tc (main_v5 : Ref sig .tc)
abbrev nR : DevRef τ sig := Proc.devRef .tc (main_v3 : Ref sig .tc)
abbrev oR : DevRef τ sig := Proc.devRef .tc (main_v9 : Ref sig .tc)

/-- What the SparseCore call reads and finds in its result's buffer. -/
abbrev kvOf (d : Dev nD) : Buf (Elt F) (kLoc d) := W1 m d kR
abbrev nvOf (d : Dev nD) : Buf (Elt F) (nLoc d) := W1 m d nR
abbrev o0Of (d : Dev nD) : Buf (Elt F) (oLoc d) := W1 m d oR

/-- After the SparseCore call: its result at the appended key memory. -/
def W1' (d : Dev nD) : Valuation τ sig (Elt F) := Function.update (W1 m d) oR (outOf (kvOf m d) (nvOf m d))

abbrev PP : (K (F := F)).Pay (nD := nD) (Val := Elt F) (Name := ℕ) (U := UU) := P (kvOf m) (nvOf m) (o0Of m)

/-! ## The host lines' side conditions -/

theorem opsPre_sub : (opsPre (F := F)).Forall fun op => op.bufs ⊆ StableHlo.tcRefs τ sig :=
  ⟨StableHlo.reshape_bufs_sub .., StableHlo.binary_bufs_sub .., StableHlo.reshape_bufs_sub .., StableHlo.unary_bufs_sub .., StableHlo.unary_bufs_sub ..,
    StableHlo.unary_bufs_sub .., StableHlo.unary_bufs_sub .., StableHlo.unary_bufs_sub .., StableHlo.unary_bufs_sub ..⟩
theorem opsPre_fresh : (opsPre (F := F)).Forall fun op => op.fresh = ∅ := by
  simp only [List.Forall]; repeat' constructor
theorem opsPost_sub : (opsPost (F := F)).Forall fun op => op.bufs ⊆ StableHlo.tcRefs τ sig :=
  ⟨StableHlo.unary_bufs_sub .., StableHlo.unary_bufs_sub .., StableHlo.unary_bufs_sub ..⟩
theorem opsPost_fresh : (opsPost (F := F)).Forall fun op => op.fresh = ∅ := by
  simp only [List.Forall]; repeat' constructor

/-! ## The call's three arrays among the unscoped buffers -/

abbrev S3 : Finset (DevRef τ sig) := {kR, nR, oR}
theorem S3_sub : S3 ⊆ Pipeline.ucRefs τ sig := by decide

omit [FloatOps F] in
theorem held_S3 (d : Dev nD) (W : Valuation τ sig (Elt F)) :
    (held (T d) S3 W : sProp 𝕄) = iprop((kLoc d ↦{fullShare} W kR) ∗ (nLoc d ↦{fullShare} W nR) ∗ (oLoc d ↦{fullShare} W oR)) := by
  unfold held S3
  rw [SparseCore.bigSep_insert' (by decide), SparseCore.bigSep_insert' (by decide), bigSep_singleton]

theorem st0_eq (d : Dev nD) : (bigSep Finset.univ fun c : Fin ((K (F := F)).nCore 0) => (PP m).st 0 d c)
    = bigSep Finset.univ fun c : Fin 2 => bigSep Finset.univ fun i : Fin 16 => tileRes (kvOf m) (nvOf m) d (o0Of m d) (wid c.val i.val) := rfl
theorem dn0_eq (d : Dev nD) : (bigSep Finset.univ fun c : Fin ((K (F := F)).nCore 0) => (PP m).dn 0 d c)
    = bigSep Finset.univ fun c : Fin 2 => bigSep Finset.univ fun i : Fin 16 => tileRes (kvOf m) (nvOf m) d (outOf (kvOf m d) (nvOf m d)) (wid c.val i.val) := rfl

/-- The launch's unscoped buffers are that set held at the launch valuation. -/
theorem unscoped_held (d : Dev nD) :
    (unscopedBufs d (fun b => m ((SparseCore.T d).loc b)) : sProp 𝕄) = held (SparseCore.T d) (Pipeline.ucRefs τ sig) (V0 m d) :=
  Pipeline.unscopedBufs_held (Ix := HIx 1) (Name := ℕ) (U := UU) (Lvl := ℕ) d (V0 m d)

/-! ## The TensorCore's debt after the one call -/

theorem wbelow_all (d : Dev nD) (W : Waits sig (HIx 1)) : (K (F := F)).WBelow (T d) W (8 * 1) := by
  intro p _
  rcases hp : p.2 with _ | q
  · rw [SparseCore.Cfg.lev_none]; omega
  · have := (K (F := F)).lev_some_le (nD := nD) (T d, p.1) q
    have hq : q.val = 0 := by omega
    omega

theorem tcSt_owes (d : Dev nD) :
    (K (F := F)).tcSt EH d 1 ⊢ iprop((∃ W, owes (T d) (0 : CellTallies nD τ sig (HIx 1)) W)
      ∗ ((∃ W, owes (T d) (0 : CellTallies nD τ sig (HIx 1)) W) -∗ (K (F := F)).tcSt (Val := Elt F) (Name := ℕ) (U := UU) EH d 1)) := by
  unfold SparseCore.Cfg.tcSt
  rw [(K (F := F)).Otc_end d (le_refl 1)]
  iintro ⟨⟨%W, -, HO⟩, Hrest⟩
  isplitl [HO]; · iexists W; iexact HO
  iintro ⟨%W', HO'⟩
  isplitl [HO']
  · iexists W'; isplitr; · ipureintro; exact wbelow_all d W'
    iexact HO'
  iexact Hrest

/-! ## @main on the TensorCore -/

section HMain

/-- The pipeline's ghost state the launch deals the TensorCore for its one region. -/
abbrev Gd (d : Dev nD) : sProp 𝕄 := iprop(Pipeline.cellsGhost cfgs EP 0 d ∗ Pipeline.toksInit cfgs EP 0 d)

theorem W1'_k (d : Dev nD) : W1' m d kR = kvOf m d := Function.update_of_ne (show kR ≠ oR by decide) _ _
theorem W1'_n (d : Dev nD) : W1' m d nR = nvOf m d := Function.update_of_ne (show nR ≠ oR by decide) _ _
theorem W1'_o (d : Dev nD) : W1' m d oR = outOf (kvOf m d) (nvOf m d) := Function.update_self _ _ _

/-- The call's three arrays back, the result at the appended key memory, beside the other buffers: the whole set at `W1'`. -/
theorem held_after_call (d : Dev nD) :
    iprop(((kLoc d ↦{fullShare} kvOf m d) ∗ (nLoc d ↦{fullShare} nvOf m d) ∗ (oLoc d ↦{fullShare} outOf (kvOf m d) (nvOf m d)))
        ∗ held (SparseCore.T d) (Pipeline.ucRefs τ sig \ S3) (W1 m d))
      ⊢ (held (SparseCore.T d) (Pipeline.ucRefs τ sig) (W1' m d) : sProp 𝕄) := by
  rw [held_sub_split (SparseCore.T d) S3_sub (W1' m d), held_S3, W1'_k, W1'_n, W1'_o,
    held_congr (SparseCore.T d) (S := Pipeline.ucRefs τ sig \ S3) (V := W1' m d) (V' := W1 m d) fun b hb =>
      Function.update_of_ne (fun e => (Finset.mem_sdiff.mp hb).2 (by rw [e]; exact (by decide : (oR : DevRef τ sig) ∈ S3))) _ _]

/-- After the region and after the host suffix. -/
def W3 (d : Dev nD) : Valuation τ sig (Elt F) := after (opsPost (F := F)) (W2 (W1' m) d)

/-- What @main leaves the claim: every unscoped buffer at the last valuation. -/
abbrev FIN (d : Dev nD) : sProp 𝕄 := held (SparseCore.T d) (Pipeline.ucRefs τ sig) (W3 m d)

theorem hmain (κ : GSem nD τ sig → ℕ) (d : Dev nD) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  rw [main_split]
  unfold SparseCore.Cfg.tcRes
  rw [unscoped_held]
  iintro ⟨#Hctx, Hst, ⟨Hb, Hheld, -, Hprng⟩, ⟨Hcg, Htk⟩⟩
  -- the host prefix
  have hpre := StableHlo.wp_seq (defs := (K (F := F)).defs (D (F := F))) 𝒱 none Set.univ d (Pipeline.ucRefs τ sig)
    (fun _ => (K (F := F)).run d 0 >>= fun _ => Prog.lift (.customCall (SparseCore.inner (Pipeline.entry 0)) ()) >>= fun _ => seq (opsPost (F := F)))
    (K := fun _ => iprop((K (F := F)).tcSt EH d 1 ∗ FIN m d)) (opsPre (F := F))
    (fun op h => Pipeline.sub_ucRefs op ((List.forall_iff_forall_mem.mp opsPre_sub) op h))
    (fun op h => (List.forall_iff_forall_mem.mp opsPre_fresh) op h) (V0 m d)
  iapply hpre $$ [Hb Hheld]
  · isplitl [Hb] <;> iassumption
  iintro ⟨Hb, Hheld⟩
  -- the SparseCore call: its three arrays out of the set, cut among the workers
  ihave Hheld := (Entails.of_eq (show (held d.tc (Pipeline.ucRefs τ sig) (after (opsPre (F := F)) (V0 m d)) : sProp 𝕄)
    = held (SparseCore.T d) (Pipeline.ucRefs τ sig) (W1 m d) from rfl)) $$ Hheld
  ihave Hh := (Entails.of_eq (held_sub_split (SparseCore.T d) S3_sub (W1 m d))) $$ Hheld
  icases Hh with ⟨H3, Hrest⟩
  ihave H3' := (Entails.of_eq (held_S3 (F := F) d (W1 m d))) $$ H3
  ihave Hst0 := (tiles_split (kvOf m) (nvOf m) d (o0Of m d)) $$ H3'
  rw [wp_bind]
  iapply ((K (F := F)).wp_run (D (F := F)) 𝒱 (EH := EH) (P := PP m) κ d 0) $$ [Hst Hst0 Hb Hrest Hprng Hcg Htk]
  isplitr; · iexact Hctx
  isplitl [Hst]; · iexact Hst
  isplitl [Hst0]; · rw [st0_eq]; iexact Hst0
  iintro ⟨Hst, Hdn⟩
  ihave Hdn' := (Entails.of_eq (dn0_eq m d)) $$ Hdn
  ihave H3 := (tiles_join (kvOf m) (nvOf m) d (outOf (kvOf m d) (nvOf m d))) $$ Hdn'
  ihave Hheld := (held_after_call m d) $$ [H3 Hrest]
  · isplitl [H3] <;> iassumption
  -- the TensorCore region
  ihave Hst := (Entails.of_eq (show ((K (F := F)).tcSt (Val := Elt F) (Name := ℕ) (U := UU) EH d ((0 : Fin 1).val + 1) : sProp 𝕄)
    = (K (F := F)).tcSt EH d 1 from rfl)) $$ Hst
  ihave Ho := (tcSt_owes (F := F) d) $$ Hst
  icases Ho with ⟨Howes, Hback⟩
  ihave Hlev := (SparseCore.Cfg.ctx_levAts κ) $$ Hctx
  rw [wp_bind]
  iapply (wp_wand_r frame _ _)
  isplitl [Hb Hheld Hprng Howes Hlev Hcg Htk]
  · iapply (region_step (W1' m) d)
    isplitl [Hb]; · iexact Hb
    isplitl [Hheld]; · iexact Hheld
    isplitl [Hprng]; · iexists _; iexact Hprng
    isplitl [Howes]; · iexact Howes
    isplitl [Hlev]; · iexact Hlev
    isplitl [Hcg]; · iexact Hcg
    iexact Htk
  iintro %_ ⟨Hb, Hheld, -, Howes⟩
  -- the host suffix
  have hpost := StableHlo.wp_seq (defs := (K (F := F)).defs (D (F := F))) 𝒱 none Set.univ d (Pipeline.ucRefs τ sig)
    (fun u => (pure u : Prog (TpuEff nD τ sig (Elt F) (SparseCore.Sig (ΛP (F := F)) 1) .tc) PUnit))
    (K := fun _ => iprop((K (F := F)).tcSt EH d 1 ∗ FIN m d)) (opsPost (F := F))
    (fun op h => Pipeline.sub_ucRefs op ((List.forall_iff_forall_mem.mp opsPost_sub) op h))
    (fun op h => (List.forall_iff_forall_mem.mp opsPost_fresh) op h) (W2 (W1' m) d)
  rw [bind_pure] at hpost
  iapply hpost $$ [Hb Hheld]
  · isplitl [Hb] <;> iassumption
  iintro ⟨-, Hheld⟩
  rw [wp_pure]
  imodintro
  isplitl [Howes Hback]
  · iapply Hback; iexact Howes
  iexact Hheld

end HMain

end Cert.Proof.KB

end
-- ==== Proof.LaunchBits.lean ====
/-
  The launch: the certificate's element of the ghost state funds the handshakes' rounds and the TensorCore
  pipeline's staging cells (the local transfers' counters are dropped: no schedule is needed for copies a thread
  waits for itself); a SparseCore's resources are its sixteen tasks' resources, so the split is the identity;
  the final memory is read off the last valuation. The launch theorem then gives the program's run: every weakly
  fair execution of all the threads terminates with every unscoped TensorCore buffer at the last valuation.
-/
import proofs.«209559_g37125697307438_cont_8to1_b_286_16_alg».proof.Proof.MainBits

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave HR' := (own_pair_emb embR _ _) $$ HR
  icases HR' with ⟨HP, -⟩
  have hfund := Pipeline.fund_ghost (nD := nD) (τ := τ) (Val := Elt F) (Ix := HIx 1) (Name := ℕ) (U := UU) (Lvl := ℕ) cfgs (EP (F := F)) cellOf_inj
  ihave HP := (Entails.of_eq (show (BI.own (((Emb.inl : Emb UP (UP × Counters)).trans embR)
      (initOf (Pipeline.cells (nD := nD) (τ := τ) cfgs cellOf_inj) (Pipeline.launchToks (nD := nD) (τ := τ) cfgs cellOf_inj))) : sProp 𝕄)
    = BI.own ((EP (F := F)) (initOf (Pipeline.cells (nD := nD) (τ := τ) cfgs cellOf_inj) (Pipeline.launchToks (nD := nD) (τ := τ) cfgs cellOf_inj))) from rfl)) $$ HP
  imod hfund $$ HP with ⟨Hg, Ht⟩
  imodintro
  isplitl [HH]; · iexact HH
  isplitl [Hg Ht]
  · unfold Gd
    rw [bigSep_sep']
    ihave Hg := (Entails.of_eq (show (bigSep Finset.univ fun c : Dev nD => bigSep Finset.univ fun p : Fin 1 => Pipeline.cellsGhost cfgs (EP (F := F)) p c : sProp 𝕄)
      = bigSep Finset.univ fun d : Dev nD => Pipeline.cellsGhost cfgs (EP (F := F)) 0 d from bigSep_congr fun d _ => bigSep_univ_of_subsingleton (0 : Fin 1))) $$ Hg
    ihave Ht := (Entails.of_eq (show (bigSep Finset.univ fun c : Dev nD => bigSep Finset.univ fun p : Fin 1 => Pipeline.toksInit cfgs (EP (F := F)) p c : sProp 𝕄)
      = bigSep Finset.univ fun d : Dev nD => Pipeline.toksInit cfgs (EP (F := F)) 0 d from bigSep_congr fun d _ => bigSep_univ_of_subsingleton (0 : Fin 1))) $$ Ht
    isplitl [Hg]
    · iexact Hg
    · iexact Ht
  · rw [show (bigSep Finset.univ fun thr : Thread nD τ => bigSep Finset.univ fun q : Fin 1 => (PP m).x q thr) = (iprop(emp) : sProp 𝕄) from by
      show (bigSep Finset.univ fun _ : Thread nD τ => bigSep Finset.univ fun _ : Fin 1 => (iprop(emp) : sProp 𝕄)) = _
      rw [bigSep_congr fun _ _ => bigSep_emp' _, bigSep_emp']]
    iempintro

/-! ## A SparseCore's resources are its tasks' -/

theorem vecSplit : (K (F := F)).VecSplit' (PP m) 0 := by
  intro d c
  show (bigSep Finset.univ fun i : Fin 16 => tileRes (kvOf m) (nvOf m) d (o0Of m d) (wid c.val i.val))
    ⊢ |={Set.univ}=> iprop((bigSep Finset.univ fun i : Fin 16 => tileRes (kvOf m) (nvOf m) d (o0Of m d) (wid c.val i.val))
      ∗ ((bigSep Finset.univ fun i : Fin 16 => tileRes (kvOf m) (nvOf m) d (outOf (kvOf m d) (nvOf m d)) (wid c.val i.val))
        -∗ bigSep Finset.univ fun i : Fin 16 => tileRes (kvOf m) (nvOf m) d (outOf (kvOf m d) (nvOf m d)) (wid c.val i.val)))
  iintro H; imodintro
  isplitl [H]; · iexact H
  iintro H; iexact H

/-! ## Reading the final memory -/

def fq (d : Dev nD) (s' : Phys nD τ sig (Elt F)) : Prop := ∀ b ∈ Pipeline.ucRefs τ sig, s'.mem.mem (d, b) = W3 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((SparseCore.T d).1, b)) (W3 m d) s') $$ [Hh HSI]
  · isplitl [Hh] <;> iassumption
  icases Hr with ⟨%h, -⟩
  ipureintro; exact h

/-! ## The program's run -/

def QC : PUnit × MemSt nD τ sig (Elt F) → Prop := fun r => ∀ c : Dev nD, ∀ b ∈ Pipeline.ucRefs τ sig, r.2.mem (c, b) = W3 m c b

theorem run_of [∀ e, Nonempty (Elt F e)] (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.Proof.KB

end
-- ==== Proof.FinalBits.lean ====
/-
  The last valuation read at the program's arguments and results: no line of @main writes an argument, and each
  result is the transpose of what the kernels left — the appended key memory the SparseCore call copied, and the two
  arrays the TensorCore region's pipeline computed. With them the program's run is restated over the claim's
  buffers: the arguments end as launched and each result holds a named term of the arguments.
-/
import proofs.«209559_g37125697307438_cont_8to1_b_286_16_alg».proof.Proof.LaunchBits

noncomputable section

namespace Cert.Proof.KB

open Cert.Kernel Cert.Kernel.Gen

open Idealize.ShloMosaic Idealize.ShloMosaic.TcCoe
open Idealize.ShloMosaic.SparseCore.Cfg (HIx)
open Idealize.SL.Sem
open Idealize.ShloMosaic.StableHlo (after)

variable {F : FTy → Type} [FloatOps F]

variable (m : (ℓ : Loc nD τ sig) → Buf (Elt F) ℓ) (ρ : Dev nD → PrngReg)

/-! ## What the host lines write -/

abbrev preW : List (Ref sig .tc) := [main_v0, main_v1, main_v2, main_v3, main_v4, main_v5, main_v6, main_v7, main_v8]
abbrev postW : List (Ref sig .tc) := [main_v11, main_v12, main_v13]

theorem opsPre_writes : (opsPre (F := F)).Forall fun op => op.writes ⊆ (preW.map (Proc.devRef (τ := τ) .tc)).toFinset := by
  simp only [List.Forall, StableHlo.unary_writes, StableHlo.binary_writes, StableHlo.reshape_writes, Finset.singleton_subset_iff, List.mem_toFinset]
  repeat' apply And.intro
  all_goals exact List.mem_map_of_mem (by decide)
theorem opsPost_writes : (opsPost (F := F)).Forall fun op => op.writes ⊆ (postW.map (Proc.devRef (τ := τ) .tc)).toFinset := by
  simp only [List.Forall, StableHlo.unary_writes, Finset.singleton_subset_iff, List.mem_toFinset]
  repeat' apply And.intro
  all_goals exact List.mem_map_of_mem (by decide)

/-! ## What each line leaves alone -/

theorem W1_of (d : Dev nD) (r : Ref sig .tc) (h : r ∉ preW) : W1 m d (Proc.devRef .tc r) = m ((d.tc : Thread nD τ).loc r) :=
  (StableHlo.after_of_writes_sub (opsPre (F := F)) _ opsPre_writes h).trans rfl
theorem W1'_of (d : Dev nD) (r : Ref sig .tc) (h9 : r ≠ main_v9) : W1' m d (Proc.devRef .tc r) = W1 m d (Proc.devRef .tc r) :=
  Function.update_of_ne (StableHlo.devRef_ne_of_ne h9) _ _
theorem W3_of (d : Dev nD) (r : Ref sig .tc) (h : r ∉ postW) : W3 m d (Proc.devRef .tc r) = W2 (W1' m) d (Proc.devRef .tc r) :=
  StableHlo.after_of_writes_sub (opsPost (F := F)) _ opsPost_writes h

/-- An argument ends as launched. -/
theorem W3_arg (d : Dev nD) (r : Ref sig .tc) (h1 : r ∉ preW) (h2 : r ∉ postW) (h9 : r ≠ main_v9) (hw : ∀ w, Pipeline.arrRef spec1 w ≠ r) :
    W3 m d (Proc.devRef .tc r) = m ((d.tc : Thread nD τ).loc r) :=
  (W3_of m d r h2).trans ((W2_of_ne (W1' m) d r hw).trans ((W1'_of m d r h9).trans (W1_of m d r h1)))

/-! ## The results: the transposes of what the kernels left -/

theorem W3_v11 (d : Dev nD) : W3 m d (Proc.devRef .tc main_v11)
    = transpose S4096x201x64 [2, 0, 1] (W2 (W1' m) d (Proc.devRef .tc main_v9)) Facts₀.transposes_S201x64x4096_S4096x201x64_2_0_1 := by
  unfold W3
  after_results
theorem W3_v12 (d : Dev nD) : W3 m d (Proc.devRef .tc main_v12)
    = transpose S4096x201x64 [2, 0, 1] (W2 (W1' m) d (Proc.devRef .tc main_v10_0)) Facts₀.transposes_S201x64x4096_S4096x201x64_2_0_1 := by
  unfold W3
  after_results
theorem W3_v13 (d : Dev nD) : W3 m d (Proc.devRef .tc main_v13)
    = transpose S4096x65 [1, 0] (W2 (W1' m) d (Proc.devRef .tc main_v10_1)) Facts₀.transposes_S65x4096_S4096x65_1_0 := by
  unfold W3
  after_results

/-- The SparseCore call's result survives the region. -/
theorem W2_v9 (d : Dev nD) : W2 (W1' m) d (Proc.devRef .tc main_v9) = outOf (kvOf m d) (nvOf m d) :=
  (W2_of_ne (W1' m) d main_v9 (by decide)).trans (W1'_o m d)

/-! ## The kernels' operands: the host prefix's transposes of the arguments -/

theorem W1_v2 (d : Dev nD) : W1 m d (Proc.devRef .tc main_v2)
    = shapeCast S1x2 (concatenate S2 0 [⟨S1, shapeCast S1 (m ((d.tc : Thread nD τ).loc main_arg6)) Facts₀.shapeCasts_S1x1_S1⟩, ⟨S1, m ((d.tc : Thread nD τ).loc main_arg7)⟩]
        Facts₀.concatenates_S1_S1_S2_d0) Facts₀.shapeCasts_S2_S1x2 := by
  unfold W1
  after_results
  rfl
theorem W1_v3 (d : Dev nD) : W1 m d (Proc.devRef .tc main_v3)
    = transpose S64x4096 [1, 0] (m ((d.tc : Thread nD τ).loc main_arg0)) Facts₀.transposes_S4096x64_S64x4096_1_0 := by
  unfold W1
  after_results
  rfl
theorem W1_v4 (d : Dev nD) : W1 m d (Proc.devRef .tc main_v4)
    = transpose S64x4096 [1, 0] (m ((d.tc : Thread nD τ).loc main_arg1)) Facts₀.transposes_S4096x64_S64x4096_1_0 := by
  unfold W1
  after_results
  rfl
theorem W1_v5 (d : Dev nD) : W1 m d (Proc.devRef .tc main_v5)
    = transpose S200x64x4096 [1, 2, 0] (m ((d.tc : Thread nD τ).loc main_arg2)) Facts₀.transposes_S4096x200x64_S200x64x4096_1_2_0 := by
  unfold W1
  after_results
  rfl
theorem W1_v6 (d : Dev nD) : W1 m d (Proc.devRef .tc main_v6)
    = transpose S200x64x4096 [1, 2, 0] (m ((d.tc : Thread nD τ).loc main_arg3)) Facts₀.transposes_S4096x200x64_S200x64x4096_1_2_0 := by
  unfold W1
  after_results
  rfl
theorem W1_v7 (d : Dev nD) : W1 m d (Proc.devRef .tc main_v7)
    = transpose S1x4096 [1, 0] (m ((d.tc : Thread nD τ).loc main_arg4)) Facts₀.transposes_S4096x1_S1x4096_1_0 := by
  unfold W1
  after_results
  rfl
theorem W1_v8 (d : Dev nD) : W1 m d (Proc.devRef .tc main_v8)
    = transpose S1x4096 [1, 0] (m ((d.tc : Thread nD τ).loc main_arg5)) Facts₀.transposes_S4096x1_S1x4096_1_0 := by
  unfold W1
  after_results
  rfl

/-! ## The run, over the claim's buffers -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of the program's threads terminates; the arguments end as launched and the three
    results hold the last valuation's contents. -/
theorem run_named [∀ e, Nonempty (Elt F e)] (htile : (K (F := F)).TileObl (D (F := F)) 𝒱 (PP m) v₀ 0) :
    θ_run (Cert.Kernel.defs (F := F)) (Cert.Kernel.threads (F := F)) ⟨m, fun _ => 0, ρ⟩ (fun r => ∀ c : Dev nD,
      r.2.mem ((c.tc : Thread nD τ).loc main_v11) = W3 m c (Proc.devRef .tc main_v11)
      ∧ r.2.mem ((c.tc : Thread nD τ).loc main_v12) = W3 m c (Proc.devRef .tc main_v12)
      ∧ r.2.mem ((c.tc : Thread nD τ).loc main_v13) = W3 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run Cert.Kernel.defs _ _).mono (fun _ h c =>
    ⟨h c _ (mem_uc main_v11 (by decide)), h c _ (mem_uc main_v12 (by decide)), h c _ (mem_uc main_v13 (by decide)),
     (h c _ (mem_uc main_arg0 (by decide))).trans (W3_arg m c main_arg0 (by decide) (by decide) (by decide) (by decide)),
     (h c _ (mem_uc main_arg1 (by decide))).trans (W3_arg m c main_arg1 (by decide) (by decide) (by decide) (by decide)),
     (h c _ (mem_uc main_arg2 (by decide))).trans (W3_arg m c main_arg2 (by decide) (by decide) (by decide) (by decide)),
     (h c _ (mem_uc main_arg3 (by decide))).trans (W3_arg m c main_arg3 (by decide) (by decide) (by decide) (by decide)),
     (h c _ (mem_uc main_arg4 (by decide))).trans (W3_arg m c main_arg4 (by decide) (by decide) (by decide) (by decide)),
     (h c _ (mem_uc main_arg5 (by decide))).trans (W3_arg m c main_arg5 (by decide) (by decide) (by decide) (by decide)),
     (h c _ (mem_uc main_arg6 (by decide))).trans (W3_arg m c main_arg6 (by decide) (by decide) (by decide) (by decide)),
     (h c _ (mem_uc main_arg7 (by decide))).trans (W3_arg m c main_arg7 (by decide) (by decide) (by decide) (by decide))⟩)
    (run_of m ρ htile)

end Cert.Proof.KB

end
-- ==== Proof.TileRow.lean ====
/-
  One row of the result copied from one row of a source, and the rows as the program addresses them.

  A row is a [64, 4096] slab. The program moves it in eight chunks of [8, 4096] through two staging buffers:
  chunk j comes in on buffer j mod 2 (inbound semaphore j mod 2), is awaited, and goes out to the destination's
  chunk j (outbound semaphore j mod 2); chunk j + 1 is fetched while chunk j is still arriving, so two copies
  read the source row at once and it is held as two read shares, one per inbound semaphore; a buffer is refilled
  only after its previous copy-out has been awaited, and the last two copy-outs are outstanding together, each
  carving its own window out of the destination row. Every semaphore carries one copy at a time.

  Read through the destination row, what the copy leaves is the source row's read: each of the eight pieces
  written is the source's chunk at the same place, and the eight pieces tile the row.
-/
import proofs.«209559_g37125697307438_cont_8to1_b_286_16_alg».proof.Proof.Setup
import Idealize.ShloMosaic.Lib.SparseCore.Launch
import Idealize.ShloMosaic.Lib.Tactic
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section CopyRow

variable (d : Dev nD) (c : Fin τ.nSC) (s : Fin τ.nSub)
variable (src dst : Memref sig .scVector .hbm S64x4096 .f32)

abbrev hb0 : (b0V).IsWhole := Memref.isWhole_whole _
abbrev hb1 : (b1V).IsWhole := Memref.isWhole_whole _

/-! ## The copy of one row, as the eight parts the program is printed in -/

def cp1 : Prog (TpuEff nD τ sig (Elt F) Λ₀ (.scVector c s)) PUnit := do
  Prog.lift (.enqueueDma (src.slice (Rect.unit (s := S64x4096) ![0, 0] S8x4096.size inb_S64x4096_S8x4096_0_0) (fun _ => rfl)) (.here b0V) (.dma cc0_scratch2.sem) (View.wordExact_bits rfl) hb0.wordExact ⟨Or.inl rfl, trivial⟩)
  Prog.lift (.enqueueDma (src.slice (Rect.unit (s := S64x4096) ![8, 0] S8x4096.size inb_S64x4096_S8x4096_8_0) (fun _ => rfl)) (.here b1V) (.dma cc0_scratch3.sem) (View.wordExact_bits rfl) hb1.wordExact ⟨Or.inl rfl, trivial⟩)
  Prog.lift (.waitDma2 cc0_scratch2.sem (src.slice (Rect.unit (s := S64x4096) ![0, 0] S8x4096.size inb_S64x4096_S8x4096_0_0) (fun _ => rfl)) b0V (View.wordExact_bits rfl) hb0.wordExact)
  Prog.lift (.enqueueDma b0V (.here (dst.slice (Rect.unit (s := S64x4096) ![0, 0] S8x4096.size inb_S64x4096_S8x4096_0_0) (fun _ => rfl))) (.dma cc0_scratch4.sem) hb0.wordExact (View.wordExact_bits rfl) ⟨Or.inl rfl, trivial⟩)
  pure ⟨⟩

def cp2 : Prog (TpuEff nD τ sig (Elt F) Λ₀ (.scVector c s)) PUnit := do
  Prog.lift (.waitDma2 cc0_scratch4.sem b0V (dst.slice (Rect.unit (s := S64x4096) ![0, 0] S8x4096.size inb_S64x4096_S8x4096_0_0) (fun _ => rfl)) hb0.wordExact (View.wordExact_bits rfl))
  Prog.lift (.enqueueDma (src.slice (Rect.unit (s := S64x4096) ![16, 0] S8x4096.size inb_S64x4096_S8x4096_16_0) (fun _ => rfl)) (.here b0V) (.dma cc0_scratch2.sem) (View.wordExact_bits rfl) hb0.wordExact ⟨Or.inl rfl, trivial⟩)
  Prog.lift (.waitDma2 cc0_scratch3.sem (src.slice (Rect.unit (s := S64x4096) ![8, 0] S8x4096.size inb_S64x4096_S8x4096_8_0) (fun _ => rfl)) b1V (View.wordExact_bits rfl) hb1.wordExact)
  Prog.lift (.enqueueDma b1V (.here (dst.slice (Rect.unit (s := S64x4096) ![8, 0] S8x4096.size inb_S64x4096_S8x4096_8_0) (fun _ => rfl))) (.dma cc0_scratch5.sem) hb1.wordExact (View.wordExact_bits rfl) ⟨Or.inl rfl, trivial⟩)
  pure ⟨⟩

def cp3 : Prog (TpuEff nD τ sig (Elt F) Λ₀ (.scVector c s)) PUnit := do
  Prog.lift (.waitDma2 cc0_scratch5.sem b1V (dst.slice (Rect.unit (s := S64x4096) ![8, 0] S8x4096.size inb_S64x4096_S8x4096_8_0) (fun _ => rfl)) hb1.wordExact (View.wordExact_bits rfl))
  Prog.lift (.enqueueDma (src.slice (Rect.unit (s := S64x4096) ![24, 0] S8x4096.size inb_S64x4096_S8x4096_24_0) (fun _ => rfl)) (.here b1V) (.dma cc0_scratch3.sem) (View.wordExact_bits rfl) hb1.wordExact ⟨Or.inl rfl, trivial⟩)
  Prog.lift (.waitDma2 cc0_scratch2.sem (src.slice (Rect.unit (s := S64x4096) ![16, 0] S8x4096.size inb_S64x4096_S8x4096_16_0) (fun _ => rfl)) b0V (View.wordExact_bits rfl) hb0.wordExact)
  Prog.lift (.enqueueDma b0V (.here (dst.slice (Rect.unit (s := S64x4096) ![16, 0] S8x4096.size inb_S64x4096_S8x4096_16_0) (fun _ => rfl))) (.dma cc0_scratch4.sem) hb0.wordExact (View.wordExact_bits rfl) ⟨Or.inl rfl, trivial⟩)
  pure ⟨⟩

def cp4 : Prog (TpuEff nD τ sig (Elt F) Λ₀ (.scVector c s)) PUnit := do
  Prog.lift (.waitDma2 cc0_scratch4.sem b0V (dst.slice (Rect.unit (s := S64x4096) ![16, 0] S8x4096.size inb_S64x4096_S8x4096_16_0) (fun _ => rfl)) hb0.wordExact (View.wordExact_bits rfl))
  Prog.lift (.enqueueDma (src.slice (Rect.unit (s := S64x4096) ![32, 0] S8x4096.size inb_S64x4096_S8x4096_32_0) (fun _ => rfl)) (.here b0V) (.dma cc0_scratch2.sem) (View.wordExact_bits rfl) hb0.wordExact ⟨Or.inl rfl, trivial⟩)
  Prog.lift (.waitDma2 cc0_scratch3.sem (src.slice (Rect.unit (s := S64x4096) ![24, 0] S8x4096.size inb_S64x4096_S8x4096_24_0) (fun _ => rfl)) b1V (View.wordExact_bits rfl) hb1.wordExact)
  Prog.lift (.enqueueDma b1V (.here (dst.slice (Rect.unit (s := S64x4096) ![24, 0] S8x4096.size inb_S64x4096_S8x4096_24_0) (fun _ => rfl))) (.dma cc0_scratch5.sem) hb1.wordExact (View.wordExact_bits rfl) ⟨Or.inl rfl, trivial⟩)
  pure ⟨⟩

def cp5 : Prog (TpuEff nD τ sig (Elt F) Λ₀ (.scVector c s)) PUnit := do
  Prog.lift (.waitDma2 cc0_scratch5.sem b1V (dst.slice (Rect.unit (s := S64x4096) ![24, 0] S8x4096.size inb_S64x4096_S8x4096_24_0) (fun _ => rfl)) hb1.wordExact (View.wordExact_bits rfl))
  Prog.lift (.enqueueDma (src.slice (Rect.unit (s := S64x4096) ![40, 0] S8x4096.size inb_S64x4096_S8x4096_40_0) (fun _ => rfl)) (.here b1V) (.dma cc0_scratch3.sem) (View.wordExact_bits rfl) hb1.wordExact ⟨Or.inl rfl, trivial⟩)
  Prog.lift (.waitDma2 cc0_scratch2.sem (src.slice (Rect.unit (s := S64x4096) ![32, 0] S8x4096.size inb_S64x4096_S8x4096_32_0) (fun _ => rfl)) b0V (View.wordExact_bits rfl) hb0.wordExact)
  Prog.lift (.enqueueDma b0V (.here (dst.slice (Rect.unit (s := S64x4096) ![32, 0] S8x4096.size inb_S64x4096_S8x4096_32_0) (fun _ => rfl))) (.dma cc0_scratch4.sem) hb0.wordExact (View.wordExact_bits rfl) ⟨Or.inl rfl, trivial⟩)
  pure ⟨⟩

def cp6 : Prog (TpuEff nD τ sig (Elt F) Λ₀ (.scVector c s)) PUnit := do
  Prog.lift (.waitDma2 cc0_scratch4.sem b0V (dst.slice (Rect.unit (s := S64x4096) ![32, 0] S8x4096.size inb_S64x4096_S8x4096_32_0) (fun _ => rfl)) hb0.wordExact (View.wordExact_bits rfl))
  Prog.lift (.enqueueDma (src.slice (Rect.unit (s := S64x4096) ![48, 0] S8x4096.size inb_S64x4096_S8x4096_48_0) (fun _ => rfl)) (.here b0V) (.dma cc0_scratch2.sem) (View.wordExact_bits rfl) hb0.wordExact ⟨Or.inl rfl, trivial⟩)
  Prog.lift (.waitDma2 cc0_scratch3.sem (src.slice (Rect.unit (s := S64x4096) ![40, 0] S8x4096.size inb_S64x4096_S8x4096_40_0) (fun _ => rfl)) b1V (View.wordExact_bits rfl) hb1.wordExact)
  Prog.lift (.enqueueDma b1V (.here (dst.slice (Rect.unit (s := S64x4096) ![40, 0] S8x4096.size inb_S64x4096_S8x4096_40_0) (fun _ => rfl))) (.dma cc0_scratch5.sem) hb1.wordExact (View.wordExact_bits rfl) ⟨Or.inl rfl, trivial⟩)
  pure ⟨⟩

def cp7 : Prog (TpuEff nD τ sig (Elt F) Λ₀ (.scVector c s)) PUnit := do
  Prog.lift (.waitDma2 cc0_scratch5.sem b1V (dst.slice (Rect.unit (s := S64x4096) ![40, 0] S8x4096.size inb_S64x4096_S8x4096_40_0) (fun _ => rfl)) hb1.wordExact (View.wordExact_bits rfl))
  Prog.lift (.enqueueDma (src.slice (Rect.unit (s := S64x4096) ![56, 0] S8x4096.size inb_S64x4096_S8x4096_56_0) (fun _ => rfl)) (.here b1V) (.dma cc0_scratch3.sem) (View.wordExact_bits rfl) hb1.wordExact ⟨Or.inl rfl, trivial⟩)
  Prog.lift (.waitDma2 cc0_scratch2.sem (src.slice (Rect.unit (s := S64x4096) ![48, 0] S8x4096.size inb_S64x4096_S8x4096_48_0) (fun _ => rfl)) b0V (View.wordExact_bits rfl) hb0.wordExact)
  Prog.lift (.enqueueDma b0V (.here (dst.slice (Rect.unit (s := S64x4096) ![48, 0] S8x4096.size inb_S64x4096_S8x4096_48_0) (fun _ => rfl))) (.dma cc0_scratch4.sem) hb0.wordExact (View.wordExact_bits rfl) ⟨Or.inl rfl, trivial⟩)
  pure ⟨⟩

def cp8 : Prog (TpuEff nD τ sig (Elt F) Λ₀ (.scVector c s)) PUnit := do
  Prog.lift (.waitDma2 cc0_scratch3.sem (src.slice (Rect.unit (s := S64x4096) ![56, 0] S8x4096.size inb_S64x4096_S8x4096_56_0) (fun _ => rfl)) b1V (View.wordExact_bits rfl) hb1.wordExact)
  Prog.lift (.enqueueDma b1V (.here (dst.slice (Rect.unit (s := S64x4096) ![56, 0] S8x4096.size inb_S64x4096_S8x4096_56_0) (fun _ => rfl))) (.dma cc0_scratch5.sem) hb1.wordExact (View.wordExact_bits rfl) ⟨Or.inl rfl, trivial⟩)
  Prog.lift (.waitDma2 cc0_scratch4.sem b0V (dst.slice (Rect.unit (s := S64x4096) ![48, 0] S8x4096.size inb_S64x4096_S8x4096_48_0) (fun _ => rfl)) hb0.wordExact (View.wordExact_bits rfl))
  Prog.lift (.waitDma2 cc0_scratch5.sem b1V (dst.slice (Rect.unit (s := S64x4096) ![56, 0] S8x4096.size inb_S64x4096_S8x4096_56_0) (fun _ => rfl)) hb1.wordExact (View.wordExact_bits rfl))
  pure ⟨⟩

def copyRow : Prog (TpuEff nD τ sig (Elt F) Λ₀ (.scVector c s)) PUnit := do
  cp1 (F := F) c s src dst
  cp2 (F := F) c s src dst
  cp3 (F := F) c s src dst
  cp4 (F := F) c s src dst
  cp5 (F := F) c s src dst
  cp6 (F := F) c s src dst
  cp7 (F := F) c s src dst
  cp8 (F := F) c s src dst
  pure ⟨⟩

/-! ## The scratch at rest -/

/-- The scratch at rest: both buffers whole at some contents, the four semaphores' counters at zero, the waits' evidence,
    and the thread's debts unchanged with waits recorded at the kernels' index only. -/
def rest (d : Dev nD) (c : Fin τ.nSC) (s : Fin τ.nSub) (O : CellTallies nD τ sig (HIx 1)) (W : Waits sig (HIx 1)) : sProp 𝕄 :=
  iprop(Transfers.MayWaits (V d c s) (none : HIx 1) O
    ∗ (∃ f, (b0V).view.loc (V d c s) ↦{fullShare} f) ∗ (∃ f, (b1V).view.loc (V d c s) ↦{fullShare} f)
    ∗ semVal (V d c s, SemLoc.dma cc0_scratch2.sem) 0 ∗ semVal (V d c s, SemLoc.dma cc0_scratch3.sem) 0
    ∗ semVal (V d c s, SemLoc.dma cc0_scratch4.sem) 0 ∗ semVal (V d c s, SemLoc.dma cc0_scratch5.sem) 0
    ∗ ∃ W', ⌜∀ p ∈ W', p ∈ W ∨ p.2 = none⌝ ∗ owes (V d c s) O W')

omit [FloatOps F] in
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-! ## The row copied -/

/-- What a copied row holds: read through the destination row it is the source row's read. -/
def rowDone (d : Dev nD) (c : Fin τ.nSC) (s : Fin τ.nSub) (src dst : Memref sig .scVector .hbm S64x4096 .f32)
    (fs : Buf (Elt F) (src.view.loc (V d c s))) : sProp 𝕄 :=
  iprop(∃ G : Buf (Elt F) (dst.view.loc (V d c s)), (dst.view.loc (V d c s) ↦[dst.view.set]{fullShare} G)
    ∗ ⌜∀ y, dst.view.read (Elt F) G y = src.view.read (Elt F) fs y⌝)

set_option sl_exec.dmaWindow true in
set_option sl_exec.dmaWindowSet true in
/-- One row copied chunk by chunk through the two buffers: from the scratch at rest, the source row as two read shares
    (one per inbound semaphore) and the destination row, to the same with the destination holding the source's row. -/
theorem copyRow_spec {α : Type} (kk : PUnit.{1} → Prog (TpuEff nD τ sig (Elt F) Λ₀ (.scVector c s)) α) (Q : α → sProp 𝕄)
    (O : CellTallies nD τ sig (HIx 1)) (W : Waits sig (HIx 1)) (q : PosShare TreeShare)
    (fs : Buf (Elt F) (src.view.loc (V d c s))) (fd : Buf (Elt F) (dst.view.loc (V d c s))) :
    iprop(rest (F := F) d c s O W
        ∗ (src.view.loc (V d c s) ↦[src.view.set]{Transfers.shareTok q 2 0} fs)
        ∗ (src.view.loc (V d c s) ↦[src.view.set]{Transfers.shareTok q 2 1} fs)
        ∗ (dst.view.loc (V d c s) ↦[dst.view.set]{fullShare} fd)
        ∗ ((rest (F := F) d c s O W
            ∗ (src.view.loc (V d c s) ↦[src.view.set]{Transfers.shareTok q 2 0} fs)
            ∗ (src.view.loc (V d c s) ↦[src.view.set]{Transfers.shareTok q 2 1} fs)
            ∗ rowDone (F := F) d c s src dst fs)
          -∗ wp frame (wpE (defs₀ (F := F)) 𝒱₀ (V d c s) none) Set.univ (kk ⟨⟩) Q))
      ⊢ wp frame (wpE (defs₀ (F := F)) 𝒱₀ (V d c s) none) Set.univ (copyRow (F := F) c s src dst >>= kk) Q := by
  unfold rest
  iintro ⟨⟨Hmw, ⟨%f0, Hb0⟩, ⟨%f1, Hb1⟩, Hm2, Hm3, Hm4, Hm5, %W', %hW', HO⟩, Hs0, Hs1, Hd, Hk⟩
  unfold copyRow cp1 cp2 cp3 cp4 cp5 cp6 cp7 cp8
  sl_exec
  iapply Hk
  isplitl [Hmw Hb0 Hb1 Hm2 Hm3 Hm4 Hm5 HO]
  · isplitl [Hmw]; · iexact Hmw
    isplitl [Hb0]; · iexists _; iexact Hb0
    isplitl [Hb1]; · iexists _; iexact Hb1
    isplitl [Hm2]; · iexact Hm2
    isplitl [Hm3]; · iexact Hm3
    isplitl [Hm4]; · iexact Hm4
    isplitl [Hm5]; · iexact Hm5
    iexists _
    isplitr
    rotate_left
    · iexact HO
    · ipureintro
      repeat (first | exact hW' | refine waits_insert _ ?_)
  isplitl [Hs0]; · iexact Hs0
  isplitl [Hs1]; · iexact Hs1
  unfold rowDone
  iexists _
  isplitl [Hd]; · iexact Hd
  ipureintro
  intro y
  refine View.read_writes_apply_of_pieces _ _ (src.view.read (Elt F) fs) _ ?_ y (View.cover_of_tiled (s := S64x4096) _ ![8, 4096] rfl y)
  intro p hp x
  simp only [List.mem_cons, List.not_mem_nil, or_false] at hp
  rcases hp with rfl | rfl | rfl | rfl | rfl | rfl | rfl | rfl <;>
    (delta copyRow_spec.sl.dma0 copyRow_spec.sl.dma0_1 copyRow_spec.sl.dma0_2 copyRow_spec.sl.dma0_3 copyRow_spec.sl.dma0_4 copyRow_spec.sl.dma0_5 copyRow_spec.sl.dma0_6 copyRow_spec.sl.dma0_7 copyRow_spec.sl.dma0_8 copyRow_spec.sl.dma0_9 copyRow_spec.sl.dma0_10 copyRow_spec.sl.dma0_11 copyRow_spec.sl.dma0_12 copyRow_spec.sl.dma0_13 copyRow_spec.sl.dma0_14 copyRow_spec.sl.dma0_15; simp only [ReadAs.apply_same, View.read_write_univ]; rfl)

end CopyRow

/-! ## The rows as the program addresses them -/

section Rows

/-- A row of the source and of the result as the program addresses it: the unit slab at offsets `off`, its unit axis dropped. -/
abbrev kRowM (off : Fin 3 → ℕ) (h : ∀ a, off a + S1x64x4096.size a ≤ S200x64x4096.size a) : Memref sig .scVector .hbm S64x4096 .f32 :=
  ((kV).slice (Rect.unit (s := S200x64x4096) off S1x64x4096.size h) (fun _ => rfl)).squeeze S64x4096 squeezes_S1x64x4096_S64x4096
abbrev oRowM (off : Fin 3 → ℕ) (h : ∀ a, off a + S1x64x4096.size a ≤ S201x64x4096.size a) : Memref sig .scVector .hbm S64x4096 .f32 :=
  ((oV).slice (Rect.unit (s := S201x64x4096) off S1x64x4096.size h) (fun _ => rfl)).squeeze S64x4096 squeezes_S1x64x4096_S64x4096

omit [FloatOps F] in
theorem kRect_eq (n : ℕ) (hn : n < 200) (h : ∀ a, (![n, 0, 0] : Fin 3 → ℕ) a + S1x64x4096.size a ≤ S200x64x4096.size a) :
    Rect.unit (s := S200x64x4096) ![n, 0, 0] S1x64x4096.size h = kRow ⟨n, hn⟩ := by
  unfold kRow Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem oRect_eq (n : ℕ) (hn : n < 201) (h : ∀ a, (![n, 0, 0] : Fin 3 → ℕ) a + S1x64x4096.size a ≤ S201x64x4096.size a) :
    Rect.unit (s := S201x64x4096) ![n, 0, 0] S1x64x4096.size h = oRow ⟨n, hn⟩ := by
  unfold oRow Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_kRowM (n : ℕ) (hn : n < 200) (h : ∀ a, (![n, 0, 0] : Fin 3 → ℕ) a + S1x64x4096.size a ≤ S200x64x4096.size a) :
    (kRowM ![n, 0, 0] h).view.set = kRowSet ⟨n, hn⟩ := by
  show (((kV).view.slice (Rect.unit (s := S200x64x4096) ![n, 0, 0] S1x64x4096.size h)).reshape S64x4096 squeezes_S1x64x4096_S64x4096.numel_eq).set
    = ((kV).view.slice (kRow ⟨n, hn⟩)).set
  rw [View.set_reshape]
  exact kRect_eq n hn h ▸ rfl

omit [FloatOps F] in
theorem set_oRowM (n : ℕ) (hn : n < 201) (h : ∀ a, (![n, 0, 0] : Fin 3 → ℕ) a + S1x64x4096.size a ≤ S201x64x4096.size a) :
    (oRowM ![n, 0, 0] h).view.set = oRowSet ⟨n, hn⟩ := by
  show (((oV).view.slice (Rect.unit (s := S201x64x4096) ![n, 0, 0] S1x64x4096.size h)).reshape S64x4096 squeezes_S1x64x4096_S64x4096.numel_eq).set
    = ((oV).view.slice (oRow ⟨n, hn⟩)).set
  rw [View.set_reshape]
  exact oRect_eq n hn h ▸ rfl

omit [FloatOps F] in
theorem squeeze_ix (y : S64x4096.Idx) :
    Shape.reshapeEquiv (squeezes_S1x64x4096_S64x4096.numel_eq) y = (ValueIdx.ix3 (0 : Fin 1) (y 0) (y 1) : S1x64x4096.Idx) :=
  Shape.reshapeEquiv_eq_of_rowMajor _ (by rw [Shape.rowMajor_val_three, Shape.rowMajor_val_two]; simp)

omit [FloatOps F] in
theorem emb_kRowM (n : ℕ) (hn : n < 200) (h : ∀ a, (![n, 0, 0] : Fin 3 → ℕ) a + S1x64x4096.size a ≤ S200x64x4096.size a) (y : S64x4096.Idx) :
    (kRowM ![n, 0, 0] h).view.emb y = (ValueIdx.ix3 (⟨n, hn⟩ : Fin 200) (y 0) (y 1) : S200x64x4096.Idx) := by
  show (kV).view.emb ((Rect.unit (s := S200x64x4096) ![n, 0, 0] S1x64x4096.size h).emb (Shape.reshapeEquiv (squeezes_S1x64x4096_S64x4096.numel_eq) y)) = _
  rw [squeeze_ix]
  funext a
  match a with
  | 0 => exact Fin.ext (by show n + 1 * 0 = n; omega)
  | 1 => exact Fin.ext (by show 0 + 1 * (y 0).val = (y 0).val; omega)
  | 2 => exact Fin.ext (by show 0 + 1 * (y 1).val = (y 1).val; omega)

omit [FloatOps F] in
theorem emb_oRowM (n : ℕ) (hn : n < 201) (h : ∀ a, (![n, 0, 0] : Fin 3 → ℕ) a + S1x64x4096.size a ≤ S201x64x4096.size a) (y : S64x4096.Idx) :
    (oRowM ![n, 0, 0] h).view.emb y = (ValueIdx.ix3 (⟨n, hn⟩ : Fin 201) (y 0) (y 1) : S201x64x4096.Idx) := by
  show (oV).view.emb ((Rect.unit (s := S201x64x4096) ![n, 0, 0] S1x64x4096.size h).emb (Shape.reshapeEquiv (squeezes_S1x64x4096_S64x4096.numel_eq) y)) = _
  rw [squeeze_ix]
  funext a
  match a with
  | 0 => exact Fin.ext (by show n + 1 * 0 = n; omega)
  | 1 => exact Fin.ext (by show 0 + 1 * (y 0).val = (y 0).val; omega)
  | 2 => exact Fin.ext (by show 0 + 1 * (y 1).val = (y 1).val; omega)

end Rows

end Cert.Proof.KI
end
-- ==== Proof.Tile.lean ====
/-
  The body obligation of the SparseCore call: one vector subcore's task.

  Worker w = 2·subcore + core copies rows w, w + 32, …, w + 192 of the source (those below 200) to the same rows
  of the result, and worker 31 also copies the new slab to row 200. The program is seven guarded blocks and an
  eighth, each guard a word computed from the worker's number; each block is the row copy of the row module at the
  block's source and destination rows. A block takes the scratch at rest (both staging buffers, the four
  semaphores at zero), the source row and the destination row, and returns them with the destination row holding
  the source row; a block whose guard is clear takes and returns nothing. The value is carried row by row: read
  through the program's row memref, the destination holds the source's read, which is the result's row.
-/
import proofs.«209559_g37125697307438_cont_8to1_b_286_16_alg».proof.Proof.Setup
import proofs.«209559_g37125697307438_cont_8to1_b_286_16_alg».proof.Proof.TileRow
import proofs.«209559_g37125697307438_cont_8to1_b_286_16_alg».proof.Proof.Gen.KernelIdeal.Skeleton
import Idealize.ShloMosaic.Lib.SparseCore.Launch
import Idealize.ShloMosaic.Lib.Tactic
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
section Blocks

variable (kv : (d : Dev nD) → Buf (Elt F) (kLoc d)) (nv : (d : Dev nD) → Buf (Elt F) (nLoc d))
variable (d : Dev nD) (c : Fin τ.nSC) (s : Fin τ.nSub)

omit [FloatOps F] in
/-- Row `n` of the result read through the program's row memref holds the source's row `n`: it is the result's row. -/
theorem row_value (n : ℕ) (hn : n < 200) (hn' : n < 201)
    (hS : ∀ a, (![n, 0, 0] : Fin 3 → ℕ) a + S1x64x4096.size a ≤ S200x64x4096.size a)
    (hD : ∀ a, (![n, 0, 0] : Fin 3 → ℕ) a + S1x64x4096.size a ≤ S201x64x4096.size a)
    (G : Buf (Elt F) ((oRowM ![n, 0, 0] hD).view.loc (V d c s)))
    (hG : ∀ y, (oRowM ![n, 0, 0] hD).view.read (Elt F) G y = (kRowM ![n, 0, 0] hS).view.read (Elt F) (kv d) y) :
    ((oRowM ![n, 0, 0] hD).view.loc (V d c s) ↦[(oRowM ![n, 0, 0] hD).view.set]{fullShare} G : sProp 𝕄)
      = oLoc d ↦[oRowSet ⟨n, hn'⟩]{fullShare} outOf (kv d) (nv d) := by
  have key : ∀ j ∈ (oRowM ![n, 0, 0] hD).view.set, G j = outOf (kv d) (nv d) j := by
    intro j hj
    obtain ⟨y, -, rfl⟩ := Finset.mem_map.mp hj
    have h1 := hG y
    rw [View.read_apply, View.read_apply] at h1
    simp only [cast_eq] at h1
    refine h1.trans ?_
    rw [emb_kRowM n hn hS y]
    show _ = outOf (kv d) (nv d) ((oRowM ![n, 0, 0] hD).view.emb y)
    rw [emb_oRowM n (by omega) hD y]
    unfold outOf
    rw [dif_pos (show ((ValueIdx.ix3 (⟨n, by omega⟩ : Fin 201) (y 0) (y 1) : S201x64x4096.Idx) 0).val < 200 from hn)]
    rfl
  rw [pointsTo_congr key, set_oRowM n hn' hD]

omit [FloatOps F] in
theorem pts_kRowM (n : ℕ) (hn : n < 200) (hS : ∀ a, (![n, 0, 0] : Fin 3 → ℕ) a + S1x64x4096.size a ≤ S200x64x4096.size a)
    (q : PosShare TreeShare) (f : Buf (Elt F) (kLoc d)) :
    ((kRowM ![n, 0, 0] hS).view.loc (V d c s) ↦[(kRowM ![n, 0, 0] hS).view.set]{q} f : sProp 𝕄) = kLoc d ↦[kRowSet ⟨n, hn⟩]{q} f := by
  rw [set_kRowM n hn hS]
omit [FloatOps F] in
theorem pts_oRowM (n : ℕ) (hn : n < 201) (hD : ∀ a, (![n, 0, 0] : Fin 3 → ℕ) a + S1x64x4096.size a ≤ S201x64x4096.size a)
    (f : Buf (Elt F) (oLoc d)) :
    ((oRowM ![n, 0, 0] hD).view.loc (V d c s) ↦[(oRowM ![n, 0, 0] hD).view.set]{fullShare} f : sProp 𝕄) = oLoc d ↦[oRowSet ⟨n, hn⟩]{fullShare} f := by
  rw [set_oRowM n hn hD]
omit [FloatOps F] in
theorem pts_nV (f : Buf (Elt F) (nLoc d)) :
    ((nV).view.loc (V d c s) ↦[(nV).view.set]{fullShare} f : sProp 𝕄) = nLoc d ↦{fullShare} f := by
  simp only [Memref.view_whole, View.set_whole]

omit [FloatOps F] in
/-- A points-to at the full share as the remainder and two read shares, and back. -/
theorem toks_split2 {ℓ : Loc nD τ sig} {S : Finset (Idx ℓ)} {f : Buf (Elt F) ℓ} :
    (ℓ ↦[S]{fullShare} f : sProp 𝕄) ⊢ iprop((ℓ ↦[S]{Transfers.shareDrop fullShare 2} f) ∗ (ℓ ↦[S]{Transfers.shareTok fullShare 2 0} f)
      ∗ (ℓ ↦[S]{Transfers.shareTok fullShare 2 1} f)) :=
  (Transfers.pointsTo_toks_split (Ix := HIx 1) (Name := ℕ) (U := UU) (Lvl := ℕ) fullShare 2).trans (Entails.of_eq (by rw [BI.bigSep_fin_two]; rfl))
omit [FloatOps F] in
theorem toks_join2 {ℓ : Loc nD τ sig} {S : Finset (Idx ℓ)} {f : Buf (Elt F) ℓ} :
    iprop((ℓ ↦[S]{Transfers.shareDrop fullShare 2} f) ∗ (ℓ ↦[S]{Transfers.shareTok fullShare 2 0} f)
      ∗ (ℓ ↦[S]{Transfers.shareTok fullShare 2 1} f)) ⊢ (ℓ ↦[S]{fullShare} f : sProp 𝕄) :=
  (Entails.of_eq (by rw [BI.bigSep_fin_two]; rfl)).trans (Transfers.pointsTo_toks_join (Ix := HIx 1) (Name := ℕ) (U := UU) (Lvl := ℕ) fullShare 2)

/-- One guarded row copy: row `n` of the source to row `n` of the result when `n < 200`, nothing otherwise. -/
theorem rowBlk_spec {α : Type} (Q : α → sProp 𝕄)
    (O : CellTallies nD τ sig (HIx 1)) (W : Waits sig (HIx 1)) (fo : Buf (Elt F) (oLoc d))
    (cnd : BitVec 1) (n : ℕ) (m : Fin 200) (hm : n < 200 → m.val = n) (hcnd : cnd = 1#1 ↔ n < 200)
    (offS offD : Fin 3 → ℕ) (hoffS : offS = ![n, 0, 0]) (hoffD : offD = ![n, 0, 0])
    (hS : cnd = 1#1 → ∀ a, offS a + S1x64x4096.size a ≤ S200x64x4096.size a)
    (hD : cnd = 1#1 → ∀ a, offD a + S1x64x4096.size a ≤ S201x64x4096.size a)
    (thenB : cnd = 1#1 → Prog (TpuEff nD τ sig (Elt F) Λ₀ (.scVector c s)) α) (elseB : Prog (TpuEff nD τ sig (Elt F) Λ₀ (.scVector c s)) α)
    (hthen : ∀ h, thenB h = copyRow (F := F) c s (kRowM offS (hS h)) (oRowM offD (hD h)) >>= fun _ => elseB) :
    iprop(rest (F := F) d c s O W
        ∗ (if n < 200 then rowRes kv d fo m else iprop(emp))
        ∗ ((rest (F := F) d c s O W ∗ (if n < 200 then rowRes kv d (outOf (kv d) (nv d)) m else iprop(emp)))
            -∗ wp frame (wpE (defs₀ (F := F)) 𝒱₀ (V d c s) none) Set.univ elseB Q))
      ⊢ wp frame (wpE (defs₀ (F := F)) 𝒱₀ (V d c s) none) Set.univ
          (if h : cnd = 1#1 then thenB h else elseB) Q := by
  subst hoffS hoffD
  by_cases hc : cnd = 1#1
  · have hn : n < 200 := hcnd.mp hc
    obtain rfl : m = ⟨n, hn⟩ := Fin.ext (hm hn)
    rw [dif_pos hc, hthen hc, if_pos hn, if_pos hn]
    unfold rowRes
    rw [show outRow ⟨n, hn⟩ = (⟨n, by omega⟩ : Fin 201) from rfl]
    iintro ⟨Hr, ⟨HkA, HoA⟩, Hk⟩
    ihave Hk1 := (Entails.of_eq (pts_kRowM (F := F) d c s n hn (hS hc) fullShare (kv d)).symm) $$ HkA
    ihave Hk2 := toks_split2 $$ Hk1
    icases Hk2 with ⟨Hkr, Hs0, Hs1⟩
    ihave Ho1 := (Entails.of_eq (pts_oRowM (F := F) d c s n _ (hD hc) fo).symm) $$ HoA
    iapply (copyRow_spec (F := F) d c s (kRowM ![n, 0, 0] (hS hc)) (oRowM ![n, 0, 0] (hD hc)) (fun _ => elseB) Q O W fullShare (kv d) fo) $$ [Hr Hs0 Hs1 Ho1 Hkr Hk]
    isplitl [Hr]; · iexact Hr
    isplitl [Hs0]; · iexact Hs0
    isplitl [Hs1]; · iexact Hs1
    isplitl [Ho1]; · iexact Ho1
    iintro ⟨Hr, Hs0, Hs1, Hdone⟩
    iapply Hk
    isplitl [Hr]; · iexact Hr
    unfold rowDone
    icases Hdone with ⟨%G, Hd, %hG⟩
    isplitl [Hkr Hs0 Hs1]
    · iapply (Entails.of_eq (pts_kRowM (F := F) d c s n hn (hS hc) fullShare (kv d)))
      iapply toks_join2
      isplitl [Hkr]; · iexact Hkr
      isplitl [Hs0]; · iexact Hs0
      iexact Hs1
    · iapply (Entails.of_eq (row_value (F := F) kv nv d c s n hn _ (hS hc) (hD hc) G hG))
      iexact Hd
  · have hn : ¬ n < 200 := fun h => hc (hcnd.mpr h)
    rw [dif_neg hc, if_neg hn, if_neg hn]
    iintro ⟨Hr, -, Hk⟩
    iapply Hk
    isplitl [Hr]; · iexact Hr
    iempintro

omit [FloatOps F] in
/-- Row 200 of the result read through the program's row memref holds the new slab: it is the result's row. -/
theorem last_value (G : Buf (Elt F) ((oRowM ![200, 0, 0] inb_S201x64x4096_S1x64x4096_200_0_0).view.loc (V d c s)))
    (hG : ∀ y, (oRowM ![200, 0, 0] inb_S201x64x4096_S1x64x4096_200_0_0).view.read (Elt F) G y = (nV).view.read (Elt F) (nv d) y) :
    ((oRowM ![200, 0, 0] inb_S201x64x4096_S1x64x4096_200_0_0).view.loc (V d c s)
        ↦[(oRowM ![200, 0, 0] inb_S201x64x4096_S1x64x4096_200_0_0).view.set]{fullShare} G : sProp 𝕄)
      = oLoc d ↦[oRowSet (⟨200, by decide⟩ : Fin 201)]{fullShare} outOf (kv d) (nv d) := by
  have key : ∀ j ∈ (oRowM ![200, 0, 0] inb_S201x64x4096_S1x64x4096_200_0_0).view.set, G j = outOf (kv d) (nv d) j := by
    intro j hj
    obtain ⟨y, -, rfl⟩ := Finset.mem_map.mp hj
    have h1 := hG y
    rw [View.read_apply, View.read_apply] at h1
    simp only [cast_eq] at h1
    refine h1.trans ?_
    show _ = outOf (kv d) (nv d) ((oRowM ![200, 0, 0] inb_S201x64x4096_S1x64x4096_200_0_0).view.emb y)
    rw [emb_oRowM 200 (by decide) inb_S201x64x4096_S1x64x4096_200_0_0 y]
    unfold outOf
    rw [dif_neg (show ¬ ((ValueIdx.ix3 (⟨200, by decide⟩ : Fin 201) (y 0) (y 1) : S201x64x4096.Idx) 0).val < 200 from Nat.lt_irrefl 200)]
    exact congrArg (nv d) (ValueIdx.eq_ix2 y)
  rw [pointsTo_congr key, set_oRowM 200 (by decide) inb_S201x64x4096_S1x64x4096_200_0_0]

/-- The guarded copy of the new slab to row 200, run by worker 31 alone. -/
theorem lastBlk_spec {α : Type} (Q : α → sProp 𝕄)
    (O : CellTallies nD τ sig (HIx 1)) (W : Waits sig (HIx 1)) (fo : Buf (Elt F) (oLoc d))
    (cnd : BitVec 1) (w : ℕ) (hcnd : cnd = 1#1 ↔ w = 31)
    (thenB : cnd = 1#1 → Prog (TpuEff nD τ sig (Elt F) Λ₀ (.scVector c s)) α) (elseB : Prog (TpuEff nD τ sig (Elt F) Λ₀ (.scVector c s)) α)
    (hthen : ∀ h, thenB h = copyRow (F := F) c s nV (oRowM ![200, 0, 0] inb_S201x64x4096_S1x64x4096_200_0_0) >>= fun _ => elseB) :
    iprop(rest (F := F) d c s O W
        ∗ (if w = 31 then lastRes nv d fo else iprop(emp))
        ∗ ((rest (F := F) d c s O W ∗ (if w = 31 then lastRes nv d (outOf (kv d) (nv d)) else iprop(emp)))
            -∗ wp frame (wpE (defs₀ (F := F)) 𝒱₀ (V d c s) none) Set.univ elseB Q))
      ⊢ wp frame (wpE (defs₀ (F := F)) 𝒱₀ (V d c s) none) Set.univ
          (if h : cnd = 1#1 then thenB h else elseB) Q := by
  by_cases hc : cnd = 1#1
  · have hw : w = 31 := hcnd.mp hc
    rw [dif_pos hc, hthen hc, if_pos hw, if_pos hw]
    unfold lastRes
    rw [show lastRow = (⟨200, by decide⟩ : Fin 201) from rfl]
    iintro ⟨Hr, ⟨HnA, HoA⟩, Hk⟩
    ihave Hn1 := (Entails.of_eq (pts_nV (F := F) d c s (nv d)).symm) $$ HnA
    ihave Hn2 := toks_split2 $$ Hn1
    icases Hn2 with ⟨Hnr, Hs0, Hs1⟩
    ihave Ho1 := (Entails.of_eq (pts_oRowM (F := F) d c s 200 _ inb_S201x64x4096_S1x64x4096_200_0_0 fo).symm) $$ HoA
    iapply (copyRow_spec (F := F) d c s nV (oRowM ![200, 0, 0] inb_S201x64x4096_S1x64x4096_200_0_0) (fun _ => elseB) Q O W fullShare (nv d) fo) $$ [Hr Hs0 Hs1 Ho1 Hnr Hk]
    isplitl [Hr]; · iexact Hr
    isplitl [Hs0]; · iexact Hs0
    isplitl [Hs1]; · iexact Hs1
    isplitl [Ho1]; · iexact Ho1
    iintro ⟨Hr, Hs0, Hs1, Hdone⟩
    iapply Hk
    isplitl [Hr]; · iexact Hr
    unfold rowDone
    icases Hdone with ⟨%G, Hd, %hG⟩
    isplitl [Hnr Hs0 Hs1]
    · iapply (Entails.of_eq (pts_nV (F := F) d c s (nv d)))
      iapply toks_join2
      isplitl [Hnr]; · iexact Hnr
      isplitl [Hs0]; · iexact Hs0
      iexact Hs1
    · iapply (Entails.of_eq (last_value (F := F) kv nv d c s G hG))
      iexact Hd
  · have hw : ¬ w = 31 := fun h => hc (hcnd.mpr h)
    rw [dif_neg hc, if_neg hw, if_neg hw]
    iintro ⟨Hr, -, Hk⟩
    iapply Hk
    isplitl [Hr]; · iexact Hr
    iempintro

end Blocks

/-! ## The program's blocks are row copies -/

section Program

abbrev cV (i : grid0.Coords) : Fin τ.nSC := (i 0).castLE hcore0
abbrev jV (i : grid0.Coords) : Fin τ.nSub := (i 1).castLE hsub0

set_option maxRecDepth 65536 in
set_option maxHeartbeats 4000000 in
theorem block1_eq (i : grid0.Coords) (h : k0_cond1 i = 1#1) {α : Type} (e : Prog (TpuEff nD τ sig (Elt F) Λ₀ (.scVector (cV i) (jV i))) α) :
    (do
  k0_part1 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part2 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part3 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part4 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part5 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part6 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part7 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part8 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off1 i) (k0_off1_inb i h)) (oRowM (k0_off2 i) (k0_off2_inb i h)) >>= fun _ => e := rfl

set_option maxRecDepth 65536 in
set_option maxHeartbeats 4000000 in
theorem block2_eq (i : grid0.Coords) (h : k0_cond2 i = 1#1) {α : Type} (e : Prog (TpuEff nD τ sig (Elt F) Λ₀ (.scVector (cV i) (jV i))) α) :
    (do
  k0_part9 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part10 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part11 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part12 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part13 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part14 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part15 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part16 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off3 i) (k0_off3_inb i h)) (oRowM (k0_off4 i) (k0_off4_inb i h)) >>= fun _ => e := rfl

set_option maxRecDepth 65536 in
set_option maxHeartbeats 4000000 in
theorem block3_eq (i : grid0.Coords) (h : k0_cond3 i = 1#1) {α : Type} (e : Prog (TpuEff nD τ sig (Elt F) Λ₀ (.scVector (cV i) (jV i))) α) :
    (do
  k0_part17 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part18 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part19 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part20 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part21 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part22 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part23 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part24 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off5 i) (k0_off5_inb i h)) (oRowM (k0_off6 i) (k0_off6_inb i h)) >>= fun _ => e := rfl

set_option maxRecDepth 65536 in
set_option maxHeartbeats 4000000 in
theorem block4_eq (i : grid0.Coords) (h : k0_cond4 i = 1#1) {α : Type} (e : Prog (TpuEff nD τ sig (Elt F) Λ₀ (.scVector (cV i) (jV i))) α) :
    (do
  k0_part25 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part26 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part27 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part28 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part29 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part30 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part31 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part32 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off7 i) (k0_off7_inb i h)) (oRowM (k0_off8 i) (k0_off8_inb i h)) >>= fun _ => e := rfl

set_option maxRecDepth 65536 in
set_option maxHeartbeats 4000000 in
theorem block5_eq (i : grid0.Coords) (h : k0_cond5 i = 1#1) {α : Type} (e : Prog (TpuEff nD τ sig (Elt F) Λ₀ (.scVector (cV i) (jV i))) α) :
    (do
  k0_part33 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part34 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part35 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part36 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part37 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part38 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part39 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part40 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off9 i) (k0_off9_inb i h)) (oRowM (k0_off10 i) (k0_off10_inb i h)) >>= fun _ => e := rfl

set_option maxRecDepth 65536 in
set_option maxHeartbeats 4000000 in
theorem block6_eq (i : grid0.Coords) (h : k0_cond6 i = 1#1) {α : Type} (e : Prog (TpuEff nD τ sig (Elt F) Λ₀ (.scVector (cV i) (jV i))) α) :
    (do
  k0_part41 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part42 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part43 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part44 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part45 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part46 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part47 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part48 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off11 i) (k0_off11_inb i h)) (oRowM (k0_off12 i) (k0_off12_inb i h)) >>= fun _ => e := rfl

set_option maxRecDepth 65536 in
set_option maxHeartbeats 4000000 in
theorem block7_eq (i : grid0.Coords) (h : k0_cond7 i = 1#1) {α : Type} (e : Prog (TpuEff nD τ sig (Elt F) Λ₀ (.scVector (cV i) (jV i))) α) :
    (do
  k0_part49 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part50 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part51 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part52 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part53 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part54 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part55 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part56 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off13 i) (k0_off13_inb i h)) (oRowM (k0_off14 i) (k0_off14_inb i h)) >>= fun _ => e := rfl

set_option maxRecDepth 65536 in
set_option maxHeartbeats 4000000 in
theorem block8_eq (i : grid0.Coords) {α : Type} (e : Prog (TpuEff nD τ sig (Elt F) Λ₀ (.scVector (cV i) (jV i))) α) :
    (do
  k0_part57 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part58 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part59 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part60 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part61 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part62 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  let v158 : Memref sig .scVector .hbm S1x64x4096 .f32 := (oV).slice (Rect.unit (s := S201x64x4096) ![200, 0, 0] S1x64x4096.size inb_S201x64x4096_S1x64x4096_200_0_0) (fun _ => rfl)
  let v159 : Memref sig .scVector .hbm S64x4096 .f32 := v158.squeeze S64x4096 squeezes_S1x64x4096_S64x4096
  let v160 : Memref sig .scVector .hbm S8x4096 .f32 := v159.slice (Rect.unit (s := S64x4096) ![56, 0] S8x4096.size inb_S64x4096_S8x4096_56_0) (fun _ => rfl)
  Prog.lift (.waitDma2 cc0_scratch5.sem b1V v160 (Memref.isWhole_whole _).wordExact (View.wordExact_bits rfl))
  e : Prog (TpuEff nD τ sig (Elt F) Λ₀ (.scVector (cV i) (jV i))) α)
      = copyRow (F := F) (cV i) (jV i) nV (oRowM ![200, 0, 0] inb_S201x64x4096_S1x64x4096_200_0_0) >>= fun _ => e := rfl

/-- The worker's number as the program computes it, and the last block's condition word. -/
def widW (i : grid0.Coords) : BitVec 32 := Scalar.addi (Scalar.muli (BitVec.ofNat 32 (i 1).val) 2#32) (BitVec.ofNat 32 (i 0).val)
def lastCond (v1 : BitVec 32) : BitVec 1 := Scalar.cmpi .ne (Scalar.extui (Scalar.cmpi .eq v1 31#32)) 0#32

theorem k0_cond1_iff : ∀ i : grid0.Coords, k0_cond1 i = 1#1 ↔ 2 * (i 1).val + (i 0).val + 0 < 200 := by decide +kernel
theorem k0_cond2_iff : ∀ i : grid0.Coords, k0_cond2 i = 1#1 ↔ 2 * (i 1).val + (i 0).val + 32 < 200 := by decide +kernel
theorem k0_cond3_iff : ∀ i : grid0.Coords, k0_cond3 i = 1#1 ↔ 2 * (i 1).val + (i 0).val + 64 < 200 := by decide +kernel
theorem k0_cond4_iff : ∀ i : grid0.Coords, k0_cond4 i = 1#1 ↔ 2 * (i 1).val + (i 0).val + 96 < 200 := by decide +kernel
theorem k0_cond5_iff : ∀ i : grid0.Coords, k0_cond5 i = 1#1 ↔ 2 * (i 1).val + (i 0).val + 128 < 200 := by decide +kernel
theorem k0_cond6_iff : ∀ i : grid0.Coords, k0_cond6 i = 1#1 ↔ 2 * (i 1).val + (i 0).val + 160 < 200 := by decide +kernel
theorem k0_cond7_iff : ∀ i : grid0.Coords, k0_cond7 i = 1#1 ↔ 2 * (i 1).val + (i 0).val + 192 < 200 := by decide +kernel
theorem lastCond_iff : ∀ i : grid0.Coords, lastCond (widW i) = 1#1 ↔ 2 * (i 1).val + (i 0).val = 31 := by decide +kernel

end Program

/-! ## The task -/

section Tile

variable (kv : (d : Dev nD) → Buf (Elt F) (kLoc d)) (nv : (d : Dev nD) → Buf (Elt F) (nLoc d)) (o0 : (d : Dev nD) → Buf (Elt F) (oLoc d))
variable (d : Dev nD)

abbrev g2 (c : Fin τ.nSC) (i : Fin τ.nSub) : GSem nD τ sig := (V d c i, .dma cc0_scratch2.sem)
abbrev g3 (c : Fin τ.nSC) (i : Fin τ.nSub) : GSem nD τ sig := (V d c i, .dma cc0_scratch3.sem)
abbrev g4 (c : Fin τ.nSC) (i : Fin τ.nSub) : GSem nD τ sig := (V d c i, .dma cc0_scratch4.sem)
abbrev g5 (c : Fin τ.nSC) (i : Fin τ.nSub) : GSem nD τ sig := (V d c i, .dma cc0_scratch5.sem)

omit [FloatOps F] in
theorem gne {thr : Thread nD τ} {a b : SemLoc sig} (h : a ≠ b) : ((thr, a) : GSem nD τ sig) ≠ (thr, b) := fun e => h (congrArg Prod.snd e)

omit [FloatOps F] in
theorem ownSems0_V (c : Fin τ.nSC) (i : Fin τ.nSub) :
    (ownSems0 (V d c i) : sProp 𝕄)
      = iprop(semVal (g2 d c i) 0 ∗ semVal (g3 d c i) 0 ∗ semVal (g4 d c i) 0 ∗ semVal (g5 d c i) 0
          ∗ bigSep (((((ownCells (V d c i)).erase (g2 d c i)).erase (g3 d c i)).erase (g4 d c i)).erase (g5 d c i)) fun g => semVal g 0) := by
  unfold SparseCore.Cfg.ownSems0
  rw [SparseCore.bigSep_erase' ((mem_ownCells (g := g2 d c i)).mpr ⟨rfl, by
      show (SemLoc.dma cc0_scratch2.sem : SemLoc sig).isScoped .scVector = true; decide⟩),
    SparseCore.bigSep_erase' (Finset.mem_erase.mpr ⟨gne (by decide), (mem_ownCells (g := g3 d c i)).mpr ⟨rfl, by
      show (SemLoc.dma cc0_scratch3.sem : SemLoc sig).isScoped .scVector = true; decide⟩⟩),
    SparseCore.bigSep_erase' (Finset.mem_erase.mpr ⟨gne (by decide), Finset.mem_erase.mpr ⟨gne (by decide),
      (mem_ownCells (g := g4 d c i)).mpr ⟨rfl, by show (SemLoc.dma cc0_scratch4.sem : SemLoc sig).isScoped .scVector = true; decide⟩⟩⟩),
    SparseCore.bigSep_erase' (Finset.mem_erase.mpr ⟨gne (by decide), Finset.mem_erase.mpr ⟨gne (by decide), Finset.mem_erase.mpr ⟨gne (by decide),
      (mem_ownCells (g := g5 d c i)).mpr ⟨rfl, by show (SemLoc.dma cc0_scratch5.sem : SemLoc sig).isScoped .scVector = true; decide⟩⟩⟩⟩)]

omit [FloatOps F] in
/-- The two staging buffers are among the subcore's own: they are them, at some contents, and the rest. -/
theorem ownBufs_V (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

omit [FloatOps F] in
theorem bigSep_fin7 {M : Type} [URA M] (Φ : Fin 7 → sProp M) :
    bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

set_option maxHeartbeats 4000000 in
/-- The task on vector subcore `(L 0, L 1)` of device `d`: seven guarded row copies and the guarded copy of the new slab. -/
theorem tile_body (hF : (K (F := F)).Facts) (L : grid0.Coords) (O : CellTallies nD τ sig (HIx 1)) (W : Waits sig (HIx 1)) (hO : ∀ g, O g none = 0) :
    iprop(levAts (K (F := F)).L (K (F := F)).lev ∗ emp ∗ tileRes kv nv d (o0 d) (wid (L 0).val (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_append (F := F) L kV (Memref.isWhole_whole _) nV (Memref.isWhole_whole _) oV (Memref.isWhole_whole _) b0V (Memref.isWhole_whole _) b1V (Memref.isWhole_whole _) cc0_scratch2 cc0_scratch3 cc0_scratch4 cc0_scratch5)
          fun _ => iprop(tileRes kv nv d (outOf (kv d) (nv d)) (wid (L 0).val (L 1).val) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_append_eq_skeleton]; unfold cc0__sc_append_skel
  rw [wp_bind]
  rw [k0_part63_eq_skeleton]; unfold k0_part63_skel
  rw [(K (F := F)).scopedBufs_V hF d (cV L) (jV L), SparseCore.Cfg.scopedSems0_V (Val := Elt F) d (cV L) (jV L), ownSems0_V, ownBufs_V]
  unfold tileRes
  rw [bigSep_fin7, bigSep_fin7]
  iintro ⟨#Hlv, -, ⟨⟨R1, R2, R3, R4, R5, R6, R7⟩, R8⟩, ⟨⟨%f0, Hb0⟩, ⟨%f1, Hb1⟩, Hbufs⟩, ⟨Hm2, Hm3, Hm4, Hm5, Hsems⟩, HO⟩
  ihave Hmw := ((K (F := F)).mayWaits_none (thr := V d (cV L) (jV L)) hO) $$ Hlv
  ihave Hr : rest (F := F) d (cV L) (jV L) O W $$ [Hmw Hb0 Hb1 Hm2 Hm3 Hm4 Hm5 HO]
  · unfold rest
    isplitl [Hmw]; · iexact Hmw
    isplitl [Hb0]; · iexists _; iexact Hb0
    isplitl [Hb1]; · iexists _; iexact Hb1
    isplitl [Hm2]; · iexact Hm2
    isplitl [Hm3]; · iexact Hm3
    isplitl [Hm4]; · iexact Hm4
    isplitl [Hm5]; · iexact Hm5
    iexists W; isplitr
    · ipureintro; exact fun p hp => .inl hp
    · iexact HO
  -- row 0 of the worker
  iapply (rowBlk_spec (F := F) kv nv d (cV L) (jV L) _ O W (o0 d) (k0_cond1 L) (wid (L 0).val (L 1).val + 32 * ((0 : Fin 7) : ℕ))
      (rowOf (wid (L 0).val (L 1).val) 0) (fun h => Nat.mod_eq_of_lt h) (k0_cond1_iff L)
      (k0_off1 L) (k0_off2 L) (k0_off1_eq L) (k0_off2_eq L) (fun h => k0_off1_inb L h) (fun h => k0_off2_inb L h) _ _
      (fun h => block1_eq (F := F) L h _)) $$ [Hr R1 R2 R3 R4 R5 R6 R7 R8 Hbufs Hsems]
  isplitl [Hr]; · iexact Hr
  isplitl [R1]; · iexact R1
  iintro ⟨Hr, R1⟩
  -- row 1 of the worker
  iapply (rowBlk_spec (F := F) kv nv d (cV L) (jV L) _ O W (o0 d) (k0_cond2 L) (wid (L 0).val (L 1).val + 32 * ((1 : Fin 7) : ℕ))
      (rowOf (wid (L 0).val (L 1).val) 1) (fun h => Nat.mod_eq_of_lt h) (k0_cond2_iff L)
      (k0_off3 L) (k0_off4 L) (k0_off3_eq L) (k0_off4_eq L) (fun h => k0_off3_inb L h) (fun h => k0_off4_inb L h) _ _
      (fun h => block2_eq (F := F) L h _)) $$ [Hr R1 R2 R3 R4 R5 R6 R7 R8 Hbufs Hsems]
  isplitl [Hr]; · iexact Hr
  isplitl [R2]; · iexact R2
  iintro ⟨Hr, R2⟩
  -- row 2 of the worker
  iapply (rowBlk_spec (F := F) kv nv d (cV L) (jV L) _ O W (o0 d) (k0_cond3 L) (wid (L 0).val (L 1).val + 32 * ((2 : Fin 7) : ℕ))
      (rowOf (wid (L 0).val (L 1).val) 2) (fun h => Nat.mod_eq_of_lt h) (k0_cond3_iff L)
      (k0_off5 L) (k0_off6 L) (k0_off5_eq L) (k0_off6_eq L) (fun h => k0_off5_inb L h) (fun h => k0_off6_inb L h) _ _
      (fun h => block3_eq (F := F) L h _)) $$ [Hr R1 R2 R3 R4 R5 R6 R7 R8 Hbufs Hsems]
  isplitl [Hr]; · iexact Hr
  isplitl [R3]; · iexact R3
  iintro ⟨Hr, R3⟩
  -- row 3 of the worker
  iapply (rowBlk_spec (F := F) kv nv d (cV L) (jV L) _ O W (o0 d) (k0_cond4 L) (wid (L 0).val (L 1).val + 32 * ((3 : Fin 7) : ℕ))
      (rowOf (wid (L 0).val (L 1).val) 3) (fun h => Nat.mod_eq_of_lt h) (k0_cond4_iff L)
      (k0_off7 L) (k0_off8 L) (k0_off7_eq L) (k0_off8_eq L) (fun h => k0_off7_inb L h) (fun h => k0_off8_inb L h) _ _
      (fun h => block4_eq (F := F) L h _)) $$ [Hr R1 R2 R3 R4 R5 R6 R7 R8 Hbufs Hsems]
  isplitl [Hr]; · iexact Hr
  isplitl [R4]; · iexact R4
  iintro ⟨Hr, R4⟩
  -- row 4 of the worker
  iapply (rowBlk_spec (F := F) kv nv d (cV L) (jV L) _ O W (o0 d) (k0_cond5 L) (wid (L 0).val (L 1).val + 32 * ((4 : Fin 7) : ℕ))
      (rowOf (wid (L 0).val (L 1).val) 4) (fun h => Nat.mod_eq_of_lt h) (k0_cond5_iff L)
      (k0_off9 L) (k0_off10 L) (k0_off9_eq L) (k0_off10_eq L) (fun h => k0_off9_inb L h) (fun h => k0_off10_inb L h) _ _
      (fun h => block5_eq (F := F) L h _)) $$ [Hr R1 R2 R3 R4 R5 R6 R7 R8 Hbufs Hsems]
  isplitl [Hr]; · iexact Hr
  isplitl [R5]; · iexact R5
  iintro ⟨Hr, R5⟩
  -- row 5 of the worker
  iapply (rowBlk_spec (F := F) kv nv d (cV L) (jV L) _ O W (o0 d) (k0_cond6 L) (wid (L 0).val (L 1).val + 32 * ((5 : Fin 7) : ℕ))
      (rowOf (wid (L 0).val (L 1).val) 5) (fun h => Nat.mod_eq_of_lt h) (k0_cond6_iff L)
      (k0_off11 L) (k0_off12 L) (k0_off11_eq L) (k0_off12_eq L) (fun h => k0_off11_inb L h) (fun h => k0_off12_inb L h) _ _
      (fun h => block6_eq (F := F) L h _)) $$ [Hr R1 R2 R3 R4 R5 R6 R7 R8 Hbufs Hsems]
  isplitl [Hr]; · iexact Hr
  isplitl [R6]; · iexact R6
  iintro ⟨Hr, R6⟩
  -- the six blocks' part returns the worker's number
  sl_step
  -- row 6 of the worker
  iapply (rowBlk_spec (F := F) kv nv d (cV L) (jV L) _ O W (o0 d) (k0_cond7 L) (wid (L 0).val (L 1).val + 32 * ((6 : Fin 7) : ℕ))
      (rowOf (wid (L 0).val (L 1).val) 6) (fun h => Nat.mod_eq_of_lt h) (k0_cond7_iff L)
      (k0_off13 L) (k0_off14 L) (k0_off13_eq L) (k0_off14_eq L) (fun h => k0_off13_inb L h) (fun h => k0_off14_inb L h) _ _
      (fun h => block7_eq (F := F) L h _)) $$ [Hr R1 R2 R3 R4 R5 R6 R7 R8 Hbufs Hsems]
  isplitl [Hr]; · iexact Hr
  isplitl [R7]; · iexact R7
  iintro ⟨Hr, R7⟩
  -- the new slab, on worker 31
  iapply (lastBlk_spec (F := F) kv nv d (cV L) (jV L) _ O W (o0 d) (lastCond (widW L)) (wid (L 0).val (L 1).val) (lastCond_iff L) _ _
      (fun _ => block8_eq (F := F) L _)) $$ [Hr R1 R2 R3 R4 R5 R6 R7 R8 Hbufs Hsems]
  isplitl [Hr]; · iexact Hr
  isplitl [R8]; · iexact R8
  iintro ⟨Hr, R8⟩
  sl_step
  unfold rest
  icases Hr with ⟨-, ⟨%f0', Hb0⟩, ⟨%f1', Hb1⟩, Hm2, Hm3, Hm4, Hm5, %W', %hW', HO⟩
  isplitl [R1 R2 R3 R4 R5 R6 R7 R8]
  · isplitl [R1 R2 R3 R4 R5 R6 R7]
    · isplitl [R1]; · iexact R1
      isplitl [R2]; · iexact R2
      isplitl [R3]; · iexact R3
      isplitl [R4]; · iexact R4
      isplitl [R5]; · iexact R5
      isplitl [R6]; · iexact R6
      iexact R7
    · iexact R8
  isplitl [Hb0 Hb1 Hbufs]
  · isplitl [Hb0]; · iexists _; iexact Hb0
    isplitl [Hb1]; · iexists _; iexact Hb1
    iexact Hbufs
  isplitl [Hm2 Hm3 Hm4 Hm5 Hsems]
  · isplitl [Hm2]; · iexact Hm2
    isplitl [Hm3]; · iexact Hm3
    isplitl [Hm4]; · iexact Hm4
    isplitl [Hm5]; · iexact Hm5
    iexact Hsems
  iexists W'; isplitr
  · ipureintro; exact hW'
  · iexact HO

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_append (coordsV c s) kV (Memref.isWhole_whole _) nV (Memref.isWhole_whole _) oV (Memref.isWhole_whole _) b0V (Memref.isWhole_whole _) b1V (Memref.isWhole_whole _) cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P kv nv o0) v₀ 0 := by
  intro d c i O W hO _ _
  -- this kernel owes nothing for a protocol of its own
  simp only [show (P kv nv o0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body kv nv o0 d facts (coordsV ⟨_, hc.1⟩ ⟨_, hc.2⟩) O W hO).trans (wp_mono frame _ _ fun _ => obl_post)

end Tile

end Cert.Proof.KI
end
-- ==== Proof.TileRowBits.lean ====
/-
  One row of the result copied from one row of a source, and the rows as the program addresses them.

  A row is a [64, 4096] slab. The program moves it in eight chunks of [8, 4096] through two staging buffers:
  chunk j comes in on buffer j mod 2 (inbound semaphore j mod 2), is awaited, and goes out to the destination's
  chunk j (outbound semaphore j mod 2); chunk j + 1 is fetched while chunk j is still arriving, so two copies
  read the source row at once and it is held as two read shares, one per inbound semaphore; a buffer is refilled
  only after its previous copy-out has been awaited, and the last two copy-outs are outstanding together, each
  carving its own window out of the destination row. Every semaphore carries one copy at a time.

  Read through the destination row, what the copy leaves is the source row's read: each of the eight pieces
  written is the source's chunk at the same place, and the eight pieces tile the row.
-/
import proofs.«209559_g37125697307438_cont_8to1_b_286_16_alg».proof.Proof.SetupBits
import Idealize.ShloMosaic.Lib.SparseCore.Launch
import Idealize.ShloMosaic.Lib.Tactic
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section CopyRow

variable (d : Dev nD) (c : Fin τ.nSC) (s : Fin τ.nSub)
variable (src dst : Memref sig .scVector .hbm S64x4096 .f32)

abbrev hb0 : (b0V).IsWhole := Memref.isWhole_whole _
abbrev hb1 : (b1V).IsWhole := Memref.isWhole_whole _

/-! ## The copy of one row, as the eight parts the program is printed in -/

def cp1 : Prog (TpuEff nD τ sig (Elt F) Λ₀ (.scVector c s)) PUnit := do
  Prog.lift (.enqueueDma (src.slice (Rect.unit (s := S64x4096) ![0, 0] S8x4096.size inb_S64x4096_S8x4096_0_0) (fun _ => rfl)) (.here b0V) (.dma cc0_scratch2.sem) (View.wordExact_bits rfl) hb0.wordExact ⟨Or.inl rfl, trivial⟩)
  Prog.lift (.enqueueDma (src.slice (Rect.unit (s := S64x4096) ![8, 0] S8x4096.size inb_S64x4096_S8x4096_8_0) (fun _ => rfl)) (.here b1V) (.dma cc0_scratch3.sem) (View.wordExact_bits rfl) hb1.wordExact ⟨Or.inl rfl, trivial⟩)
  Prog.lift (.waitDma2 cc0_scratch2.sem (src.slice (Rect.unit (s := S64x4096) ![0, 0] S8x4096.size inb_S64x4096_S8x4096_0_0) (fun _ => rfl)) b0V (View.wordExact_bits rfl) hb0.wordExact)
  Prog.lift (.enqueueDma b0V (.here (dst.slice (Rect.unit (s := S64x4096) ![0, 0] S8x4096.size inb_S64x4096_S8x4096_0_0) (fun _ => rfl))) (.dma cc0_scratch4.sem) hb0.wordExact (View.wordExact_bits rfl) ⟨Or.inl rfl, trivial⟩)
  pure ⟨⟩

def cp2 : Prog (TpuEff nD τ sig (Elt F) Λ₀ (.scVector c s)) PUnit := do
  Prog.lift (.waitDma2 cc0_scratch4.sem b0V (dst.slice (Rect.unit (s := S64x4096) ![0, 0] S8x4096.size inb_S64x4096_S8x4096_0_0) (fun _ => rfl)) hb0.wordExact (View.wordExact_bits rfl))
  Prog.lift (.enqueueDma (src.slice (Rect.unit (s := S64x4096) ![16, 0] S8x4096.size inb_S64x4096_S8x4096_16_0) (fun _ => rfl)) (.here b0V) (.dma cc0_scratch2.sem) (View.wordExact_bits rfl) hb0.wordExact ⟨Or.inl rfl, trivial⟩)
  Prog.lift (.waitDma2 cc0_scratch3.sem (src.slice (Rect.unit (s := S64x4096) ![8, 0] S8x4096.size inb_S64x4096_S8x4096_8_0) (fun _ => rfl)) b1V (View.wordExact_bits rfl) hb1.wordExact)
  Prog.lift (.enqueueDma b1V (.here (dst.slice (Rect.unit (s := S64x4096) ![8, 0] S8x4096.size inb_S64x4096_S8x4096_8_0) (fun _ => rfl))) (.dma cc0_scratch5.sem) hb1.wordExact (View.wordExact_bits rfl) ⟨Or.inl rfl, trivial⟩)
  pure ⟨⟩

def cp3 : Prog (TpuEff nD τ sig (Elt F) Λ₀ (.scVector c s)) PUnit := do
  Prog.lift (.waitDma2 cc0_scratch5.sem b1V (dst.slice (Rect.unit (s := S64x4096) ![8, 0] S8x4096.size inb_S64x4096_S8x4096_8_0) (fun _ => rfl)) hb1.wordExact (View.wordExact_bits rfl))
  Prog.lift (.enqueueDma (src.slice (Rect.unit (s := S64x4096) ![24, 0] S8x4096.size inb_S64x4096_S8x4096_24_0) (fun _ => rfl)) (.here b1V) (.dma cc0_scratch3.sem) (View.wordExact_bits rfl) hb1.wordExact ⟨Or.inl rfl, trivial⟩)
  Prog.lift (.waitDma2 cc0_scratch2.sem (src.slice (Rect.unit (s := S64x4096) ![16, 0] S8x4096.size inb_S64x4096_S8x4096_16_0) (fun _ => rfl)) b0V (View.wordExact_bits rfl) hb0.wordExact)
  Prog.lift (.enqueueDma b0V (.here (dst.slice (Rect.unit (s := S64x4096) ![16, 0] S8x4096.size inb_S64x4096_S8x4096_16_0) (fun _ => rfl))) (.dma cc0_scratch4.sem) hb0.wordExact (View.wordExact_bits rfl) ⟨Or.inl rfl, trivial⟩)
  pure ⟨⟩

def cp4 : Prog (TpuEff nD τ sig (Elt F) Λ₀ (.scVector c s)) PUnit := do
  Prog.lift (.waitDma2 cc0_scratch4.sem b0V (dst.slice (Rect.unit (s := S64x4096) ![16, 0] S8x4096.size inb_S64x4096_S8x4096_16_0) (fun _ => rfl)) hb0.wordExact (View.wordExact_bits rfl))
  Prog.lift (.enqueueDma (src.slice (Rect.unit (s := S64x4096) ![32, 0] S8x4096.size inb_S64x4096_S8x4096_32_0) (fun _ => rfl)) (.here b0V) (.dma cc0_scratch2.sem) (View.wordExact_bits rfl) hb0.wordExact ⟨Or.inl rfl, trivial⟩)
  Prog.lift (.waitDma2 cc0_scratch3.sem (src.slice (Rect.unit (s := S64x4096) ![24, 0] S8x4096.size inb_S64x4096_S8x4096_24_0) (fun _ => rfl)) b1V (View.wordExact_bits rfl) hb1.wordExact)
  Prog.lift (.enqueueDma b1V (.here (dst.slice (Rect.unit (s := S64x4096) ![24, 0] S8x4096.size inb_S64x4096_S8x4096_24_0) (fun _ => rfl))) (.dma cc0_scratch5.sem) hb1.wordExact (View.wordExact_bits rfl) ⟨Or.inl rfl, trivial⟩)
  pure ⟨⟩

def cp5 : Prog (TpuEff nD τ sig (Elt F) Λ₀ (.scVector c s)) PUnit := do
  Prog.lift (.waitDma2 cc0_scratch5.sem b1V (dst.slice (Rect.unit (s := S64x4096) ![24, 0] S8x4096.size inb_S64x4096_S8x4096_24_0) (fun _ => rfl)) hb1.wordExact (View.wordExact_bits rfl))
  Prog.lift (.enqueueDma (src.slice (Rect.unit (s := S64x4096) ![40, 0] S8x4096.size inb_S64x4096_S8x4096_40_0) (fun _ => rfl)) (.here b1V) (.dma cc0_scratch3.sem) (View.wordExact_bits rfl) hb1.wordExact ⟨Or.inl rfl, trivial⟩)
  Prog.lift (.waitDma2 cc0_scratch2.sem (src.slice (Rect.unit (s := S64x4096) ![32, 0] S8x4096.size inb_S64x4096_S8x4096_32_0) (fun _ => rfl)) b0V (View.wordExact_bits rfl) hb0.wordExact)
  Prog.lift (.enqueueDma b0V (.here (dst.slice (Rect.unit (s := S64x4096) ![32, 0] S8x4096.size inb_S64x4096_S8x4096_32_0) (fun _ => rfl))) (.dma cc0_scratch4.sem) hb0.wordExact (View.wordExact_bits rfl) ⟨Or.inl rfl, trivial⟩)
  pure ⟨⟩

def cp6 : Prog (TpuEff nD τ sig (Elt F) Λ₀ (.scVector c s)) PUnit := do
  Prog.lift (.waitDma2 cc0_scratch4.sem b0V (dst.slice (Rect.unit (s := S64x4096) ![32, 0] S8x4096.size inb_S64x4096_S8x4096_32_0) (fun _ => rfl)) hb0.wordExact (View.wordExact_bits rfl))
  Prog.lift (.enqueueDma (src.slice (Rect.unit (s := S64x4096) ![48, 0] S8x4096.size inb_S64x4096_S8x4096_48_0) (fun _ => rfl)) (.here b0V) (.dma cc0_scratch2.sem) (View.wordExact_bits rfl) hb0.wordExact ⟨Or.inl rfl, trivial⟩)
  Prog.lift (.waitDma2 cc0_scratch3.sem (src.slice (Rect.unit (s := S64x4096) ![40, 0] S8x4096.size inb_S64x4096_S8x4096_40_0) (fun _ => rfl)) b1V (View.wordExact_bits rfl) hb1.wordExact)
  Prog.lift (.enqueueDma b1V (.here (dst.slice (Rect.unit (s := S64x4096) ![40, 0] S8x4096.size inb_S64x4096_S8x4096_40_0) (fun _ => rfl))) (.dma cc0_scratch5.sem) hb1.wordExact (View.wordExact_bits rfl) ⟨Or.inl rfl, trivial⟩)
  pure ⟨⟩

def cp7 : Prog (TpuEff nD τ sig (Elt F) Λ₀ (.scVector c s)) PUnit := do
  Prog.lift (.waitDma2 cc0_scratch5.sem b1V (dst.slice (Rect.unit (s := S64x4096) ![40, 0] S8x4096.size inb_S64x4096_S8x4096_40_0) (fun _ => rfl)) hb1.wordExact (View.wordExact_bits rfl))
  Prog.lift (.enqueueDma (src.slice (Rect.unit (s := S64x4096) ![56, 0] S8x4096.size inb_S64x4096_S8x4096_56_0) (fun _ => rfl)) (.here b1V) (.dma cc0_scratch3.sem) (View.wordExact_bits rfl) hb1.wordExact ⟨Or.inl rfl, trivial⟩)
  Prog.lift (.waitDma2 cc0_scratch2.sem (src.slice (Rect.unit (s := S64x4096) ![48, 0] S8x4096.size inb_S64x4096_S8x4096_48_0) (fun _ => rfl)) b0V (View.wordExact_bits rfl) hb0.wordExact)
  Prog.lift (.enqueueDma b0V (.here (dst.slice (Rect.unit (s := S64x4096) ![48, 0] S8x4096.size inb_S64x4096_S8x4096_48_0) (fun _ => rfl))) (.dma cc0_scratch4.sem) hb0.wordExact (View.wordExact_bits rfl) ⟨Or.inl rfl, trivial⟩)
  pure ⟨⟩

def cp8 : Prog (TpuEff nD τ sig (Elt F) Λ₀ (.scVector c s)) PUnit := do
  Prog.lift (.waitDma2 cc0_scratch3.sem (src.slice (Rect.unit (s := S64x4096) ![56, 0] S8x4096.size inb_S64x4096_S8x4096_56_0) (fun _ => rfl)) b1V (View.wordExact_bits rfl) hb1.wordExact)
  Prog.lift (.enqueueDma b1V (.here (dst.slice (Rect.unit (s := S64x4096) ![56, 0] S8x4096.size inb_S64x4096_S8x4096_56_0) (fun _ => rfl))) (.dma cc0_scratch5.sem) hb1.wordExact (View.wordExact_bits rfl) ⟨Or.inl rfl, trivial⟩)
  Prog.lift (.waitDma2 cc0_scratch4.sem b0V (dst.slice (Rect.unit (s := S64x4096) ![48, 0] S8x4096.size inb_S64x4096_S8x4096_48_0) (fun _ => rfl)) hb0.wordExact (View.wordExact_bits rfl))
  Prog.lift (.waitDma2 cc0_scratch5.sem b1V (dst.slice (Rect.unit (s := S64x4096) ![56, 0] S8x4096.size inb_S64x4096_S8x4096_56_0) (fun _ => rfl)) hb1.wordExact (View.wordExact_bits rfl))
  pure ⟨⟩

def copyRow : Prog (TpuEff nD τ sig (Elt F) Λ₀ (.scVector c s)) PUnit := do
  cp1 (F := F) c s src dst
  cp2 (F := F) c s src dst
  cp3 (F := F) c s src dst
  cp4 (F := F) c s src dst
  cp5 (F := F) c s src dst
  cp6 (F := F) c s src dst
  cp7 (F := F) c s src dst
  cp8 (F := F) c s src dst
  pure ⟨⟩

/-! ## The scratch at rest -/

/-- The scratch at rest: both buffers whole at some contents, the four semaphores' counters at zero, the waits' evidence,
    and the thread's debts unchanged with waits recorded at the kernels' index only. -/
def rest (d : Dev nD) (c : Fin τ.nSC) (s : Fin τ.nSub) (O : CellTallies nD τ sig (HIx 1)) (W : Waits sig (HIx 1)) : sProp 𝕄 :=
  iprop(Transfers.MayWaits (V d c s) (none : HIx 1) O
    ∗ (∃ f, (b0V).view.loc (V d c s) ↦{fullShare} f) ∗ (∃ f, (b1V).view.loc (V d c s) ↦{fullShare} f)
    ∗ semVal (V d c s, SemLoc.dma cc0_scratch2.sem) 0 ∗ semVal (V d c s, SemLoc.dma cc0_scratch3.sem) 0
    ∗ semVal (V d c s, SemLoc.dma cc0_scratch4.sem) 0 ∗ semVal (V d c s, SemLoc.dma cc0_scratch5.sem) 0
    ∗ ∃ W', ⌜∀ p ∈ W', p ∈ W ∨ p.2 = none⌝ ∗ owes (V d c s) O W')

omit [FloatOps F] in
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-! ## The row copied -/

/-- What a copied row holds: read through the destination row it is the source row's read. -/
def rowDone (d : Dev nD) (c : Fin τ.nSC) (s : Fin τ.nSub) (src dst : Memref sig .scVector .hbm S64x4096 .f32)
    (fs : Buf (Elt F) (src.view.loc (V d c s))) : sProp 𝕄 :=
  iprop(∃ G : Buf (Elt F) (dst.view.loc (V d c s)), (dst.view.loc (V d c s) ↦[dst.view.set]{fullShare} G)
    ∗ ⌜∀ y, dst.view.read (Elt F) G y = src.view.read (Elt F) fs y⌝)

set_option sl_exec.dmaWindow true in
set_option sl_exec.dmaWindowSet true in
/-- One row copied chunk by chunk through the two buffers: from the scratch at rest, the source row as two read shares
    (one per inbound semaphore) and the destination row, to the same with the destination holding the source's row. -/
theorem copyRow_spec {α : Type} (kk : PUnit.{1} → Prog (TpuEff nD τ sig (Elt F) Λ₀ (.scVector c s)) α) (Q : α → sProp 𝕄)
    (O : CellTallies nD τ sig (HIx 1)) (W : Waits sig (HIx 1)) (q : PosShare TreeShare)
    (fs : Buf (Elt F) (src.view.loc (V d c s))) (fd : Buf (Elt F) (dst.view.loc (V d c s))) :
    iprop(rest (F := F) d c s O W
        ∗ (src.view.loc (V d c s) ↦[src.view.set]{Transfers.shareTok q 2 0} fs)
        ∗ (src.view.loc (V d c s) ↦[src.view.set]{Transfers.shareTok q 2 1} fs)
        ∗ (dst.view.loc (V d c s) ↦[dst.view.set]{fullShare} fd)
        ∗ ((rest (F := F) d c s O W
            ∗ (src.view.loc (V d c s) ↦[src.view.set]{Transfers.shareTok q 2 0} fs)
            ∗ (src.view.loc (V d c s) ↦[src.view.set]{Transfers.shareTok q 2 1} fs)
            ∗ rowDone (F := F) d c s src dst fs)
          -∗ wp frame (wpE (defs₀ (F := F)) 𝒱₀ (V d c s) none) Set.univ (kk ⟨⟩) Q))
      ⊢ wp frame (wpE (defs₀ (F := F)) 𝒱₀ (V d c s) none) Set.univ (copyRow (F := F) c s src dst >>= kk) Q := by
  unfold rest
  iintro ⟨⟨Hmw, ⟨%f0, Hb0⟩, ⟨%f1, Hb1⟩, Hm2, Hm3, Hm4, Hm5, %W', %hW', HO⟩, Hs0, Hs1, Hd, Hk⟩
  unfold copyRow cp1 cp2 cp3 cp4 cp5 cp6 cp7 cp8
  sl_exec
  iapply Hk
  isplitl [Hmw Hb0 Hb1 Hm2 Hm3 Hm4 Hm5 HO]
  · isplitl [Hmw]; · iexact Hmw
    isplitl [Hb0]; · iexists _; iexact Hb0
    isplitl [Hb1]; · iexists _; iexact Hb1
    isplitl [Hm2]; · iexact Hm2
    isplitl [Hm3]; · iexact Hm3
    isplitl [Hm4]; · iexact Hm4
    isplitl [Hm5]; · iexact Hm5
    iexists _
    isplitr
    rotate_left
    · iexact HO
    · ipureintro
      repeat (first | exact hW' | refine waits_insert _ ?_)
  isplitl [Hs0]; · iexact Hs0
  isplitl [Hs1]; · iexact Hs1
  unfold rowDone
  iexists _
  isplitl [Hd]; · iexact Hd
  ipureintro
  intro y
  refine View.read_writes_apply_of_pieces _ _ (src.view.read (Elt F) fs) _ ?_ y (View.cover_of_tiled (s := S64x4096) _ ![8, 4096] rfl y)
  intro p hp x
  simp only [List.mem_cons, List.not_mem_nil, or_false] at hp
  rcases hp with rfl | rfl | rfl | rfl | rfl | rfl | rfl | rfl <;>
    (delta copyRow_spec.sl.dma0 copyRow_spec.sl.dma0_1 copyRow_spec.sl.dma0_2 copyRow_spec.sl.dma0_3 copyRow_spec.sl.dma0_4 copyRow_spec.sl.dma0_5 copyRow_spec.sl.dma0_6 copyRow_spec.sl.dma0_7 copyRow_spec.sl.dma0_8 copyRow_spec.sl.dma0_9 copyRow_spec.sl.dma0_10 copyRow_spec.sl.dma0_11 copyRow_spec.sl.dma0_12 copyRow_spec.sl.dma0_13 copyRow_spec.sl.dma0_14 copyRow_spec.sl.dma0_15; simp only [ReadAs.apply_same, View.read_write_univ]; rfl)

end CopyRow

/-! ## The rows as the program addresses them -/

section Rows

/-- A row of the source and of the result as the program addresses it: the unit slab at offsets `off`, its unit axis dropped. -/
abbrev kRowM (off : Fin 3 → ℕ) (h : ∀ a, off a + S1x64x4096.size a ≤ S200x64x4096.size a) : Memref sig .scVector .hbm S64x4096 .f32 :=
  ((kV).slice (Rect.unit (s := S200x64x4096) off S1x64x4096.size h) (fun _ => rfl)).squeeze S64x4096 squeezes_S1x64x4096_S64x4096
abbrev oRowM (off : Fin 3 → ℕ) (h : ∀ a, off a + S1x64x4096.size a ≤ S201x64x4096.size a) : Memref sig .scVector .hbm S64x4096 .f32 :=
  ((oV).slice (Rect.unit (s := S201x64x4096) off S1x64x4096.size h) (fun _ => rfl)).squeeze S64x4096 squeezes_S1x64x4096_S64x4096

omit [FloatOps F] in
theorem kRect_eq (n : ℕ) (hn : n < 200) (h : ∀ a, (![n, 0, 0] : Fin 3 → ℕ) a + S1x64x4096.size a ≤ S200x64x4096.size a) :
    Rect.unit (s := S200x64x4096) ![n, 0, 0] S1x64x4096.size h = kRow ⟨n, hn⟩ := by
  unfold kRow Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem oRect_eq (n : ℕ) (hn : n < 201) (h : ∀ a, (![n, 0, 0] : Fin 3 → ℕ) a + S1x64x4096.size a ≤ S201x64x4096.size a) :
    Rect.unit (s := S201x64x4096) ![n, 0, 0] S1x64x4096.size h = oRow ⟨n, hn⟩ := by
  unfold oRow Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_kRowM (n : ℕ) (hn : n < 200) (h : ∀ a, (![n, 0, 0] : Fin 3 → ℕ) a + S1x64x4096.size a ≤ S200x64x4096.size a) :
    (kRowM ![n, 0, 0] h).view.set = kRowSet ⟨n, hn⟩ := by
  show (((kV).view.slice (Rect.unit (s := S200x64x4096) ![n, 0, 0] S1x64x4096.size h)).reshape S64x4096 squeezes_S1x64x4096_S64x4096.numel_eq).set
    = ((kV).view.slice (kRow ⟨n, hn⟩)).set
  rw [View.set_reshape]
  exact kRect_eq n hn h ▸ rfl

omit [FloatOps F] in
theorem set_oRowM (n : ℕ) (hn : n < 201) (h : ∀ a, (![n, 0, 0] : Fin 3 → ℕ) a + S1x64x4096.size a ≤ S201x64x4096.size a) :
    (oRowM ![n, 0, 0] h).view.set = oRowSet ⟨n, hn⟩ := by
  show (((oV).view.slice (Rect.unit (s := S201x64x4096) ![n, 0, 0] S1x64x4096.size h)).reshape S64x4096 squeezes_S1x64x4096_S64x4096.numel_eq).set
    = ((oV).view.slice (oRow ⟨n, hn⟩)).set
  rw [View.set_reshape]
  exact oRect_eq n hn h ▸ rfl

omit [FloatOps F] in
theorem squeeze_ix (y : S64x4096.Idx) :
    Shape.reshapeEquiv (squeezes_S1x64x4096_S64x4096.numel_eq) y = (ValueIdx.ix3 (0 : Fin 1) (y 0) (y 1) : S1x64x4096.Idx) :=
  Shape.reshapeEquiv_eq_of_rowMajor _ (by rw [Shape.rowMajor_val_three, Shape.rowMajor_val_two]; simp)

omit [FloatOps F] in
theorem emb_kRowM (n : ℕ) (hn : n < 200) (h : ∀ a, (![n, 0, 0] : Fin 3 → ℕ) a + S1x64x4096.size a ≤ S200x64x4096.size a) (y : S64x4096.Idx) :
    (kRowM ![n, 0, 0] h).view.emb y = (ValueIdx.ix3 (⟨n, hn⟩ : Fin 200) (y 0) (y 1) : S200x64x4096.Idx) := by
  show (kV).view.emb ((Rect.unit (s := S200x64x4096) ![n, 0, 0] S1x64x4096.size h).emb (Shape.reshapeEquiv (squeezes_S1x64x4096_S64x4096.numel_eq) y)) = _
  rw [squeeze_ix]
  funext a
  match a with
  | 0 => exact Fin.ext (by show n + 1 * 0 = n; omega)
  | 1 => exact Fin.ext (by show 0 + 1 * (y 0).val = (y 0).val; omega)
  | 2 => exact Fin.ext (by show 0 + 1 * (y 1).val = (y 1).val; omega)

omit [FloatOps F] in
theorem emb_oRowM (n : ℕ) (hn : n < 201) (h : ∀ a, (![n, 0, 0] : Fin 3 → ℕ) a + S1x64x4096.size a ≤ S201x64x4096.size a) (y : S64x4096.Idx) :
    (oRowM ![n, 0, 0] h).view.emb y = (ValueIdx.ix3 (⟨n, hn⟩ : Fin 201) (y 0) (y 1) : S201x64x4096.Idx) := by
  show (oV).view.emb ((Rect.unit (s := S201x64x4096) ![n, 0, 0] S1x64x4096.size h).emb (Shape.reshapeEquiv (squeezes_S1x64x4096_S64x4096.numel_eq) y)) = _
  rw [squeeze_ix]
  funext a
  match a with
  | 0 => exact Fin.ext (by show n + 1 * 0 = n; omega)
  | 1 => exact Fin.ext (by show 0 + 1 * (y 0).val = (y 0).val; omega)
  | 2 => exact Fin.ext (by show 0 + 1 * (y 1).val = (y 1).val; omega)

end Rows

end Cert.Proof.KB
end
-- ==== Proof.TileBits.lean ====
/-
  The body obligation of the SparseCore call: one vector subcore's task.

  Worker w = 2·subcore + core copies rows w, w + 32, …, w + 192 of the source (those below 200) to the same rows
  of the result, and worker 31 also copies the new slab to row 200. The program is seven guarded blocks and an
  eighth, each guard a word computed from the worker's number; each block is the row copy of the row module at the
  block's source and destination rows. A block takes the scratch at rest (both staging buffers, the four
  semaphores at zero), the source row and the destination row, and returns them with the destination row holding
  the source row; a block whose guard is clear takes and returns nothing. The value is carried row by row: read
  through the program's row memref, the destination holds the source's read, which is the result's row.
-/
import proofs.«209559_g37125697307438_cont_8to1_b_286_16_alg».proof.Proof.SetupBits
import proofs.«209559_g37125697307438_cont_8to1_b_286_16_alg».proof.Proof.TileRowBits
import proofs.«209559_g37125697307438_cont_8to1_b_286_16_alg».proof.Proof.Gen.Kernel.Skeleton
import Idealize.ShloMosaic.Lib.SparseCore.Launch
import Idealize.ShloMosaic.Lib.Tactic
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
section Blocks

variable (kv : (d : Dev nD) → Buf (Elt F) (kLoc d)) (nv : (d : Dev nD) → Buf (Elt F) (nLoc d))
variable (d : Dev nD) (c : Fin τ.nSC) (s : Fin τ.nSub)

omit [FloatOps F] in
/-- Row `n` of the result read through the program's row memref holds the source's row `n`: it is the result's row. -/
theorem row_value (n : ℕ) (hn : n < 200) (hn' : n < 201)
    (hS : ∀ a, (![n, 0, 0] : Fin 3 → ℕ) a + S1x64x4096.size a ≤ S200x64x4096.size a)
    (hD : ∀ a, (![n, 0, 0] : Fin 3 → ℕ) a + S1x64x4096.size a ≤ S201x64x4096.size a)
    (G : Buf (Elt F) ((oRowM ![n, 0, 0] hD).view.loc (V d c s)))
    (hG : ∀ y, (oRowM ![n, 0, 0] hD).view.read (Elt F) G y = (kRowM ![n, 0, 0] hS).view.read (Elt F) (kv d) y) :
    ((oRowM ![n, 0, 0] hD).view.loc (V d c s) ↦[(oRowM ![n, 0, 0] hD).view.set]{fullShare} G : sProp 𝕄)
      = oLoc d ↦[oRowSet ⟨n, hn'⟩]{fullShare} outOf (kv d) (nv d) := by
  have key : ∀ j ∈ (oRowM ![n, 0, 0] hD).view.set, G j = outOf (kv d) (nv d) j := by
    intro j hj
    obtain ⟨y, -, rfl⟩ := Finset.mem_map.mp hj
    have h1 := hG y
    rw [View.read_apply, View.read_apply] at h1
    simp only [cast_eq] at h1
    refine h1.trans ?_
    rw [emb_kRowM n hn hS y]
    show _ = outOf (kv d) (nv d) ((oRowM ![n, 0, 0] hD).view.emb y)
    rw [emb_oRowM n (by omega) hD y]
    unfold outOf
    rw [dif_pos (show ((ValueIdx.ix3 (⟨n, by omega⟩ : Fin 201) (y 0) (y 1) : S201x64x4096.Idx) 0).val < 200 from hn)]
    rfl
  rw [pointsTo_congr key, set_oRowM n hn' hD]

omit [FloatOps F] in
theorem pts_kRowM (n : ℕ) (hn : n < 200) (hS : ∀ a, (![n, 0, 0] : Fin 3 → ℕ) a + S1x64x4096.size a ≤ S200x64x4096.size a)
    (q : PosShare TreeShare) (f : Buf (Elt F) (kLoc d)) :
    ((kRowM ![n, 0, 0] hS).view.loc (V d c s) ↦[(kRowM ![n, 0, 0] hS).view.set]{q} f : sProp 𝕄) = kLoc d ↦[kRowSet ⟨n, hn⟩]{q} f := by
  rw [set_kRowM n hn hS]
omit [FloatOps F] in
theorem pts_oRowM (n : ℕ) (hn : n < 201) (hD : ∀ a, (![n, 0, 0] : Fin 3 → ℕ) a + S1x64x4096.size a ≤ S201x64x4096.size a)
    (f : Buf (Elt F) (oLoc d)) :
    ((oRowM ![n, 0, 0] hD).view.loc (V d c s) ↦[(oRowM ![n, 0, 0] hD).view.set]{fullShare} f : sProp 𝕄) = oLoc d ↦[oRowSet ⟨n, hn⟩]{fullShare} f := by
  rw [set_oRowM n hn hD]
omit [FloatOps F] in
theorem pts_nV (f : Buf (Elt F) (nLoc d)) :
    ((nV).view.loc (V d c s) ↦[(nV).view.set]{fullShare} f : sProp 𝕄) = nLoc d ↦{fullShare} f := by
  simp only [Memref.view_whole, View.set_whole]

omit [FloatOps F] in
/-- A points-to at the full share as the remainder and two read shares, and back. -/
theorem toks_split2 {ℓ : Loc nD τ sig} {S : Finset (Idx ℓ)} {f : Buf (Elt F) ℓ} :
    (ℓ ↦[S]{fullShare} f : sProp 𝕄) ⊢ iprop((ℓ ↦[S]{Transfers.shareDrop fullShare 2} f) ∗ (ℓ ↦[S]{Transfers.shareTok fullShare 2 0} f)
      ∗ (ℓ ↦[S]{Transfers.shareTok fullShare 2 1} f)) :=
  (Transfers.pointsTo_toks_split (Ix := HIx 1) (Name := ℕ) (U := UU) (Lvl := ℕ) fullShare 2).trans (Entails.of_eq (by rw [BI.bigSep_fin_two]; rfl))
omit [FloatOps F] in
theorem toks_join2 {ℓ : Loc nD τ sig} {S : Finset (Idx ℓ)} {f : Buf (Elt F) ℓ} :
    iprop((ℓ ↦[S]{Transfers.shareDrop fullShare 2} f) ∗ (ℓ ↦[S]{Transfers.shareTok fullShare 2 0} f)
      ∗ (ℓ ↦[S]{Transfers.shareTok fullShare 2 1} f)) ⊢ (ℓ ↦[S]{fullShare} f : sProp 𝕄) :=
  (Entails.of_eq (by rw [BI.bigSep_fin_two]; rfl)).trans (Transfers.pointsTo_toks_join (Ix := HIx 1) (Name := ℕ) (U := UU) (Lvl := ℕ) fullShare 2)

/-- One guarded row copy: row `n` of the source to row `n` of the result when `n < 200`, nothing otherwise. -/
theorem rowBlk_spec {α : Type} (Q : α → sProp 𝕄)
    (O : CellTallies nD τ sig (HIx 1)) (W : Waits sig (HIx 1)) (fo : Buf (Elt F) (oLoc d))
    (cnd : BitVec 1) (n : ℕ) (m : Fin 200) (hm : n < 200 → m.val = n) (hcnd : cnd = 1#1 ↔ n < 200)
    (offS offD : Fin 3 → ℕ) (hoffS : offS = ![n, 0, 0]) (hoffD : offD = ![n, 0, 0])
    (hS : cnd = 1#1 → ∀ a, offS a + S1x64x4096.size a ≤ S200x64x4096.size a)
    (hD : cnd = 1#1 → ∀ a, offD a + S1x64x4096.size a ≤ S201x64x4096.size a)
    (thenB : cnd = 1#1 → Prog (TpuEff nD τ sig (Elt F) Λ₀ (.scVector c s)) α) (elseB : Prog (TpuEff nD τ sig (Elt F) Λ₀ (.scVector c s)) α)
    (hthen : ∀ h, thenB h = copyRow (F := F) c s (kRowM offS (hS h)) (oRowM offD (hD h)) >>= fun _ => elseB) :
    iprop(rest (F := F) d c s O W
        ∗ (if n < 200 then rowRes kv d fo m else iprop(emp))
        ∗ ((rest (F := F) d c s O W ∗ (if n < 200 then rowRes kv d (outOf (kv d) (nv d)) m else iprop(emp)))
            -∗ wp frame (wpE (defs₀ (F := F)) 𝒱₀ (V d c s) none) Set.univ elseB Q))
      ⊢ wp frame (wpE (defs₀ (F := F)) 𝒱₀ (V d c s) none) Set.univ
          (if h : cnd = 1#1 then thenB h else elseB) Q := by
  subst hoffS hoffD
  by_cases hc : cnd = 1#1
  · have hn : n < 200 := hcnd.mp hc
    obtain rfl : m = ⟨n, hn⟩ := Fin.ext (hm hn)
    rw [dif_pos hc, hthen hc, if_pos hn, if_pos hn]
    unfold rowRes
    rw [show outRow ⟨n, hn⟩ = (⟨n, by omega⟩ : Fin 201) from rfl]
    iintro ⟨Hr, ⟨HkA, HoA⟩, Hk⟩
    ihave Hk1 := (Entails.of_eq (pts_kRowM (F := F) d c s n hn (hS hc) fullShare (kv d)).symm) $$ HkA
    ihave Hk2 := toks_split2 $$ Hk1
    icases Hk2 with ⟨Hkr, Hs0, Hs1⟩
    ihave Ho1 := (Entails.of_eq (pts_oRowM (F := F) d c s n _ (hD hc) fo).symm) $$ HoA
    iapply (copyRow_spec (F := F) d c s (kRowM ![n, 0, 0] (hS hc)) (oRowM ![n, 0, 0] (hD hc)) (fun _ => elseB) Q O W fullShare (kv d) fo) $$ [Hr Hs0 Hs1 Ho1 Hkr Hk]
    isplitl [Hr]; · iexact Hr
    isplitl [Hs0]; · iexact Hs0
    isplitl [Hs1]; · iexact Hs1
    isplitl [Ho1]; · iexact Ho1
    iintro ⟨Hr, Hs0, Hs1, Hdone⟩
    iapply Hk
    isplitl [Hr]; · iexact Hr
    unfold rowDone
    icases Hdone with ⟨%G, Hd, %hG⟩
    isplitl [Hkr Hs0 Hs1]
    · iapply (Entails.of_eq (pts_kRowM (F := F) d c s n hn (hS hc) fullShare (kv d)))
      iapply toks_join2
      isplitl [Hkr]; · iexact Hkr
      isplitl [Hs0]; · iexact Hs0
      iexact Hs1
    · iapply (Entails.of_eq (row_value (F := F) kv nv d c s n hn _ (hS hc) (hD hc) G hG))
      iexact Hd
  · have hn : ¬ n < 200 := fun h => hc (hcnd.mpr h)
    rw [dif_neg hc, if_neg hn, if_neg hn]
    iintro ⟨Hr, -, Hk⟩
    iapply Hk
    isplitl [Hr]; · iexact Hr
    iempintro

omit [FloatOps F] in
/-- Row 200 of the result read through the program's row memref holds the new slab: it is the result's row. -/
theorem last_value (G : Buf (Elt F) ((oRowM ![200, 0, 0] inb_S201x64x4096_S1x64x4096_200_0_0).view.loc (V d c s)))
    (hG : ∀ y, (oRowM ![200, 0, 0] inb_S201x64x4096_S1x64x4096_200_0_0).view.read (Elt F) G y = (nV).view.read (Elt F) (nv d) y) :
    ((oRowM ![200, 0, 0] inb_S201x64x4096_S1x64x4096_200_0_0).view.loc (V d c s)
        ↦[(oRowM ![200, 0, 0] inb_S201x64x4096_S1x64x4096_200_0_0).view.set]{fullShare} G : sProp 𝕄)
      = oLoc d ↦[oRowSet (⟨200, by decide⟩ : Fin 201)]{fullShare} outOf (kv d) (nv d) := by
  have key : ∀ j ∈ (oRowM ![200, 0, 0] inb_S201x64x4096_S1x64x4096_200_0_0).view.set, G j = outOf (kv d) (nv d) j := by
    intro j hj
    obtain ⟨y, -, rfl⟩ := Finset.mem_map.mp hj
    have h1 := hG y
    rw [View.read_apply, View.read_apply] at h1
    simp only [cast_eq] at h1
    refine h1.trans ?_
    show _ = outOf (kv d) (nv d) ((oRowM ![200, 0, 0] inb_S201x64x4096_S1x64x4096_200_0_0).view.emb y)
    rw [emb_oRowM 200 (by decide) inb_S201x64x4096_S1x64x4096_200_0_0 y]
    unfold outOf
    rw [dif_neg (show ¬ ((ValueIdx.ix3 (⟨200, by decide⟩ : Fin 201) (y 0) (y 1) : S201x64x4096.Idx) 0).val < 200 from Nat.lt_irrefl 200)]
    exact congrArg (nv d) (ValueIdx.eq_ix2 y)
  rw [pointsTo_congr key, set_oRowM 200 (by decide) inb_S201x64x4096_S1x64x4096_200_0_0]

/-- The guarded copy of the new slab to row 200, run by worker 31 alone. -/
theorem lastBlk_spec {α : Type} (Q : α → sProp 𝕄)
    (O : CellTallies nD τ sig (HIx 1)) (W : Waits sig (HIx 1)) (fo : Buf (Elt F) (oLoc d))
    (cnd : BitVec 1) (w : ℕ) (hcnd : cnd = 1#1 ↔ w = 31)
    (thenB : cnd = 1#1 → Prog (TpuEff nD τ sig (Elt F) Λ₀ (.scVector c s)) α) (elseB : Prog (TpuEff nD τ sig (Elt F) Λ₀ (.scVector c s)) α)
    (hthen : ∀ h, thenB h = copyRow (F := F) c s nV (oRowM ![200, 0, 0] inb_S201x64x4096_S1x64x4096_200_0_0) >>= fun _ => elseB) :
    iprop(rest (F := F) d c s O W
        ∗ (if w = 31 then lastRes nv d fo else iprop(emp))
        ∗ ((rest (F := F) d c s O W ∗ (if w = 31 then lastRes nv d (outOf (kv d) (nv d)) else iprop(emp)))
            -∗ wp frame (wpE (defs₀ (F := F)) 𝒱₀ (V d c s) none) Set.univ elseB Q))
      ⊢ wp frame (wpE (defs₀ (F := F)) 𝒱₀ (V d c s) none) Set.univ
          (if h : cnd = 1#1 then thenB h else elseB) Q := by
  by_cases hc : cnd = 1#1
  · have hw : w = 31 := hcnd.mp hc
    rw [dif_pos hc, hthen hc, if_pos hw, if_pos hw]
    unfold lastRes
    rw [show lastRow = (⟨200, by decide⟩ : Fin 201) from rfl]
    iintro ⟨Hr, ⟨HnA, HoA⟩, Hk⟩
    ihave Hn1 := (Entails.of_eq (pts_nV (F := F) d c s (nv d)).symm) $$ HnA
    ihave Hn2 := toks_split2 $$ Hn1
    icases Hn2 with ⟨Hnr, Hs0, Hs1⟩
    ihave Ho1 := (Entails.of_eq (pts_oRowM (F := F) d c s 200 _ inb_S201x64x4096_S1x64x4096_200_0_0 fo).symm) $$ HoA
    iapply (copyRow_spec (F := F) d c s nV (oRowM ![200, 0, 0] inb_S201x64x4096_S1x64x4096_200_0_0) (fun _ => elseB) Q O W fullShare (nv d) fo) $$ [Hr Hs0 Hs1 Ho1 Hnr Hk]
    isplitl [Hr]; · iexact Hr
    isplitl [Hs0]; · iexact Hs0
    isplitl [Hs1]; · iexact Hs1
    isplitl [Ho1]; · iexact Ho1
    iintro ⟨Hr, Hs0, Hs1, Hdone⟩
    iapply Hk
    isplitl [Hr]; · iexact Hr
    unfold rowDone
    icases Hdone with ⟨%G, Hd, %hG⟩
    isplitl [Hnr Hs0 Hs1]
    · iapply (Entails.of_eq (pts_nV (F := F) d c s (nv d)))
      iapply toks_join2
      isplitl [Hnr]; · iexact Hnr
      isplitl [Hs0]; · iexact Hs0
      iexact Hs1
    · iapply (Entails.of_eq (last_value (F := F) kv nv d c s G hG))
      iexact Hd
  · have hw : ¬ w = 31 := fun h => hc (hcnd.mpr h)
    rw [dif_neg hc, if_neg hw, if_neg hw]
    iintro ⟨Hr, -, Hk⟩
    iapply Hk
    isplitl [Hr]; · iexact Hr
    iempintro

end Blocks

/-! ## The program's blocks are row copies -/

section Program

abbrev cV (i : grid0.Coords) : Fin τ.nSC := (i 0).castLE hcore0
abbrev jV (i : grid0.Coords) : Fin τ.nSub := (i 1).castLE hsub0

set_option maxRecDepth 65536 in
set_option maxHeartbeats 4000000 in
theorem block1_eq (i : grid0.Coords) (h : k0_cond1 i = 1#1) {α : Type} (e : Prog (TpuEff nD τ sig (Elt F) Λ₀ (.scVector (cV i) (jV i))) α) :
    (do
  k0_part1 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part2 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part3 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part4 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part5 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part6 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part7 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part8 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off1 i) (k0_off1_inb i h)) (oRowM (k0_off2 i) (k0_off2_inb i h)) >>= fun _ => e := rfl

set_option maxRecDepth 65536 in
set_option maxHeartbeats 4000000 in
theorem block2_eq (i : grid0.Coords) (h : k0_cond2 i = 1#1) {α : Type} (e : Prog (TpuEff nD τ sig (Elt F) Λ₀ (.scVector (cV i) (jV i))) α) :
    (do
  k0_part9 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part10 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part11 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part12 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part13 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part14 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part15 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part16 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off3 i) (k0_off3_inb i h)) (oRowM (k0_off4 i) (k0_off4_inb i h)) >>= fun _ => e := rfl

set_option maxRecDepth 65536 in
set_option maxHeartbeats 4000000 in
theorem block3_eq (i : grid0.Coords) (h : k0_cond3 i = 1#1) {α : Type} (e : Prog (TpuEff nD τ sig (Elt F) Λ₀ (.scVector (cV i) (jV i))) α) :
    (do
  k0_part17 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part18 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part19 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part20 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part21 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part22 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part23 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part24 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off5 i) (k0_off5_inb i h)) (oRowM (k0_off6 i) (k0_off6_inb i h)) >>= fun _ => e := rfl

set_option maxRecDepth 65536 in
set_option maxHeartbeats 4000000 in
theorem block4_eq (i : grid0.Coords) (h : k0_cond4 i = 1#1) {α : Type} (e : Prog (TpuEff nD τ sig (Elt F) Λ₀ (.scVector (cV i) (jV i))) α) :
    (do
  k0_part25 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part26 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part27 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part28 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part29 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part30 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part31 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part32 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off7 i) (k0_off7_inb i h)) (oRowM (k0_off8 i) (k0_off8_inb i h)) >>= fun _ => e := rfl

set_option maxRecDepth 65536 in
set_option maxHeartbeats 4000000 in
theorem block5_eq (i : grid0.Coords) (h : k0_cond5 i = 1#1) {α : Type} (e : Prog (TpuEff nD τ sig (Elt F) Λ₀ (.scVector (cV i) (jV i))) α) :
    (do
  k0_part33 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part34 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part35 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part36 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part37 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part38 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part39 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part40 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off9 i) (k0_off9_inb i h)) (oRowM (k0_off10 i) (k0_off10_inb i h)) >>= fun _ => e := rfl

set_option maxRecDepth 65536 in
set_option maxHeartbeats 4000000 in
theorem block6_eq (i : grid0.Coords) (h : k0_cond6 i = 1#1) {α : Type} (e : Prog (TpuEff nD τ sig (Elt F) Λ₀ (.scVector (cV i) (jV i))) α) :
    (do
  k0_part41 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part42 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part43 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part44 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part45 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part46 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part47 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part48 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off11 i) (k0_off11_inb i h)) (oRowM (k0_off12 i) (k0_off12_inb i h)) >>= fun _ => e := rfl

set_option maxRecDepth 65536 in
set_option maxHeartbeats 4000000 in
theorem block7_eq (i : grid0.Coords) (h : k0_cond7 i = 1#1) {α : Type} (e : Prog (TpuEff nD τ sig (Elt F) Λ₀ (.scVector (cV i) (jV i))) α) :
    (do
  k0_part49 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part50 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part51 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part52 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part53 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part54 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part55 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  k0_part56 (F := F) i kV (Memref.isWhole_whole _) nV (Memref.isWhole_whole _) oV (Memref.isWhole_whole _) b0V (Memref.isWhole_whole _) b1V (Memref.isWhole_whole _) cc0_scratch2 cc0_scratch3 cc0_scratch4 cc0_scratch5 h
  e : Prog (TpuEff nD τ sig (Elt F) Λ₀ (.scVector (cV i) (jV i))) α)
      = copyRow (F := F) (cV i) (jV i) (kRowM (k0_off13 i) (k0_off13_inb i h)) (oRowM (k0_off14 i) (k0_off14_inb i h)) >>= fun _ => e := rfl

set_option maxRecDepth 65536 in
set_option maxHeartbeats 4000000 in
theorem block8_eq (i : grid0.Coords) {α : Type} (e : Prog (TpuEff nD τ sig (Elt F) Λ₀ (.scVector (cV i) (jV i))) α) :
    (do
  k0_part57 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part58 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part59 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part60 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part61 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  k0_part62 (F := F) i kV (Memref.isWhole_whole _) nV (Memref.isWhole_whole _) oV (Memref.isWhole_whole _) b0V (Memref.isWhole_whole _) b1V (Memref.isWhole_whole _) cc0_scratch2 cc0_scratch3 cc0_scratch4 cc0_scratch5
  let v158 : Memref sig .scVector .hbm S1x64x4096 .f32 := (oV).slice (Rect.unit (s := S201x64x4096) ![200, 0, 0] S1x64x4096.size inb_S201x64x4096_S1x64x4096_200_0_0) (fun _ => rfl)
  let v159 : Memref sig .scVector .hbm S64x4096 .f32 := v158.squeeze S64x4096 squeezes_S1x64x4096_S64x4096
  let v160 : Memref sig .scVector .hbm S8x4096 .f32 := v159.slice (Rect.unit (s := S64x4096) ![56, 0] S8x4096.size inb_S64x4096_S8x4096_56_0) (fun _ => rfl)
  Prog.lift (.waitDma2 cc0_scratch5.sem b1V v160 (Memref.isWhole_whole _).wordExact (View.wordExact_bits rfl))
  e : Prog (TpuEff nD τ sig (Elt F) Λ₀ (.scVector (cV i) (jV i))) α)
      = copyRow (F := F) (cV i) (jV i) nV (oRowM ![200, 0, 0] inb_S201x64x4096_S1x64x4096_200_0_0) >>= fun _ => e := rfl

/-- The worker's number as the program computes it, and the last block's condition word. -/
def widW (i : grid0.Coords) : BitVec 32 := Scalar.addi (Scalar.muli (BitVec.ofNat 32 (i 1).val) 2#32) (BitVec.ofNat 32 (i 0).val)
def lastCond (v1 : BitVec 32) : BitVec 1 := Scalar.cmpi .ne (Scalar.extui (Scalar.cmpi .eq v1 31#32)) 0#32

theorem k0_cond1_iff : ∀ i : grid0.Coords, k0_cond1 i = 1#1 ↔ 2 * (i 1).val + (i 0).val + 0 < 200 := by decide +kernel
theorem k0_cond2_iff : ∀ i : grid0.Coords, k0_cond2 i = 1#1 ↔ 2 * (i 1).val + (i 0).val + 32 < 200 := by decide +kernel
theorem k0_cond3_iff : ∀ i : grid0.Coords, k0_cond3 i = 1#1 ↔ 2 * (i 1).val + (i 0).val + 64 < 200 := by decide +kernel
theorem k0_cond4_iff : ∀ i : grid0.Coords, k0_cond4 i = 1#1 ↔ 2 * (i 1).val + (i 0).val + 96 < 200 := by decide +kernel
theorem k0_cond5_iff : ∀ i : grid0.Coords, k0_cond5 i = 1#1 ↔ 2 * (i 1).val + (i 0).val + 128 < 200 := by decide +kernel
theorem k0_cond6_iff : ∀ i : grid0.Coords, k0_cond6 i = 1#1 ↔ 2 * (i 1).val + (i 0).val + 160 < 200 := by decide +kernel
theorem k0_cond7_iff : ∀ i : grid0.Coords, k0_cond7 i = 1#1 ↔ 2 * (i 1).val + (i 0).val + 192 < 200 := by decide +kernel
theorem lastCond_iff : ∀ i : grid0.Coords, lastCond (widW i) = 1#1 ↔ 2 * (i 1).val + (i 0).val = 31 := by decide +kernel

end Program

/-! ## The task -/

section Tile

variable (kv : (d : Dev nD) → Buf (Elt F) (kLoc d)) (nv : (d : Dev nD) → Buf (Elt F) (nLoc d)) (o0 : (d : Dev nD) → Buf (Elt F) (oLoc d))
variable (d : Dev nD)

abbrev g2 (c : Fin τ.nSC) (i : Fin τ.nSub) : GSem nD τ sig := (V d c i, .dma cc0_scratch2.sem)
abbrev g3 (c : Fin τ.nSC) (i : Fin τ.nSub) : GSem nD τ sig := (V d c i, .dma cc0_scratch3.sem)
abbrev g4 (c : Fin τ.nSC) (i : Fin τ.nSub) : GSem nD τ sig := (V d c i, .dma cc0_scratch4.sem)
abbrev g5 (c : Fin τ.nSC) (i : Fin τ.nSub) : GSem nD τ sig := (V d c i, .dma cc0_scratch5.sem)

omit [FloatOps F] in
theorem gne {thr : Thread nD τ} {a b : SemLoc sig} (h : a ≠ b) : ((thr, a) : GSem nD τ sig) ≠ (thr, b) := fun e => h (congrArg Prod.snd e)

omit [FloatOps F] in
theorem ownSems0_V (c : Fin τ.nSC) (i : Fin τ.nSub) :
    (ownSems0 (V d c i) : sProp 𝕄)
      = iprop(semVal (g2 d c i) 0 ∗ semVal (g3 d c i) 0 ∗ semVal (g4 d c i) 0 ∗ semVal (g5 d c i) 0
          ∗ bigSep (((((ownCells (V d c i)).erase (g2 d c i)).erase (g3 d c i)).erase (g4 d c i)).erase (g5 d c i)) fun g => semVal g 0) := by
  unfold SparseCore.Cfg.ownSems0
  rw [SparseCore.bigSep_erase' ((mem_ownCells (g := g2 d c i)).mpr ⟨rfl, by
      show (SemLoc.dma cc0_scratch2.sem : SemLoc sig).isScoped .scVector = true; decide⟩),
    SparseCore.bigSep_erase' (Finset.mem_erase.mpr ⟨gne (by decide), (mem_ownCells (g := g3 d c i)).mpr ⟨rfl, by
      show (SemLoc.dma cc0_scratch3.sem : SemLoc sig).isScoped .scVector = true; decide⟩⟩),
    SparseCore.bigSep_erase' (Finset.mem_erase.mpr ⟨gne (by decide), Finset.mem_erase.mpr ⟨gne (by decide),
      (mem_ownCells (g := g4 d c i)).mpr ⟨rfl, by show (SemLoc.dma cc0_scratch4.sem : SemLoc sig).isScoped .scVector = true; decide⟩⟩⟩),
    SparseCore.bigSep_erase' (Finset.mem_erase.mpr ⟨gne (by decide), Finset.mem_erase.mpr ⟨gne (by decide), Finset.mem_erase.mpr ⟨gne (by decide),
      (mem_ownCells (g := g5 d c i)).mpr ⟨rfl, by show (SemLoc.dma cc0_scratch5.sem : SemLoc sig).isScoped .scVector = true; decide⟩⟩⟩⟩)]

omit [FloatOps F] in
/-- The two staging buffers are among the subcore's own: they are them, at some contents, and the rest. -/
theorem ownBufs_V (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

omit [FloatOps F] in
theorem bigSep_fin7 {M : Type} [URA M] (Φ : Fin 7 → sProp M) :
    bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

set_option maxHeartbeats 4000000 in
/-- The task on vector subcore `(L 0, L 1)` of device `d`: seven guarded row copies and the guarded copy of the new slab. -/
theorem tile_body (hF : (K (F := F)).Facts) (L : grid0.Coords) (O : CellTallies nD τ sig (HIx 1)) (W : Waits sig (HIx 1)) (hO : ∀ g, O g none = 0) :
    iprop(levAts (K (F := F)).L (K (F := F)).lev ∗ emp ∗ tileRes kv nv d (o0 d) (wid (L 0).val (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_append (F := F) L kV (Memref.isWhole_whole _) nV (Memref.isWhole_whole _) oV (Memref.isWhole_whole _) b0V (Memref.isWhole_whole _) b1V (Memref.isWhole_whole _) cc0_scratch2 cc0_scratch3 cc0_scratch4 cc0_scratch5)
          fun _ => iprop(tileRes kv nv d (outOf (kv d) (nv d)) (wid (L 0).val (L 1).val) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_append_eq_skeleton]; unfold cc0__sc_append_skel
  rw [wp_bind]
  rw [k0_part63_eq_skeleton]; unfold k0_part63_skel
  rw [(K (F := F)).scopedBufs_V hF d (cV L) (jV L), SparseCore.Cfg.scopedSems0_V (Val := Elt F) d (cV L) (jV L), ownSems0_V, ownBufs_V]
  unfold tileRes
  rw [bigSep_fin7, bigSep_fin7]
  iintro ⟨#Hlv, -, ⟨⟨R1, R2, R3, R4, R5, R6, R7⟩, R8⟩, ⟨⟨%f0, Hb0⟩, ⟨%f1, Hb1⟩, Hbufs⟩, ⟨Hm2, Hm3, Hm4, Hm5, Hsems⟩, HO⟩
  ihave Hmw := ((K (F := F)).mayWaits_none (thr := V d (cV L) (jV L)) hO) $$ Hlv
  ihave Hr : rest (F := F) d (cV L) (jV L) O W $$ [Hmw Hb0 Hb1 Hm2 Hm3 Hm4 Hm5 HO]
  · unfold rest
    isplitl [Hmw]; · iexact Hmw
    isplitl [Hb0]; · iexists _; iexact Hb0
    isplitl [Hb1]; · iexists _; iexact Hb1
    isplitl [Hm2]; · iexact Hm2
    isplitl [Hm3]; · iexact Hm3
    isplitl [Hm4]; · iexact Hm4
    isplitl [Hm5]; · iexact Hm5
    iexists W; isplitr
    · ipureintro; exact fun p hp => .inl hp
    · iexact HO
  -- row 0 of the worker
  iapply (rowBlk_spec (F := F) kv nv d (cV L) (jV L) _ O W (o0 d) (k0_cond1 L) (wid (L 0).val (L 1).val + 32 * ((0 : Fin 7) : ℕ))
      (rowOf (wid (L 0).val (L 1).val) 0) (fun h => Nat.mod_eq_of_lt h) (k0_cond1_iff L)
      (k0_off1 L) (k0_off2 L) (k0_off1_eq L) (k0_off2_eq L) (fun h => k0_off1_inb L h) (fun h => k0_off2_inb L h) _ _
      (fun h => block1_eq (F := F) L h _)) $$ [Hr R1 R2 R3 R4 R5 R6 R7 R8 Hbufs Hsems]
  isplitl [Hr]; · iexact Hr
  isplitl [R1]; · iexact R1
  iintro ⟨Hr, R1⟩
  -- row 1 of the worker
  iapply (rowBlk_spec (F := F) kv nv d (cV L) (jV L) _ O W (o0 d) (k0_cond2 L) (wid (L 0).val (L 1).val + 32 * ((1 : Fin 7) : ℕ))
      (rowOf (wid (L 0).val (L 1).val) 1) (fun h => Nat.mod_eq_of_lt h) (k0_cond2_iff L)
      (k0_off3 L) (k0_off4 L) (k0_off3_eq L) (k0_off4_eq L) (fun h => k0_off3_inb L h) (fun h => k0_off4_inb L h) _ _
      (fun h => block2_eq (F := F) L h _)) $$ [Hr R1 R2 R3 R4 R5 R6 R7 R8 Hbufs Hsems]
  isplitl [Hr]; · iexact Hr
  isplitl [R2]; · iexact R2
  iintro ⟨Hr, R2⟩
  -- row 2 of the worker
  iapply (rowBlk_spec (F := F) kv nv d (cV L) (jV L) _ O W (o0 d) (k0_cond3 L) (wid (L 0).val (L 1).val + 32 * ((2 : Fin 7) : ℕ))
      (rowOf (wid (L 0).val (L 1).val) 2) (fun h => Nat.mod_eq_of_lt h) (k0_cond3_iff L)
      (k0_off5 L) (k0_off6 L) (k0_off5_eq L) (k0_off6_eq L) (fun h => k0_off5_inb L h) (fun h => k0_off6_inb L h) _ _
      (fun h => block3_eq (F := F) L h _)) $$ [Hr R1 R2 R3 R4 R5 R6 R7 R8 Hbufs Hsems]
  isplitl [Hr]; · iexact Hr
  isplitl [R3]; · iexact R3
  iintro ⟨Hr, R3⟩
  -- row 3 of the worker
  iapply (rowBlk_spec (F := F) kv nv d (cV L) (jV L) _ O W (o0 d) (k0_cond4 L) (wid (L 0).val (L 1).val + 32 * ((3 : Fin 7) : ℕ))
      (rowOf (wid (L 0).val (L 1).val) 3) (fun h => Nat.mod_eq_of_lt h) (k0_cond4_iff L)
      (k0_off7 L) (k0_off8 L) (k0_off7_eq L) (k0_off8_eq L) (fun h => k0_off7_inb L h) (fun h => k0_off8_inb L h) _ _
      (fun h => block4_eq (F := F) L h _)) $$ [Hr R1 R2 R3 R4 R5 R6 R7 R8 Hbufs Hsems]
  isplitl [Hr]; · iexact Hr
  isplitl [R4]; · iexact R4
  iintro ⟨Hr, R4⟩
  -- row 4 of the worker
  iapply (rowBlk_spec (F := F) kv nv d (cV L) (jV L) _ O W (o0 d) (k0_cond5 L) (wid (L 0).val (L 1).val + 32 * ((4 : Fin 7) : ℕ))
      (rowOf (wid (L 0).val (L 1).val) 4) (fun h => Nat.mod_eq_of_lt h) (k0_cond5_iff L)
      (k0_off9 L) (k0_off10 L) (k0_off9_eq L) (k0_off10_eq L) (fun h => k0_off9_inb L h) (fun h => k0_off10_inb L h) _ _
      (fun h => block5_eq (F := F) L h _)) $$ [Hr R1 R2 R3 R4 R5 R6 R7 R8 Hbufs Hsems]
  isplitl [Hr]; · iexact Hr
  isplitl [R5]; · iexact R5
  iintro ⟨Hr, R5⟩
  -- row 5 of the worker
  iapply (rowBlk_spec (F := F) kv nv d (cV L) (jV L) _ O W (o0 d) (k0_cond6 L) (wid (L 0).val (L 1).val + 32 * ((5 : Fin 7) : ℕ))
      (rowOf (wid (L 0).val (L 1).val) 5) (fun h => Nat.mod_eq_of_lt h) (k0_cond6_iff L)
      (k0_off11 L) (k0_off12 L) (k0_off11_eq L) (k0_off12_eq L) (fun h => k0_off11_inb L h) (fun h => k0_off12_inb L h) _ _
      (fun h => block6_eq (F := F) L h _)) $$ [Hr R1 R2 R3 R4 R5 R6 R7 R8 Hbufs Hsems]
  isplitl [Hr]; · iexact Hr
  isplitl [R6]; · iexact R6
  iintro ⟨Hr, R6⟩
  -- the six blocks' part returns the worker's number
  sl_step
  -- row 6 of the worker
  iapply (rowBlk_spec (F := F) kv nv d (cV L) (jV L) _ O W (o0 d) (k0_cond7 L) (wid (L 0).val (L 1).val + 32 * ((6 : Fin 7) : ℕ))
      (rowOf (wid (L 0).val (L 1).val) 6) (fun h => Nat.mod_eq_of_lt h) (k0_cond7_iff L)
      (k0_off13 L) (k0_off14 L) (k0_off13_eq L) (k0_off14_eq L) (fun h => k0_off13_inb L h) (fun h => k0_off14_inb L h) _ _
      (fun h => block7_eq (F := F) L h _)) $$ [Hr R1 R2 R3 R4 R5 R6 R7 R8 Hbufs Hsems]
  isplitl [Hr]; · iexact Hr
  isplitl [R7]; · iexact R7
  iintro ⟨Hr, R7⟩
  -- the new slab, on worker 31
  iapply (lastBlk_spec (F := F) kv nv d (cV L) (jV L) _ O W (o0 d) (lastCond (widW L)) (wid (L 0).val (L 1).val) (lastCond_iff L) _ _
      (fun _ => block8_eq (F := F) L _)) $$ [Hr R1 R2 R3 R4 R5 R6 R7 R8 Hbufs Hsems]
  isplitl [Hr]; · iexact Hr
  isplitl [R8]; · iexact R8
  iintro ⟨Hr, R8⟩
  sl_step
  unfold rest
  icases Hr with ⟨-, ⟨%f0', Hb0⟩, ⟨%f1', Hb1⟩, Hm2, Hm3, Hm4, Hm5, %W', %hW', HO⟩
  isplitl [R1 R2 R3 R4 R5 R6 R7 R8]
  · isplitl [R1 R2 R3 R4 R5 R6 R7]
    · isplitl [R1]; · iexact R1
      isplitl [R2]; · iexact R2
      isplitl [R3]; · iexact R3
      isplitl [R4]; · iexact R4
      isplitl [R5]; · iexact R5
      isplitl [R6]; · iexact R6
      iexact R7
    · iexact R8
  isplitl [Hb0 Hb1 Hbufs]
  · isplitl [Hb0]; · iexists _; iexact Hb0
    isplitl [Hb1]; · iexists _; iexact Hb1
    iexact Hbufs
  isplitl [Hm2 Hm3 Hm4 Hm5 Hsems]
  · isplitl [Hm2]; · iexact Hm2
    isplitl [Hm3]; · iexact Hm3
    isplitl [Hm4]; · iexact Hm4
    isplitl [Hm5]; · iexact Hm5
    iexact Hsems
  iexists W'; isplitr
  · ipureintro; exact hW'
  · iexact HO

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_append (coordsV c s) kV (Memref.isWhole_whole _) nV (Memref.isWhole_whole _) oV (Memref.isWhole_whole _) b0V (Memref.isWhole_whole _) b1V (Memref.isWhole_whole _) cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P kv nv o0) v₀ 0 := by
  intro d c i O W hO _ _
  -- this kernel owes nothing for a protocol of its own
  simp only [show (P kv nv o0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body kv nv o0 d facts (coordsV ⟨_, hc.1⟩ ⟨_, hc.2⟩) O W hO).trans (wp_mono frame _ _ fun _ => obl_post)

end Tile

end Cert.Proof.KB
end
-- ==== Proof.lean ====
/-
  The certificate: the three programs run to the end from any memory satisfying the precondition, faulting nowhere
  and leaving their arguments unchanged; the idealized kernel is the kernel's own text read at the ideal instance
  (no rewrite was applied, so there is nothing to preserve); and at the ideal instance the kernel's three results —
  the two appended memories and the gated attention read — equal the reference's, element by element, on the
  extended reals. The kernel's programs are a SparseCore copy kernel on 32 vector subcores followed by a TensorCore
  region; their runs come from the launch theorem, the reference's from its run read back.
-/
import proofs.«209559_g37125697307438_cont_8to1_b_286_16_alg».proof.Defs
import proofs.«209559_g37125697307438_cont_8to1_b_286_16_alg».proof.Proof.Gen.Kernel
import proofs.«209559_g37125697307438_cont_8to1_b_286_16_alg».proof.Proof.Gen.KernelIdeal
import proofs.«209559_g37125697307438_cont_8to1_b_286_16_alg».proof.Proof.Gen.ReferenceIdeal
import proofs.«209559_g37125697307438_cont_8to1_b_286_16_alg».proof.Proof.Gen.Pre_input_domain
import proofs.«209559_g37125697307438_cont_8to1_b_286_16_alg».proof.Proof.RefRun
import proofs.«209559_g37125697307438_cont_8to1_b_286_16_alg».proof.Proof.ResultsIdeal
import proofs.«209559_g37125697307438_cont_8to1_b_286_16_alg».proof.Proof.FinalBits
import proofs.«209559_g37125697307438_cont_8to1_b_286_16_alg».proof.Proof.Tile
import proofs.«209559_g37125697307438_cont_8to1_b_286_16_alg».proof.Proof.TileBits
import Idealize.ShloMosaic.Adequacy
import Idealize.ShloMosaic.Init

noncomputable section

namespace Cert.Proof

open Idealize.ShloMosaic Idealize.ShloMosaic.TcCoe Idealize.SL.Sem

/-- The word-level kernel's frame: its run with the results dropped. -/
theorem frame_k : Cert.frame_Kernel := fun m ρ _ =>
  (θ_run Cert.Kernel.defs _ _).mono (fun _ h c => (h c).2.2.2) (Cert.Proof.KB.run_named (F := Bits) m ρ (Cert.Proof.KB.tileObl _ _ _))

/-- The idealized kernel's frame. -/
theorem frame_ki : Cert.frame_KernelIdeal := fun m ρ _ =>
  (θ_run Cert.KernelIdeal.defs _ _).mono (fun _ h c => (h c).2.2.2) (Cert.Proof.KI.run_named (F := Ideal) m ρ (Cert.Proof.KI.tileObl _ _ _))

/-- The reference's frame: its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- At the ideal instance both programs end with the reference's three result terms of the (agreeing) arguments. -/
theorem algebraic : Cert.algebraic_KernelIdeal_ReferenceIdeal := by
  intro m g m' g' _ hagree
  refine ⟨_, _, _, ?_, Cert.ReferenceIdeal.Value.run (F := Ideal) m' g'⟩
  refine (θ_run Cert.KernelIdeal.defs _ _).mono (fun _ h c => ⟨(h c).1.trans ?_, (h c).2.1.trans ?_, (h c).2.2.1.trans ?_, (h c).2.2.2⟩)
    (Cert.Proof.KI.run_named (F := Ideal) m g (Cert.Proof.KI.tileObl _ _ _))
  · rw [Cert.Proof.KI.v11_eq, (hagree c).2.2.1, (hagree c).1]
  · rw [Cert.Proof.KI.v12_eq, (hagree c).2.2.2.1, (hagree c).2.1]
  · rw [Cert.Proof.KI.v13_eq]
    refine Cert.Proof.Bridge.read_bridge m' c _ fun k b => ?_
    rw [Cert.Proof.KI.read_at, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
